-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x240x320 : Shape := ⟨4, ![8, 1, 240, 320]⟩
abbrev S8x81 : Shape := ⟨2, ![8, 81]⟩
abbrev S_ : Shape := ⟨0, ![]⟩

class Facts : Prop where
  bcast_S_S8x1x240x320 : S_.BroadcastsInDim S8x1x240x320 (![] : Fin 0 → Fin S8x1x240x320.rank)
  reducesTo_S8x1x240x320_S_d0_1_2_3 : S8x1x240x320.ReducesTo [0, 1, 2, 3] S_
  h_S_ : 0 < S_.numel
  bcast_S_S8x81 : S_.BroadcastsInDim S8x81 (![] : Fin 0 → Fin S8x81.rank)
  reducesTo_S8x81_S_d0_1 : S8x81.ReducesTo [0, 1] S_

variable [Facts]

def fn {F : FTy → Type} [FloatOps F] (main_arg0 : FVec F S8x1x240x320 .f32) (main_arg1 : FVec F S8x1x240x320 .f32) (main_arg2 : FVec F S8x81 .f32) (main_arg3 : IVec S8x1x240x320 1) : IVec S_ 1 :=
  let main_v0 : FVec F S8x1x240x320 .f32 := Host.absf main_arg0
  let main_cst : FVec F S_ .f32 := constant S_ .f32 0x7F800000#32
  let main_v1 : FVec F S8x1x240x320 .f32 := broadcastInDim S8x1x240x320 ![] bcast_S_S8x1x240x320 main_cst
  let main_v2 : IVec S8x1x240x320 1 := cmpf .olt main_v0 main_v1
  let main_c : IVec S_ 1 := constantI S_ 1 1#1
  let main_v3 : IVec S_ 1 := (fun x v => Host.reduce IntOp.andi x v reducesTo_S8x1x240x320_S_d0_1_2_3 h_S_) main_v2 main_c
  let main_v4 : FVec F S8x1x240x320 .f32 := Host.absf main_arg1
  let main_cst_0 : FVec F S_ .f32 := constant S_ .f32 0x7F800000#32
  let main_v5 : FVec F S8x1x240x320 .f32 := broadcastInDim S8x1x240x320 ![] bcast_S_S8x1x240x320 main_cst_0
  let main_v6 : IVec S8x1x240x320 1 := cmpf .olt main_v4 main_v5
  let main_c_1 : IVec S_ 1 := constantI S_ 1 1#1
  let main_v7 : IVec S_ 1 := (fun x v => Host.reduce IntOp.andi x v reducesTo_S8x1x240x320_S_d0_1_2_3 h_S_) main_v6 main_c_1
  let main_v8 : IVec S_ 1 := andi main_v3 main_v7
  let main_v9 : FVec F S8x81 .f32 := Host.absf main_arg2
  let main_cst_2 : FVec F S_ .f32 := constant S_ .f32 0x7F800000#32
  let main_v10 : FVec F S8x81 .f32 := broadcastInDim S8x81 ![] bcast_S_S8x81 main_cst_2
  let main_v11 : IVec S8x81 1 := cmpf .olt main_v9 main_v10
  let main_c_3 : IVec S_ 1 := constantI S_ 1 1#1
  let main_v12 : IVec S_ 1 := (fun x v => Host.reduce IntOp.andi x v reducesTo_S8x81_S_d0_1 h_S_) main_v11 main_c_3
  let main_v13 : IVec S_ 1 := andi main_v8 main_v12
  main_v13
-- ==== Kernel.lean ====
abbrev S8x1x240x320 : Shape := ⟨4, ![8, 1, 240, 320]⟩
abbrev S8x81 : Shape := ⟨2, ![8, 81]⟩
abbrev S8x76800 : Shape := ⟨2, ![8, 76800]⟩
abbrev S8x128 : Shape := ⟨2, ![8, 128]⟩
abbrev S8x12800 : Shape := ⟨2, ![8, 12800]⟩
abbrev S128 : Shape := ⟨1, ![128]⟩
abbrev S1x128 : Shape := ⟨2, ![1, 128]⟩
abbrev S1x8x12800 : Shape := ⟨3, ![1, 8, 12800]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S8x1 : Shape := ⟨2, ![8, 1]⟩
abbrev S8x82 : Shape := ⟨2, ![8, 82]⟩
abbrev S8x3200 : Shape := ⟨2, ![8, 3200]⟩
abbrev S8x82x1 : Shape := ⟨3, ![8, 82, 1]⟩
abbrev S8x1x3200 : Shape := ⟨3, ![8, 1, 3200]⟩
abbrev S8x82x3200 : Shape := ⟨3, ![8, 82, 3200]⟩
abbrev S8 : Shape := ⟨1, ![8]⟩

abbrev nBuf : Space → Nat
  | .hbm => 49
  | .vmem => 13
  | .smem => 0
  | _ => 0

abbrev bufTy : (tb : Table) → Fin (tcTables nBuf tb) → BufTy
  | .hbm, ⟨0, _⟩ => ⟨S8x1x240x320, .f32⟩
  | .hbm, ⟨1, _⟩ => ⟨S8x1x240x320, .f32⟩
  | .hbm, ⟨2, _⟩ => ⟨S8x81, .f32⟩
  | .hbm, ⟨3, _⟩ => ⟨S8x1x240x320, .i1⟩
  | .hbm, ⟨4, _⟩ => ⟨S8x76800, .f32⟩
  | .hbm, ⟨5, _⟩ => ⟨S8x76800, .f32⟩
  | .hbm, ⟨6, _⟩ => ⟨S8x76800, .i1⟩
  | .hbm, ⟨7, _⟩ => ⟨S8x76800, .f32⟩
  | .hbm, ⟨8, _⟩ => ⟨S8x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x1, .f32⟩
  | .hbm, ⟨28, _⟩ => ⟨S8x82, .f32⟩
  | .hbm, ⟨29, _⟩ => ⟨S8x76800, .f32⟩
  | .hbm, ⟨30, _⟩ => ⟨S8x76800, .f32⟩
  | .hbm, ⟨31, _⟩ => ⟨S8x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S8x12800, .f32⟩
  | .local _ .vmem, ⟨1, _⟩ => ⟨S8x12800, .f32⟩
  | .local _ .vmem, ⟨2, _⟩ => ⟨S8x12800, .f32⟩
  | .local _ .vmem, ⟨3, _⟩ => ⟨S8x12800, .f32⟩
  | .local _ .vmem, ⟨4, _⟩ => ⟨S8x12800, .f32⟩
  | .local _ .vmem, ⟨5, _⟩ => ⟨S8x12800, .f32⟩
  | .local _ .vmem, ⟨6, _⟩ => ⟨S8x128, .f32⟩
  | .local _ .vmem, ⟨7, _⟩ => ⟨S8x82, .f32⟩
  | .local _ .vmem, ⟨8, _⟩ => ⟨S8x3200, .f32⟩
  | .local _ .vmem, ⟨9, _⟩ => ⟨S8x3200, .f32⟩
  | .local _ .vmem, ⟨10, _⟩ => ⟨S8x1, .f32⟩
  | .local _ .vmem, ⟨11, _⟩ => ⟨S8x82, .f32⟩
  | .local _ .vmem, ⟨12, _⟩ => ⟨S8x1, .f32⟩
  | _, _ => ⟨S8x1x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem1_0 : DmaSem sig := 8
abbrev cc1_sem1_1 : DmaSem sig := 9
abbrev cc1_sem2_0 : DmaSem sig := 10

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![24], ![false]⟩

def k1_cond2 (i : grid1.Coords) : BitVec 1 :=
  let arg0 : BitVec 32 := BitVec.ofNat 32 (i 0).val
  let c23_i32 : BitVec 32 := 23#32
  let v27 : BitVec 1 := Scalar.cmpi .eq arg0 c23_i32
  let v28 : BitVec 32 := Scalar.extui v27
  let c0_i32_14 : BitVec 32 := 0#32
  let v29 : BitVec 1 := Scalar.cmpi .ne v28 c0_i32_14
  v29

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x82 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x3200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S8x1x240x320_S8x76800 : S8x1x240x320.ShapeCasts S8x76800
  inb_S8x128_S8x128_0_0 : ∀ a, (![0, 0] : Fin 2 → Nat) a + S8x128.size a ≤ S8x128.size a
  h_S8x128 : 0 < S8x128.numel
  inb_S8x128_S1x128_4_0 : ∀ a, (![4, 0] : Fin 2 → Nat) a + S1x128.size a ≤ S8x128.size a
  h_S1x128 : 0 < S1x128.numel
  shapeCasts_S1x128_S128 : S1x128.ShapeCasts S128
  shapeCasts_S128_S1x128 : S128.ShapeCasts S1x128
  inb_S8x12800_S8x12800_0_0 : ∀ a, (![0, 0] : Fin 2 → Nat) a + S8x12800.size a ≤ S8x12800.size a
  h_S8x12800 : 0 < S8x12800.numel
  shapeCasts_S8x12800_S8x12800 : S8x12800.ShapeCasts S8x12800
  shapeCasts_S8x12800_S1x8x12800 : S8x12800.ShapeCasts S1x8x12800
  reduces_S1x8x12800_S1 : S1x8x12800.Reduces [1, 2] S1
  shapeCasts_S1_S1x1x1 : S1.ShapeCasts S1x1x1
  inpos_S1x1x1_p0_0_0 : ∀ a, (![0, 0, 0] : Fin 3 → Nat) a < S1x1x1.size a
  inb_S8x128_S1x128_0_0 : ∀ a, (![0, 0] : Fin 2 → Nat) a + S1x128.size a ≤ S8x128.size a
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  slices_S8x128_S1x1_0_0 : S8x128.Slices ![0, 0] S1x1
  shapeCasts_S1x1_S_ : S1x1.ShapeCasts S_
  slices_S8x128_S1x1_1_0 : S8x128.Slices ![1, 0] S1x1
  slices_S8x128_S1x1_2_0 : S8x128.Slices ![2, 0] S1x1
  slices_S8x128_S1x1_3_0 : S8x128.Slices ![3, 0] S1x1
  slices_S8x128_S1x1_4_0 : S8x128.Slices ![4, 0] S1x1
  reducesTo_S8x81_S_d0_1 : S8x81.ReducesTo [0, 1] S_
  h_S_ : 0 < S_.numel
  bcast_S_S8x1 : S_.BroadcastsInDim S8x1 (![] : Fin 0 → Fin S8x1.rank)
  concatenates_S8x81_S8x1_S8x82_d1 : Shape.Concatenates [S8x81, S8x1] S8x82 1
  bcast_S_S8x76800 : S_.BroadcastsInDim S8x76800 (![] : Fin 0 → Fin S8x76800.rank)
  inb_S8x82_S8x82_0_0 : ∀ a, (![0, 0] : Fin 2 → Nat) a + S8x82.size a ≤ S8x82.size a
  h_S8x82 : 0 < S8x82.numel
  shapeCasts_S8x82_S8x82 : S8x82.ShapeCasts S8x82
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x3200_S8x3200_0_0 : ∀ a, (![0, 0] : Fin 2 → Nat) a + S8x3200.size a ≤ S8x3200.size a
  h_S8x3200 : 0 < S8x3200.numel
  shapeCasts_S8x3200_S8x3200 : S8x3200.ShapeCasts S8x3200
  shapeCasts_S8x82_S8x82x1 : S8x82.ShapeCasts S8x82x1
  shapeCasts_S8x3200_S8x1x3200 : S8x3200.ShapeCasts S8x1x3200
  broadcasts_S8x82x1_S8x82x3200 : S8x82x1.Broadcasts S8x82x3200
  broadcasts_S8x1x3200_S8x82x3200 : S8x1x3200.Broadcasts S8x82x3200
  reduces_S8x82x3200_S8x82 : S8x82x3200.Reduces [2] S8x82
  reduces_S8x82x3200_S8x3200 : S8x82x3200.Reduces [1] S8x3200
  reduces_S8x3200_S8 : S8x3200.Reduces [1] S8
  shapeCasts_S8_S8x1 : S8.ShapeCasts S8x1
  reduces_S8x82_S8 : S8x82.Reduces [1] S8
  reducesTo_S8x1_S_d0_1 : S8x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x12800.size a ≤ S8x76800.size a
  hwx0_0 : ∀ i : grid0.Coords, EltTy.bits .f32 = 32 ∨ (Rect.block (s := S8x76800) S8x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x12800.size a ≤ S8x76800.size a
  hwx0_1 : ∀ i : grid0.Coords, EltTy.bits .f32 = 32 ∨ (Rect.block (s := S8x76800) S8x12800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x12800.size a ≤ S8x76800.size a
  hwx0_2 : ∀ i : grid0.Coords, EltTy.bits .f32 = 32 ∨ (Rect.block (s := S8x76800) S8x12800.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x82.size a ≤ S8x82.size a
  hwx1_0 : ∀ i : grid1.Coords, EltTy.bits .f32 = 32 ∨ (Rect.block (s := S8x82) S8x82.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x3200.size a ≤ S8x76800.size a
  hwx1_1 : ∀ i : grid1.Coords, EltTy.bits .f32 = 32 ∨ (Rect.block (s := S8x76800) S8x3200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S8x1.size a
  hwx1_2 : ∀ i : grid1.Coords, EltTy.bits .f32 = 32 ∨ (Rect.block (s := S8x1) S8x1.size (cc1_transform_2 i) (hinb1_2 i)).WholeWords (EltTy.packing .f32)

variable [Facts₀]

abbrev win0_0 : Pipeline.Window sig grid0 :=
  Pipeline.Window.ofSpec (Memref.whole main_v0) S8x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x12800.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S8x82.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S8x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x1x240x320 : Shape := ⟨4, ![8, 1, 240, 320]⟩
abbrev S8x81 : Shape := ⟨2, ![8, 81]⟩
abbrev S_ : Shape := ⟨0, ![]⟩
abbrev S8x1 : Shape := ⟨2, ![8, 1]⟩
abbrev S8x82 : Shape := ⟨2, ![8, 82]⟩
abbrev S8x76800 : Shape := ⟨2, ![8, 76800]⟩
abbrev S8x82x1 : Shape := ⟨3, ![8, 82, 1]⟩
abbrev S8x1x76800 : Shape := ⟨3, ![8, 1, 76800]⟩
abbrev S8x82x76800 : Shape := ⟨3, ![8, 82, 76800]⟩
abbrev S8 : Shape := ⟨1, ![8]⟩
abbrev S8x76800x1 : Shape := ⟨3, ![8, 76800, 1]⟩
abbrev S8x1x82 : Shape := ⟨3, ![8, 1, 82]⟩
abbrev S8x76800x82 : Shape := ⟨3, ![8, 76800, 82]⟩

abbrev nBuf : Space → Nat
  | .hbm => 106
  | .vmem => 0
  | .smem => 0
  | _ => 0

abbrev bufTy : (tb : Table) → Fin (tcTables nBuf tb) → BufTy
  | .hbm, ⟨0, _⟩ => ⟨S8x1x240x320, .f32⟩
  | .hbm, ⟨1, _⟩ => ⟨S8x1x240x320, .f32⟩
  | .hbm, ⟨2, _⟩ => ⟨S8x81, .f32⟩
  | .hbm, ⟨3, _⟩ => ⟨S8x1x240x320, .i1⟩
  | .hbm, ⟨4, _⟩ => ⟨S_, .f32⟩
  | .hbm, ⟨5, _⟩ => ⟨S_, .f32⟩
  | .hbm, ⟨6, _⟩ => ⟨S8x1x240x320, .f32⟩
  | .hbm, ⟨7, _⟩ => ⟨S8x1x240x320, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x1, .f32⟩
  | .hbm, ⟨19, _⟩ => ⟨S8x82, .f32⟩
  | .hbm, ⟨20, _⟩ => ⟨S8x1x240x320, .f32⟩
  | .hbm, ⟨21, _⟩ => ⟨S8x1x240x320, .f32⟩
  | .hbm, ⟨22, _⟩ => ⟨S8x76800, .f32⟩
  | .hbm, ⟨23, _⟩ => ⟨S8x82x1, .f32⟩
  | .hbm, ⟨24, _⟩ => ⟨S8x1x76800, .f32⟩
  | .hbm, ⟨25, _⟩ => ⟨S8x82x76800, .f32⟩
  | .hbm, ⟨26, _⟩ => ⟨S8x82x76800, .f32⟩
  | .hbm, ⟨27, _⟩ => ⟨S8x82x76800, .f32⟩
  | .hbm, ⟨28, _⟩ => ⟨S8x82x76800, .f32⟩
  | .hbm, ⟨29, _⟩ => ⟨S_, .f32⟩
  | .hbm, ⟨30, _⟩ => ⟨S8x82, .f32⟩
  | .hbm, ⟨31, _⟩ => ⟨S_, .f32⟩
  | .hbm, ⟨32, _⟩ => ⟨S8, .f32⟩
  | .hbm, ⟨33, _⟩ => ⟨S8x76800x1, .f32⟩
  | .hbm, ⟨34, _⟩ => ⟨S8x1x82, .f32⟩
  | .hbm, ⟨35, _⟩ => ⟨S8x76800x82, .f32⟩
  | .hbm, ⟨36, _⟩ => ⟨S8x76800x82, .f32⟩
  | .hbm, ⟨37, _⟩ => ⟨S8x76800x82, .f32⟩
  | .hbm, ⟨38, _⟩ => ⟨S8x76800x82, .f32⟩
  | .hbm, ⟨39, _⟩ => ⟨S_, .f32⟩
  | .hbm, ⟨40, _⟩ => ⟨S8x76800, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x1x240x320, .f32⟩
  | .hbm, ⟨50, _⟩ => ⟨S8x1x240x320, .f32⟩
  | .hbm, ⟨51, _⟩ => ⟨S8x1x240x320, .f32⟩
  | .hbm, ⟨52, _⟩ => ⟨S_, .f32⟩
  | .hbm, ⟨53, _⟩ => ⟨S8x1x240x320, .f32⟩
  | .hbm, ⟨54, _⟩ => ⟨S8x1x240x320, .f32⟩
  | .hbm, ⟨55, _⟩ => ⟨S8x1x240x320, .f32⟩
  | .hbm, ⟨56, _⟩ => ⟨S8x1x240x320, .f32⟩
  | .hbm, ⟨57, _⟩ => ⟨S8x1x240x320, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8x1x240x320, .f32⟩
  | .hbm, ⟨63, _⟩ => ⟨S8x1x240x320, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8x1x240x320, .f32⟩
  | .hbm, ⟨68, _⟩ => ⟨S8x1x240x320, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8x1x240x320, .f32⟩
  | .hbm, ⟨74, _⟩ => ⟨S8x1x240x320, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8x1x240x320, .f32⟩
  | .hbm, ⟨86, _⟩ => ⟨S8x1x240x320, .f32⟩
  | .hbm, ⟨87, _⟩ => ⟨S8x1x240x320, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S8x1x240x320, .f32⟩
  | .hbm, ⟨93, _⟩ => ⟨S8x1x240x320, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8x1x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev main_cst_15 : Ref sig .tc := ⟨.hbm, 71, rfl⟩
abbrev main_call3_v0 : Ref sig .tc := ⟨.hbm, 72, rfl⟩
abbrev main_call3_v1 : Ref sig .tc := ⟨.hbm, 73, rfl⟩
abbrev main_v46 : Ref sig .tc := ⟨.hbm, 74, rfl⟩
abbrev main_cst_16 : Ref sig .tc := ⟨.hbm, 75, rfl⟩
abbrev main_v47 : Ref sig .tc := ⟨.hbm, 76, rfl⟩
abbrev main_v48 : Ref sig .tc := ⟨.hbm, 77, rfl⟩
abbrev main_cst_17 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_18 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_19 : Ref sig .tc := ⟨.hbm, 88, rfl⟩
abbrev main_v57 : Ref sig .tc := ⟨.hbm, 89, rfl⟩
abbrev main_cst_20 : Ref sig .tc := ⟨.hbm, 90, rfl⟩
abbrev main_call4_v0 : Ref sig .tc := ⟨.hbm, 91, rfl⟩
abbrev main_call4_v1 : Ref sig .tc := ⟨.hbm, 92, rfl⟩
abbrev main_v58 : Ref sig .tc := ⟨.hbm, 93, rfl⟩
abbrev main_cst_21 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_22 : Ref sig .tc := ⟨.hbm, 98, rfl⟩
abbrev main_v62 : Ref sig .tc := ⟨.hbm, 99, rfl⟩
abbrev main_cst_23 : Ref sig .tc := ⟨.hbm, 100, rfl⟩
abbrev main_v63 : Ref sig .tc := ⟨.hbm, 101, rfl⟩
abbrev main_v64 : Ref sig .tc := ⟨.hbm, 102, rfl⟩
abbrev main_cst_24 : Ref sig .tc := ⟨.hbm, 103, rfl⟩
abbrev main_v65 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  bcast_S_S8x1x240x320 : S_.BroadcastsInDim S8x1x240x320 (![] : Fin 0 → Fin S8x1x240x320.rank)
  reducesTo_S8x1x240x320_S_d0_1_2_3 : S8x1x240x320.ReducesTo [0, 1, 2, 3] S_
  h_S_ : 0 < S_.numel
  reducesTo_S8x81_S_d0_1 : S8x81.ReducesTo [0, 1] S_
  bcast_S_S8x1 : S_.BroadcastsInDim S8x1 (![] : Fin 0 → Fin S8x1.rank)
  concatenates_S8x81_S8x1_S8x82_d1 : Shape.Concatenates [S8x81, S8x1] S8x82 1
  shapeCasts_S8x1x240x320_S8x76800 : S8x1x240x320.ShapeCasts S8x76800
  bcast_S8x82_S8x82x1_0_1 : S8x82.BroadcastsInDim S8x82x1 (![0, 1] : Fin 2 → Fin S8x82x1.rank)
  bcast_S8x76800_S8x1x76800_0_2 : S8x76800.BroadcastsInDim S8x1x76800 (![0, 2] : Fin 2 → Fin S8x1x76800.rank)
  bcast_S8x82x1_S8x82x76800_0_1_2 : S8x82x1.BroadcastsInDim S8x82x76800 (![0, 1, 2] : Fin 3 → Fin S8x82x76800.rank)
  bcast_S8x1x76800_S8x82x76800_0_1_2 : S8x1x76800.BroadcastsInDim S8x82x76800 (![0, 1, 2] : Fin 3 → Fin S8x82x76800.rank)
  reducesTo_S8x82x76800_S8x82_d2 : S8x82x76800.ReducesTo [2] S8x82
  reducesTo_S8x82_S8_d1 : S8x82.ReducesTo [1] S8
  bcast_S8x76800_S8x76800x1_0_1 : S8x76800.BroadcastsInDim S8x76800x1 (![0, 1] : Fin 2 → Fin S8x76800x1.rank)
  bcast_S8x82_S8x1x82_0_2 : S8x82.BroadcastsInDim S8x1x82 (![0, 2] : Fin 2 → Fin S8x1x82.rank)
  bcast_S8x76800x1_S8x76800x82_0_1_2 : S8x76800x1.BroadcastsInDim S8x76800x82 (![0, 1, 2] : Fin 3 → Fin S8x76800x82.rank)
  bcast_S8x1x82_S8x76800x82_0_1_2 : S8x1x82.BroadcastsInDim S8x76800x82 (![0, 1, 2] : Fin 3 → Fin S8x76800x82.rank)
  reducesTo_S8x76800x82_S8x76800_d2 : S8x76800x82.ReducesTo [2] S8x76800
  reducesTo_S8x76800_S8_d1 : S8x76800.ReducesTo [1] S8
  reducesTo_S8_S_d0 : S8.ReducesTo [0] S_

variable [Facts₀]

class Facts : Prop extends Facts₀ where

variable [Facts]
-- ==== Proof.Word.Steps.lean ====
import proofs.«120963_j80418967650486_1_alg».proof.Proof.Gen.Kernel.Skeleton
import Idealize.ShloMosaic.Lib.ValueIdx

/-!
  The two kernels' bodies as pure per-point updates, for any float instance.

  The statistics kernel keeps an 8×128 table whose rows 0–3 are running sums and whose row 4 is a running
  maximum; one run of its body over a block of the three inputs adds that block's four sums to rows 0–3,
  takes the maximum of row 4 with the block's masked maximum, and leaves rows 5–7 alone (`stats_upd`). At the
  first grid point the table is first reset: zeros everywhere, row 4 at the sentinel (`stats_init`).

  The distance kernel keeps two tables between grid points — for each batch row and bin the least squared
  distance to a target seen so far, and for each batch row the running sum over targets of the least squared
  distance to a bin — each updated from one block of targets (`scr1`); at the last grid point it stores, per
  batch row, the sum over bins of the first table plus the second (`out1`).
-/

noncomputable section

namespace Cert.Kernel.Steps

open Idealize.ShloMosaic Idealize.ShloMosaic.ValueIdx Cert.Kernel Cert.Kernel.Gen

variable {F : FTy → Type} [FloatOps F]

/-- Row `r` of an 8×128 table, as a 1×128 vector. -/
def rowOf (v : Vec F S8x128 .f32) (r : Fin 8) : Vec F S1x128 .f32 :=
  fun j => v (ix2 r (⟨(j 1).val, (j 1).isLt⟩ : Fin 128))

/-- The table after the first point's reset: zeros, with row 4 at the sentinel. -/
def stats_init : Vec F S8x128 .f32 := fun j =>
  if (j 0).val = 4 then (k0_pay3 (F := F)) (ix2 (0 : Fin 1) (⟨(j 1).val, (j 1).isLt⟩ : Fin 128)) else (k0_pay2 (F := F)) j

/-- One run of the statistics body over the input blocks `x0` (prediction), `x1` (target), `x2` (mask as 0/1)
    and the table's previous contents `prev`: rows 0–3 gain the block's sums, row 4 the block's masked maximum,
    rows 5–7 are kept. -/
def stats_upd (x0 x1 x2 : Vec F S8x12800 .f32) (prev : Vec F S8x128 .f32) : Vec F S8x128 .f32 := fun j =>
  if (j 0).val = 0 then k0_pay13 (k0_pay8 x0 x1 x2) (rowOf prev 0) (ix2 (0 : Fin 1) (⟨(j 1).val, (j 1).isLt⟩ : Fin 128))
  else if (j 0).val = 1 then k0_pay14 (k0_pay9 x0 x1 x2) (rowOf prev 1) (ix2 (0 : Fin 1) (⟨(j 1).val, (j 1).isLt⟩ : Fin 128))
  else if (j 0).val = 2 then k0_pay15 (k0_pay10 x0 x1 x2) (rowOf prev 2) (ix2 (0 : Fin 1) (⟨(j 1).val, (j 1).isLt⟩ : Fin 128))
  else if (j 0).val = 3 then k0_pay16 (k0_pay11 x2) (rowOf prev 3) (ix2 (0 : Fin 1) (⟨(j 1).val, (j 1).isLt⟩ : Fin 128))
  else if (j 0).val = 4 then k0_pay1 (k0_pay17 (k0_pay12 x1 x2) (rowOf prev 4)) (ix2 (0 : Fin 1) (⟨(j 1).val, (j 1).isLt⟩ : Fin 128))
  else prev j

/-- The table after the body at point `n`, from the input blocks at each point. -/
def stats_at (b0 b1 b2 : ℕ → Vec F S8x12800 .f32) : ℕ → Vec F S8x128 .f32
  | 0 => stats_upd (b0 0) (b1 0) (b2 0) stats_init
  | n + 1 => stats_upd (b0 (n + 1)) (b1 (n + 1)) (b2 (n + 1)) (stats_at b0 b1 b2 n)

/-- The distance kernel's two carried tables after the body at point `n`, from the bins block `x0` and the
    target block at each point: at the first point they start from +∞ and 0. -/
def scr1 (x0 : Vec F S8x82 .f32) (blk : ℕ → Vec F S8x3200 .f32) : ℕ → Vec F S8x82 .f32 × Vec F S8x1 .f32
  | 0 => (k1_pay4 x0 (blk 0) (k1_pay1 (F := F)), k1_pay5 x0 (blk 0) (k1_pay2 (F := F)))
  | n + 1 => (k1_pay4 x0 (blk (n + 1)) (scr1 x0 blk n).1, k1_pay5 x0 (blk (n + 1)) (scr1 x0 blk n).2)

/-- What the distance kernel stores into its output at the last of its 24 points. -/
def out1 (x0 : Vec F S8x82 .f32) (blk : ℕ → Vec F S8x3200 .f32) : Vec F S8x1 .f32 :=
  k1_pay6 (scr1 x0 blk 23).1 (scr1 x0 blk 23).2

end Cert.Kernel.Steps

end
-- ==== Proof.Word.Region0Base.lean ====
import proofs.«120963_j80418967650486_1_alg».proof.Proof.Gen.Kernel.Launch
import proofs.«120963_j80418967650486_1_alg».proof.Proof.Gen.Kernel.Skeleton
import proofs.«120963_j80418967650486_1_alg».proof.Proof.Gen.Kernel.Points
import proofs.«120963_j80418967650486_1_alg».proof.Proof.Word.Steps
import Idealize.ShloMosaic.Lib.Pipeline.FrameBody
import Idealize.ShloMosaic.Lib.Pipeline.Regions
import Idealize.ShloMosaic.Lib.WritesUnit
import Idealize.ShloMosaic.Lib.WholeRead
import Idealize.ShloMosaic.Lib.Ring
import Idealize.ShloMosaic.Lib.Tactic

/-!
  The statistics call as one region of the program: what its runs share.

  The call's one output block (the whole 8×128 table) stays in its staging buffer from the first grid point to
  the last. One run of the body stores five one-row pieces, rows 0–4, each computed from the point's three input
  blocks and from the row the body loaded just before; at the first point two resetting stores come first. This
  module names those pieces and reads a list of them back, row by row.
-/

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one condition -/

/-- The condition of the body's one conditional, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## The body's rectangles and pieces -/

abbrev rIn : Rect S8x12800 := Rect.unit (s := S8x12800) ![0, 0] S8x12800.size inb_S8x12800_S8x12800_0_0
abbrev rAll : Rect S8x128 := Rect.unit (s := S8x128) ![0, 0] S8x128.size inb_S8x128_S8x128_0_0
abbrev rRow0 : Rect S8x128 := Rect.unit (s := S8x128) ![0, 0] S1x128.size inb_S8x128_S1x128_0_0
abbrev rRow1 : Rect S8x128 := Rect.unit (s := S8x128) ![1, 0] S1x128.size inb_S8x128_S1x128_1_0
abbrev rRow2 : Rect S8x128 := Rect.unit (s := S8x128) ![2, 0] S1x128.size inb_S8x128_S1x128_2_0
abbrev rRow3 : Rect S8x128 := Rect.unit (s := S8x128) ![3, 0] S1x128.size inb_S8x128_S1x128_3_0
abbrev rRow4 : Rect S8x128 := Rect.unit (s := S8x128) ![4, 0] S1x128.size inb_S8x128_S1x128_4_0

/-- The five row stores of one run of the body, newest first, over the input blocks and the five rows `l0 … l4` the
    body loaded. -/
abbrev rowPieces (x0 x1 x2 : Vec F S8x12800 .f32) (l0 l1 l2 l3 l4 : Vec F S1x128 .f32) : List (View.Piece (Elt F) S8x128 .f32) :=
  [⟨rRow4, k0_pay1 (k0_pay17 (k0_pay12 x1 x2) l4)⟩, ⟨rRow3, k0_pay16 (k0_pay11 x2) l3⟩, ⟨rRow2, k0_pay15 (k0_pay10 x0 x1 x2) l2⟩,
    ⟨rRow1, k0_pay14 (k0_pay9 x0 x1 x2) l1⟩, ⟨rRow0, k0_pay13 (k0_pay8 x0 x1 x2) l0⟩]

/-- The first point's two resetting stores, newest first. -/
abbrev initPieces : List (View.Piece (Elt F) S8x128 .f32) := [⟨rRow4, k0_pay3 (F := F)⟩, ⟨rAll, k0_pay2 (F := F)⟩]

/-! ## Loads through a whole memref -/

theorem zeros2 : (![0, 0] : Fin 2 → ℕ) = fun _ => 0 := funext fun a => by fin_cases a <;> rfl

/-- A load of a whole input block reads the block. -/
theorem readAt_in {κ : Kind} {sp : Space} {m : Memref sig κ sp S8x12800 .f32} (h : m.IsWhole) (X : Vec F S8x12800 .f32) :
    View.readAt (Elt F) m.view rIn.toLoadRect (h.unread X) = X :=
  (View.readAt_eq_ld m.view (h.unread X) rIn).trans
    ((congrArg (fun Y => View.ld Y rIn) (h.read_unread X)).trans (View.ld_unit_zero zeros2 inb_S8x12800_S8x12800_0_0 X))

/-- The index a one-row rectangle at row `k` places its index `x` at: row `k`, `x`'s column. -/
theorem idx_row (k : ℕ) (hk : k < 8) (inb : ∀ a, (![k, 0] : Fin 2 → ℕ) a + S1x128.size a ≤ S8x128.size a)
    (x : (Rect.unit (s := S8x128) ![k, 0] S1x128.size inb).shape.Idx) :
    (Rect.unit (s := S8x128) ![k, 0] S1x128.size inb).toLoadRect.idx x = ix2 (⟨k, hk⟩ : Fin 8) (⟨(x 1).val, (x 1).isLt⟩ : Fin 128) := by
  funext a
  apply Fin.ext
  match a with
  | ⟨0, _⟩ =>
    have h1 : (x 0).val < 1 := (x 0).isLt
    show k + 1 * (x 0).val = k
    omega
  | ⟨1, _⟩ =>
    show 0 + 1 * (x 1).val = (x 1).val
    omega

/-- A load of row `k` of a table reads that row. -/
theorem ld_row (X : Vec F S8x128 .f32) (k : ℕ) (hk : k < 8) (inb : ∀ a, (![k, 0] : Fin 2 → ℕ) a + S1x128.size a ≤ S8x128.size a) :
    (fun x => X ((Rect.unit (s := S8x128) ![k, 0] S1x128.size inb).toLoadRect.idx x)) = Steps.rowOf X ⟨k, hk⟩ := by
  funext x
  rw [idx_row k hk inb x]
  rfl

/-- A load of row `k` through a whole memref held at the contents reading `X` reads `X`'s row `k`. -/
theorem readAt_row {κ : Kind} {sp : Space} {m : Memref sig κ sp S8x128 .f32} (h : m.IsWhole) (X : Vec F S8x128 .f32) (k : ℕ) (hk : k < 8)
    (inb : ∀ a, (![k, 0] : Fin 2 → ℕ) a + S1x128.size a ≤ S8x128.size a) :
    View.readAt (Elt F) m.view (Rect.unit (s := S8x128) ![k, 0] S1x128.size inb).toLoadRect (h.unread X) = Steps.rowOf X ⟨k, hk⟩ :=
  (funext fun x => h.readAt_unread X _ x).trans (ld_row X k hk inb)

/-- A load of row `k` that earlier stores of the run cover reads row `k` of any table `G` that the stores' pieces, written
    over anything, read as on that row. -/
theorem readCov_row {κ : Kind} {sp : Space} (v : View sig κ sp S8x128 .f32) (L : List (View.Piece (Elt F) S8x128 .f32)) (k : ℕ) (hk : k < 8)
    (inb : ∀ a, (![k, 0] : Fin 2 → ℕ) a + S1x128.size a ≤ S8x128.size a) (G : Vec F S8x128 .f32)
    (hG : ∀ y : S8x128.Idx, (y 0).val = k → v.read (Elt F) (v.writes (Elt F) v.junk L) y = G y) :
    v.readCov L (Rect.unit (s := S8x128) ![k, 0] S1x128.size inb).toLoadRect = Steps.rowOf G ⟨k, hk⟩ := by
  funext x
  show v.read (Elt F) (v.writes (Elt F) v.junk L) ((Rect.unit (s := S8x128) ![k, 0] S1x128.size inb).toLoadRect.idx x) = _
  rw [idx_row k hk inb x]
  exact hG _ rfl

/-! ## A list of the body's pieces read back -/

section Read

variable {κ : Kind} {sp : Space} (v : View sig κ sp S8x128 .f32) (f : v.ty.Contents (Elt F))

/-- The column index of a table index, as an index of a one-row piece. -/
abbrev colOf (j : S8x128.Idx) : S1x128.Idx := ix2 (0 : Fin 1) (⟨(j 1).val, (j 1).isLt⟩ : Fin 128)

/-- After the two resetting stores the table reads as the reset table, whatever it held. -/
theorem read_initPieces : v.read (Elt F) (v.writes (Elt F) f (initPieces (F := F))) = Steps.stats_init (F := F) := by
  funext j
  unfold Steps.stats_init
  beta_reduce
  by_cases c4 : (j 0).val = 4
  · rw [if_pos c4]
    exact View.read_writes_cons_rows_of_mem v f inb_S8x128_S1x128_4_0 (k0_pay3 (F := F)) _ j (colOf j) rfl c4 rfl
  · rw [if_neg c4]
    have hj : (j 0).val < 8 := (j 0).isLt
    refine (View.read_writes_cons_rows_of_not_mem (W := 1) v f inb_S8x128_S1x128_4_0 (k0_pay3 (F := F)) _ j rfl rfl (by omega)).trans ?_
    exact View.read_writes_cons_unit_of_mem v f inb_S8x128_S8x128_0_0 (k0_pay2 (F := F)) [] j j rfl
      (Fin.forall_fin_two.mpr ⟨(Nat.zero_add _).symm, (Nat.zero_add _).symm⟩)

/-- THE UPDATE READ BACK. Over earlier pieces `L` after which the table reads `prev`, the five row stores of one run
    of the body — each computed from the row of `prev` it replaces — leave the table reading `stats_upd` of `prev`:
    rows 0–4 read their pieces' payloads, rows 5–7 read `prev`. -/
theorem read_rowPieces (x0 x1 x2 : Vec F S8x12800 .f32) (l0 l1 l2 l3 l4 : Vec F S1x128 .f32) (L : List (View.Piece (Elt F) S8x128 .f32))
    (prev : Vec F S8x128 .f32) (hprev : v.read (Elt F) (v.writes (Elt F) f L) = prev)
    (h0 : l0 = Steps.rowOf prev 0) (h1 : l1 = Steps.rowOf prev 1) (h2 : l2 = Steps.rowOf prev 2) (h3 : l3 = Steps.rowOf prev 3)
    (h4 : l4 = Steps.rowOf prev 4) :
    v.read (Elt F) (v.writes (Elt F) f (rowPieces x0 x1 x2 l0 l1 l2 l3 l4 ++ L)) = Steps.stats_upd x0 x1 x2 prev := by
  subst h0 h1 h2 h3 h4
  funext j
  unfold Steps.stats_upd
  beta_reduce
  have hj : (j 0).val < 8 := (j 0).isLt
  by_cases c0 : (j 0).val = 0
  · rw [if_pos c0]
    refine (View.read_writes_cons_rows_of_not_mem (W := 1) v f inb_S8x128_S1x128_4_0 _ _ j rfl rfl (by omega)).trans ?_
    refine (View.read_writes_cons_rows_of_not_mem (W := 1) v f inb_S8x128_S1x128_3_0 _ _ j rfl rfl (by omega)).trans ?_
    refine (View.read_writes_cons_rows_of_not_mem (W := 1) v f inb_S8x128_S1x128_2_0 _ _ j rfl rfl (by omega)).trans ?_
    refine (View.read_writes_cons_rows_of_not_mem (W := 1) v f inb_S8x128_S1x128_1_0 _ _ j rfl rfl (by omega)).trans ?_
    exact View.read_writes_cons_rows_of_mem v f inb_S8x128_S1x128_0_0 _ _ j (colOf j) rfl c0 rfl
  by_cases c1 : (j 0).val = 1
  · rw [if_neg c0, if_pos c1]
    refine (View.read_writes_cons_rows_of_not_mem (W := 1) v f inb_S8x128_S1x128_4_0 _ _ j rfl rfl (by omega)).trans ?_
    refine (View.read_writes_cons_rows_of_not_mem (W := 1) v f inb_S8x128_S1x128_3_0 _ _ j rfl rfl (by omega)).trans ?_
    refine (View.read_writes_cons_rows_of_not_mem (W := 1) v f inb_S8x128_S1x128_2_0 _ _ j rfl rfl (by omega)).trans ?_
    exact View.read_writes_cons_rows_of_mem v f inb_S8x128_S1x128_1_0 _ _ j (colOf j) rfl c1 rfl
  by_cases c2 : (j 0).val = 2
  · rw [if_neg c0, if_neg c1, if_pos c2]
    refine (View.read_writes_cons_rows_of_not_mem (W := 1) v f inb_S8x128_S1x128_4_0 _ _ j rfl rfl (by omega)).trans ?_
    refine (View.read_writes_cons_rows_of_not_mem (W := 1) v f inb_S8x128_S1x128_3_0 _ _ j rfl rfl (by omega)).trans ?_
    exact View.read_writes_cons_rows_of_mem v f inb_S8x128_S1x128_2_0 _ _ j (colOf j) rfl c2 rfl
  by_cases c3 : (j 0).val = 3
  · rw [if_neg c0, if_neg c1, if_neg c2, if_pos c3]
    refine (View.read_writes_cons_rows_of_not_mem (W := 1) v f inb_S8x128_S1x128_4_0 _ _ j rfl rfl (by omega)).trans ?_
    exact View.read_writes_cons_rows_of_mem v f inb_S8x128_S1x128_3_0 _ _ j (colOf j) rfl c3 rfl
  by_cases c4 : (j 0).val = 4
  · rw [if_neg c0, if_neg c1, if_neg c2, if_neg c3, if_pos c4]
    exact View.read_writes_cons_rows_of_mem v f inb_S8x128_S1x128_4_0 _ _ j (colOf j) rfl c4 rfl
  rw [if_neg c0, if_neg c1, if_neg c2, if_neg c3, if_neg c4]
  refine (View.read_writes_cons_rows_of_not_mem (W := 1) v f inb_S8x128_S1x128_4_0 _ _ j rfl rfl (by omega)).trans ?_
  refine (View.read_writes_cons_rows_of_not_mem (W := 1) v f inb_S8x128_S1x128_3_0 _ _ j rfl rfl (by omega)).trans ?_
  refine (View.read_writes_cons_rows_of_not_mem (W := 1) v f inb_S8x128_S1x128_2_0 _ _ j rfl rfl (by omega)).trans ?_
  refine (View.read_writes_cons_rows_of_not_mem (W := 1) v f inb_S8x128_S1x128_1_0 _ _ j rfl rfl (by omega)).trans ?_
  refine (View.read_writes_cons_rows_of_not_mem (W := 1) v f inb_S8x128_S1x128_0_0 _ _ j rfl rfl (by omega)).trans ?_
  exact congrFun hprev j

end Read

end Cert.Kernel.R0
end
-- ==== Proof.Word.Region0RunA.lean ====
import proofs.«120963_j80418967650486_1_alg».proof.Proof.Word.Region0Base

/-!
  The statistics body at the first grid point: its run on whole staging memrefs, and what its stores leave.
-/

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output's staging memref at the first point (the conditional taken),
    newest first, with the proof that on whole staging memrefs — the inputs' at their contents, the output's at
    anything — the body runs to the continuation holding the inputs' as they were and the output's buffer with
    those pieces written. -/
noncomputable def kernelRun0_A (c : Dev nD) (i : grid0.Coords) (arg1 : Memref sig .tc .vmem S8x12800 .f32) (harg1 : arg1.IsWhole) (arg2 : Memref sig .tc .vmem S8x12800 .f32) (harg2 : arg2.IsWhole) (arg3 : Memref sig .tc .vmem S8x12800 .f32) (harg3 : arg3.IsWhole) (arg4 : Memref sig .tc .vmem S8x128 .f32) (harg4 : arg4.IsWhole) (hc0 : cond0_0 i)
    (x0 x1 x2 : Vec F S8x12800 .f32) :
    { L : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0__stats_kernel i arg1 harg1 arg2 harg2 arg3 harg3 arg4 harg4) K } := by
  refine ⟨?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- Those pieces are the five row stores, each over the row of the reset table that the two resetting stores before it
    left, on top of the two resetting stores: written over anything they leave the table reading `stats_upd` of the
    reset table. -/
theorem read_A (c : Dev nD) (i : grid0.Coords) (arg1 : Memref sig .tc .vmem S8x12800 .f32) (harg1 : arg1.IsWhole) (arg2 : Memref sig .tc .vmem S8x12800 .f32) (harg2 : arg2.IsWhole) (arg3 : Memref sig .tc .vmem S8x12800 .f32) (harg3 : arg3.IsWhole) (arg4 : Memref sig .tc .vmem S8x128 .f32) (harg4 : arg4.IsWhole) (hc0 : cond0_0 i)
    (x0 x1 x2 : Vec F S8x12800 .f32) (f : arg4.view.ty.Contents (Elt F)) :
    arg4.view.read (Elt F) (arg4.view.writes (Elt F) f (kernelRun0_A c i arg1 harg1 arg2 harg2 arg3 harg3 arg4 harg4 hc0 x0 x1 x2).1)
      = Steps.stats_upd x0 x1 x2 Steps.stats_init := by
  dsimp only [kernelRun0_A, kernelRun0_A.sl.H3_2, kernelRun0_A.sl.H3_3, kernelRun0_A.sl.H3_4, kernelRun0_A.sl.H3_5, kernelRun0_A.sl.H3_6, kernelRun0_A.sl.v46, kernelRun0_A.sl.v53, kernelRun0_A.sl.v60, kernelRun0_A.sl.v67, kernelRun0_A.sl.v74, kernelRun0_A.sl.r, kernelRun0_A.sl.r_1, kernelRun0_A.sl.r_2, kernelRun0_A.sl.r_3, kernelRun0_A.sl.r_4, kernelRun0_A.sl.r_5]
  rw [readAt_in harg1 x0, readAt_in harg2 x1, readAt_in harg3 x2]
  refine read_rowPieces arg4.view f x0 x1 x2 _ _ _ _ _ initPieces Steps.stats_init (read_initPieces _ f) ?_ ?_ ?_ ?_ ?_
  · exact readCov_row _ _ 0 (by decide) _ _ fun y hy => congrFun (read_initPieces _ _) y
  · refine readCov_row _ _ 1 (by decide) _ _ fun y hy => ?_
    refine (View.read_writes_cons_rows_of_not_mem (W := 1) _ _ inb_S8x128_S1x128_0_0 _ _ y rfl rfl (by omega)).trans ?_
    exact congrFun (read_initPieces _ _) y
  · refine readCov_row _ _ 2 (by decide) _ _ fun y hy => ?_
    refine (View.read_writes_cons_rows_of_not_mem (W := 1) _ _ inb_S8x128_S1x128_1_0 _ _ y rfl rfl (by omega)).trans ?_
    refine (View.read_writes_cons_rows_of_not_mem (W := 1) _ _ inb_S8x128_S1x128_0_0 _ _ y rfl rfl (by omega)).trans ?_
    exact congrFun (read_initPieces _ _) y
  · refine readCov_row _ _ 3 (by decide) _ _ fun y hy => ?_
    refine (View.read_writes_cons_rows_of_not_mem (W := 1) _ _ inb_S8x128_S1x128_2_0 _ _ y rfl rfl (by omega)).trans ?_
    refine (View.read_writes_cons_rows_of_not_mem (W := 1) _ _ inb_S8x128_S1x128_1_0 _ _ y rfl rfl (by omega)).trans ?_
    refine (View.read_writes_cons_rows_of_not_mem (W := 1) _ _ inb_S8x128_S1x128_0_0 _ _ y rfl rfl (by omega)).trans ?_
    exact congrFun (read_initPieces _ _) y
  · refine readCov_row _ _ 4 (by decide) _ _ fun y hy => ?_
    refine (View.read_writes_cons_rows_of_not_mem (W := 1) _ _ inb_S8x128_S1x128_3_0 _ _ y rfl rfl (by omega)).trans ?_
    refine (View.read_writes_cons_rows_of_not_mem (W := 1) _ _ inb_S8x128_S1x128_2_0 _ _ y rfl rfl (by omega)).trans ?_
    refine (View.read_writes_cons_rows_of_not_mem (W := 1) _ _ inb_S8x128_S1x128_1_0 _ _ y rfl rfl (by omega)).trans ?_
    refine (View.read_writes_cons_rows_of_not_mem (W := 1) _ _ inb_S8x128_S1x128_0_0 _ _ y rfl rfl (by omega)).trans ?_
    exact congrFun (read_initPieces _ _) y

end Cert.Kernel.R0
end
-- ==== Proof.Word.Region0RunB.lean ====
import proofs.«120963_j80418967650486_1_alg».proof.Proof.Word.Region0RunA

/-!
  The statistics body at a later grid point: its run on whole staging memrefs over the table the point before
  left, and what its stores leave.
-/

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output's staging memref at a later point (the conditional not taken),
    newest first, with the proof that on whole staging memrefs — the inputs' at their contents, the output's at the
    table `xo` the point before left — the body runs to the continuation holding the inputs' as they were and the
    output's buffer, over the contents reading `xo`, with those pieces written. -/
noncomputable def kernelRun0_B (c : Dev nD) (i : grid0.Coords) (arg1 : Memref sig .tc .vmem S8x12800 .f32) (harg1 : arg1.IsWhole) (arg2 : Memref sig .tc .vmem S8x12800 .f32) (harg2 : arg2.IsWhole) (arg3 : Memref sig .tc .vmem S8x12800 .f32) (harg3 : arg3.IsWhole) (arg4 : Memref sig .tc .vmem S8x128 .f32) (harg4 : arg4.IsWhole) (hc0 : ¬cond0_0 i)
    (x0 x1 x2 : Vec F S8x12800 .f32) (xo : Vec F S8x128 .f32) :
    { L : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} arg4.view.writes (Elt F) (harg4.unread xo) L)) -∗ K ⟨⟩))
          ⊢ wp frame (wpE (defs₀ (F := F)) Variants.none c none) E (cc0__stats_kernel i arg1 harg1 arg2 harg2 arg3 harg3 arg4 harg4) K } := by
  refine ⟨?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexact H3

/-- Those pieces are the five row stores over the rows of `xo`, so over the contents reading `xo` they leave the
    table reading `stats_upd` of `xo`. -/
theorem read_B (c : Dev nD) (i : grid0.Coords) (arg1 : Memref sig .tc .vmem S8x12800 .f32) (harg1 : arg1.IsWhole) (arg2 : Memref sig .tc .vmem S8x12800 .f32) (harg2 : arg2.IsWhole) (arg3 : Memref sig .tc .vmem S8x12800 .f32) (harg3 : arg3.IsWhole) (arg4 : Memref sig .tc .vmem S8x128 .f32) (harg4 : arg4.IsWhole) (hc0 : ¬cond0_0 i)
    (x0 x1 x2 : Vec F S8x12800 .f32) (xo : Vec F S8x128 .f32) :
    arg4.view.read (Elt F) (arg4.view.writes (Elt F) (harg4.unread xo) (kernelRun0_B c i arg1 harg1 arg2 harg2 arg3 harg3 arg4 harg4 hc0 x0 x1 x2 xo).1)
      = Steps.stats_upd x0 x1 x2 xo := by
  dsimp only [kernelRun0_B, kernelRun0_B.sl.r, kernelRun0_B.sl.r_1, kernelRun0_B.sl.r_2, kernelRun0_B.sl.r_3, kernelRun0_B.sl.r_4,
    kernelRun0_B.sl.r_5, kernelRun0_B.sl.v53, kernelRun0_B.sl.v60, kernelRun0_B.sl.v67, kernelRun0_B.sl.v74]
  rw [readAt_in harg1 x0, readAt_in harg2 x1, readAt_in harg3 x2]
  exact read_rowPieces arg4.view (harg4.unread xo) x0 x1 x2 _ _ _ _ _ [] xo (harg4.read_unread xo)
    (readAt_row harg4 xo 0 (by decide) _) (readAt_row harg4 xo 1 (by decide) _) (readAt_row harg4 xo 2 (by decide) _)
    (readAt_row harg4 xo 3 (by decide) _) (readAt_row harg4 xo 4 (by decide) _)

end Cert.Kernel.R0
end
-- ==== Proof.Word.Region0.lean ====
import proofs.«120963_j80418967650486_1_alg».proof.Proof.Word.Region0RunB
import Idealize.ShloMosaic.Lib.Pipeline.Value

/-!
  The statistics call as one region of the program, at the buffer contents `V` the region is entered with.

  The call's one output block (the whole 8×128 table) stays in its staging buffer from the first grid point to
  the last and is written back once, at the last point. At the first point the body resets the table and then
  updates rows 0–4 from the point's input blocks; at every later point it updates rows 0–4 over what the point
  before left, and rows 5–7 keep their contents. So the buffer after the body at point `n` is the `n`-fold
  update of the reset table by the input blocks at points `0, …, n`, and the output array ends holding the
  table after the last point.
-/

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the output holds after each point -/

/-- The table in the output's staging buffer after the body at point `n`: the reset table updated by the input
    blocks of points `0, …, n` in turn. -/
def outsAt0 (c : Dev nD) : (n : ℕ) → n < cfg0.N → Vec F S8x128 .f32
  | 0, hn => Steps.stats_upd (iblk0 V c 0 ⟨0, hn⟩) (iblk0 V c 1 ⟨0, hn⟩) (iblk0 V c 2 ⟨0, hn⟩) Steps.stats_init
  | n + 1, hn => Steps.stats_upd (iblk0 V c 0 ⟨n + 1, hn⟩) (iblk0 V c 1 ⟨n + 1, hn⟩) (iblk0 V c 2 ⟨n + 1, hn⟩) (outsAt0 c n (Nat.lt_of_succ_lt hn))

theorem outsAt0_zero (c : Dev nD) (h : 0 < cfg0.N) :
    outsAt0 V c 0 h = Steps.stats_upd (iblk0 V c 0 ⟨0, h⟩) (iblk0 V c 1 ⟨0, h⟩) (iblk0 V c 2 ⟨0, h⟩) Steps.stats_init := rfl

theorem outsAt0_succ (c : Dev nD) (n : ℕ) (h : n + 1 < cfg0.N) :
    outsAt0 V c (n + 1) h = Steps.stats_upd (iblk0 V c 0 ⟨n + 1, h⟩) (iblk0 V c 1 ⟨n + 1, h⟩) (iblk0 V c 2 ⟨n + 1, h⟩) (outsAt0 V c n (Nat.lt_of_succ_lt h)) := rfl

/-- At the first point: the update of the reset table. -/
theorem outsAt0_A (c : Dev nD) (t : Fin cfg0.N) (h0 : t.val = 0) :
    outsAt0 V c t.val t.isLt = Steps.stats_upd (iblk0 V c 0 t) (iblk0 V c 1 t) (iblk0 V c 2 t) Steps.stats_init := by
  obtain ⟨n, hn⟩ := t
  cases n with
  | zero => exact rfl
  | succ n => exact absurd h0 (Nat.succ_ne_zero n)

/-- At a later point: the update of what the point before left. -/
theorem outsAt0_B (c : Dev nD) (t : Fin cfg0.N) (h0 : ¬t.val = 0) :
    outsAt0 V c t.val t.isLt = Steps.stats_upd (iblk0 V c 0 t) (iblk0 V c 1 t) (iblk0 V c 2 t)
      (outsAt0 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the statistics pipeline on core `c`: the arrays as the region finds them; after the body at
    point `t` each input's buffer at its block and the output's at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point the output's staging buffer holds what the body left at the point before: the buffer is not
    written back between (only the last point writes back), and the window is live and uncut. -/
theorem before0_3_B (c : Dev nD) (t : Fin cfg0.N) (h0 : ¬t.val = 0) (d) :
    (dat0 V c).before 3 t d = outsAt0 V c (t.val - 1) (Nat.lt_of_le_of_lt (Nat.sub_le _ _) t.isLt) := by
  have hN : t.val < 6 := lt_of_lt_of_eq t.isLt (show cfg0.N = 6 from N_0)
  rw [Dat.before_out_kept _ 3 rfl t h0 (Bool.eq_false_iff.mpr fun h => by have := (flush0_3 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks; the point is the first or a later one, and at a
    later one the output's buffer holds what the point before left; so that case's run applies, and its pieces read
    back as the update; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [outsAt0_A V c t h0]
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact read_A c _ _ _ _ _ _ _ _ _ _ _ _ _ _
  · rw [outsAt0_B V c t h0]
    simp only [before0_3_B V c t h0]
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) (iblk0 V c 2 t) _).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact read_B c _ _ _ _ _ _ _ _ _ _ _ _ _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output array after the region -/

/-- The one write-back, at the last point, writes the table after that point: the output's one block, read through
    zero offsets, is the whole array. -/
theorem flushed_eq0 (c : Dev nD) (t : Fin cfg0.N) (hf : (cfg0.win 3).flush t = true) :
    (dat0 V c).flushed 3 t = ((cfg0.win 3).blk t).view.read (Elt F) (outsAt0 V c 5 (by rw [show cfg0.N = 6 from N_0]; decide)) := by
  have hN : cfg0.N = 6 := N_0
  have h5 : t.val = 5 := by have := (flush0_3 t).mp hf; have := t.isLt; omega
  obtain rfl : t = t0_5 := Fin.ext h5
  show (cfg0.win 3).cut (grid0.coords t0_5) ((dat0 V c).after 3 t0_5) = _
  rw [after0_3]
  have hz' : (fun a => win0_3.index t0_5 a * main_v4.ty.shape.size a) = fun _ => 0 := funext fun a => by fin_cases a <;> decide
  exact (Memref.read_access_unit_zero (Elt F) main_v4 hz' (fun a => by rw [congrFun hz' a]; simp) (outsAt0 V c 5 _)).symm

/-- So the output array ends holding the table after the last point: that point's block covers the array. -/
theorem arrAt0_out (c : Dev nD) :
    (dat0 V c).arrAt 3 cfg0.N = outsAt0 V c 5 (by rw [show cfg0.N = 6 from N_0]; decide) :=
  (dat0 V c).arrAt_eq_of_cover 3 (outsAt0 V c 5 (by rw [show cfg0.N = 6 from N_0]; decide)) (flushed_eq0 V c) fun i =>
    ⟨t0_5, (flush0_3 t0_5).mpr rfl, by
      show i ∈ ((View.whole main_v4).slice (win0_3.rect t0_5)).set
      rw [View.set_slice_whole, Rect.mem_set_unit]
      intro a
      have h0 : (i 0 : Nat) < 8 := (i 0).isLt
      have h1 : (i 1 : Nat) < 128 := (i 1).isLt
      match a with
      | ⟨0, _⟩ => show win0_3.index t0_5 0 * win0_3.size 0 ≤ (i 0 : Nat) ∧ (i 0 : Nat) < win0_3.index t0_5 0 * win0_3.size 0 + win0_3.xsize (grid0.coords t0_5) 0
                  rw [show win0_3.index t0_5 0 * win0_3.size 0 = 0 from by decide +kernel, show win0_3.xsize (grid0.coords t0_5) 0 = 8 from by decide +kernel]; omega
      | ⟨1, _⟩ => show win0_3.index t0_5 1 * win0_3.size 1 ≤ (i 1 : Nat) ∧ (i 1 : Nat) < win0_3.index t0_5 1 * win0_3.size 1 + win0_3.xsize (grid0.coords t0_5) 1
                  rw [show win0_3.index t0_5 1 * win0_3.size 1 = 0 from by decide +kernel, show win0_3.xsize (grid0.coords t0_5) 1 = 128 from by decide +kernel]; omega⟩

end Cert.Kernel.R0
end
-- ==== Proof.Word.Region1Runs.lean ====
import proofs.«120963_j80418967650486_1_alg».proof.Proof.Gen.Kernel.Launch
import proofs.«120963_j80418967650486_1_alg».proof.Proof.Gen.Kernel.Skeleton
import proofs.«120963_j80418967650486_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's region (pipeline 1), at the buffer contents `V` the region is entered with:
    what its three control cases share -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The bins window's staging buffer holds its block at every point, though it is fetched at the first only: its
    block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The targets window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first point": the condition of the body's first conditional, from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 24 = 0 :=
  (by decide +kernel : ∀ t : Fin grid1.N, cond1_0 (grid1.coords t) ↔ t.val % 24 = 0)

/-- "This is the last point": the condition of the body's second conditional. -/
abbrev cond1_1 (i : grid1.Coords) : Prop := k1_cond2 i = 1#1
theorem hcond1_1 : ∀ t : Fin cfg1.N, cond1_1 (grid1.coords t) ↔ t.val % 24 = 23 :=
  (by decide +kernel : ∀ t : Fin grid1.N, cond1_1 (grid1.coords t) ↔ t.val % 24 = 23)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Before the last point the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S8x82 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x3200 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1 .f32 := win1_2.stage (cfg1.slots t 2)
abbrev hs1_2 (t : Fin cfg1.N) : (ms1_2 t).IsWhole := hstage1_2 ((cfg1.slots t 2).cast nbuf1_2)
/-- The two tables the kernel carries between points: whole scoped buffers of its own. -/
abbrev scM0 : Memref sig .tc .vmem S8x82 .f32 := Memref.whole cc1_scratch0
abbrev scM1 : Memref sig .tc .vmem S8x1 .f32 := Memref.whole cc1_scratch1

/-- The whole-buffer rectangles every load and store of the body goes through. -/
abbrev rB : Rect S8x82 := Rect.unit (s := S8x82) ![0, 0] S8x82.size inb_S8x82_S8x82_0_0
abbrev rT : Rect S8x3200 := Rect.unit (s := S8x3200) ![0, 0] S8x3200.size inb_S8x3200_S8x3200_0_0
abbrev rO : Rect S8x1 := Rect.unit (s := S8x1) ![0, 0] S8x1.size inb_S8x1_S8x1_0_0
/-- Their offsets are zero. -/
theorem hz2 : (![0, 0] : Fin 2 → Nat) = fun _ => 0 := by funext a; fin_cases a <;> rfl

/-- After a store through the whole-buffer rectangle, made last, the buffer reads the stored value, whatever was stored
    or held before. -/
theorem read_writes_cons_whole {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-! ## The invariant -/

/-- The core's scoped buffers that this pipeline does not stage — the other pipeline's seven staging buffers, each at
    some contents, then the two carried tables at `S0` and `S1`. -/
def scoped1 (c : Dev nD) (S0 S1 : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ S0 ∗ S1)

/-- What the launch hands the region, with the two tables as memrefs owned at some contents. -/
theorem PhiA1_eq (c : Dev nD) :
    (Pipeline.ΦA spec1 c : sProp 𝕄)
      = iprop(scoped1 c iprop(∃ d, owns (c : Thread nD τ) scM0 fullShare d) iprop(∃ d, owns (c : Thread nD τ) scM1 fullShare d) ∗ (∃ r, prngReg c r)) := by
  unfold Pipeline.ΦA scoped1; rw [scopedRest1_eq]; simp only [scM0, scM1, owns_whole]; try rfl

end Cert.Kernel.R1

end
-- ==== Proof.Word.Region1RunA.lean ====
import proofs.«120963_j80418967650486_1_alg».proof.Proof.Word.Region1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's body at the first point (the tables are reset, then updated) -/

set_option maxHeartbeats 1000000 in
/-- On whole memrefs — the two inputs at `x0`, `x1`, the output's at `xi2`, the two tables at anything — the body runs
    to the continuation holding the inputs and the output as they were, the first table at the minimum of +∞ with this
    block's least squared distances, the second at 0 plus this block's sum. -/
theorem kernelRun1_A (c : Dev nD) (i : grid1.Coords)
    (arg1 : Memref sig .tc .vmem S8x82 .f32) (harg1 : arg1.IsWhole) (arg2 : Memref sig .tc .vmem S8x3200 .f32) (harg2 : arg2.IsWhole)
    (arg3 : Memref sig .tc .vmem S8x1 .f32) (harg3 : arg3.IsWhole) (arg4 : Memref sig .tc .vmem S8x82 .f32) (harg4 : arg4.IsWhole)
    (arg5 : Memref sig .tc .vmem S8x1 .f32) (harg5 : arg5.IsWhole) (hc0 : cond1_0 i) (hc1 : ¬cond1_1 i)
    (x0 : Vec F S8x82 .f32) (x1 : Vec F S8x3200 .f32) (xi2 : Vec F S8x1 .f32)
    (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k1_pay4 x0 x1 (k1_pay1 (F := F))) ∗ owns (c : Thread nD τ) arg5 fullShare (k1_pay5 x0 x1 (k1_pay2 (F := F)))) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]
  · iexists _; isplitr
    swap; · iexact HS1
    ipureintro
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]

end Cert.Kernel.R1

end
-- ==== Proof.Word.Region1RunB.lean ====
import proofs.«120963_j80418967650486_1_alg».proof.Proof.Word.Region1RunA

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's body at a middle point (neither conditional taken) -/

set_option maxHeartbeats 1000000 in
/-- On whole memrefs — the two inputs at `x0`, `x1`, the output's at `xi2`, the two tables at `s0`, `s1` — the body
    runs to the continuation holding the inputs and the output as they were, the first table at its minimum with this
    block's least squared distances, the second at its sum with this block's. -/
theorem kernelRun1_B (c : Dev nD) (i : grid1.Coords)
    (arg1 : Memref sig .tc .vmem S8x82 .f32) (harg1 : arg1.IsWhole) (arg2 : Memref sig .tc .vmem S8x3200 .f32) (harg2 : arg2.IsWhole)
    (arg3 : Memref sig .tc .vmem S8x1 .f32) (harg3 : arg3.IsWhole) (arg4 : Memref sig .tc .vmem S8x82 .f32) (harg4 : arg4.IsWhole)
    (arg5 : Memref sig .tc .vmem S8x1 .f32) (harg5 : arg5.IsWhole) (hc0 : ¬cond1_0 i) (hc1 : ¬cond1_1 i)
    (x0 : Vec F S8x82 .f32) (x1 : Vec F S8x3200 .f32) (s0 : Vec F S8x82 .f32) (s1 : Vec F S8x1 .f32) (xi2 : Vec F S8x1 .f32)
    (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare s0 ∗ owns (c : Thread nD τ) arg5 fullShare s1
        ∗ (iprop(owns (c : Thread nD τ) arg1 fullShare x0 ∗ owns (c : Thread nD τ) arg2 fullShare x1 ∗ owns (c : Thread nD τ) arg3 fullShare xi2
            ∗ owns (c : Thread nD τ) arg4 fullShare (k1_pay4 x0 x1 s0) ∗ owns (c : Thread nD τ) arg5 fullShare (k1_pay5 x0 x1 s1)) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]
  · iexists _; isplitr
    swap; · iexact HS1
    ipureintro
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]

end Cert.Kernel.R1

end
-- ==== Proof.Word.Region1RunC.lean ====
import proofs.«120963_j80418967650486_1_alg».proof.Proof.Word.Region1RunB

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's body at the last point (the tables are updated, then the output is stored) -/

set_option maxHeartbeats 1000000 in
/-- On whole memrefs — the two inputs at `x0`, `x1`, the output's at anything, the two tables at `s0`, `s1` — the body
    runs to the continuation holding the inputs as they were, the tables updated as at a middle point, and the output
    at the sum over bins of the first table plus the second. -/
theorem kernelRun1_C (c : Dev nD) (i : grid1.Coords)
    (arg1 : Memref sig .tc .vmem S8x82 .f32) (harg1 : arg1.IsWhole) (arg2 : Memref sig .tc .vmem S8x3200 .f32) (harg2 : arg2.IsWhole)
    (arg3 : Memref sig .tc .vmem S8x1 .f32) (harg3 : arg3.IsWhole) (arg4 : Memref sig .tc .vmem S8x82 .f32) (harg4 : arg4.IsWhole)
    (arg5 : Memref sig .tc .vmem S8x1 .f32) (harg5 : arg5.IsWhole) (hc0 : ¬cond1_0 i) (hc1 : cond1_1 i)
    (x0 : Vec F S8x82 .f32) (x1 : Vec F S8x3200 .f32) (s0 : Vec F S8x82 .f32) (s1 : Vec F S8x1 .f32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare s0 ∗ owns (c : Thread nD τ) arg5 fullShare s1
        ∗ (iprop(owns (c : Thread nD τ) arg1 fullShare x0 ∗ owns (c : Thread nD τ) arg2 fullShare x1 ∗ owns (c : Thread nD τ) arg3 fullShare (k1_pay6 (k1_pay4 x0 x1 s0) (k1_pay5 x0 x1 s1))
            ∗ owns (c : Thread nD τ) arg4 fullShare (k1_pay4 x0 x1 s0) ∗ owns (c : Thread nD τ) arg5 fullShare (k1_pay5 x0 x1 s1)) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    try sl_unfold_words
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]
  isplitl [HS0]
  · iexists _; isplitr
    swap; · iexact HS0
    ipureintro
    try sl_unfold_words
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]
  · iexists _; isplitr
    swap; · iexact HS1
    ipureintro
    try sl_unfold_words
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]

end Cert.Kernel.R1

end
-- ==== Proof.Word.Region1.lean ====
import proofs.«120963_j80418967650486_1_alg».proof.Proof.Word.Region1RunC
import proofs.«120963_j80418967650486_1_alg».proof.Proof.Word.Steps

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's region (pipeline 1): what its tables and output hold point by point, the proof data,
    the body obligation, and the tables and output as the pure per-point updates -/

/-! ## What the body leaves after each point -/

/-- What the body leaves after point `n`: (the output block, the table of least squared distances, the table of
    running sums). The tables start from +∞ and 0 at the first point and are updated from the point's target block;
    the output component is the sum over bins of the first table plus the second, which the body stores at the last
    point only (at the other points it is a placeholder nothing reads). -/
def outsAt1 (c : Dev nD) : (n : ℕ) → n < cfg1.N → Vec F S8x1 .f32 × Vec F S8x82 .f32 × Vec F S8x1 .f32
  | 0, hn =>
    (k1_pay6 (k1_pay4 (iblk1 V c 0 ⟨0, hn⟩) (iblk1 V c 1 ⟨0, hn⟩) (k1_pay1 (F := F)))
        (k1_pay5 (iblk1 V c 0 ⟨0, hn⟩) (iblk1 V c 1 ⟨0, hn⟩) (k1_pay2 (F := F))),
      k1_pay4 (iblk1 V c 0 ⟨0, hn⟩) (iblk1 V c 1 ⟨0, hn⟩) (k1_pay1 (F := F)),
      k1_pay5 (iblk1 V c 0 ⟨0, hn⟩) (iblk1 V c 1 ⟨0, hn⟩) (k1_pay2 (F := F)))
  | n + 1, hn =>
    (k1_pay6 (k1_pay4 (iblk1 V c 0 ⟨n + 1, hn⟩) (iblk1 V c 1 ⟨n + 1, hn⟩) (outsAt1 c n (Nat.lt_of_succ_lt hn)).2.1)
        (k1_pay5 (iblk1 V c 0 ⟨n + 1, hn⟩) (iblk1 V c 1 ⟨n + 1, hn⟩) (outsAt1 c n (Nat.lt_of_succ_lt hn)).2.2),
      k1_pay4 (iblk1 V c 0 ⟨n + 1, hn⟩) (iblk1 V c 1 ⟨n + 1, hn⟩) (outsAt1 c n (Nat.lt_of_succ_lt hn)).2.1,
      k1_pay5 (iblk1 V c 0 ⟨n + 1, hn⟩) (iblk1 V c 1 ⟨n + 1, hn⟩) (outsAt1 c n (Nat.lt_of_succ_lt hn)).2.2)

/-- At the first point: the tables reset, then updated. -/
theorem outsAt1_first (c : Dev nD) (t : Fin cfg1.N) (hz : t.val = 0) :
    outsAt1 V c t.val t.isLt =
      (k1_pay6 (k1_pay4 (iblk1 V c 0 t) (iblk1 V c 1 t) (k1_pay1 (F := F))) (k1_pay5 (iblk1 V c 0 t) (iblk1 V c 1 t) (k1_pay2 (F := F))),
        k1_pay4 (iblk1 V c 0 t) (iblk1 V c 1 t) (k1_pay1 (F := F)),
        k1_pay5 (iblk1 V c 0 t) (iblk1 V c 1 t) (k1_pay2 (F := F))) := by
  obtain ⟨n, hn⟩ := t
  cases n with
  | zero => rfl
  | succ n => exact absurd hz (Nat.succ_ne_zero n)

/-- At a later point: the tables the point before left, updated. -/
theorem outsAt1_later (c : Dev nD) (t : Fin cfg1.N) (hz : t.val ≠ 0) :
    outsAt1 V c t.val t.isLt =
      (k1_pay6 (k1_pay4 (iblk1 V c 0 t) (iblk1 V c 1 t) (outsAt1 V c (t.val - 1) (Nat.lt_of_le_of_lt (Nat.sub_le _ _) t.isLt)).2.1)
          (k1_pay5 (iblk1 V c 0 t) (iblk1 V c 1 t) (outsAt1 V c (t.val - 1) (Nat.lt_of_le_of_lt (Nat.sub_le _ _) t.isLt)).2.2),
        k1_pay4 (iblk1 V c 0 t) (iblk1 V c 1 t) (outsAt1 V c (t.val - 1) (Nat.lt_of_le_of_lt (Nat.sub_le _ _) t.isLt)).2.1,
        k1_pay5 (iblk1 V c 0 t) (iblk1 V c 1 t) (outsAt1 V c (t.val - 1) (Nat.lt_of_le_of_lt (Nat.sub_le _ _) t.isLt)).2.2) := by
  obtain ⟨n, hn⟩ := t
  cases n with
  | zero => exact absurd rfl hz
  | succ n => rfl

/-! ## The invariant -/

/-- The region invariant before position `n`: before the first point the launch's; afterwards the two carried tables at
    what the point before left in them, the rest as the launch's. -/
def PhiS (c : Dev nD) : (n : ℕ) → n ≤ cfg1.N → sProp 𝕄
  | 0, _ => Pipeline.ΦA spec1 c
  | n + 1, hn => iprop(scoped1 c (owns (c : Thread nD τ) scM0 fullShare ((outsAt1 V c n hn).2.1))
      (owns (c : Thread nD τ) scM1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM0 fullShare ((outsAt1 V c n hn).2.1))
      (owns (c : Thread nD τ) scM1 fullShare ((outsAt1 V c n hn).2.2)) ∗ (∃ r, prngReg c r)) := rfl

theorem PhiS_pos (c : Dev nD) (n : ℕ) (h : n ≤ cfg1.N) (hz : n ≠ 0) :
    PhiS V c n h = iprop(scoped1 c (owns (c : Thread nD τ) scM0 fullShare ((outsAt1 V c (n - 1) (by omega)).2.1))
      (owns (c : Thread nD τ) scM1 fullShare ((outsAt1 V c (n - 1) (by omega)).2.2)) ∗ (∃ r, prngReg c r)) := by
  cases n with
  | zero => exact absurd rfl hz
  | succ n => rfl

/-! ## The proof data -/

/-- The proof data of the region on core `c`: the arrays as the region finds them; after the body each input's buffer
    at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point is the first, a middle one or the last,
    and that case's run applies; the invariant hands the body the two tables at what the point before left (at
    anything at the first point) and takes them back at this point's; the output's buffer is handed back untouched
    except at the last point, where it is left at the stored sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 24 := lt_of_lt_of_eq t.isLt (show cfg1.N = 24 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 24 = 23
  · -- the last point
    have h0 : ¬t.val % 24 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_later V c t hz]; dsimp only
    rw [PhiS_castSucc V c t, PhiS_pos V c _ _ hz]; unfold scoped1
    iintro ⟨⟨⟨R1, R2, R3, R4, R5, R6, R7, HS0, HS1⟩, Hg⟩, Ho, ⟨%d0, H0⟩, ⟨%d1, H1⟩, ⟨%d2, H2⟩⟩
    iapply (kernelRun1_C c (grid1.coords t) _ _ _ _ _ _ _ _ _ _ (fun h => h0 ((hcond1_0 t).mp h)) ((hcond1_1 t).mpr h1) (iblk1 V c 0 t) (iblk1 V c 1 t) _ _ Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [R1 R2 R3 R4 R5 R6 R7 HS0 HS1 Hg]
    · isplitl [R1 R2 R3 R4 R5 R6 R7 HS0 HS1]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS0]; · iexact HS0
        iexact HS1
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 2 t (idleAt1_2 t hc1) (noFlush1_2 t hc1)]
    by_cases h0 : t.val % 24 = 0
    · -- the first point
      have hz : t.val = 0 := by omega
      rw [outsAt1_first V c t hz]; dsimp only
      rw [PhiS_castSucc V c t, PhiS_zero V c _ _ hz, PhiA1_eq]; unfold scoped1
      iintro ⟨⟨⟨R1, R2, R3, R4, R5, R6, R7, HS0, HS1⟩, Hg⟩, Ho, ⟨%d0, H0⟩, ⟨%d1, H1⟩, ⟨%d2, H2⟩⟩
      iapply (kernelRun1_A c (grid1.coords t) _ _ _ _ _ _ _ _ _ _ ((hcond1_0 t).mpr h0) hc1 (iblk1 V c 0 t) (iblk1 V c 1 t) _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R1 R2 R3 R4 R5 R6 R7 HS0 HS1 Hg]
      · isplitl [R1 R2 R3 R4 R5 R6 R7 HS0 HS1]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      iexists _; iexact H2
    · -- a middle point
      have hz : t.val ≠ 0 := by omega
      rw [outsAt1_later V c t hz]; dsimp only
      rw [PhiS_castSucc V c t, PhiS_pos V c _ _ hz]; unfold scoped1
      iintro ⟨⟨⟨R1, R2, R3, R4, R5, R6, R7, HS0, HS1⟩, Hg⟩, Ho, ⟨%d0, H0⟩, ⟨%d1, H1⟩, ⟨%d2, H2⟩⟩
      iapply (kernelRun1_B c (grid1.coords t) _ _ _ _ _ _ _ _ _ _ (fun h => h0 ((hcond1_0 t).mp h)) hc1 (iblk1 V c 0 t) (iblk1 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R1 R2 R3 R4 R5 R6 R7 HS0 HS1 Hg]
      · isplitl [R1 R2 R3 R4 R5 R6 R7 HS0 HS1]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: what the tables hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; unfold scoped1
  iintro ⟨⟨R1, R2, R3, R4, R5, R6, R7, HS0, HS1⟩, Hg⟩
  isplitl [R1 R2 R3 R4 R5 R6 R7 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 24 := N_1; omega)

/-! ## The tables and the output as the pure per-point updates -/

/-- The first point. -/
def t1_0 : Fin cfg1.N := ⟨0, (by rw [show cfg1.N = 24 from N_1]; decide)⟩

/-- The target block at each position (anything past the grid). -/
def tblk (c : Dev nD) : ℕ → Vec F S8x3200 .f32 :=
  fun k => if hk : k < cfg1.N then iblk1 V c 1 ⟨k, hk⟩ else fun _ => Classical.choice (Elt.nonempty F .f32)

theorem tblk_of_lt (c : Dev nD) (k : ℕ) (hk : k < cfg1.N) : tblk V c k = iblk1 V c 1 ⟨k, hk⟩ := dif_pos hk

/-- The bins block is the same at every point: its block index never moves. -/
theorem iblk1_0_const (c : Dev nD) (t : Fin cfg1.N) :
    (iblk1 V c 0 t : Vec F S8x82 .f32) = (iblk1 V c 0 t1_0 : Vec F S8x82 .f32) := by
  unfold iblk1; rfl

theorem scr_eq (c : Dev nD) (n : ℕ) (h : n < cfg1.N) :
    ((outsAt1 V c n h).2.1, (outsAt1 V c n h).2.2) = Steps.scr1 (iblk1 V c 0 t1_0) (tblk V c) n := by
  induction n with
  | zero =>
    show (k1_pay4 (iblk1 V c 0 ⟨0, h⟩) (iblk1 V c 1 ⟨0, h⟩) (k1_pay1 (F := F)), k1_pay5 (iblk1 V c 0 ⟨0, h⟩) (iblk1 V c 1 ⟨0, h⟩) (k1_pay2 (F := F)))
      = (k1_pay4 (iblk1 V c 0 t1_0) (tblk V c 0) (k1_pay1 (F := F)), k1_pay5 (iblk1 V c 0 t1_0) (tblk V c 0) (k1_pay2 (F := F)))
    rw [tblk_of_lt V c 0 h, iblk1_0_const V c ⟨0, h⟩]
  | succ n ih =>
    have ih' := ih (Nat.lt_of_succ_lt h)
    show (k1_pay4 (iblk1 V c 0 ⟨n + 1, h⟩) (iblk1 V c 1 ⟨n + 1, h⟩) (outsAt1 V c n (Nat.lt_of_succ_lt h)).2.1,
        k1_pay5 (iblk1 V c 0 ⟨n + 1, h⟩) (iblk1 V c 1 ⟨n + 1, h⟩) (outsAt1 V c n (Nat.lt_of_succ_lt h)).2.2)
      = (k1_pay4 (iblk1 V c 0 t1_0) (tblk V c (n + 1)) (Steps.scr1 (iblk1 V c 0 t1_0) (tblk V c) n).1,
        k1_pay5 (iblk1 V c 0 t1_0) (tblk V c (n + 1)) (Steps.scr1 (iblk1 V c 0 t1_0) (tblk V c) n).2)
    rw [tblk_of_lt V c (n + 1) h, iblk1_0_const V c ⟨n + 1, h⟩, ← ih']

theorem out_last (c : Dev nD) :
    (outsAt1 V c 23 (by rw [show cfg1.N = 24 from N_1]; decide)).1 = Steps.out1 (iblk1 V c 0 t1_0) (tblk V c) := by
  have e := scr_eq V c 23 (by rw [show cfg1.N = 24 from N_1]; decide)
  show k1_pay6 (outsAt1 V c 23 _).2.1 (outsAt1 V c 23 _).2.2 = k1_pay6 (Steps.scr1 _ _ 23).1 (Steps.scr1 _ _ 23).2
  rw [← e]

/-! ## The output array after the region -/

/-- The last point. -/
def t1_23 : Fin cfg1.N := ⟨23, (by rw [show cfg1.N = 24 from N_1]; decide)⟩

/-- The one write-back, at the last point, writes what the body stored there: the output window's one block is the
    whole [8,1] array, read through zero offsets. -/
theorem flushed1_eq (c : Dev nD) (t : Fin cfg1.N) (hf : (cfg1.win 2).flush t = true) :
    (dat1 V c).flushed 2 t = ((cfg1.win 2).blk t).view.read (Elt F) ((outsAt1 V c 23 (by rw [show cfg1.N = 24 from N_1]; decide)).1) := by
  have hN : cfg1.N = 24 := N_1
  have h1 : t.val = 23 := by have := (flush1_2 t).mp hf; have := t.isLt; omega
  obtain rfl : t = t1_23 := Fin.ext h1
  show (cfg1.win 2).cut (grid1.coords t1_23) ((dat1 V c).after 2 t1_23) = _
  rw [after1_2]
  have hz' : (fun a => win1_2.index t1_23 a * main_v24.ty.shape.size a) = fun _ => 0 := funext fun a => by fin_cases a <;> decide +kernel
  exact (Memref.read_access_unit_zero (Elt F) main_v24 hz' (fun a => by rw [congrFun hz' a]; simp) _).symm

/-- So the output array ends holding it: the last point's block covers the array. -/
theorem arrAt1_out (c : Dev nD) :
    (dat1 V c).arrAt 2 cfg1.N = (outsAt1 V c 23 (by rw [show cfg1.N = 24 from N_1]; decide)).1 :=
  (dat1 V c).arrAt_eq_of_cover 2 _ (flushed1_eq V c) fun i =>
    ⟨t1_23, (flush1_2 t1_23).mpr rfl, by
      show i ∈ ((View.whole main_v24).slice (win1_2.rect t1_23)).set
      rw [View.set_slice_whole, Rect.mem_set_unit]
      intro a
      have h0 : (i 0 : Nat) < 8 := (i 0).isLt
      have h1 : (i 1 : Nat) < 1 := (i 1).isLt
      match a with
      | ⟨0, _⟩ => show win1_2.index t1_23 0 * win1_2.size 0 ≤ (i 0 : Nat) ∧ (i 0 : Nat) < win1_2.index t1_23 0 * win1_2.size 0 + win1_2.xsize (grid1.coords t1_23) 0
                  rw [show win1_2.index t1_23 0 * win1_2.size 0 = 0 from by decide +kernel, show win1_2.xsize (grid1.coords t1_23) 0 = 8 from by decide +kernel]; omega
      | ⟨1, _⟩ => show win1_2.index t1_23 1 * win1_2.size 1 ≤ (i 1 : Nat) ∧ (i 1 : Nat) < win1_2.index t1_23 1 * win1_2.size 1 + win1_2.xsize (grid1.coords t1_23) 1
                  rw [show win1_2.index t1_23 1 * win1_2.size 1 = 0 from by decide +kernel, show win1_2.xsize (grid1.coords t1_23) 1 = 1 from by decide +kernel]; omega⟩

end Cert.Kernel.R1

end
-- ==== Proof.Word.Assembly.lean ====
import proofs.«120963_j80418967650486_1_alg».proof.Proof.Gen.Kernel.Launch
import proofs.«120963_j80418967650486_1_alg».proof.Proof.Gen.Kernel.Skeleton
import proofs.«120963_j80418967650486_1_alg».proof.Proof.Gen.Kernel.Points
import proofs.«120963_j80418967650486_1_alg».proof.Proof.Gen.Kernel.Regions
import proofs.«120963_j80418967650486_1_alg».proof.Proof.Word.Region0
import proofs.«120963_j80418967650486_1_alg».proof.Proof.Word.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The whole program as a run of six segments — four stretches of host operations and the two kernel regions —
  with what every buffer holds at each boundary, for any float instance.

  A host stretch changes the buffers as its operations' composition does. A kernel region leaves every buffer as
  it found it except the arrays its windows stage, which end at what the pipeline's write-backs leave. Folding
  these from the launch memory names the contents of EVERY unstaged buffer at the return, in particular the
  argument arrays (never written) and the result.
-/

set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At launch. -/
abbrev Bd0 : Dev nD → Valuation τ sig (Elt F) := fun c b => m ((c : Dev nD), b)
/-- After the first host stretch: the statistics region's entry. -/
abbrev Bd1 : Dev nD → Valuation τ sig (Elt F) := fun c => StableHlo.after hostOps0 (Bd0 m c)
/-- The same, read at the TensorCore's references. -/
abbrev En1 : (c : Dev nD) → (b : Ref sig .tc) → Buf (Elt F) ((c : Thread nD τ).loc b) := fun c b => Bd1 m c b
/-- After the statistics region: its arrays at what the pipeline leaves, everything else as entered. -/
def Bd2 (c : Dev nD) : Valuation τ sig (Elt F) :=
  Pipeline.withArrays spec0 c (Bd1 m c) fun w => (R0.dat0 (En1 m) c).arrAt w cfg0.N
theorem Bd2_arr (c : Dev nD) (w : Fin cfg0.W) :
    Bd2 m c (Proc.devRef .tc (Pipeline.arrRef spec0 w)) = (R0.dat0 (En1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m c b
theorem exit0_arr (c : Dev nD) (w : Fin cfg0.W) : (R0.dat0 (En1 m) c).arrAt w cfg0.N = Ex2 m c (Pipeline.arrRef spec0 w) :=
  (Bd2_arr m c w).symm
theorem exit0_rest (c : Dev nD) : ∀ b, b ∉ Finset.univ.image (Pipeline.arrRef spec0) → Ex2 m c b = En1 m c b :=
  fun b hb => Bd2_of_ne m c b fun w e => hb (Finset.mem_image.mpr ⟨w, Finset.mem_univ _, e⟩)
/-- After the second host stretch (the statistics read out of the table, the padding value, the padded bins). -/
abbrev Bd3 : Dev nD → Valuation τ sig (Elt F) := fun c => StableHlo.after hostOps1 (Bd2 m c)
/-- After the third (the padded targets): the distance region's entry. -/
abbrev Bd4 : Dev nD → Valuation τ sig (Elt F) := fun c => StableHlo.after hostOps1_1 (Bd3 m c)
abbrev En4 : (c : Dev nD) → (b : Ref sig .tc) → Buf (Elt F) ((c : Thread nD τ).loc b) := fun c b => Bd4 m c b
/-- After the distance region. -/
def Bd5 (c : Dev nD) : Valuation τ sig (Elt F) :=
  Pipeline.withArrays spec1 c (Bd4 m c) fun w => (R1.dat1 (En4 m) c).arrAt w cfg1.N
theorem Bd5_arr (c : Dev nD) (w : Fin cfg1.W) :
    Bd5 m c (Proc.devRef .tc (Pipeline.arrRef spec1 w)) = (R1.dat1 (En4 m) c).arrAt w cfg1.N := by
  unfold Bd5; exact Pipeline.withArrays_arr spec1 launch1.win.arr_inj c _ _ w
theorem Bd5_of_ne (c : Dev nD) (b : Ref sig .tc) (hb : ∀ w, Pipeline.arrRef spec1 w ≠ b) :
    Bd5 m c (Proc.devRef .tc b) = Bd4 m c (Proc.devRef .tc b) := by
  unfold Bd5; exact Pipeline.withArrays_of_ne spec1 c _ _ b hb
abbrev Ex5 : (c : Dev nD) → (b : Ref sig .tc) → Buf (Elt F) ((c : Thread nD τ).loc b) := fun c b => Bd5 m c b
theorem exit1_arr (c : Dev nD) (w : Fin cfg1.W) : (R1.dat1 (En4 m) c).arrAt w cfg1.N = Ex5 m c (Pipeline.arrRef spec1 w) :=
  (Bd5_arr m c w).symm
theorem exit1_rest (c : Dev nD) : ∀ b, b ∉ Finset.univ.image (Pipeline.arrRef spec1) → Ex5 m c b = En4 m c b :=
  fun b hb => Bd5_of_ne m c b fun w e => hb (Finset.mem_image.mpr ⟨w, Finset.mem_univ _, e⟩)
/-- After the last host stretch: the return. -/
abbrev Bd6 : Dev nD → Valuation τ sig (Elt F) := fun c => StableHlo.after hostOps2 (Bd5 m c)

/-! ## A buffer nothing writes ends as launched -/

/-- A reference that no host stretch writes and no region stages holds its launch contents at the return. -/
theorem Bd6_kept (c : Dev nD) (b : Ref sig .tc) (h0 : b ∉ hostOps0_W) (h1 : b ∉ hostOps1_W) (h11 : b ∉ hostOps1_1_W)
    (h2 : b ∉ hostOps2_W) (ha0 : ∀ w, Pipeline.arrRef spec0 w ≠ b) (ha1 : ∀ w, Pipeline.arrRef spec1 w ≠ b) :
    Bd6 m c (Proc.devRef .tc b) = m ((c : Thread nD τ).loc b) :=
  calc Bd6 m c (Proc.devRef .tc b)
    _ = Bd5 m c (Proc.devRef .tc b) := StableHlo.after_of_writes_sub hostOps2 _ hostOps2_writes h2
    _ = Bd4 m c (Proc.devRef .tc b) := Bd5_of_ne m c b ha1
    _ = Bd3 m c (Proc.devRef .tc b) := StableHlo.after_of_writes_sub hostOps1_1 _ hostOps1_1_writes h11
    _ = Bd2 m c (Proc.devRef .tc b) := StableHlo.after_of_writes_sub hostOps1 _ hostOps1_writes h1
    _ = Bd1 m c (Proc.devRef .tc b) := Bd2_of_ne m c b ha0
    _ = Bd0 m c (Proc.devRef .tc b) := StableHlo.after_of_writes_sub hostOps0 _ hostOps0_writes h0
    _ = m ((c : Thread nD τ).loc b) := rfl

theorem Bd6_main_arg0 (c : Dev nD) : Bd6 m c (Proc.devRef .tc main_arg0) = m ((c : Thread nD τ).loc main_arg0) :=
  Bd6_kept m c main_arg0 (by decide) (by decide) (by decide) (by decide) (by decide) (by decide)
theorem Bd6_main_arg1 (c : Dev nD) : Bd6 m c (Proc.devRef .tc main_arg1) = m ((c : Thread nD τ).loc main_arg1) :=
  Bd6_kept m c main_arg1 (by decide) (by decide) (by decide) (by decide) (by decide) (by decide)
theorem Bd6_main_arg2 (c : Dev nD) : Bd6 m c (Proc.devRef .tc main_arg2) = m ((c : Thread nD τ).loc main_arg2) :=
  Bd6_kept m c main_arg2 (by decide) (by decide) (by decide) (by decide) (by decide) (by decide)
theorem Bd6_main_arg3 (c : Dev nD) : Bd6 m c (Proc.devRef .tc main_arg3) = m ((c : Thread nD τ).loc main_arg3) :=
  Bd6_kept m c main_arg3 (by decide) (by decide) (by decide) (by decide) (by decide) (by decide)

/-! ## The proof data of both pipelines, and what rides beside the buffers -/

/-- Each pipeline's proof data at its region's entry contents. -/
def pdat : (p : Fin 2) → (c : Dev nD) → Dat τ (Elt F) Unit ℕ (UR sig nD τ) ℕ (Pipeline.pin (pcfgs (F := F)) adm p) c
  | ⟨0, _⟩ => fun c => R0.dat0 (En1 m) c
  | ⟨1, _⟩ => fun c => R1.dat1 (En4 m) c

abbrev noVar : Variants := Variants.none
/-- No core owes another anything. -/
abbrev noPairs : GSem nD τ sig → Finset Unit := fun _ => ∅
abbrev noLevel : GSem nD τ sig → Unit → ℕ := fun _ _ => 0
/-- Beside the buffers, through every segment: the generator register at some state, and nothing owed. -/
abbrev Beside (c : Dev nD) : sProp 𝕄 := iprop((∃ r, prngReg c r) ∗ ∃ W, owes (c : Thread nD τ) (0 : CellTallies nD τ sig Unit) W)

/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Last (c : Dev nD) : sProp 𝕄 := iprop(StableHlo.held (c : Thread nD τ) (Pipeline.ucRefs τ sig) (Bd6 m c) ∗ ∃ r, prngReg c r)

/-! ## The two kernel regions as segments -/

set_option backward.isDefEq.respectTransparency.types false in
/-- The statistics region: entered with every unstaged buffer at `Bd1`, left at `Bd2`. Its arrays are split out of
    the buffers on entry and put back at their final contents on exit; the generator register goes into the region's
    invariant and comes back; nothing is owed; the kernel has no semaphore of its own. -/
def regStats : Pipeline.RegionSeg (pcfgs (F := F)) adm (pdat m) () defs₀ noVar noPairs noLevel 0 where
  win := launch0.win.to₀
  block_pos := launch0.block_pos
  stage_whole := launch0.stage_whole
  K := PEmpty
  osem k := k.elim
  ho := Pipeline.OwnSemFacts.none _
  hbody c := (R0.body_obligation0 (En1 m) c).loose
  hwaits := Pipeline.hwaits_of_owed_zero _ _ _ _ noPairs noLevel 0 fun _ _ => rfl
  pre c := iprop(StableHlo.held (c : Thread nD τ) (Pipeline.ucRefs τ sig) (Bd1 m c) ∗ Beside c)
  post c := iprop(StableHlo.held (c : Thread nD τ) (Pipeline.ucRefs τ sig) (Bd2 m c) ∗ Beside c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdat m) launch0.win launch0.arr_whole c
      ((pdat m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (En1 m c) (Ex2 m c) ((pdat m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered with every unstaged buffer at `Bd4`, left at `Bd5`. As above, except that its
    invariant tracks the two tables the kernel carries between grid points: before the first point it is the plain
    one (the tables at anything), and after the last it gives the plain one back. -/
def regChamfer : Pipeline.RegionSeg (pcfgs (F := F)) adm (pdat m) () defs₀ noVar noPairs noLevel 1 where
  win := launch1.win.to₀
  block_pos := launch1.block_pos
  stage_whole := launch1.stage_whole
  K := PEmpty
  osem k := k.elim
  ho := Pipeline.OwnSemFacts.none _
  hbody c := (R1.body_obligation1 (En4 m) c).loose
  hwaits := Pipeline.hwaits_of_owed_zero _ _ _ _ noPairs noLevel 1 fun _ _ => rfl
  pre c := iprop(StableHlo.held (c : Thread nD τ) (Pipeline.ucRefs τ sig) (Bd4 m c) ∗ Beside c)
  post c := iprop(StableHlo.held (c : Thread nD τ) (Pipeline.ucRefs τ sig) (Bd5 m c) ∗ Beside c)
  X c := iprop(∃ r, prngReg c r)
  Y c := iprop(∃ r, prngReg c r)
  Z c := Pipeline.unscopedRest (Ix := Unit) (Name := ℕ) (U := UR sig nD τ) (Lvl := ℕ) spec1 c (En4 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdat m 1 c).Φ 0 from R1.hin1 (En4 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdat m 1 c).Φ (Fin.last _) ⊢ Pipeline.ΦA spec1 c from R1.hout1 (En4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (En4 m c) (Ex5 m c) ((pdat m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

/-- The six segments in the program's order. -/
abbrev mainSegs : List (Pipeline.Seg (pcfgs (F := F)) adm (pdat m) () defs₀ noVar noPairs noLevel) :=
  [ .host (hostSeg hostOps0 hostOps0_sub hostOps0_fresh (Bd0 m)),
    .region (regStats m),
    .host (hostSeg hostOps1 hostOps1_sub hostOps1_fresh (Bd2 m)),
    .host (hostSeg hostOps1_1 hostOps1_1_sub hostOps1_1_fresh (Bd3 m)),
    .region (regChamfer m),
    .host (hostSeg hostOps2 hostOps2_sub hostOps2_fresh (Bd5 m)) ]

set_option backward.isDefEq.respectTransparency.types false in
/-- THE RUN. From any memory with zero counters every weakly fair execution of the program terminates, nothing
    faulting, and in every final state each unstaged buffer holds what the fold `Bd6` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd6 m c b) :=
  Pipeline.θ_run_regions_kit (pcfgs (F := F)) adm (pdat m) () cellOf_inj emb₁ defs₀ noVar noPairs noLevel m ρ main (mainSegs m)
    (fun c Q => by
      rewrite [main_chain c, Pipeline.Seg.run_eq_chain,
        show (mainSegs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Beside c)) (Tₙ := Last m)
    (hch := ⟨fun _ => .rfl, fun _ => .rfl, fun _ => .rfl, fun _ => .rfl, fun _ => .rfl, fun _ => .rfl,
      fun c => by
        show iprop(StableHlo.held (c : Thread nD τ) (Pipeline.ucRefs τ sig) (Bd6 m c) ∗ Beside c) ⊢ _
        iintro ⟨Hh, Hp, HO⟩
        isplitl [Hh Hp]
        · isplitl [Hh]; · iexact Hh
          iexact Hp
        iexact HO⟩)
    (hinit := by
      refine Pipeline.initEach noPairs noLevel fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m c b)
    (hfin := fun c s' => by
      iintro ⟨⟨Hh, -⟩, HSI⟩
      unfold StableHlo.held
      imodintro
      iapply (pointsTo_read_all (Pipeline.ucRefs τ sig) (fun b => (((c : Thread nD τ)).1, b)) (Bd6 m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Bd6_main_arg0 m c),
     (h c _ (mem_uc main_arg1 (by decide))).trans (Bd6_main_arg1 m c),
     (h c _ (mem_uc main_arg2 (by decide))).trans (Bd6_main_arg2 m c),
     (h c _ (mem_uc main_arg3 (by decide))).trans (Bd6_main_arg3 m c)⟩) (run_all m ρ)

/-- The run with the result named: the result buffer ends at `Bd6`'s contents, the arguments as launched. -/
theorem run_result : θ_run defs (onTc (τ := τ) (main (F := F))) ⟨m, fun _ => 0, ρ⟩ (fun r => ∀ c : Dev nD,
      r.2.mem ((c.tc : Thread nD τ).loc main_v37) = Bd6 m c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v37 (by decide)),
     (h c _ (mem_uc main_arg0 (by decide))).trans (Bd6_main_arg0 m c),
     (h c _ (mem_uc main_arg1 (by decide))).trans (Bd6_main_arg1 m c),
     (h c _ (mem_uc main_arg2 (by decide))).trans (Bd6_main_arg2 m c),
     (h c _ (mem_uc main_arg3 (by decide))).trans (Bd6_main_arg3 m c)⟩) (run_all m ρ)

end Cert.Kernel.Asm

end
-- ==== Proof.Steps.lean ====
import proofs.«120963_j80418967650486_1_alg».proof.Proof.Gen.KernelIdeal.Skeleton
import Idealize.ShloMosaic.Lib.ValueIdx

/-!
  The two kernels' bodies as pure per-point updates, for any float instance.

  The statistics kernel keeps an 8×128 table whose rows 0–3 are running sums and whose row 4 is a running
  maximum; one run of its body over a block of the three inputs adds that block's four sums to rows 0–3,
  takes the maximum of row 4 with the block's masked maximum, and leaves rows 5–7 alone (`stats_upd`). At the
  first grid point the table is first reset: zeros everywhere, row 4 at the sentinel (`stats_init`).

  The distance kernel keeps two tables between grid points — for each batch row and bin the least squared
  distance to a target seen so far, and for each batch row the running sum over targets of the least squared
  distance to a bin — each updated from one block of targets (`scr1`); at the last grid point it stores, per
  batch row, the sum over bins of the first table plus the second (`out1`).
-/

noncomputable section

namespace Cert.KernelIdeal.Steps

open Idealize.ShloMosaic Idealize.ShloMosaic.ValueIdx Cert.KernelIdeal Cert.KernelIdeal.Gen

variable {F : FTy → Type} [FloatOps F]

/-- Row `r` of an 8×128 table, as a 1×128 vector. -/
def rowOf (v : Vec F S8x128 .f32) (r : Fin 8) : Vec F S1x128 .f32 :=
  fun j => v (ix2 r (⟨(j 1).val, (j 1).isLt⟩ : Fin 128))

/-- The table after the first point's reset: zeros, with row 4 at the sentinel. -/
def stats_init : Vec F S8x128 .f32 := fun j =>
  if (j 0).val = 4 then (k0_pay3 (F := F)) (ix2 (0 : Fin 1) (⟨(j 1).val, (j 1).isLt⟩ : Fin 128)) else (k0_pay2 (F := F)) j

/-- One run of the statistics body over the input blocks `x0` (prediction), `x1` (target), `x2` (mask as 0/1)
    and the table's previous contents `prev`: rows 0–3 gain the block's sums, row 4 the block's masked maximum,
    rows 5–7 are kept. -/
def stats_upd (x0 x1 x2 : Vec F S8x12800 .f32) (prev : Vec F S8x128 .f32) : Vec F S8x128 .f32 := fun j =>
  if (j 0).val = 0 then k0_pay13 (k0_pay8 x0 x1 x2) (rowOf prev 0) (ix2 (0 : Fin 1) (⟨(j 1).val, (j 1).isLt⟩ : Fin 128))
  else if (j 0).val = 1 then k0_pay14 (k0_pay9 x0 x1 x2) (rowOf prev 1) (ix2 (0 : Fin 1) (⟨(j 1).val, (j 1).isLt⟩ : Fin 128))
  else if (j 0).val = 2 then k0_pay15 (k0_pay10 x0 x1 x2) (rowOf prev 2) (ix2 (0 : Fin 1) (⟨(j 1).val, (j 1).isLt⟩ : Fin 128))
  else if (j 0).val = 3 then k0_pay16 (k0_pay11 x2) (rowOf prev 3) (ix2 (0 : Fin 1) (⟨(j 1).val, (j 1).isLt⟩ : Fin 128))
  else if (j 0).val = 4 then k0_pay1 (k0_pay17 (k0_pay12 x1 x2) (rowOf prev 4)) (ix2 (0 : Fin 1) (⟨(j 1).val, (j 1).isLt⟩ : Fin 128))
  else prev j

/-- The table after the body at point `n`, from the input blocks at each point. -/
def stats_at (b0 b1 b2 : ℕ → Vec F S8x12800 .f32) : ℕ → Vec F S8x128 .f32
  | 0 => stats_upd (b0 0) (b1 0) (b2 0) stats_init
  | n + 1 => stats_upd (b0 (n + 1)) (b1 (n + 1)) (b2 (n + 1)) (stats_at b0 b1 b2 n)

/-- The distance kernel's two carried tables after the body at point `n`, from the bins block `x0` and the
    target block at each point: at the first point they start from +∞ and 0. -/
def scr1 (x0 : Vec F S8x82 .f32) (blk : ℕ → Vec F S8x3200 .f32) : ℕ → Vec F S8x82 .f32 × Vec F S8x1 .f32
  | 0 => (k1_pay4 x0 (blk 0) (k1_pay1 (F := F)), k1_pay5 x0 (blk 0) (k1_pay2 (F := F)))
  | n + 1 => (k1_pay4 x0 (blk (n + 1)) (scr1 x0 blk n).1, k1_pay5 x0 (blk (n + 1)) (scr1 x0 blk n).2)

/-- What the distance kernel stores into its output at the last of its 24 points. -/
def out1 (x0 : Vec F S8x82 .f32) (blk : ℕ → Vec F S8x3200 .f32) : Vec F S8x1 .f32 :=
  k1_pay6 (scr1 x0 blk 23).1 (scr1 x0 blk 23).2

end Cert.KernelIdeal.Steps

end
-- ==== Proof.Region0Base.lean ====
import proofs.«120963_j80418967650486_1_alg».proof.Proof.Gen.KernelIdeal.Launch
import proofs.«120963_j80418967650486_1_alg».proof.Proof.Gen.KernelIdeal.Skeleton
import proofs.«120963_j80418967650486_1_alg».proof.Proof.Gen.KernelIdeal.Points
import proofs.«120963_j80418967650486_1_alg».proof.Proof.Steps
import Idealize.ShloMosaic.Lib.Pipeline.FrameBody
import Idealize.ShloMosaic.Lib.Pipeline.Regions
import Idealize.ShloMosaic.Lib.WritesUnit
import Idealize.ShloMosaic.Lib.WholeRead
import Idealize.ShloMosaic.Lib.Ring
import Idealize.ShloMosaic.Lib.Tactic

/-!
  The statistics call as one region of the program: what its runs share.

  The call's one output block (the whole 8×128 table) stays in its staging buffer from the first grid point to
  the last. One run of the body stores five one-row pieces, rows 0–4, each computed from the point's three input
  blocks and from the row the body loaded just before; at the first point two resetting stores come first. This
  module names those pieces and reads a list of them back, row by row.
-/

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one condition -/

/-- The condition of the body's one conditional, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## The body's rectangles and pieces -/

abbrev rIn : Rect S8x12800 := Rect.unit (s := S8x12800) ![0, 0] S8x12800.size inb_S8x12800_S8x12800_0_0
abbrev rAll : Rect S8x128 := Rect.unit (s := S8x128) ![0, 0] S8x128.size inb_S8x128_S8x128_0_0
abbrev rRow0 : Rect S8x128 := Rect.unit (s := S8x128) ![0, 0] S1x128.size inb_S8x128_S1x128_0_0
abbrev rRow1 : Rect S8x128 := Rect.unit (s := S8x128) ![1, 0] S1x128.size inb_S8x128_S1x128_1_0
abbrev rRow2 : Rect S8x128 := Rect.unit (s := S8x128) ![2, 0] S1x128.size inb_S8x128_S1x128_2_0
abbrev rRow3 : Rect S8x128 := Rect.unit (s := S8x128) ![3, 0] S1x128.size inb_S8x128_S1x128_3_0
abbrev rRow4 : Rect S8x128 := Rect.unit (s := S8x128) ![4, 0] S1x128.size inb_S8x128_S1x128_4_0

/-- The five row stores of one run of the body, newest first, over the input blocks and the five rows `l0 … l4` the
    body loaded. -/
abbrev rowPieces (x0 x1 x2 : Vec F S8x12800 .f32) (l0 l1 l2 l3 l4 : Vec F S1x128 .f32) : List (View.Piece (Elt F) S8x128 .f32) :=
  [⟨rRow4, k0_pay1 (k0_pay17 (k0_pay12 x1 x2) l4)⟩, ⟨rRow3, k0_pay16 (k0_pay11 x2) l3⟩, ⟨rRow2, k0_pay15 (k0_pay10 x0 x1 x2) l2⟩,
    ⟨rRow1, k0_pay14 (k0_pay9 x0 x1 x2) l1⟩, ⟨rRow0, k0_pay13 (k0_pay8 x0 x1 x2) l0⟩]

/-- The first point's two resetting stores, newest first. -/
abbrev initPieces : List (View.Piece (Elt F) S8x128 .f32) := [⟨rRow4, k0_pay3 (F := F)⟩, ⟨rAll, k0_pay2 (F := F)⟩]

/-! ## Loads through a whole memref -/

theorem zeros2 : (![0, 0] : Fin 2 → ℕ) = fun _ => 0 := funext fun a => by fin_cases a <;> rfl

/-- A load of a whole input block reads the block. -/
theorem readAt_in {κ : Kind} {sp : Space} {m : Memref sig κ sp S8x12800 .f32} (h : m.IsWhole) (X : Vec F S8x12800 .f32) :
    View.readAt (Elt F) m.view rIn.toLoadRect (h.unread X) = X :=
  (View.readAt_eq_ld m.view (h.unread X) rIn).trans
    ((congrArg (fun Y => View.ld Y rIn) (h.read_unread X)).trans (View.ld_unit_zero zeros2 inb_S8x12800_S8x12800_0_0 X))

/-- The index a one-row rectangle at row `k` places its index `x` at: row `k`, `x`'s column. -/
theorem idx_row (k : ℕ) (hk : k < 8) (inb : ∀ a, (![k, 0] : Fin 2 → ℕ) a + S1x128.size a ≤ S8x128.size a)
    (x : (Rect.unit (s := S8x128) ![k, 0] S1x128.size inb).shape.Idx) :
    (Rect.unit (s := S8x128) ![k, 0] S1x128.size inb).toLoadRect.idx x = ix2 (⟨k, hk⟩ : Fin 8) (⟨(x 1).val, (x 1).isLt⟩ : Fin 128) := by
  funext a
  apply Fin.ext
  match a with
  | ⟨0, _⟩ =>
    have h1 : (x 0).val < 1 := (x 0).isLt
    show k + 1 * (x 0).val = k
    omega
  | ⟨1, _⟩ =>
    show 0 + 1 * (x 1).val = (x 1).val
    omega

/-- A load of row `k` of a table reads that row. -/
theorem ld_row (X : Vec F S8x128 .f32) (k : ℕ) (hk : k < 8) (inb : ∀ a, (![k, 0] : Fin 2 → ℕ) a + S1x128.size a ≤ S8x128.size a) :
    (fun x => X ((Rect.unit (s := S8x128) ![k, 0] S1x128.size inb).toLoadRect.idx x)) = Steps.rowOf X ⟨k, hk⟩ := by
  funext x
  rw [idx_row k hk inb x]
  rfl

/-- A load of row `k` through a whole memref held at the contents reading `X` reads `X`'s row `k`. -/
theorem readAt_row {κ : Kind} {sp : Space} {m : Memref sig κ sp S8x128 .f32} (h : m.IsWhole) (X : Vec F S8x128 .f32) (k : ℕ) (hk : k < 8)
    (inb : ∀ a, (![k, 0] : Fin 2 → ℕ) a + S1x128.size a ≤ S8x128.size a) :
    View.readAt (Elt F) m.view (Rect.unit (s := S8x128) ![k, 0] S1x128.size inb).toLoadRect (h.unread X) = Steps.rowOf X ⟨k, hk⟩ :=
  (funext fun x => h.readAt_unread X _ x).trans (ld_row X k hk inb)

/-- A load of row `k` that earlier stores of the run cover reads row `k` of any table `G` that the stores' pieces, written
    over anything, read as on that row. -/
theorem readCov_row {κ : Kind} {sp : Space} (v : View sig κ sp S8x128 .f32) (L : List (View.Piece (Elt F) S8x128 .f32)) (k : ℕ) (hk : k < 8)
    (inb : ∀ a, (![k, 0] : Fin 2 → ℕ) a + S1x128.size a ≤ S8x128.size a) (G : Vec F S8x128 .f32)
    (hG : ∀ y : S8x128.Idx, (y 0).val = k → v.read (Elt F) (v.writes (Elt F) v.junk L) y = G y) :
    v.readCov L (Rect.unit (s := S8x128) ![k, 0] S1x128.size inb).toLoadRect = Steps.rowOf G ⟨k, hk⟩ := by
  funext x
  show v.read (Elt F) (v.writes (Elt F) v.junk L) ((Rect.unit (s := S8x128) ![k, 0] S1x128.size inb).toLoadRect.idx x) = _
  rw [idx_row k hk inb x]
  exact hG _ rfl

/-! ## A list of the body's pieces read back -/

section Read

variable {κ : Kind} {sp : Space} (v : View sig κ sp S8x128 .f32) (f : v.ty.Contents (Elt F))

/-- The column index of a table index, as an index of a one-row piece. -/
abbrev colOf (j : S8x128.Idx) : S1x128.Idx := ix2 (0 : Fin 1) (⟨(j 1).val, (j 1).isLt⟩ : Fin 128)

/-- After the two resetting stores the table reads as the reset table, whatever it held. -/
theorem read_initPieces : v.read (Elt F) (v.writes (Elt F) f (initPieces (F := F))) = Steps.stats_init (F := F) := by
  funext j
  unfold Steps.stats_init
  beta_reduce
  by_cases c4 : (j 0).val = 4
  · rw [if_pos c4]
    exact View.read_writes_cons_rows_of_mem v f inb_S8x128_S1x128_4_0 (k0_pay3 (F := F)) _ j (colOf j) rfl c4 rfl
  · rw [if_neg c4]
    have hj : (j 0).val < 8 := (j 0).isLt
    refine (View.read_writes_cons_rows_of_not_mem (W := 1) v f inb_S8x128_S1x128_4_0 (k0_pay3 (F := F)) _ j rfl rfl (by omega)).trans ?_
    exact View.read_writes_cons_unit_of_mem v f inb_S8x128_S8x128_0_0 (k0_pay2 (F := F)) [] j j rfl
      (Fin.forall_fin_two.mpr ⟨(Nat.zero_add _).symm, (Nat.zero_add _).symm⟩)

/-- THE UPDATE READ BACK. Over earlier pieces `L` after which the table reads `prev`, the five row stores of one run
    of the body — each computed from the row of `prev` it replaces — leave the table reading `stats_upd` of `prev`:
    rows 0–4 read their pieces' payloads, rows 5–7 read `prev`. -/
theorem read_rowPieces (x0 x1 x2 : Vec F S8x12800 .f32) (l0 l1 l2 l3 l4 : Vec F S1x128 .f32) (L : List (View.Piece (Elt F) S8x128 .f32))
    (prev : Vec F S8x128 .f32) (hprev : v.read (Elt F) (v.writes (Elt F) f L) = prev)
    (h0 : l0 = Steps.rowOf prev 0) (h1 : l1 = Steps.rowOf prev 1) (h2 : l2 = Steps.rowOf prev 2) (h3 : l3 = Steps.rowOf prev 3)
    (h4 : l4 = Steps.rowOf prev 4) :
    v.read (Elt F) (v.writes (Elt F) f (rowPieces x0 x1 x2 l0 l1 l2 l3 l4 ++ L)) = Steps.stats_upd x0 x1 x2 prev := by
  subst h0 h1 h2 h3 h4
  funext j
  unfold Steps.stats_upd
  beta_reduce
  have hj : (j 0).val < 8 := (j 0).isLt
  by_cases c0 : (j 0).val = 0
  · rw [if_pos c0]
    refine (View.read_writes_cons_rows_of_not_mem (W := 1) v f inb_S8x128_S1x128_4_0 _ _ j rfl rfl (by omega)).trans ?_
    refine (View.read_writes_cons_rows_of_not_mem (W := 1) v f inb_S8x128_S1x128_3_0 _ _ j rfl rfl (by omega)).trans ?_
    refine (View.read_writes_cons_rows_of_not_mem (W := 1) v f inb_S8x128_S1x128_2_0 _ _ j rfl rfl (by omega)).trans ?_
    refine (View.read_writes_cons_rows_of_not_mem (W := 1) v f inb_S8x128_S1x128_1_0 _ _ j rfl rfl (by omega)).trans ?_
    exact View.read_writes_cons_rows_of_mem v f inb_S8x128_S1x128_0_0 _ _ j (colOf j) rfl c0 rfl
  by_cases c1 : (j 0).val = 1
  · rw [if_neg c0, if_pos c1]
    refine (View.read_writes_cons_rows_of_not_mem (W := 1) v f inb_S8x128_S1x128_4_0 _ _ j rfl rfl (by omega)).trans ?_
    refine (View.read_writes_cons_rows_of_not_mem (W := 1) v f inb_S8x128_S1x128_3_0 _ _ j rfl rfl (by omega)).trans ?_
    refine (View.read_writes_cons_rows_of_not_mem (W := 1) v f inb_S8x128_S1x128_2_0 _ _ j rfl rfl (by omega)).trans ?_
    exact View.read_writes_cons_rows_of_mem v f inb_S8x128_S1x128_1_0 _ _ j (colOf j) rfl c1 rfl
  by_cases c2 : (j 0).val = 2
  · rw [if_neg c0, if_neg c1, if_pos c2]
    refine (View.read_writes_cons_rows_of_not_mem (W := 1) v f inb_S8x128_S1x128_4_0 _ _ j rfl rfl (by omega)).trans ?_
    refine (View.read_writes_cons_rows_of_not_mem (W := 1) v f inb_S8x128_S1x128_3_0 _ _ j rfl rfl (by omega)).trans ?_
    exact View.read_writes_cons_rows_of_mem v f inb_S8x128_S1x128_2_0 _ _ j (colOf j) rfl c2 rfl
  by_cases c3 : (j 0).val = 3
  · rw [if_neg c0, if_neg c1, if_neg c2, if_pos c3]
    refine (View.read_writes_cons_rows_of_not_mem (W := 1) v f inb_S8x128_S1x128_4_0 _ _ j rfl rfl (by omega)).trans ?_
    exact View.read_writes_cons_rows_of_mem v f inb_S8x128_S1x128_3_0 _ _ j (colOf j) rfl c3 rfl
  by_cases c4 : (j 0).val = 4
  · rw [if_neg c0, if_neg c1, if_neg c2, if_neg c3, if_pos c4]
    exact View.read_writes_cons_rows_of_mem v f inb_S8x128_S1x128_4_0 _ _ j (colOf j) rfl c4 rfl
  rw [if_neg c0, if_neg c1, if_neg c2, if_neg c3, if_neg c4]
  refine (View.read_writes_cons_rows_of_not_mem (W := 1) v f inb_S8x128_S1x128_4_0 _ _ j rfl rfl (by omega)).trans ?_
  refine (View.read_writes_cons_rows_of_not_mem (W := 1) v f inb_S8x128_S1x128_3_0 _ _ j rfl rfl (by omega)).trans ?_
  refine (View.read_writes_cons_rows_of_not_mem (W := 1) v f inb_S8x128_S1x128_2_0 _ _ j rfl rfl (by omega)).trans ?_
  refine (View.read_writes_cons_rows_of_not_mem (W := 1) v f inb_S8x128_S1x128_1_0 _ _ j rfl rfl (by omega)).trans ?_
  refine (View.read_writes_cons_rows_of_not_mem (W := 1) v f inb_S8x128_S1x128_0_0 _ _ j rfl rfl (by omega)).trans ?_
  exact congrFun hprev j

end Read

end Cert.KernelIdeal.R0
end
-- ==== Proof.Region0RunA.lean ====
import proofs.«120963_j80418967650486_1_alg».proof.Proof.Region0Base

/-!
  The statistics body at the first grid point: its run on whole staging memrefs, and what its stores leave.
-/

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output's staging memref at the first point (the conditional taken),
    newest first, with the proof that on whole staging memrefs — the inputs' at their contents, the output's at
    anything — the body runs to the continuation holding the inputs' as they were and the output's buffer with
    those pieces written. -/
noncomputable def kernelRun0_A (c : Dev nD) (i : grid0.Coords) (arg1 : Memref sig .tc .vmem S8x12800 .f32) (harg1 : arg1.IsWhole) (arg2 : Memref sig .tc .vmem S8x12800 .f32) (harg2 : arg2.IsWhole) (arg3 : Memref sig .tc .vmem S8x12800 .f32) (harg3 : arg3.IsWhole) (arg4 : Memref sig .tc .vmem S8x128 .f32) (harg4 : arg4.IsWhole) (hc0 : cond0_0 i)
    (x0 x1 x2 : Vec F S8x12800 .f32) :
    { L : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0__stats_kernel i arg1 harg1 arg2 harg2 arg3 harg3 arg4 harg4) K } := by
  refine ⟨?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- Those pieces are the five row stores, each over the row of the reset table that the two resetting stores before it
    left, on top of the two resetting stores: written over anything they leave the table reading `stats_upd` of the
    reset table. -/
theorem read_A (c : Dev nD) (i : grid0.Coords) (arg1 : Memref sig .tc .vmem S8x12800 .f32) (harg1 : arg1.IsWhole) (arg2 : Memref sig .tc .vmem S8x12800 .f32) (harg2 : arg2.IsWhole) (arg3 : Memref sig .tc .vmem S8x12800 .f32) (harg3 : arg3.IsWhole) (arg4 : Memref sig .tc .vmem S8x128 .f32) (harg4 : arg4.IsWhole) (hc0 : cond0_0 i)
    (x0 x1 x2 : Vec F S8x12800 .f32) (f : arg4.view.ty.Contents (Elt F)) :
    arg4.view.read (Elt F) (arg4.view.writes (Elt F) f (kernelRun0_A c i arg1 harg1 arg2 harg2 arg3 harg3 arg4 harg4 hc0 x0 x1 x2).1)
      = Steps.stats_upd x0 x1 x2 Steps.stats_init := by
  dsimp only [kernelRun0_A, kernelRun0_A.sl.H3_2, kernelRun0_A.sl.H3_3, kernelRun0_A.sl.H3_4, kernelRun0_A.sl.H3_5, kernelRun0_A.sl.H3_6, kernelRun0_A.sl.v46, kernelRun0_A.sl.v53, kernelRun0_A.sl.v60, kernelRun0_A.sl.v67, kernelRun0_A.sl.v74, kernelRun0_A.sl.r, kernelRun0_A.sl.r_1, kernelRun0_A.sl.r_2, kernelRun0_A.sl.r_3, kernelRun0_A.sl.r_4, kernelRun0_A.sl.r_5]
  rw [readAt_in harg1 x0, readAt_in harg2 x1, readAt_in harg3 x2]
  refine read_rowPieces arg4.view f x0 x1 x2 _ _ _ _ _ initPieces Steps.stats_init (read_initPieces _ f) ?_ ?_ ?_ ?_ ?_
  · exact readCov_row _ _ 0 (by decide) _ _ fun y hy => congrFun (read_initPieces _ _) y
  · refine readCov_row _ _ 1 (by decide) _ _ fun y hy => ?_
    refine (View.read_writes_cons_rows_of_not_mem (W := 1) _ _ inb_S8x128_S1x128_0_0 _ _ y rfl rfl (by omega)).trans ?_
    exact congrFun (read_initPieces _ _) y
  · refine readCov_row _ _ 2 (by decide) _ _ fun y hy => ?_
    refine (View.read_writes_cons_rows_of_not_mem (W := 1) _ _ inb_S8x128_S1x128_1_0 _ _ y rfl rfl (by omega)).trans ?_
    refine (View.read_writes_cons_rows_of_not_mem (W := 1) _ _ inb_S8x128_S1x128_0_0 _ _ y rfl rfl (by omega)).trans ?_
    exact congrFun (read_initPieces _ _) y
  · refine readCov_row _ _ 3 (by decide) _ _ fun y hy => ?_
    refine (View.read_writes_cons_rows_of_not_mem (W := 1) _ _ inb_S8x128_S1x128_2_0 _ _ y rfl rfl (by omega)).trans ?_
    refine (View.read_writes_cons_rows_of_not_mem (W := 1) _ _ inb_S8x128_S1x128_1_0 _ _ y rfl rfl (by omega)).trans ?_
    refine (View.read_writes_cons_rows_of_not_mem (W := 1) _ _ inb_S8x128_S1x128_0_0 _ _ y rfl rfl (by omega)).trans ?_
    exact congrFun (read_initPieces _ _) y
  · refine readCov_row _ _ 4 (by decide) _ _ fun y hy => ?_
    refine (View.read_writes_cons_rows_of_not_mem (W := 1) _ _ inb_S8x128_S1x128_3_0 _ _ y rfl rfl (by omega)).trans ?_
    refine (View.read_writes_cons_rows_of_not_mem (W := 1) _ _ inb_S8x128_S1x128_2_0 _ _ y rfl rfl (by omega)).trans ?_
    refine (View.read_writes_cons_rows_of_not_mem (W := 1) _ _ inb_S8x128_S1x128_1_0 _ _ y rfl rfl (by omega)).trans ?_
    refine (View.read_writes_cons_rows_of_not_mem (W := 1) _ _ inb_S8x128_S1x128_0_0 _ _ y rfl rfl (by omega)).trans ?_
    exact congrFun (read_initPieces _ _) y

end Cert.KernelIdeal.R0
end
-- ==== Proof.Region0RunB.lean ====
import proofs.«120963_j80418967650486_1_alg».proof.Proof.Region0RunA

/-!
  The statistics body at a later grid point: its run on whole staging memrefs over the table the point before
  left, and what its stores leave.
-/

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output's staging memref at a later point (the conditional not taken),
    newest first, with the proof that on whole staging memrefs — the inputs' at their contents, the output's at the
    table `xo` the point before left — the body runs to the continuation holding the inputs' as they were and the
    output's buffer, over the contents reading `xo`, with those pieces written. -/
noncomputable def kernelRun0_B (c : Dev nD) (i : grid0.Coords) (arg1 : Memref sig .tc .vmem S8x12800 .f32) (harg1 : arg1.IsWhole) (arg2 : Memref sig .tc .vmem S8x12800 .f32) (harg2 : arg2.IsWhole) (arg3 : Memref sig .tc .vmem S8x12800 .f32) (harg3 : arg3.IsWhole) (arg4 : Memref sig .tc .vmem S8x128 .f32) (harg4 : arg4.IsWhole) (hc0 : ¬cond0_0 i)
    (x0 x1 x2 : Vec F S8x12800 .f32) (xo : Vec F S8x128 .f32) :
    { L : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} arg4.view.writes (Elt F) (harg4.unread xo) L)) -∗ K ⟨⟩))
          ⊢ wp frame (wpE (defs₀ (F := F)) Variants.none c none) E (cc0__stats_kernel i arg1 harg1 arg2 harg2 arg3 harg3 arg4 harg4) K } := by
  refine ⟨?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexact H3

/-- Those pieces are the five row stores over the rows of `xo`, so over the contents reading `xo` they leave the
    table reading `stats_upd` of `xo`. -/
theorem read_B (c : Dev nD) (i : grid0.Coords) (arg1 : Memref sig .tc .vmem S8x12800 .f32) (harg1 : arg1.IsWhole) (arg2 : Memref sig .tc .vmem S8x12800 .f32) (harg2 : arg2.IsWhole) (arg3 : Memref sig .tc .vmem S8x12800 .f32) (harg3 : arg3.IsWhole) (arg4 : Memref sig .tc .vmem S8x128 .f32) (harg4 : arg4.IsWhole) (hc0 : ¬cond0_0 i)
    (x0 x1 x2 : Vec F S8x12800 .f32) (xo : Vec F S8x128 .f32) :
    arg4.view.read (Elt F) (arg4.view.writes (Elt F) (harg4.unread xo) (kernelRun0_B c i arg1 harg1 arg2 harg2 arg3 harg3 arg4 harg4 hc0 x0 x1 x2 xo).1)
      = Steps.stats_upd x0 x1 x2 xo := by
  dsimp only [kernelRun0_B, kernelRun0_B.sl.r, kernelRun0_B.sl.r_1, kernelRun0_B.sl.r_2, kernelRun0_B.sl.r_3, kernelRun0_B.sl.r_4,
    kernelRun0_B.sl.r_5, kernelRun0_B.sl.v53, kernelRun0_B.sl.v60, kernelRun0_B.sl.v67, kernelRun0_B.sl.v74]
  rw [readAt_in harg1 x0, readAt_in harg2 x1, readAt_in harg3 x2]
  exact read_rowPieces arg4.view (harg4.unread xo) x0 x1 x2 _ _ _ _ _ [] xo (harg4.read_unread xo)
    (readAt_row harg4 xo 0 (by decide) _) (readAt_row harg4 xo 1 (by decide) _) (readAt_row harg4 xo 2 (by decide) _)
    (readAt_row harg4 xo 3 (by decide) _) (readAt_row harg4 xo 4 (by decide) _)

end Cert.KernelIdeal.R0
end
-- ==== Proof.Region0.lean ====
import proofs.«120963_j80418967650486_1_alg».proof.Proof.Region0RunB
import Idealize.ShloMosaic.Lib.Pipeline.Value

/-!
  The statistics call as one region of the program, at the buffer contents `V` the region is entered with.

  The call's one output block (the whole 8×128 table) stays in its staging buffer from the first grid point to
  the last and is written back once, at the last point. At the first point the body resets the table and then
  updates rows 0–4 from the point's input blocks; at every later point it updates rows 0–4 over what the point
  before left, and rows 5–7 keep their contents. So the buffer after the body at point `n` is the `n`-fold
  update of the reset table by the input blocks at points `0, …, n`, and the output array ends holding the
  table after the last point.
-/

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the output holds after each point -/

/-- The table in the output's staging buffer after the body at point `n`: the reset table updated by the input
    blocks of points `0, …, n` in turn. -/
def outsAt0 (c : Dev nD) : (n : ℕ) → n < cfg0.N → Vec F S8x128 .f32
  | 0, hn => Steps.stats_upd (iblk0 V c 0 ⟨0, hn⟩) (iblk0 V c 1 ⟨0, hn⟩) (iblk0 V c 2 ⟨0, hn⟩) Steps.stats_init
  | n + 1, hn => Steps.stats_upd (iblk0 V c 0 ⟨n + 1, hn⟩) (iblk0 V c 1 ⟨n + 1, hn⟩) (iblk0 V c 2 ⟨n + 1, hn⟩) (outsAt0 c n (Nat.lt_of_succ_lt hn))

theorem outsAt0_zero (c : Dev nD) (h : 0 < cfg0.N) :
    outsAt0 V c 0 h = Steps.stats_upd (iblk0 V c 0 ⟨0, h⟩) (iblk0 V c 1 ⟨0, h⟩) (iblk0 V c 2 ⟨0, h⟩) Steps.stats_init := rfl

theorem outsAt0_succ (c : Dev nD) (n : ℕ) (h : n + 1 < cfg0.N) :
    outsAt0 V c (n + 1) h = Steps.stats_upd (iblk0 V c 0 ⟨n + 1, h⟩) (iblk0 V c 1 ⟨n + 1, h⟩) (iblk0 V c 2 ⟨n + 1, h⟩) (outsAt0 V c n (Nat.lt_of_succ_lt h)) := rfl

/-- At the first point: the update of the reset table. -/
theorem outsAt0_A (c : Dev nD) (t : Fin cfg0.N) (h0 : t.val = 0) :
    outsAt0 V c t.val t.isLt = Steps.stats_upd (iblk0 V c 0 t) (iblk0 V c 1 t) (iblk0 V c 2 t) Steps.stats_init := by
  obtain ⟨n, hn⟩ := t
  cases n with
  | zero => exact rfl
  | succ n => exact absurd h0 (Nat.succ_ne_zero n)

/-- At a later point: the update of what the point before left. -/
theorem outsAt0_B (c : Dev nD) (t : Fin cfg0.N) (h0 : ¬t.val = 0) :
    outsAt0 V c t.val t.isLt = Steps.stats_upd (iblk0 V c 0 t) (iblk0 V c 1 t) (iblk0 V c 2 t)
      (outsAt0 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the statistics pipeline on core `c`: the arrays as the region finds them; after the body at
    point `t` each input's buffer at its block and the output's at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point the output's staging buffer holds what the body left at the point before: the buffer is not
    written back between (only the last point writes back), and the window is live and uncut. -/
theorem before0_3_B (c : Dev nD) (t : Fin cfg0.N) (h0 : ¬t.val = 0) (d) :
    (dat0 V c).before 3 t d = outsAt0 V c (t.val - 1) (Nat.lt_of_le_of_lt (Nat.sub_le _ _) t.isLt) := by
  have hN : t.val < 6 := lt_of_lt_of_eq t.isLt (show cfg0.N = 6 from N_0)
  rw [Dat.before_out_kept _ 3 rfl t h0 (Bool.eq_false_iff.mpr fun h => by have := (flush0_3 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks; the point is the first or a later one, and at a
    later one the output's buffer holds what the point before left; so that case's run applies, and its pieces read
    back as the update; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [outsAt0_A V c t h0]
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact read_A c _ _ _ _ _ _ _ _ _ _ _ _ _ _
  · rw [outsAt0_B V c t h0]
    simp only [before0_3_B V c t h0]
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) (iblk0 V c 2 t) _).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact read_B c _ _ _ _ _ _ _ _ _ _ _ _ _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output array after the region -/

/-- The one write-back, at the last point, writes the table after that point: the output's one block, read through
    zero offsets, is the whole array. -/
theorem flushed_eq0 (c : Dev nD) (t : Fin cfg0.N) (hf : (cfg0.win 3).flush t = true) :
    (dat0 V c).flushed 3 t = ((cfg0.win 3).blk t).view.read (Elt F) (outsAt0 V c 5 (by rw [show cfg0.N = 6 from N_0]; decide)) := by
  have hN : cfg0.N = 6 := N_0
  have h5 : t.val = 5 := by have := (flush0_3 t).mp hf; have := t.isLt; omega
  obtain rfl : t = t0_5 := Fin.ext h5
  show (cfg0.win 3).cut (grid0.coords t0_5) ((dat0 V c).after 3 t0_5) = _
  rw [after0_3]
  have hz' : (fun a => win0_3.index t0_5 a * main_v4.ty.shape.size a) = fun _ => 0 := funext fun a => by fin_cases a <;> decide
  exact (Memref.read_access_unit_zero (Elt F) main_v4 hz' (fun a => by rw [congrFun hz' a]; simp) (outsAt0 V c 5 _)).symm

/-- So the output array ends holding the table after the last point: that point's block covers the array. -/
theorem arrAt0_out (c : Dev nD) :
    (dat0 V c).arrAt 3 cfg0.N = outsAt0 V c 5 (by rw [show cfg0.N = 6 from N_0]; decide) :=
  (dat0 V c).arrAt_eq_of_cover 3 (outsAt0 V c 5 (by rw [show cfg0.N = 6 from N_0]; decide)) (flushed_eq0 V c) fun i =>
    ⟨t0_5, (flush0_3 t0_5).mpr rfl, by
      show i ∈ ((View.whole main_v4).slice (win0_3.rect t0_5)).set
      rw [View.set_slice_whole, Rect.mem_set_unit]
      intro a
      have h0 : (i 0 : Nat) < 8 := (i 0).isLt
      have h1 : (i 1 : Nat) < 128 := (i 1).isLt
      match a with
      | ⟨0, _⟩ => show win0_3.index t0_5 0 * win0_3.size 0 ≤ (i 0 : Nat) ∧ (i 0 : Nat) < win0_3.index t0_5 0 * win0_3.size 0 + win0_3.xsize (grid0.coords t0_5) 0
                  rw [show win0_3.index t0_5 0 * win0_3.size 0 = 0 from by decide +kernel, show win0_3.xsize (grid0.coords t0_5) 0 = 8 from by decide +kernel]; omega
      | ⟨1, _⟩ => show win0_3.index t0_5 1 * win0_3.size 1 ≤ (i 1 : Nat) ∧ (i 1 : Nat) < win0_3.index t0_5 1 * win0_3.size 1 + win0_3.xsize (grid0.coords t0_5) 1
                  rw [show win0_3.index t0_5 1 * win0_3.size 1 = 0 from by decide +kernel, show win0_3.xsize (grid0.coords t0_5) 1 = 128 from by decide +kernel]; omega⟩

end Cert.KernelIdeal.R0
end
-- ==== Proof.Region1Runs.lean ====
import proofs.«120963_j80418967650486_1_alg».proof.Proof.Gen.KernelIdeal.Launch
import proofs.«120963_j80418967650486_1_alg».proof.Proof.Gen.KernelIdeal.Skeleton
import proofs.«120963_j80418967650486_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's region (pipeline 1), at the buffer contents `V` the region is entered with:
    what its three control cases share -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The bins window's staging buffer holds its block at every point, though it is fetched at the first only: its
    block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The targets window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first point": the condition of the body's first conditional, from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 24 = 0 :=
  (by decide +kernel : ∀ t : Fin grid1.N, cond1_0 (grid1.coords t) ↔ t.val % 24 = 0)

/-- "This is the last point": the condition of the body's second conditional. -/
abbrev cond1_1 (i : grid1.Coords) : Prop := k1_cond2 i = 1#1
theorem hcond1_1 : ∀ t : Fin cfg1.N, cond1_1 (grid1.coords t) ↔ t.val % 24 = 23 :=
  (by decide +kernel : ∀ t : Fin grid1.N, cond1_1 (grid1.coords t) ↔ t.val % 24 = 23)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Before the last point the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S8x82 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x3200 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1 .f32 := win1_2.stage (cfg1.slots t 2)
abbrev hs1_2 (t : Fin cfg1.N) : (ms1_2 t).IsWhole := hstage1_2 ((cfg1.slots t 2).cast nbuf1_2)
/-- The two tables the kernel carries between points: whole scoped buffers of its own. -/
abbrev scM0 : Memref sig .tc .vmem S8x82 .f32 := Memref.whole cc1_scratch0
abbrev scM1 : Memref sig .tc .vmem S8x1 .f32 := Memref.whole cc1_scratch1

/-- The whole-buffer rectangles every load and store of the body goes through. -/
abbrev rB : Rect S8x82 := Rect.unit (s := S8x82) ![0, 0] S8x82.size inb_S8x82_S8x82_0_0
abbrev rT : Rect S8x3200 := Rect.unit (s := S8x3200) ![0, 0] S8x3200.size inb_S8x3200_S8x3200_0_0
abbrev rO : Rect S8x1 := Rect.unit (s := S8x1) ![0, 0] S8x1.size inb_S8x1_S8x1_0_0
/-- Their offsets are zero. -/
theorem hz2 : (![0, 0] : Fin 2 → Nat) = fun _ => 0 := by funext a; fin_cases a <;> rfl

/-- After a store through the whole-buffer rectangle, made last, the buffer reads the stored value, whatever was stored
    or held before. -/
theorem read_writes_cons_whole {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-! ## The invariant -/

/-- The core's scoped buffers that this pipeline does not stage — the other pipeline's seven staging buffers, each at
    some contents, then the two carried tables at `S0` and `S1`. -/
def scoped1 (c : Dev nD) (S0 S1 : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ S0 ∗ S1)

/-- What the launch hands the region, with the two tables as memrefs owned at some contents. -/
theorem PhiA1_eq (c : Dev nD) :
    (Pipeline.ΦA spec1 c : sProp 𝕄)
      = iprop(scoped1 c iprop(∃ d, owns (c : Thread nD τ) scM0 fullShare d) iprop(∃ d, owns (c : Thread nD τ) scM1 fullShare d) ∗ (∃ r, prngReg c r)) := by
  unfold Pipeline.ΦA scoped1; rw [scopedRest1_eq]; simp only [scM0, scM1, owns_whole]; try rfl

end Cert.KernelIdeal.R1

end
-- ==== Proof.Region1RunA.lean ====
import proofs.«120963_j80418967650486_1_alg».proof.Proof.Region1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's body at the first point (the tables are reset, then updated) -/

set_option maxHeartbeats 1000000 in
/-- On whole memrefs — the two inputs at `x0`, `x1`, the output's at `xi2`, the two tables at anything — the body runs
    to the continuation holding the inputs and the output as they were, the first table at the minimum of +∞ with this
    block's least squared distances, the second at 0 plus this block's sum. -/
theorem kernelRun1_A (c : Dev nD) (i : grid1.Coords)
    (arg1 : Memref sig .tc .vmem S8x82 .f32) (harg1 : arg1.IsWhole) (arg2 : Memref sig .tc .vmem S8x3200 .f32) (harg2 : arg2.IsWhole)
    (arg3 : Memref sig .tc .vmem S8x1 .f32) (harg3 : arg3.IsWhole) (arg4 : Memref sig .tc .vmem S8x82 .f32) (harg4 : arg4.IsWhole)
    (arg5 : Memref sig .tc .vmem S8x1 .f32) (harg5 : arg5.IsWhole) (hc0 : cond1_0 i) (hc1 : ¬cond1_1 i)
    (x0 : Vec F S8x82 .f32) (x1 : Vec F S8x3200 .f32) (xi2 : Vec F S8x1 .f32)
    (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k1_pay4 x0 x1 (k1_pay1 (F := F))) ∗ owns (c : Thread nD τ) arg5 fullShare (k1_pay5 x0 x1 (k1_pay2 (F := F)))) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]
  · iexists _; isplitr
    swap; · iexact HS1
    ipureintro
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]

end Cert.KernelIdeal.R1

end
-- ==== Proof.Region1RunB.lean ====
import proofs.«120963_j80418967650486_1_alg».proof.Proof.Region1RunA

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's body at a middle point (neither conditional taken) -/

set_option maxHeartbeats 1000000 in
/-- On whole memrefs — the two inputs at `x0`, `x1`, the output's at `xi2`, the two tables at `s0`, `s1` — the body
    runs to the continuation holding the inputs and the output as they were, the first table at its minimum with this
    block's least squared distances, the second at its sum with this block's. -/
theorem kernelRun1_B (c : Dev nD) (i : grid1.Coords)
    (arg1 : Memref sig .tc .vmem S8x82 .f32) (harg1 : arg1.IsWhole) (arg2 : Memref sig .tc .vmem S8x3200 .f32) (harg2 : arg2.IsWhole)
    (arg3 : Memref sig .tc .vmem S8x1 .f32) (harg3 : arg3.IsWhole) (arg4 : Memref sig .tc .vmem S8x82 .f32) (harg4 : arg4.IsWhole)
    (arg5 : Memref sig .tc .vmem S8x1 .f32) (harg5 : arg5.IsWhole) (hc0 : ¬cond1_0 i) (hc1 : ¬cond1_1 i)
    (x0 : Vec F S8x82 .f32) (x1 : Vec F S8x3200 .f32) (s0 : Vec F S8x82 .f32) (s1 : Vec F S8x1 .f32) (xi2 : Vec F S8x1 .f32)
    (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare s0 ∗ owns (c : Thread nD τ) arg5 fullShare s1
        ∗ (iprop(owns (c : Thread nD τ) arg1 fullShare x0 ∗ owns (c : Thread nD τ) arg2 fullShare x1 ∗ owns (c : Thread nD τ) arg3 fullShare xi2
            ∗ owns (c : Thread nD τ) arg4 fullShare (k1_pay4 x0 x1 s0) ∗ owns (c : Thread nD τ) arg5 fullShare (k1_pay5 x0 x1 s1)) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]
  · iexists _; isplitr
    swap; · iexact HS1
    ipureintro
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]

end Cert.KernelIdeal.R1

end
-- ==== Proof.Region1RunC.lean ====
import proofs.«120963_j80418967650486_1_alg».proof.Proof.Region1RunB

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's body at the last point (the tables are updated, then the output is stored) -/

set_option maxHeartbeats 1000000 in
/-- On whole memrefs — the two inputs at `x0`, `x1`, the output's at anything, the two tables at `s0`, `s1` — the body
    runs to the continuation holding the inputs as they were, the tables updated as at a middle point, and the output
    at the sum over bins of the first table plus the second. -/
theorem kernelRun1_C (c : Dev nD) (i : grid1.Coords)
    (arg1 : Memref sig .tc .vmem S8x82 .f32) (harg1 : arg1.IsWhole) (arg2 : Memref sig .tc .vmem S8x3200 .f32) (harg2 : arg2.IsWhole)
    (arg3 : Memref sig .tc .vmem S8x1 .f32) (harg3 : arg3.IsWhole) (arg4 : Memref sig .tc .vmem S8x82 .f32) (harg4 : arg4.IsWhole)
    (arg5 : Memref sig .tc .vmem S8x1 .f32) (harg5 : arg5.IsWhole) (hc0 : ¬cond1_0 i) (hc1 : cond1_1 i)
    (x0 : Vec F S8x82 .f32) (x1 : Vec F S8x3200 .f32) (s0 : Vec F S8x82 .f32) (s1 : Vec F S8x1 .f32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare s0 ∗ owns (c : Thread nD τ) arg5 fullShare s1
        ∗ (iprop(owns (c : Thread nD τ) arg1 fullShare x0 ∗ owns (c : Thread nD τ) arg2 fullShare x1 ∗ owns (c : Thread nD τ) arg3 fullShare (k1_pay6 (k1_pay4 x0 x1 s0) (k1_pay5 x0 x1 s1))
            ∗ owns (c : Thread nD τ) arg4 fullShare (k1_pay4 x0 x1 s0) ∗ owns (c : Thread nD τ) arg5 fullShare (k1_pay5 x0 x1 s1)) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    try sl_unfold_words
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]
  isplitl [HS0]
  · iexists _; isplitr
    swap; · iexact HS0
    ipureintro
    try sl_unfold_words
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]
  · iexists _; isplitr
    swap; · iexact HS1
    ipureintro
    try sl_unfold_words
    rw [read_writes_cons_whole _ _ hz2]
    try sl_unfold_words
    simp only [View.readAt_eq_ld, harg1.read_unread, harg2.read_unread, harg3.read_unread, harg4.read_unread, harg5.read_unread,
      View.readCov_unit_zero (S := S8x82) _ hz2, View.readCov_unit_zero (S := S8x1) _ hz2,
      View.ld_unit_zero (S := S8x82) hz2, View.ld_unit_zero (S := S8x3200) hz2, View.ld_unit_zero (S := S8x1) hz2]

end Cert.KernelIdeal.R1

end
-- ==== Proof.Region1.lean ====
import proofs.«120963_j80418967650486_1_alg».proof.Proof.Region1RunC
import proofs.«120963_j80418967650486_1_alg».proof.Proof.Steps

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The distance kernel's region (pipeline 1): what its tables and output hold point by point, the proof data,
    the body obligation, and the tables and output as the pure per-point updates -/

/-! ## What the body leaves after each point -/

/-- What the body leaves after point `n`: (the output block, the table of least squared distances, the table of
    running sums). The tables start from +∞ and 0 at the first point and are updated from the point's target block;
    the output component is the sum over bins of the first table plus the second, which the body stores at the last
    point only (at the other points it is a placeholder nothing reads). -/
def outsAt1 (c : Dev nD) : (n : ℕ) → n < cfg1.N → Vec F S8x1 .f32 × Vec F S8x82 .f32 × Vec F S8x1 .f32
  | 0, hn =>
    (k1_pay6 (k1_pay4 (iblk1 V c 0 ⟨0, hn⟩) (iblk1 V c 1 ⟨0, hn⟩) (k1_pay1 (F := F)))
        (k1_pay5 (iblk1 V c 0 ⟨0, hn⟩) (iblk1 V c 1 ⟨0, hn⟩) (k1_pay2 (F := F))),
      k1_pay4 (iblk1 V c 0 ⟨0, hn⟩) (iblk1 V c 1 ⟨0, hn⟩) (k1_pay1 (F := F)),
      k1_pay5 (iblk1 V c 0 ⟨0, hn⟩) (iblk1 V c 1 ⟨0, hn⟩) (k1_pay2 (F := F)))
  | n + 1, hn =>
    (k1_pay6 (k1_pay4 (iblk1 V c 0 ⟨n + 1, hn⟩) (iblk1 V c 1 ⟨n + 1, hn⟩) (outsAt1 c n (Nat.lt_of_succ_lt hn)).2.1)
        (k1_pay5 (iblk1 V c 0 ⟨n + 1, hn⟩) (iblk1 V c 1 ⟨n + 1, hn⟩) (outsAt1 c n (Nat.lt_of_succ_lt hn)).2.2),
      k1_pay4 (iblk1 V c 0 ⟨n + 1, hn⟩) (iblk1 V c 1 ⟨n + 1, hn⟩) (outsAt1 c n (Nat.lt_of_succ_lt hn)).2.1,
      k1_pay5 (iblk1 V c 0 ⟨n + 1, hn⟩) (iblk1 V c 1 ⟨n + 1, hn⟩) (outsAt1 c n (Nat.lt_of_succ_lt hn)).2.2)

/-- At the first point: the tables reset, then updated. -/
theorem outsAt1_first (c : Dev nD) (t : Fin cfg1.N) (hz : t.val = 0) :
    outsAt1 V c t.val t.isLt =
      (k1_pay6 (k1_pay4 (iblk1 V c 0 t) (iblk1 V c 1 t) (k1_pay1 (F := F))) (k1_pay5 (iblk1 V c 0 t) (iblk1 V c 1 t) (k1_pay2 (F := F))),
        k1_pay4 (iblk1 V c 0 t) (iblk1 V c 1 t) (k1_pay1 (F := F)),
        k1_pay5 (iblk1 V c 0 t) (iblk1 V c 1 t) (k1_pay2 (F := F))) := by
  obtain ⟨n, hn⟩ := t
  cases n with
  | zero => rfl
  | succ n => exact absurd hz (Nat.succ_ne_zero n)

/-- At a later point: the tables the point before left, updated. -/
theorem outsAt1_later (c : Dev nD) (t : Fin cfg1.N) (hz : t.val ≠ 0) :
    outsAt1 V c t.val t.isLt =
      (k1_pay6 (k1_pay4 (iblk1 V c 0 t) (iblk1 V c 1 t) (outsAt1 V c (t.val - 1) (Nat.lt_of_le_of_lt (Nat.sub_le _ _) t.isLt)).2.1)
          (k1_pay5 (iblk1 V c 0 t) (iblk1 V c 1 t) (outsAt1 V c (t.val - 1) (Nat.lt_of_le_of_lt (Nat.sub_le _ _) t.isLt)).2.2),
        k1_pay4 (iblk1 V c 0 t) (iblk1 V c 1 t) (outsAt1 V c (t.val - 1) (Nat.lt_of_le_of_lt (Nat.sub_le _ _) t.isLt)).2.1,
        k1_pay5 (iblk1 V c 0 t) (iblk1 V c 1 t) (outsAt1 V c (t.val - 1) (Nat.lt_of_le_of_lt (Nat.sub_le _ _) t.isLt)).2.2) := by
  obtain ⟨n, hn⟩ := t
  cases n with
  | zero => exact absurd rfl hz
  | succ n => rfl

/-! ## The invariant -/

/-- The region invariant before position `n`: before the first point the launch's; afterwards the two carried tables at
    what the point before left in them, the rest as the launch's. -/
def PhiS (c : Dev nD) : (n : ℕ) → n ≤ cfg1.N → sProp 𝕄
  | 0, _ => Pipeline.ΦA spec1 c
  | n + 1, hn => iprop(scoped1 c (owns (c : Thread nD τ) scM0 fullShare ((outsAt1 V c n hn).2.1))
      (owns (c : Thread nD τ) scM1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM0 fullShare ((outsAt1 V c n hn).2.1))
      (owns (c : Thread nD τ) scM1 fullShare ((outsAt1 V c n hn).2.2)) ∗ (∃ r, prngReg c r)) := rfl

theorem PhiS_pos (c : Dev nD) (n : ℕ) (h : n ≤ cfg1.N) (hz : n ≠ 0) :
    PhiS V c n h = iprop(scoped1 c (owns (c : Thread nD τ) scM0 fullShare ((outsAt1 V c (n - 1) (by omega)).2.1))
      (owns (c : Thread nD τ) scM1 fullShare ((outsAt1 V c (n - 1) (by omega)).2.2)) ∗ (∃ r, prngReg c r)) := by
  cases n with
  | zero => exact absurd rfl hz
  | succ n => rfl

/-! ## The proof data -/

/-- The proof data of the region on core `c`: the arrays as the region finds them; after the body each input's buffer
    at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point is the first, a middle one or the last,
    and that case's run applies; the invariant hands the body the two tables at what the point before left (at
    anything at the first point) and takes them back at this point's; the output's buffer is handed back untouched
    except at the last point, where it is left at the stored sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 24 := lt_of_lt_of_eq t.isLt (show cfg1.N = 24 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 24 = 23
  · -- the last point
    have h0 : ¬t.val % 24 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_later V c t hz]; dsimp only
    rw [PhiS_castSucc V c t, PhiS_pos V c _ _ hz]; unfold scoped1
    iintro ⟨⟨⟨R1, R2, R3, R4, R5, R6, R7, HS0, HS1⟩, Hg⟩, Ho, ⟨%d0, H0⟩, ⟨%d1, H1⟩, ⟨%d2, H2⟩⟩
    iapply (kernelRun1_C c (grid1.coords t) _ _ _ _ _ _ _ _ _ _ (fun h => h0 ((hcond1_0 t).mp h)) ((hcond1_1 t).mpr h1) (iblk1 V c 0 t) (iblk1 V c 1 t) _ _ Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [R1 R2 R3 R4 R5 R6 R7 HS0 HS1 Hg]
    · isplitl [R1 R2 R3 R4 R5 R6 R7 HS0 HS1]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS0]; · iexact HS0
        iexact HS1
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 2 t (idleAt1_2 t hc1) (noFlush1_2 t hc1)]
    by_cases h0 : t.val % 24 = 0
    · -- the first point
      have hz : t.val = 0 := by omega
      rw [outsAt1_first V c t hz]; dsimp only
      rw [PhiS_castSucc V c t, PhiS_zero V c _ _ hz, PhiA1_eq]; unfold scoped1
      iintro ⟨⟨⟨R1, R2, R3, R4, R5, R6, R7, HS0, HS1⟩, Hg⟩, Ho, ⟨%d0, H0⟩, ⟨%d1, H1⟩, ⟨%d2, H2⟩⟩
      iapply (kernelRun1_A c (grid1.coords t) _ _ _ _ _ _ _ _ _ _ ((hcond1_0 t).mpr h0) hc1 (iblk1 V c 0 t) (iblk1 V c 1 t) _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R1 R2 R3 R4 R5 R6 R7 HS0 HS1 Hg]
      · isplitl [R1 R2 R3 R4 R5 R6 R7 HS0 HS1]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      iexists _; iexact H2
    · -- a middle point
      have hz : t.val ≠ 0 := by omega
      rw [outsAt1_later V c t hz]; dsimp only
      rw [PhiS_castSucc V c t, PhiS_pos V c _ _ hz]; unfold scoped1
      iintro ⟨⟨⟨R1, R2, R3, R4, R5, R6, R7, HS0, HS1⟩, Hg⟩, Ho, ⟨%d0, H0⟩, ⟨%d1, H1⟩, ⟨%d2, H2⟩⟩
      iapply (kernelRun1_B c (grid1.coords t) _ _ _ _ _ _ _ _ _ _ (fun h => h0 ((hcond1_0 t).mp h)) hc1 (iblk1 V c 0 t) (iblk1 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R1 R2 R3 R4 R5 R6 R7 HS0 HS1 Hg]
      · isplitl [R1 R2 R3 R4 R5 R6 R7 HS0 HS1]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: what the tables hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; unfold scoped1
  iintro ⟨⟨R1, R2, R3, R4, R5, R6, R7, HS0, HS1⟩, Hg⟩
  isplitl [R1 R2 R3 R4 R5 R6 R7 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 24 := N_1; omega)

/-! ## The tables and the output as the pure per-point updates -/

/-- The first point. -/
def t1_0 : Fin cfg1.N := ⟨0, (by rw [show cfg1.N = 24 from N_1]; decide)⟩

/-- The target block at each position (anything past the grid). -/
def tblk (c : Dev nD) : ℕ → Vec F S8x3200 .f32 :=
  fun k => if hk : k < cfg1.N then iblk1 V c 1 ⟨k, hk⟩ else fun _ => Classical.choice (Elt.nonempty F .f32)

theorem tblk_of_lt (c : Dev nD) (k : ℕ) (hk : k < cfg1.N) : tblk V c k = iblk1 V c 1 ⟨k, hk⟩ := dif_pos hk

/-- The bins block is the same at every point: its block index never moves. -/
theorem iblk1_0_const (c : Dev nD) (t : Fin cfg1.N) :
    (iblk1 V c 0 t : Vec F S8x82 .f32) = (iblk1 V c 0 t1_0 : Vec F S8x82 .f32) := by
  unfold iblk1; rfl

theorem scr_eq (c : Dev nD) (n : ℕ) (h : n < cfg1.N) :
    ((outsAt1 V c n h).2.1, (outsAt1 V c n h).2.2) = Steps.scr1 (iblk1 V c 0 t1_0) (tblk V c) n := by
  induction n with
  | zero =>
    show (k1_pay4 (iblk1 V c 0 ⟨0, h⟩) (iblk1 V c 1 ⟨0, h⟩) (k1_pay1 (F := F)), k1_pay5 (iblk1 V c 0 ⟨0, h⟩) (iblk1 V c 1 ⟨0, h⟩) (k1_pay2 (F := F)))
      = (k1_pay4 (iblk1 V c 0 t1_0) (tblk V c 0) (k1_pay1 (F := F)), k1_pay5 (iblk1 V c 0 t1_0) (tblk V c 0) (k1_pay2 (F := F)))
    rw [tblk_of_lt V c 0 h, iblk1_0_const V c ⟨0, h⟩]
  | succ n ih =>
    have ih' := ih (Nat.lt_of_succ_lt h)
    show (k1_pay4 (iblk1 V c 0 ⟨n + 1, h⟩) (iblk1 V c 1 ⟨n + 1, h⟩) (outsAt1 V c n (Nat.lt_of_succ_lt h)).2.1,
        k1_pay5 (iblk1 V c 0 ⟨n + 1, h⟩) (iblk1 V c 1 ⟨n + 1, h⟩) (outsAt1 V c n (Nat.lt_of_succ_lt h)).2.2)
      = (k1_pay4 (iblk1 V c 0 t1_0) (tblk V c (n + 1)) (Steps.scr1 (iblk1 V c 0 t1_0) (tblk V c) n).1,
        k1_pay5 (iblk1 V c 0 t1_0) (tblk V c (n + 1)) (Steps.scr1 (iblk1 V c 0 t1_0) (tblk V c) n).2)
    rw [tblk_of_lt V c (n + 1) h, iblk1_0_const V c ⟨n + 1, h⟩, ← ih']

theorem out_last (c : Dev nD) :
    (outsAt1 V c 23 (by rw [show cfg1.N = 24 from N_1]; decide)).1 = Steps.out1 (iblk1 V c 0 t1_0) (tblk V c) := by
  have e := scr_eq V c 23 (by rw [show cfg1.N = 24 from N_1]; decide)
  show k1_pay6 (outsAt1 V c 23 _).2.1 (outsAt1 V c 23 _).2.2 = k1_pay6 (Steps.scr1 _ _ 23).1 (Steps.scr1 _ _ 23).2
  rw [← e]

/-! ## The output array after the region -/

/-- The last point. -/
def t1_23 : Fin cfg1.N := ⟨23, (by rw [show cfg1.N = 24 from N_1]; decide)⟩

/-- The one write-back, at the last point, writes what the body stored there: the output window's one block is the
    whole [8,1] array, read through zero offsets. -/
theorem flushed1_eq (c : Dev nD) (t : Fin cfg1.N) (hf : (cfg1.win 2).flush t = true) :
    (dat1 V c).flushed 2 t = ((cfg1.win 2).blk t).view.read (Elt F) ((outsAt1 V c 23 (by rw [show cfg1.N = 24 from N_1]; decide)).1) := by
  have hN : cfg1.N = 24 := N_1
  have h1 : t.val = 23 := by have := (flush1_2 t).mp hf; have := t.isLt; omega
  obtain rfl : t = t1_23 := Fin.ext h1
  show (cfg1.win 2).cut (grid1.coords t1_23) ((dat1 V c).after 2 t1_23) = _
  rw [after1_2]
  have hz' : (fun a => win1_2.index t1_23 a * main_v24.ty.shape.size a) = fun _ => 0 := funext fun a => by fin_cases a <;> decide +kernel
  exact (Memref.read_access_unit_zero (Elt F) main_v24 hz' (fun a => by rw [congrFun hz' a]; simp) _).symm

/-- So the output array ends holding it: the last point's block covers the array. -/
theorem arrAt1_out (c : Dev nD) :
    (dat1 V c).arrAt 2 cfg1.N = (outsAt1 V c 23 (by rw [show cfg1.N = 24 from N_1]; decide)).1 :=
  (dat1 V c).arrAt_eq_of_cover 2 _ (flushed1_eq V c) fun i =>
    ⟨t1_23, (flush1_2 t1_23).mpr rfl, by
      show i ∈ ((View.whole main_v24).slice (win1_2.rect t1_23)).set
      rw [View.set_slice_whole, Rect.mem_set_unit]
      intro a
      have h0 : (i 0 : Nat) < 8 := (i 0).isLt
      have h1 : (i 1 : Nat) < 1 := (i 1).isLt
      match a with
      | ⟨0, _⟩ => show win1_2.index t1_23 0 * win1_2.size 0 ≤ (i 0 : Nat) ∧ (i 0 : Nat) < win1_2.index t1_23 0 * win1_2.size 0 + win1_2.xsize (grid1.coords t1_23) 0
                  rw [show win1_2.index t1_23 0 * win1_2.size 0 = 0 from by decide +kernel, show win1_2.xsize (grid1.coords t1_23) 0 = 8 from by decide +kernel]; omega
      | ⟨1, _⟩ => show win1_2.index t1_23 1 * win1_2.size 1 ≤ (i 1 : Nat) ∧ (i 1 : Nat) < win1_2.index t1_23 1 * win1_2.size 1 + win1_2.xsize (grid1.coords t1_23) 1
                  rw [show win1_2.index t1_23 1 * win1_2.size 1 = 0 from by decide +kernel, show win1_2.xsize (grid1.coords t1_23) 1 = 1 from by decide +kernel]; omega⟩

end Cert.KernelIdeal.R1

end
-- ==== Proof.Assembly.lean ====
import proofs.«120963_j80418967650486_1_alg».proof.Proof.Gen.KernelIdeal.Launch
import proofs.«120963_j80418967650486_1_alg».proof.Proof.Gen.KernelIdeal.Skeleton
import proofs.«120963_j80418967650486_1_alg».proof.Proof.Gen.KernelIdeal.Points
import proofs.«120963_j80418967650486_1_alg».proof.Proof.Gen.KernelIdeal.Regions
import proofs.«120963_j80418967650486_1_alg».proof.Proof.Region0
import proofs.«120963_j80418967650486_1_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The whole program as a run of six segments — four stretches of host operations and the two kernel regions —
  with what every buffer holds at each boundary, for any float instance.

  A host stretch changes the buffers as its operations' composition does. A kernel region leaves every buffer as
  it found it except the arrays its windows stage, which end at what the pipeline's write-backs leave. Folding
  these from the launch memory names the contents of EVERY unstaged buffer at the return, in particular the
  argument arrays (never written) and the result.
-/

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At launch. -/
abbrev Bd0 : Dev nD → Valuation τ sig (Elt F) := fun c b => m ((c : Dev nD), b)
/-- After the first host stretch: the statistics region's entry. -/
abbrev Bd1 : Dev nD → Valuation τ sig (Elt F) := fun c => StableHlo.after hostOps0 (Bd0 m c)
/-- The same, read at the TensorCore's references. -/
abbrev En1 : (c : Dev nD) → (b : Ref sig .tc) → Buf (Elt F) ((c : Thread nD τ).loc b) := fun c b => Bd1 m c b
/-- After the statistics region: its arrays at what the pipeline leaves, everything else as entered. -/
def Bd2 (c : Dev nD) : Valuation τ sig (Elt F) :=
  Pipeline.withArrays spec0 c (Bd1 m c) fun w => (R0.dat0 (En1 m) c).arrAt w cfg0.N
theorem Bd2_arr (c : Dev nD) (w : Fin cfg0.W) :
    Bd2 m c (Proc.devRef .tc (Pipeline.arrRef spec0 w)) = (R0.dat0 (En1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m c b
theorem exit0_arr (c : Dev nD) (w : Fin cfg0.W) : (R0.dat0 (En1 m) c).arrAt w cfg0.N = Ex2 m c (Pipeline.arrRef spec0 w) :=
  (Bd2_arr m c w).symm
theorem exit0_rest (c : Dev nD) : ∀ b, b ∉ Finset.univ.image (Pipeline.arrRef spec0) → Ex2 m c b = En1 m c b :=
  fun b hb => Bd2_of_ne m c b fun w e => hb (Finset.mem_image.mpr ⟨w, Finset.mem_univ _, e⟩)
/-- After the second host stretch (the statistics read out of the table, the padding value, the padded bins). -/
abbrev Bd3 : Dev nD → Valuation τ sig (Elt F) := fun c => StableHlo.after hostOps1 (Bd2 m c)
/-- After the third (the padded targets): the distance region's entry. -/
abbrev Bd4 : Dev nD → Valuation τ sig (Elt F) := fun c => StableHlo.after hostOps1_1 (Bd3 m c)
abbrev En4 : (c : Dev nD) → (b : Ref sig .tc) → Buf (Elt F) ((c : Thread nD τ).loc b) := fun c b => Bd4 m c b
/-- After the distance region. -/
def Bd5 (c : Dev nD) : Valuation τ sig (Elt F) :=
  Pipeline.withArrays spec1 c (Bd4 m c) fun w => (R1.dat1 (En4 m) c).arrAt w cfg1.N
theorem Bd5_arr (c : Dev nD) (w : Fin cfg1.W) :
    Bd5 m c (Proc.devRef .tc (Pipeline.arrRef spec1 w)) = (R1.dat1 (En4 m) c).arrAt w cfg1.N := by
  unfold Bd5; exact Pipeline.withArrays_arr spec1 launch1.win.arr_inj c _ _ w
theorem Bd5_of_ne (c : Dev nD) (b : Ref sig .tc) (hb : ∀ w, Pipeline.arrRef spec1 w ≠ b) :
    Bd5 m c (Proc.devRef .tc b) = Bd4 m c (Proc.devRef .tc b) := by
  unfold Bd5; exact Pipeline.withArrays_of_ne spec1 c _ _ b hb
abbrev Ex5 : (c : Dev nD) → (b : Ref sig .tc) → Buf (Elt F) ((c : Thread nD τ).loc b) := fun c b => Bd5 m c b
theorem exit1_arr (c : Dev nD) (w : Fin cfg1.W) : (R1.dat1 (En4 m) c).arrAt w cfg1.N = Ex5 m c (Pipeline.arrRef spec1 w) :=
  (Bd5_arr m c w).symm
theorem exit1_rest (c : Dev nD) : ∀ b, b ∉ Finset.univ.image (Pipeline.arrRef spec1) → Ex5 m c b = En4 m c b :=
  fun b hb => Bd5_of_ne m c b fun w e => hb (Finset.mem_image.mpr ⟨w, Finset.mem_univ _, e⟩)
/-- After the last host stretch: the return. -/
abbrev Bd6 : Dev nD → Valuation τ sig (Elt F) := fun c => StableHlo.after hostOps2 (Bd5 m c)

/-! ## A buffer nothing writes ends as launched -/

/-- A reference that no host stretch writes and no region stages holds its launch contents at the return. -/
theorem Bd6_kept (c : Dev nD) (b : Ref sig .tc) (h0 : b ∉ hostOps0_W) (h1 : b ∉ hostOps1_W) (h11 : b ∉ hostOps1_1_W)
    (h2 : b ∉ hostOps2_W) (ha0 : ∀ w, Pipeline.arrRef spec0 w ≠ b) (ha1 : ∀ w, Pipeline.arrRef spec1 w ≠ b) :
    Bd6 m c (Proc.devRef .tc b) = m ((c : Thread nD τ).loc b) :=
  calc Bd6 m c (Proc.devRef .tc b)
    _ = Bd5 m c (Proc.devRef .tc b) := StableHlo.after_of_writes_sub hostOps2 _ hostOps2_writes h2
    _ = Bd4 m c (Proc.devRef .tc b) := Bd5_of_ne m c b ha1
    _ = Bd3 m c (Proc.devRef .tc b) := StableHlo.after_of_writes_sub hostOps1_1 _ hostOps1_1_writes h11
    _ = Bd2 m c (Proc.devRef .tc b) := StableHlo.after_of_writes_sub hostOps1 _ hostOps1_writes h1
    _ = Bd1 m c (Proc.devRef .tc b) := Bd2_of_ne m c b ha0
    _ = Bd0 m c (Proc.devRef .tc b) := StableHlo.after_of_writes_sub hostOps0 _ hostOps0_writes h0
    _ = m ((c : Thread nD τ).loc b) := rfl

theorem Bd6_main_arg0 (c : Dev nD) : Bd6 m c (Proc.devRef .tc main_arg0) = m ((c : Thread nD τ).loc main_arg0) :=
  Bd6_kept m c main_arg0 (by decide) (by decide) (by decide) (by decide) (by decide) (by decide)
theorem Bd6_main_arg1 (c : Dev nD) : Bd6 m c (Proc.devRef .tc main_arg1) = m ((c : Thread nD τ).loc main_arg1) :=
  Bd6_kept m c main_arg1 (by decide) (by decide) (by decide) (by decide) (by decide) (by decide)
theorem Bd6_main_arg2 (c : Dev nD) : Bd6 m c (Proc.devRef .tc main_arg2) = m ((c : Thread nD τ).loc main_arg2) :=
  Bd6_kept m c main_arg2 (by decide) (by decide) (by decide) (by decide) (by decide) (by decide)
theorem Bd6_main_arg3 (c : Dev nD) : Bd6 m c (Proc.devRef .tc main_arg3) = m ((c : Thread nD τ).loc main_arg3) :=
  Bd6_kept m c main_arg3 (by decide) (by decide) (by decide) (by decide) (by decide) (by decide)

/-! ## The proof data of both pipelines, and what rides beside the buffers -/

/-- Each pipeline's proof data at its region's entry contents. -/
def pdat : (p : Fin 2) → (c : Dev nD) → Dat τ (Elt F) Unit ℕ (UR sig nD τ) ℕ (Pipeline.pin (pcfgs (F := F)) adm p) c
  | ⟨0, _⟩ => fun c => R0.dat0 (En1 m) c
  | ⟨1, _⟩ => fun c => R1.dat1 (En4 m) c

abbrev noVar : Variants := Variants.none
/-- No core owes another anything. -/
abbrev noPairs : GSem nD τ sig → Finset Unit := fun _ => ∅
abbrev noLevel : GSem nD τ sig → Unit → ℕ := fun _ _ => 0
/-- Beside the buffers, through every segment: the generator register at some state, and nothing owed. -/
abbrev Beside (c : Dev nD) : sProp 𝕄 := iprop((∃ r, prngReg c r) ∗ ∃ W, owes (c : Thread nD τ) (0 : CellTallies nD τ sig Unit) W)

/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Last (c : Dev nD) : sProp 𝕄 := iprop(StableHlo.held (c : Thread nD τ) (Pipeline.ucRefs τ sig) (Bd6 m c) ∗ ∃ r, prngReg c r)

/-! ## The two kernel regions as segments -/

set_option backward.isDefEq.respectTransparency.types false in
/-- The statistics region: entered with every unstaged buffer at `Bd1`, left at `Bd2`. Its arrays are split out of
    the buffers on entry and put back at their final contents on exit; the generator register goes into the region's
    invariant and comes back; nothing is owed; the kernel has no semaphore of its own. -/
def regStats : Pipeline.RegionSeg (pcfgs (F := F)) adm (pdat m) () defs₀ noVar noPairs noLevel 0 where
  win := launch0.win.to₀
  block_pos := launch0.block_pos
  stage_whole := launch0.stage_whole
  K := PEmpty
  osem k := k.elim
  ho := Pipeline.OwnSemFacts.none _
  hbody c := (R0.body_obligation0 (En1 m) c).loose
  hwaits := Pipeline.hwaits_of_owed_zero _ _ _ _ noPairs noLevel 0 fun _ _ => rfl
  pre c := iprop(StableHlo.held (c : Thread nD τ) (Pipeline.ucRefs τ sig) (Bd1 m c) ∗ Beside c)
  post c := iprop(StableHlo.held (c : Thread nD τ) (Pipeline.ucRefs τ sig) (Bd2 m c) ∗ Beside c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdat m) launch0.win launch0.arr_whole c
      ((pdat m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (En1 m c) (Ex2 m c) ((pdat m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered with every unstaged buffer at `Bd4`, left at `Bd5`. As above, except that its
    invariant tracks the two tables the kernel carries between grid points: before the first point it is the plain
    one (the tables at anything), and after the last it gives the plain one back. -/
def regChamfer : Pipeline.RegionSeg (pcfgs (F := F)) adm (pdat m) () defs₀ noVar noPairs noLevel 1 where
  win := launch1.win.to₀
  block_pos := launch1.block_pos
  stage_whole := launch1.stage_whole
  K := PEmpty
  osem k := k.elim
  ho := Pipeline.OwnSemFacts.none _
  hbody c := (R1.body_obligation1 (En4 m) c).loose
  hwaits := Pipeline.hwaits_of_owed_zero _ _ _ _ noPairs noLevel 1 fun _ _ => rfl
  pre c := iprop(StableHlo.held (c : Thread nD τ) (Pipeline.ucRefs τ sig) (Bd4 m c) ∗ Beside c)
  post c := iprop(StableHlo.held (c : Thread nD τ) (Pipeline.ucRefs τ sig) (Bd5 m c) ∗ Beside c)
  X c := iprop(∃ r, prngReg c r)
  Y c := iprop(∃ r, prngReg c r)
  Z c := Pipeline.unscopedRest (Ix := Unit) (Name := ℕ) (U := UR sig nD τ) (Lvl := ℕ) spec1 c (En4 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdat m 1 c).Φ 0 from R1.hin1 (En4 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdat m 1 c).Φ (Fin.last _) ⊢ Pipeline.ΦA spec1 c from R1.hout1 (En4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (En4 m c) (Ex5 m c) ((pdat m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

/-- The six segments in the program's order. -/
abbrev mainSegs : List (Pipeline.Seg (pcfgs (F := F)) adm (pdat m) () defs₀ noVar noPairs noLevel) :=
  [ .host (hostSeg hostOps0 hostOps0_sub hostOps0_fresh (Bd0 m)),
    .region (regStats m),
    .host (hostSeg hostOps1 hostOps1_sub hostOps1_fresh (Bd2 m)),
    .host (hostSeg hostOps1_1 hostOps1_1_sub hostOps1_1_fresh (Bd3 m)),
    .region (regChamfer m),
    .host (hostSeg hostOps2 hostOps2_sub hostOps2_fresh (Bd5 m)) ]

set_option backward.isDefEq.respectTransparency.types false in
/-- THE RUN. From any memory with zero counters every weakly fair execution of the program terminates, nothing
    faulting, and in every final state each unstaged buffer holds what the fold `Bd6` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd6 m c b) :=
  Pipeline.θ_run_regions_kit (pcfgs (F := F)) adm (pdat m) () cellOf_inj emb₁ defs₀ noVar noPairs noLevel m ρ main (mainSegs m)
    (fun c Q => by
      rewrite [main_chain c, Pipeline.Seg.run_eq_chain,
        show (mainSegs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Beside c)) (Tₙ := Last m)
    (hch := ⟨fun _ => .rfl, fun _ => .rfl, fun _ => .rfl, fun _ => .rfl, fun _ => .rfl, fun _ => .rfl,
      fun c => by
        show iprop(StableHlo.held (c : Thread nD τ) (Pipeline.ucRefs τ sig) (Bd6 m c) ∗ Beside c) ⊢ _
        iintro ⟨Hh, Hp, HO⟩
        isplitl [Hh Hp]
        · isplitl [Hh]; · iexact Hh
          iexact Hp
        iexact HO⟩)
    (hinit := by
      refine Pipeline.initEach noPairs noLevel fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m c b)
    (hfin := fun c s' => by
      iintro ⟨⟨Hh, -⟩, HSI⟩
      unfold StableHlo.held
      imodintro
      iapply (pointsTo_read_all (Pipeline.ucRefs τ sig) (fun b => (((c : Thread nD τ)).1, b)) (Bd6 m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Bd6_main_arg0 m c),
     (h c _ (mem_uc main_arg1 (by decide))).trans (Bd6_main_arg1 m c),
     (h c _ (mem_uc main_arg2 (by decide))).trans (Bd6_main_arg2 m c),
     (h c _ (mem_uc main_arg3 (by decide))).trans (Bd6_main_arg3 m c)⟩) (run_all m ρ)

/-- The run with the result named: the result buffer ends at `Bd6`'s contents, the arguments as launched. -/
theorem run_result : θ_run defs (onTc (τ := τ) (main (F := F))) ⟨m, fun _ => 0, ρ⟩ (fun r => ∀ c : Dev nD,
      r.2.mem ((c.tc : Thread nD τ).loc main_v37) = Bd6 m c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v37 (by decide)),
     (h c _ (mem_uc main_arg0 (by decide))).trans (Bd6_main_arg0 m c),
     (h c _ (mem_uc main_arg1 (by decide))).trans (Bd6_main_arg1 m c),
     (h c _ (mem_uc main_arg2 (by decide))).trans (Bd6_main_arg2 m c),
     (h c _ (mem_uc main_arg3 (by decide))).trans (Bd6_main_arg3 m c)⟩) (run_all m ρ)

end Cert.KernelIdeal.Asm

end
-- ==== Proof.KernelBlocks.lean ====
import proofs.«120963_j80418967650486_1_alg».proof.Proof.Region0
import proofs.«120963_j80418967650486_1_alg».proof.Proof.Region1
import Idealize.ShloMosaic.Lib.ValueIdx

/-!
  The blocks the two kernels read, as entries of the arrays their regions are entered with.

  The statistics kernel's three input windows cut their [8, 76800] arrays into six blocks of 12800 columns: entry
  (p, k) of the block at grid point t is entry (p, 12800·t + k) of the array. The distance kernel's target window cuts
  its [8, 76800] array into 24 blocks of 3200 columns, and its bins window is the whole [8, 82] array at every point.
  With these, what each kernel leaves after its last point is the step recursion of Steps.lean run over those blocks.
-/

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (V : (c : Dev nD) → (b : Ref sig .tc) → Buf (Elt F) ((c : Thread nD τ).loc b))

/-! ## The printed index maps, decided over the grids -/

theorem idx0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem idx1 : ∀ t : Fin cfg1.N,
    win1_0.index t (0 : Fin 2) = 0 ∧ win1_0.index t (1 : Fin 2) = 0
    ∧ win1_1.index t (0 : Fin 2) = 0 ∧ win1_1.index t (1 : Fin 2) = t.val :=
  (by decide +kernel : ∀ t : Fin grid1.N, _)

/-! ## A block's entry is an entry of the array -/

/-- Statistics kernel, window 0 (the prediction). -/
theorem read0_0 (c : Dev nD) (t : Fin cfg0.N) (p : Fin 8) (k : Fin 12800) (hK : 12800 * t.val + k.val < 76800) :
    R0.iblk0 V c 0 t (ix2 p k) = V c main_v0 (ix2 p (⟨12800 * t.val + k.val, hK⟩ : Fin 76800)) := by
  unfold R0.iblk0
  show V c main_v0 (((cfg0.win 0).blk t).view.emb (ix2 p k)) = _
  refine congrArg (V c main_v0) ?_
  obtain ⟨e0, e1, -, -, -, -⟩ := idx0 t
  funext a; apply Fin.ext
  match a with
  | ⟨0, _⟩ => show win0_0.index t (0 : Fin 2) * 8 + 1 * p.val = p.val; omega
  | ⟨1, _⟩ => show win0_0.index t (1 : Fin 2) * 12800 + 1 * k.val = 12800 * t.val + k.val; omega

/-- Statistics kernel, window 1 (the target). -/
theorem read0_1 (c : Dev nD) (t : Fin cfg0.N) (p : Fin 8) (k : Fin 12800) (hK : 12800 * t.val + k.val < 76800) :
    R0.iblk0 V c 1 t (ix2 p k) = V c main_v1 (ix2 p (⟨12800 * t.val + k.val, hK⟩ : Fin 76800)) := by
  unfold R0.iblk0
  show V c main_v1 (((cfg0.win 1).blk t).view.emb (ix2 p k)) = _
  refine congrArg (V c main_v1) ?_
  obtain ⟨-, -, e0, e1, -, -⟩ := idx0 t
  funext a; apply Fin.ext
  match a with
  | ⟨0, _⟩ => show win0_1.index t (0 : Fin 2) * 8 + 1 * p.val = p.val; omega
  | ⟨1, _⟩ => show win0_1.index t (1 : Fin 2) * 12800 + 1 * k.val = 12800 * t.val + k.val; omega

/-- Statistics kernel, window 2 (the mask as 0/1). -/
theorem read0_2 (c : Dev nD) (t : Fin cfg0.N) (p : Fin 8) (k : Fin 12800) (hK : 12800 * t.val + k.val < 76800) :
    R0.iblk0 V c 2 t (ix2 p k) = V c main_v3 (ix2 p (⟨12800 * t.val + k.val, hK⟩ : Fin 76800)) := by
  unfold R0.iblk0
  show V c main_v3 (((cfg0.win 2).blk t).view.emb (ix2 p k)) = _
  refine congrArg (V c main_v3) ?_
  obtain ⟨-, -, -, -, e0, e1⟩ := idx0 t
  funext a; apply Fin.ext
  match a with
  | ⟨0, _⟩ => show win0_2.index t (0 : Fin 2) * 8 + 1 * p.val = p.val; omega
  | ⟨1, _⟩ => show win0_2.index t (1 : Fin 2) * 12800 + 1 * k.val = 12800 * t.val + k.val; omega

/-- Distance kernel, window 0 (the padded bins): the whole array, at every point. -/
theorem read1_0 (c : Dev nD) (t : Fin cfg1.N) (p : Fin 8) (j : Fin 82) :
    R1.iblk1 V c 0 t (ix2 p j) = V c main_v22 (ix2 p j) := by
  unfold R1.iblk1
  show V c main_v22 (((cfg1.win 0).blk t).view.emb (ix2 p j)) = _
  refine congrArg (V c main_v22) ?_
  obtain ⟨e0, e1, -, -⟩ := idx1 t
  funext a; apply Fin.ext
  match a with
  | ⟨0, _⟩ => show win1_0.index t (0 : Fin 2) * 8 + 1 * p.val = p.val; omega
  | ⟨1, _⟩ => show win1_0.index t (1 : Fin 2) * 82 + 1 * j.val = j.val; omega

/-- Distance kernel, window 1 (the padded targets). -/
theorem read1_1 (c : Dev nD) (t : Fin cfg1.N) (p : Fin 8) (k : Fin 3200) (hK : 3200 * t.val + k.val < 76800) :
    R1.iblk1 V c 1 t (ix2 p k) = V c main_v23 (ix2 p (⟨3200 * t.val + k.val, hK⟩ : Fin 76800)) := by
  unfold R1.iblk1
  show V c main_v23 (((cfg1.win 1).blk t).view.emb (ix2 p k)) = _
  refine congrArg (V c main_v23) ?_
  obtain ⟨-, -, e0, e1⟩ := idx1 t
  funext a; apply Fin.ext
  match a with
  | ⟨0, _⟩ => show win1_1.index t (0 : Fin 2) * 8 + 1 * p.val = p.val; omega
  | ⟨1, _⟩ => show win1_1.index t (1 : Fin 2) * 3200 + 1 * k.val = 3200 * t.val + k.val; omega

end Cert.KernelIdeal.Blocks

end
-- ==== Proof.MathBlocks.lean ====
import Idealize.ShloMosaic.Lib.ValueIdx

/-!
  Regrouping a finite family into consecutive blocks.

  A family indexed by `Fin N` with `N = B * n` splits into `n` blocks of `B` consecutive entries, block `t` holding the
  positions `B * t + k` for `k < B`. The map `(t, k) ↦ B * t + k` is a bijection from `Fin n × Fin B` onto `Fin N`, so a
  sum, a supremum or an infimum over the whole family is the same taken block by block. Also: a supremum, infimum or
  sum over the first `n` naturals is the same over `Fin n`, and one over a product of index types is the iterated one.
-/

open scoped BigOperators

namespace Cert.KernelIdeal.Math.Blocks

/-- Position `B * t + k` of entry `k` of block `t`, among `N = B * n` entries. -/
def blockIdx {B n N : ℕ} (h : N = B * n) (t : Fin n) (k : Fin B) : Fin N :=
  ⟨B * t.val + k.val, by
    subst h
    calc B * t.val + k.val < B * t.val + B := Nat.add_lt_add_left k.isLt _
      _ = B * (t.val + 1) := (Nat.mul_succ _ _).symm
      _ ≤ B * n := Nat.mul_le_mul_left _ t.isLt⟩

/-- Blocks and positions inside a block, against positions in the whole family. -/
def blockEquiv {B n N : ℕ} (h : N = B * n) : Fin n × Fin B ≃ Fin N :=
  finProdFinEquiv.trans (finCongr (by rw [h, Nat.mul_comm]))

theorem blockEquiv_apply {B n N : ℕ} (h : N = B * n) (x : Fin n × Fin B) :
    blockEquiv h x = blockIdx h x.1 x.2 := by
  apply Fin.ext
  simp only [blockEquiv, blockIdx, Equiv.trans_apply, finCongr_apply, Fin.coe_cast, finProdFinEquiv_apply_val]
  exact Nat.add_comm _ _

/-- A sum over the whole family, taken block by block. -/
theorem sum_blocks {M : Type*} [AddCommMonoid M] {B n N : ℕ} (h : N = B * n) (g : Fin N → M) :
    ∑ t : Fin n, ∑ k : Fin B, g (blockIdx h t k) = ∑ K : Fin N, g K := by
  rw [← Fintype.sum_prod_type' (f := fun t k => g (blockIdx h t k)), ← Equiv.sum_comp (blockEquiv h) g]
  exact Finset.sum_congr rfl fun x _ => congrArg g (blockEquiv_apply h x).symm

/-- A supremum over the whole family, taken over blocks and positions. -/
theorem sup_blocks {α : Type*} [SemilatticeSup α] [OrderBot α] {B n N : ℕ} (h : N = B * n) (g : Fin N → α) :
    (Finset.univ.sup fun x : Fin n × Fin B => g (blockIdx h x.1 x.2)) = Finset.univ.sup g := by
  have e := Finset.sup_map Finset.univ (blockEquiv h).toEmbedding g
  rw [Finset.map_univ_equiv] at e
  rw [e]
  exact Finset.sup_congr rfl fun x _ => congrArg g (blockEquiv_apply h x).symm

/-- An infimum over the whole family, taken over blocks and positions. -/
theorem inf_blocks {α : Type*} [SemilatticeInf α] [OrderTop α] {B n N : ℕ} (h : N = B * n) (g : Fin N → α) :
    (Finset.univ.inf fun x : Fin n × Fin B => g (blockIdx h x.1 x.2)) = Finset.univ.inf g := by
  have e := Finset.inf_map Finset.univ (blockEquiv h).toEmbedding g
  rw [Finset.map_univ_equiv] at e
  rw [e]
  exact Finset.inf_congr rfl fun x _ => congrArg g (blockEquiv_apply h x).symm

/-- A supremum over the first `n` naturals is the supremum over `Fin n`. -/
theorem sup_range_eq_univ {α : Type*} [SemilatticeSup α] [OrderBot α] (n : ℕ) (f : ℕ → α) :
    (Finset.range n).sup f = Finset.univ.sup fun t : Fin n => f t.val := by
  rw [← Nat.Iio_eq_range, ← Fin.map_valEmbedding_univ, Finset.sup_map]
  rfl

/-- An infimum over the first `n` naturals is the infimum over `Fin n`. -/
theorem inf_range_eq_univ {α : Type*} [SemilatticeInf α] [OrderTop α] (n : ℕ) (f : ℕ → α) :
    (Finset.range n).inf f = Finset.univ.inf fun t : Fin n => f t.val := by
  rw [← Nat.Iio_eq_range, ← Fin.map_valEmbedding_univ, Finset.inf_map]
  rfl

/-- An iterated supremum over two finite index types is the supremum over their product. -/
theorem sup_prod_univ {ι κ α : Type*} [Fintype ι] [Fintype κ] [SemilatticeSup α] [OrderBot α] (f : ι → κ → α) :
    (Finset.univ.sup fun a => Finset.univ.sup fun b => f a b) = Finset.univ.sup fun x : ι × κ => f x.1 x.2 := by
  rw [← Finset.univ_product_univ, Finset.sup_product_left]

/-- An iterated infimum over two finite index types is the infimum over their product. -/
theorem inf_prod_univ {ι κ α : Type*} [Fintype ι] [Fintype κ] [SemilatticeInf α] [OrderTop α] (f : ι → κ → α) :
    (Finset.univ.inf fun a => Finset.univ.inf fun b => f a b) = Finset.univ.inf fun x : ι × κ => f x.1 x.2 := by
  rw [← Finset.univ_product_univ, Finset.inf_product_left]

end Cert.KernelIdeal.Math.Blocks
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibMiddleAxis.lean ====
/-
  A UNIT AXIS IN THE MIDDLE, read at an index given by coordinates: the two layout steps by which a matrix `[a, b]` is
  spread along a new middle axis to `[a, c, b]` (`v[:, None, :]` broadcast against an array with a middle axis).

  • The shape cast `[a, b] → [a, 1, b]` keeps the row-major position: entry `(i, 0, j)` of the result is entry `(i, j)` of
    the operand, because `(i · 1 + 0) · b + j = i · b + j`.
  • The broadcast `[a, 1, b] → [a, c, b]` reads, at `(i, t, j)`, the operand at `(i, 0, j)`: the middle coordinate is
    forgotten, the outer ones kept (when `a` or `b` is itself 1 the kept coordinate is 0 in any case).
  • Together: the spread matrix at `(i, t, j)` is the matrix at `(i, j)`, whatever `t`.

  General in the extents and in the element type; nothing here mentions a program.
-/
import Idealize.ShloMosaic.Lib.Pipeline.Value
import Idealize.ShloMosaic.Lib.ValueIdx

namespace Cert.LibMiddleAxis

open Idealize.ShloMosaic Idealize.ShloMosaic.ValueIdx

variable {α : Type}

/-- An `[a, b]` array cast to `[a, 1, b]` reads, at `(i, u, j)`, the operand at `(i, j)`: the two indices have the same
    row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, t, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (t : Fin c) (j : Fin b) :
    broadcastTo ⟨3, ![a, c, b]⟩ v h (ix3 i t j) = v (ix3 i (0 : Fin 1) j) := by
  refine broadcastTo_apply v h (ix3 i t j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A matrix spread along a new middle axis reads, at `(i, t, j)`, the matrix at `(i, j)`. -/
theorem spread_middle_apply {a c b : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, c, b]⟩)
    (i : Fin a) (t : Fin c) (j : Fin b) :
    broadcastTo ⟨3, ![a, c, b]⟩ (shapeCast ⟨3, ![a, 1, b]⟩ x hc) hb (ix3 i t j) = x (ix2 i j) :=
  (broadcastTo_a1b_acb_apply _ hb i t j).trans (shapeCast_ab_a1b_apply x hc i 0 j)

end Cert.LibMiddleAxis
-- ==== Proof.LibRank3Axes.lean ====
/-
  A RANK-3 ARRAY `[a, b, c]` read at an index given by coordinates, for the three layout steps that single out or
  forget ONE of its outer axes:

  • a slice along the LAST axis from offset `o` reads, at `(i, j, t)`, the operand at `(i, j, o + t)` (the companion of
    the library's middle-axis slice);
  • a broadcast of `[a, b, 1]` to `[a, b, c]` reads, at `(i, j, t)`, the operand at `(i, j, 0)`: the last coordinate is
    forgotten;
  • a broadcast of `[1, b, c]` to `[a, b, c]` reads, at `(t, i, j)`, the operand at `(0, i, j)`: the first coordinate is
    forgotten.

  A kept axis whose extent happens to be 1 has the coordinate 0 in any case, so no side condition on the extents is needed.
  General in the extents and in the element type; nothing here mentions a program.
-/
import Idealize.ShloMosaic.Lib.Pipeline.Value
import Idealize.ShloMosaic.Lib.ValueIdx

namespace Cert.LibRank3Axes

open Idealize.ShloMosaic Idealize.ShloMosaic.ValueIdx

variable {α : Type}

/-- A rank-3 array cut along its last axis from `o` reads, at `(i, j, t)`, the source at `(i, j, k)` with `k = o + t`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (i : Fin n0) (j : Fin n1) (t : Fin m) (k : Fin n2) (hk : k.val = o + t.val) :
    extractStridedSlice ⟨3, ![n0, n1, m]⟩ ![0, 0, o] X h (ix3 i j t) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array broadcast to `[a, b, c]` reads, at `(i, j, t)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (t : Fin c) :
    broadcastTo ⟨3, ![a, b, c]⟩ v h (ix3 i j t) = v (ix3 i j (0 : Fin 1)) := by
  refine broadcastTo_apply v h (ix3 i j t) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(t, i, j)`, the operand at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (t : Fin a) (i : Fin b) (j : Fin c) :
    broadcastTo ⟨3, ![a, b, c]⟩ v h (ix3 t i j) = v (ix3 (0 : Fin 1) i j) := by
  refine broadcastTo_apply v h (ix3 t i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibRank3Axes
-- ==== Proof.LibMinReduce.lean ====
/-
  Minimum reductions over one axis, read at the ideal values.

  At the ideal instance `minimumf` is `min` on the extended reals, so a `vector.multi_reduction <minimumf>` over one
  axis is, at each result index, the fold of `min` from the accumulator's value over that axis's coordinates
  (`multiReduction_minimumf_single`, the counterpart of the library's maximum form); from the word of +∞ that fold is
  the infimum (`fold_min_top`, `ofBits_inf_f32`). For a matrix [A, B] this gives the row minima
  (`min_cols_apply`: reduce axis 1, read at row r) and the column minima (`min_rows_apply`: reduce axis 0, read at
  column n) as `Finset.inf` over `Fin B` / `Fin A` of the entries.
-/
import Idealize.ShloMosaic.PureOps.Ideal.Laws
import Idealize.ShloMosaic.Lib.ValueIdx

noncomputable section

namespace Cert.LibMinReduce

open Idealize.ShloMosaic Idealize.ShloMosaic.ValueIdx

/-- The f32 word of +∞ denotes `⊤`. -/
theorem ofBits_inf_f32 : Ideal.ofBits .f32 0x7F800000#32 = (⊤ : EReal) := by
  simp [Ideal.ofBits, Ideal.ieee]

/-- A fold of `min` from +∞ over a finite set is the set's infimum. -/
theorem fold_min_top {ι : Type*} [DecidableEq ι] (s : Finset ι) (f : ι → EReal) : s.fold min ⊤ f = s.inf f := by
  induction s using Finset.induction_on with
  | empty => simp
  | insert a s ha ih => rw [Finset.fold_insert ha, Finset.inf_insert, ih]

/-- A `<minimumf>` reduction over ONE axis, at the ideal values: the fold of `min` from the accumulator's value over
    that axis's coordinates (any rank, axis and extents). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along axis 1 of an `[A, B]` matrix from +∞, at row `r`: the infimum of the row's entries. -/
theorem min_cols_apply {A B : ℕ} (src : FVec Ideal ⟨2, ![A, B]⟩ .f32)
    (h : (⟨2, ![A, B]⟩ : Shape).Reduces [1] ⟨1, ![A]⟩) (hφ : FKind.Formats .f32)
    (hacc : (0x7F800000#32 : BitVec 32) = FKind.minimumf.neutral .f32 hφ) (r : Fin A) :
    multiReduction .minimumf [1] ⟨1, ![A]⟩ src 0x7F800000#32 h hφ hacc (ix1 r) = Finset.univ.inf fun n : Fin B => src (ix2 r n) := by
  refine (multiReduction_minimumf_single src _ h hφ hacc (ix1 r)).trans ?_
  have e : (Finset.univ : Finset (Fin B)).fold min (FloatOps.ofBits .f32 0x7F800000#32) (fun n => src (h.lift (ix1 r) n))
      = Finset.univ.inf fun n => src (h.lift (ix1 r) n) := by
    rw [show (FloatOps.ofBits .f32 0x7F800000#32 : Ideal .f32) = (⊤ : EReal) from ofBits_inf_f32]; exact fold_min_top _ _
  refine e.trans ?_
  refine Finset.inf_congr rfl fun n _ => congrArg src ?_
  funext a
  match a with
  | ⟨0, _⟩ => exact Fin.ext rfl
  | ⟨1, _⟩ => exact Fin.ext rfl

/-- The minimum along axis 0 of an `[A, B]` matrix from +∞, at column `n`: the infimum of the column's entries. -/
theorem min_rows_apply {A B : ℕ} (src : FVec Ideal ⟨2, ![A, B]⟩ .f32)
    (h : (⟨2, ![A, B]⟩ : Shape).Reduces [0] ⟨1, ![B]⟩) (hφ : FKind.Formats .f32)
    (hacc : (0x7F800000#32 : BitVec 32) = FKind.minimumf.neutral .f32 hφ) (n : Fin B) :
    multiReduction .minimumf [0] ⟨1, ![B]⟩ src 0x7F800000#32 h hφ hacc (ix1 n) = Finset.univ.inf fun r : Fin A => src (ix2 r n) := by
  refine (multiReduction_minimumf_single src _ h hφ hacc (ix1 n)).trans ?_
  have e : (Finset.univ : Finset (Fin A)).fold min (FloatOps.ofBits .f32 0x7F800000#32) (fun r => src (h.lift (ix1 n) r))
      = Finset.univ.inf fun r => src (h.lift (ix1 n) r) := by
    rw [show (FloatOps.ofBits .f32 0x7F800000#32 : Ideal .f32) = (⊤ : EReal) from ofBits_inf_f32]; exact fold_min_top _ _
  refine e.trans ?_
  refine Finset.inf_congr rfl fun r _ => congrArg src ?_
  funext a
  match a with
  | ⟨0, _⟩ => exact Fin.ext rfl
  | ⟨1, _⟩ => exact Fin.ext rfl

end Cert.LibMinReduce

end
-- ==== Proof.LibMaxReduce.lean ====
/-
  The maximum-reduction of an array along one axis, read at the extended reals.

  A reduction by `max` that starts from the bottom element is a supremum: the order of the fold is
  immaterial and the starting value is absorbed.  The first lemma says so for any finite set in any linear
  order with a bottom element; the second reads the f32 word `0xFF800000` as that bottom element; the third
  applies both to a one-operand host reduction by `maximumf` over ONE axis, giving the supremum over that
  axis's coordinates of the operand at the result index with the coordinate inserted.
-/
import Idealize.ShloMosaic.PureOps.Ideal.Laws

noncomputable section

namespace Cert.LibMaxReduce

open Idealize.ShloMosaic

/-- In a linear order with a bottom element, folding `max` from `⊥` over a finite set is the supremum over
    the set: `⊥` is the identity of `max`, and `max` is the join. -/
theorem fold_max_bot_eq_sup {ι α : Type*} [LinearOrder α] [OrderBot α] (s : Finset ι) (f : ι → α) :
    s.fold max ⊥ f = s.sup f := by
  induction s using Finset.cons_induction with
  | empty => rfl
  | cons a s ha ih => rw [Finset.fold_cons, Finset.sup_cons, ih]

/-- The f32 word `0xFF800000` (sign set, exponent all ones, significand zero) denotes `-∞`, the bottom
    element of the extended reals. -/
theorem ofBits_neg_inf_f32 : Ideal.ofBits .f32 0xFF800000#32 = ⊥ := by
  simp [Ideal.ofBits, Ideal.ieee]

/-- At the extended reals the fold of `maximumf` from `⊥` over a finite set is the supremum over the set. -/
theorem fold_maximumf_bot_eq_sup {ι : Type*} {φ : FTy} (s : Finset ι) (f : ι → Ideal φ) :
    s.fold (FloatOps.maximumf (F := Ideal) (φ := φ)) ⊥ f = s.sup f := by
  induction s using Finset.cons_induction with
  | empty => rfl
  | cons a s ha ih => rw [Finset.fold_cons, Finset.sup_cons, ih]; rfl

/-- A one-operand host reduction by `maximumf` over ONE axis `a`, whose initial value is `⊥`, is at each
    result index `j` the supremum, over the coordinates `k` of axis `a`, of the operand at `j` with `k`
    inserted on axis `a`. -/
theorem hostReduce_maximumf_single {s t u : Shape} {a : Fin s.rank} {φ : FTy} (x : FVec Ideal s φ)
    (init : FVec Ideal u φ) (h' : s.ReducesTo [a] t) (h : s.Reduces [a] t) (hu : 0 < u.numel)
    (hinit : init (Shape.Idx.first hu) = ⊥) (j : t.Idx) :
    Host.reduce FloatOps.maximumf x init h' hu j
      = (Finset.univ : Finset (Fin (s.size a))).sup fun k => x (h.lift j k) := by
  rw [Host.reduce_eq_fold_single FloatOps.maximumf x init h' h hu j, hinit, fold_maximumf_bot_eq_sup]
  rfl

end Cert.LibMaxReduce

end
-- ==== Proof.MathLayout.lean ====
import proofs.«120963_j80418967650486_1_alg».proof.Proof.LibKeepdims
import proofs.«120963_j80418967650486_1_alg».proof.Proof.LibMiddleAxis
import proofs.«120963_j80418967650486_1_alg».proof.Proof.LibRank3Axes
import proofs.«120963_j80418967650486_1_alg».proof.Proof.LibMinReduce
import proofs.«120963_j80418967650486_1_alg».proof.Proof.LibMaxReduce
import Idealize.ShloMosaic.Lib.ValueLayout
import Idealize.ShloMosaic.PureOps.Ideal.Laws

/-!
  Layout steps and whole-array reductions read at an index given by coordinates.

  • A matrix `[a, b]` cast to `[a, b, 1]` reads, at `(i, j, 0)`, the matrix at `(i, j)`.
  • The minimum of a rank-3 array `[a, b, c]` from +∞ along its last axis is, at `(i, j)`, the infimum over `k` of the
    entries `(i, j, k)`; along its middle axis it is, at `(i, k)`, the infimum over `j`.
  • The indices of an array `[1, a, b]` are the pairs `(p, k)`; a sum of such an array over both of its non-unit axes
    from zero is the double sum of its entries, and a maximum over them from -∞ is the supremum of its entries.
  • The one entry of a `[1]` array, read through a cast to `[1, 1, 1]`.
-/

noncomputable section

open scoped BigOperators

namespace Cert.KernelIdeal.Math.Layout

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The minimum along the last axis of an `[a, b, c]` array from +∞, at `(i, j)`: the infimum over `k` of the entries
    `(i, j, k)`. -/
theorem min_axis2_apply {a b c : ℕ} (src : FVec Ideal ⟨3, ![a, b, c]⟩ .f32)
    (h : (⟨3, ![a, b, c]⟩ : Shape).Reduces [2] ⟨2, ![a, b]⟩) (hφ : FKind.Formats .f32)
    (hacc : (0x7F800000#32 : BitVec 32) = FKind.minimumf.neutral .f32 hφ) (i : Fin a) (j : Fin b) :
    multiReduction .minimumf [2] ⟨2, ![a, b]⟩ src 0x7F800000#32 h hφ hacc (ix2 i j)
      = Finset.univ.inf fun k : Fin c => src (ix3 i j k) := by
  refine (Cert.LibMinReduce.multiReduction_minimumf_single src _ h hφ hacc (ix2 i j)).trans ?_
  have e : (Finset.univ : Finset (Fin c)).fold min (FloatOps.ofBits .f32 0x7F800000#32) (fun k => src (h.lift (ix2 i j) k))
      = Finset.univ.inf fun k => src (h.lift (ix2 i j) k) := by
    rw [show (FloatOps.ofBits .f32 0x7F800000#32 : Ideal .f32) = (⊤ : EReal) from Cert.LibMinReduce.ofBits_inf_f32]
    exact Cert.LibMinReduce.fold_min_top _ _
  refine e.trans ?_
  refine Finset.inf_congr rfl fun k _ => congrArg src ?_
  funext d
  match d with
  | ⟨0, _⟩ => exact Fin.ext rfl
  | ⟨1, _⟩ => exact Fin.ext rfl
  | ⟨2, _⟩ => exact Fin.ext rfl

/-- The minimum along the middle axis of an `[a, b, c]` array from +∞, at `(i, k)`: the infimum over `j` of the entries
    `(i, j, k)`. -/
theorem min_axis1_apply {a b c : ℕ} (src : FVec Ideal ⟨3, ![a, b, c]⟩ .f32)
    (h : (⟨3, ![a, b, c]⟩ : Shape).Reduces [1] ⟨2, ![a, c]⟩) (hφ : FKind.Formats .f32)
    (hacc : (0x7F800000#32 : BitVec 32) = FKind.minimumf.neutral .f32 hφ) (i : Fin a) (k : Fin c) :
    multiReduction .minimumf [1] ⟨2, ![a, c]⟩ src 0x7F800000#32 h hφ hacc (ix2 i k)
      = Finset.univ.inf fun j : Fin b => src (ix3 i j k) := by
  refine (Cert.LibMinReduce.multiReduction_minimumf_single src _ h hφ hacc (ix2 i k)).trans ?_
  have e : (Finset.univ : Finset (Fin b)).fold min (FloatOps.ofBits .f32 0x7F800000#32) (fun j => src (h.lift (ix2 i k) j))
      = Finset.univ.inf fun j => src (h.lift (ix2 i k) j) := by
    rw [show (FloatOps.ofBits .f32 0x7F800000#32 : Ideal .f32) = (⊤ : EReal) from Cert.LibMinReduce.ofBits_inf_f32]
    exact Cert.LibMinReduce.fold_min_top _ _
  refine e.trans ?_
  refine Finset.inf_congr rfl fun j _ => congrArg src ?_
  funext d
  match d with
  | ⟨0, _⟩ => exact Fin.ext rfl
  | ⟨1, _⟩ => exact Fin.ext rfl
  | ⟨2, _⟩ => exact Fin.ext rfl

/-- The indices of an array `[1, a, b]` are the pairs of its two non-unit coordinates. -/
def idx1ab {a b : ℕ} : Fin a × Fin b ≃ (⟨3, ![1, a, b]⟩ : Shape).Idx where
  toFun x := ix3 (0 : Fin 1) x.1 x.2
  invFun i := (i 1, i 2)
  left_inv _ := rfl
  right_inv i := by
    funext d
    match d with
    | ⟨0, _⟩ =>
      exact Fin.ext (by
        have h : (i 0).val < 1 := (i 0).isLt
        show (0 : ℕ) = (i 0).val
        omega)
    | ⟨1, _⟩ => rfl
    | ⟨2, _⟩ => rfl

/-- A sum of a `[1, a, b]` array over both non-unit axes from the zero word, at exact arithmetic: the double sum of its
    entries. -/
theorem sum_all_apply {a b : ℕ} (src : FVec Ideal ⟨3, ![1, a, b]⟩ .f32)
    (h : (⟨3, ![1, a, b]⟩ : Shape).Reduces [1, 2] ⟨1, ![1]⟩) (hφ : FKind.Formats .f32)
    (hacc : (0x00000000#32 : BitVec 32) = FKind.add.neutral .f32 hφ) (j : (⟨1, ![1]⟩ : Shape).Idx) :
    multiReduction .add [1, 2] ⟨1, ![1]⟩ src 0x00000000#32 h hφ hacc j
      = ∑ p : Fin a, ∑ k : Fin b, src (ix3 (0 : Fin 1) p k) := by
  refine (Ideal.multiReduction_add_total src _ h (fun d => by fin_cases d; rfl) hφ hacc j).trans ?_
  rw [← Equiv.sum_comp (idx1ab (a := a) (b := b)) src, Fintype.sum_prod_type]
  rfl

/-- A maximum of a `[1, a, b]` array over both non-unit axes from -∞, at exact arithmetic: the supremum of its entries. -/
theorem max_all_apply {a b : ℕ} (src : FVec Ideal ⟨3, ![1, a, b]⟩ .f32)
    (h : (⟨3, ![1, a, b]⟩ : Shape).Reduces [1, 2] ⟨1, ![1]⟩) (hφ : FKind.Formats .f32)
    (hacc : (0xFF800000#32 : BitVec 32) = FKind.maximumf.neutral .f32 hφ) (j : (⟨1, ![1]⟩ : Shape).Idx) :
    multiReduction .maximumf [1, 2] ⟨1, ![1]⟩ src 0xFF800000#32 h hφ hacc j
      = Finset.univ.sup fun x : Fin a × Fin b => src (ix3 (0 : Fin 1) x.1 x.2) := by
  refine (multiReduction_maximumf_eq_fold src _ h hφ hacc j).trans ?_
  rw [Finset.filter_true_of_mem fun i _ => funext fun d => Fin.ext (by
    have := (h.drop i d).isLt; have := (j d).isLt
    have hd : (⟨1, ![1]⟩ : Shape).size d = 1 := by fin_cases d; rfl
    omega)]
  have e : (FloatOps.ofBits .f32 0xFF800000#32 : Ideal .f32) = (⊥ : EReal) := Cert.LibMaxReduce.ofBits_neg_inf_f32
  rw [e, Cert.LibMaxReduce.fold_maximumf_bot_eq_sup]
  have m := Finset.sup_map Finset.univ (idx1ab (a := a) (b := b)).toEmbedding src
  rw [Finset.map_univ_equiv] at m
  exact m

/-- The one entry of a `[1]` array, read at position `(0, 0, 0)` of its cast to `[1, 1, 1]`. -/
theorem extract_S1_apply (v : (⟨1, ![1]⟩ : Shape).Idx → α) (h : (⟨1, ![1]⟩ : Shape).ShapeCasts ⟨3, ![1, 1, 1]⟩)
    (hp : ∀ d, (![0, 0, 0] : Fin 3 → ℕ) d < (⟨3, ![1, 1, 1]⟩ : Shape).size d) :
    extractAt ![0, 0, 0] (shapeCast ⟨3, ![1, 1, 1]⟩ v h) hp = v (ix1 (0 : Fin 1)) := by
  unfold extractAt
  exact shapeCast_apply v h _ _ (by rw [Shape.rowMajor_val_three, Shape.rowMajor_val_one]; rfl)

end Cert.KernelIdeal.Math.Layout

end
-- ==== Proof.MathStats.lean ====
import proofs.«120963_j80418967650486_1_alg».proof.Proof.Steps
import proofs.«120963_j80418967650486_1_alg».proof.Proof.MathBlocks
import proofs.«120963_j80418967650486_1_alg».proof.Proof.MathLayout

/-!
  The statistics kernel's table after its last grid point, at exact arithmetic.

  Rows 0–3 of the table are sums over every entry of the three input arrays — of the masked difference of logarithms,
  of its masked square, of the masked squared difference, and of the mask itself; row 4 is the maximum of the sentinel
  and of the target over the entries whose mask is positive. First per block (the sum over the grid points of each
  block's sum; the maximum over the grid points of each block's maximum), then over the whole arrays, each of whose
  rows is the six blocks laid side by side.
-/

noncomputable section

open scoped BigOperators

namespace Cert.KernelIdeal.Math

open Idealize.ShloMosaic Idealize.ShloMosaic.ValueIdx Cert.KernelIdeal Cert.KernelIdeal.Gen

/-- The small positive constant added to an argument before its logarithm is taken. -/
def eps : EReal := Ideal.ofBits .f32 0x2EDBE6FF#32

/-- The large negative sentinel the running maximum starts from and masked-out entries are replaced by. -/
def negBig : EReal := Ideal.ofBits .f32 0xF149F2CA#32

/-- The difference of the logarithms of two shifted arguments. -/
def dlog (x y : EReal) : EReal := Ideal.log (x + eps) - Ideal.log (y + eps)

/-- The entry `t` where the mask `w` is positive, the sentinel elsewhere. -/
def sel (t w : EReal) : EReal := if 0 < w then t else negBig

/-! ## One block -/

theorem k0_pay4_eq (x : Vec Ideal S8x12800 .f32) : k0_pay4 (F := Ideal) x = x := shapeCast_self x _
theorem k0_pay5_eq (x : Vec Ideal S8x12800 .f32) : k0_pay5 (F := Ideal) x = x := shapeCast_self x _
theorem k0_pay6_eq (x : Vec Ideal S8x12800 .f32) : k0_pay6 (F := Ideal) x = x := shapeCast_self x _

/-- The difference of logarithms, entry by entry. -/
theorem k0_pay7_apply (x0 x1 : Vec Ideal S8x12800 .f32) (i : S8x12800.Idx) :
    k0_pay7 (F := Ideal) x0 x1 i = dlog (x0 i) (x1 i) := by
  show Ideal.log (k0_pay4 (F := Ideal) x0 i + Ideal.ofBits .f32 0x2EDBE6FF#32)
      - Ideal.log (k0_pay5 (F := Ideal) x1 i + Ideal.ofBits .f32 0x2EDBE6FF#32) = _
  rw [k0_pay4_eq, k0_pay5_eq]
  rfl

/-- A select on "the mask is positive" is the `if`. -/
theorem select_ogt_zero (t w nb : EReal) : Scalar.select (Ideal.cmp .ogt w 0) t nb = if 0 < w then t else nb := by
  by_cases h : 0 < w
  · have e : Ideal.cmp .ogt w 0 = 1#1 := by simp [Ideal.cmp, h]
    rw [if_pos h, e]
    exact select_one _ _
  · have e : Ideal.cmp .ogt w 0 = 0#1 := by simp [Ideal.cmp, h]
    rw [if_neg h, e]
    exact select_zero _ _

/-- The target where the mask is positive, the sentinel elsewhere, entry by entry. -/
theorem k0_pay12_apply (x1 x2 : Vec Ideal S8x12800 .f32) (i : S8x12800.Idx) :
    k0_pay12 (F := Ideal) x1 x2 i = sel (x1 i) (x2 i) := by
  show Scalar.select (Ideal.cmp .ogt (k0_pay6 (F := Ideal) x2 i) (Ideal.ofBits .f32 0x00000000#32)) (k0_pay5 (F := Ideal) x1 i)
      (Ideal.ofBits .f32 0xF149F2CA#32) = _
  rw [k0_pay6_eq, k0_pay5_eq, Ideal.ofBits_zero_f32, select_ogt_zero]
  rfl

/-- The sum of a block over all of its entries, as the kernel takes it. -/
theorem total_sum (v : FVec Ideal S8x12800 .f32) :
    extractAt ![0, 0, 0] (shapeCast S1x1x1 (multiReduction (F := Ideal) .add [1, 2] S1
        (shapeCast S1x8x12800 v shapeCasts_S8x12800_S1x8x12800) 0x00000000#32 reduces_S1x8x12800_S1 (.inl rfl) rfl)
        shapeCasts_S1_S1x1x1) inpos_S1x1x1_p0_0_0
      = ∑ p : Fin 8, ∑ k : Fin 12800, v (ix2 p k) := by
  refine (Layout.extract_S1_apply _ _ _).trans ?_
  refine (Layout.sum_all_apply _ _ _ _ _).trans ?_
  exact Finset.sum_congr rfl fun p _ => Finset.sum_congr rfl fun k _ => shapeCast_ab_1ab_apply v _ 0 p k

/-- The maximum of a block over all of its entries, as the kernel takes it. -/
theorem total_max (v : FVec Ideal S8x12800 .f32) :
    extractAt ![0, 0, 0] (shapeCast S1x1x1 (multiReduction (F := Ideal) .maximumf [1, 2] S1
        (shapeCast S1x8x12800 v shapeCasts_S8x12800_S1x8x12800) 0xFF800000#32 reduces_S1x8x12800_S1 (.inl rfl) rfl)
        shapeCasts_S1_S1x1x1) inpos_S1x1x1_p0_0_0
      = Finset.univ.sup fun x : Fin 8 × Fin 12800 => v (ix2 x.1 x.2) := by
  refine (Layout.extract_S1_apply _ _ _).trans ?_
  refine (Layout.max_all_apply _ _ _ _ _).trans ?_
  exact Finset.sup_congr rfl fun x _ => shapeCast_ab_1ab_apply v _ 0 x.1 x.2

theorem k0_pay8_eq (x0 x1 x2 : Vec Ideal S8x12800 .f32) :
    k0_pay8 (F := Ideal) x0 x1 x2
      = ∑ p : Fin 8, ∑ k : Fin 12800, dlog (x0 (ix2 p k)) (x1 (ix2 p k)) * x2 (ix2 p k) := by
  refine (total_sum (mulf (k0_pay7 (F := Ideal) x0 x1) (k0_pay6 (F := Ideal) x2))).trans ?_
  refine Finset.sum_congr rfl fun p _ => Finset.sum_congr rfl fun k _ => ?_
  show k0_pay7 (F := Ideal) x0 x1 (ix2 p k) * k0_pay6 (F := Ideal) x2 (ix2 p k) = _
  rw [k0_pay7_apply, k0_pay6_eq]

theorem k0_pay9_eq (x0 x1 x2 : Vec Ideal S8x12800 .f32) :
    k0_pay9 (F := Ideal) x0 x1 x2
      = ∑ p : Fin 8, ∑ k : Fin 12800,
          (dlog (x0 (ix2 p k)) (x1 (ix2 p k)) * dlog (x0 (ix2 p k)) (x1 (ix2 p k))) * x2 (ix2 p k) := by
  refine (total_sum (mulf (mulf (k0_pay7 (F := Ideal) x0 x1) (k0_pay7 (F := Ideal) x0 x1)) (k0_pay6 (F := Ideal) x2))).trans ?_
  refine Finset.sum_congr rfl fun p _ => Finset.sum_congr rfl fun k _ => ?_
  show (k0_pay7 (F := Ideal) x0 x1 (ix2 p k) * k0_pay7 (F := Ideal) x0 x1 (ix2 p k)) * k0_pay6 (F := Ideal) x2 (ix2 p k) = _
  rw [k0_pay7_apply, k0_pay6_eq]

theorem k0_pay10_eq (x0 x1 x2 : Vec Ideal S8x12800 .f32) :
    k0_pay10 (F := Ideal) x0 x1 x2
      = ∑ p : Fin 8, ∑ k : Fin 12800,
          ((x0 (ix2 p k) - x1 (ix2 p k)) * (x0 (ix2 p k) - x1 (ix2 p k))) * x2 (ix2 p k) := by
  refine (total_sum (mulf (mulf (subf (k0_pay4 (F := Ideal) x0) (k0_pay5 (F := Ideal) x1))
    (subf (k0_pay4 (F := Ideal) x0) (k0_pay5 (F := Ideal) x1))) (k0_pay6 (F := Ideal) x2))).trans ?_
  refine Finset.sum_congr rfl fun p _ => Finset.sum_congr rfl fun k _ => ?_
  show ((k0_pay4 (F := Ideal) x0 (ix2 p k) - k0_pay5 (F := Ideal) x1 (ix2 p k))
      * (k0_pay4 (F := Ideal) x0 (ix2 p k) - k0_pay5 (F := Ideal) x1 (ix2 p k))) * k0_pay6 (F := Ideal) x2 (ix2 p k) = _
  rw [k0_pay4_eq, k0_pay5_eq, k0_pay6_eq]

theorem k0_pay11_eq (x2 : Vec Ideal S8x12800 .f32) :
    k0_pay11 (F := Ideal) x2 = ∑ p : Fin 8, ∑ k : Fin 12800, x2 (ix2 p k) := by
  refine (total_sum (k0_pay6 (F := Ideal) x2)).trans ?_
  rw [k0_pay6_eq]

/-- A row of the table plus a block's sum, lane by lane. -/
theorem k0_pay13_apply (s : EReal) (row : Vec Ideal S1x128 .f32) (l : Fin 128) :
    k0_pay13 (F := Ideal) s row (ix2 (0 : Fin 1) l) = row (ix2 (0 : Fin 1) l) + s := by
  show shapeCast S1x128 (addf (F := Ideal) (φ := .f32) (shapeCast S128 row shapeCasts_S1x128_S128) (broadcast S128 s))
      shapeCasts_S128_S1x128 (ix2 (0 : Fin 1) l) = _
  refine (shapeCast_a_1a_apply _ _ 0 l).trans ?_
  rw [addf_apply, broadcast_apply, shapeCast_1a_a_apply]

/-- The running maximum's row against a block's masked maximum, lane by lane. -/
theorem k0_pay1_pay17_apply (v : FVec Ideal S8x12800 .f32) (row : Vec Ideal S1x128 .f32) (l : Fin 128) :
    k0_pay1 (F := Ideal) (k0_pay17 (F := Ideal) v row) (ix2 (0 : Fin 1) l)
      = max (row (ix2 (0 : Fin 1) l)) (Finset.univ.sup fun x : Fin 8 × Fin 12800 => v (ix2 x.1 x.2)) := by
  show shapeCast S1x128 (k0_pay17 (F := Ideal) v row) shapeCasts_S128_S1x128 (ix2 (0 : Fin 1) l) = _
  refine (shapeCast_a_1a_apply _ _ 0 l).trans ?_
  show maximumf (F := Ideal) (φ := .f32) (shapeCast S128 row shapeCasts_S1x128_S128)
      (broadcast S128 (extractAt ![0, 0, 0] (shapeCast S1x1x1 (multiReduction (F := Ideal) .maximumf [1, 2] S1
        (shapeCast S1x8x12800 v shapeCasts_S8x12800_S1x8x12800) 0xFF800000#32 reduces_S1x8x12800_S1 (.inl rfl) rfl)
        shapeCasts_S1_S1x1x1) inpos_S1x1x1_p0_0_0)) (ix1 l) = _
  rw [maximumf_apply, broadcast_apply, shapeCast_1a_a_apply]
  exact congrArg (max _) (total_max v)

/-! ## The table, row by row -/

/-- After the reset a row other than row 4 is zero. -/
theorem stats_init_row (r : Fin 8) (hr : r.val ≠ 4) (l : Fin 128) :
    Steps.stats_init (F := Ideal) (ix2 r l) = (0 : EReal) := by
  show (if r.val = 4 then (k0_pay3 (F := Ideal)) (ix2 (0 : Fin 1) l) else (k0_pay2 (F := Ideal)) (ix2 r l)) = _
  rw [if_neg hr]
  exact Ideal.ofBits_zero_f32

/-- After the reset row 4 holds the sentinel. -/
theorem stats_init_row4 (l : Fin 128) : Steps.stats_init (F := Ideal) (ix2 (4 : Fin 8) l) = negBig := by
  show shapeCast S1x128 (broadcast S128 (Ideal.ofBits .f32 0xF149F2CA#32)) shapeCasts_S128_S1x128 (ix2 (0 : Fin 1) l) = _
  refine (shapeCast_a_1a_apply _ _ 0 l).trans ?_
  rfl

section Rows

variable (x0 x1 x2 : Vec Ideal S8x12800 .f32) (prev : Vec Ideal S8x128 .f32) (l : Fin 128)

theorem stats_upd_row0 : Steps.stats_upd (F := Ideal) x0 x1 x2 prev (ix2 (0 : Fin 8) l)
    = prev (ix2 (0 : Fin 8) l) + k0_pay8 (F := Ideal) x0 x1 x2 :=
  k0_pay13_apply (k0_pay8 (F := Ideal) x0 x1 x2) (Steps.rowOf prev 0) l

theorem stats_upd_row1 : Steps.stats_upd (F := Ideal) x0 x1 x2 prev (ix2 (1 : Fin 8) l)
    = prev (ix2 (1 : Fin 8) l) + k0_pay9 (F := Ideal) x0 x1 x2 :=
  k0_pay13_apply (k0_pay9 (F := Ideal) x0 x1 x2) (Steps.rowOf prev 1) l

theorem stats_upd_row2 : Steps.stats_upd (F := Ideal) x0 x1 x2 prev (ix2 (2 : Fin 8) l)
    = prev (ix2 (2 : Fin 8) l) + k0_pay10 (F := Ideal) x0 x1 x2 :=
  k0_pay13_apply (k0_pay10 (F := Ideal) x0 x1 x2) (Steps.rowOf prev 2) l

theorem stats_upd_row3 : Steps.stats_upd (F := Ideal) x0 x1 x2 prev (ix2 (3 : Fin 8) l)
    = prev (ix2 (3 : Fin 8) l) + k0_pay11 (F := Ideal) x2 :=
  k0_pay13_apply (k0_pay11 (F := Ideal) x2) (Steps.rowOf prev 3) l

theorem stats_upd_row4 : Steps.stats_upd (F := Ideal) x0 x1 x2 prev (ix2 (4 : Fin 8) l)
    = max (prev (ix2 (4 : Fin 8) l))
        (Finset.univ.sup fun x : Fin 8 × Fin 12800 => sel (x1 (ix2 x.1 x.2)) (x2 (ix2 x.1 x.2))) := by
  refine (k0_pay1_pay17_apply (k0_pay12 (F := Ideal) x1 x2) (Steps.rowOf prev 4) l).trans ?_
  refine congrArg (max _) (Finset.sup_congr rfl fun x _ => ?_)
  exact k0_pay12_apply x1 x2 _

end Rows

section PerBlock

variable (b0 b1 b2 : ℕ → Vec Ideal S8x12800 .f32) (l : Fin 128)

/-- A row that starts at zero and gains `g` of the blocks at each point holds, after point `n`, the sum of `g` over the
    points `0 … n`. -/
theorem stats_at_sum (r : Fin 8) (g : Vec Ideal S8x12800 .f32 → Vec Ideal S8x12800 .f32 → Vec Ideal S8x12800 .f32 → EReal)
    (hinit : Steps.stats_init (F := Ideal) (ix2 r l) = (0 : EReal))
    (hupd : ∀ (x0 x1 x2 : Vec Ideal S8x12800 .f32) (prev : Vec Ideal S8x128 .f32),
      Steps.stats_upd (F := Ideal) x0 x1 x2 prev (ix2 r l) = prev (ix2 r l) + g x0 x1 x2) :
    ∀ n : ℕ, Steps.stats_at (F := Ideal) b0 b1 b2 n (ix2 r l) = ∑ t ∈ Finset.range (n + 1), g (b0 t) (b1 t) (b2 t)
  | 0 => by
    show Steps.stats_upd (F := Ideal) (b0 0) (b1 0) (b2 0) (Steps.stats_init (F := Ideal)) (ix2 r l) = _
    rw [hupd, hinit, zero_add, Finset.sum_range_one]
  | n + 1 => by
    show Steps.stats_upd (F := Ideal) (b0 (n + 1)) (b1 (n + 1)) (b2 (n + 1)) (Steps.stats_at (F := Ideal) b0 b1 b2 n) (ix2 r l) = _
    rw [hupd, stats_at_sum r g hinit hupd n, Finset.sum_range_succ (n := n + 1)]

/-- Row 4 after point `n`: the maximum of the sentinel and of the masked targets of the blocks `0 … n`. -/
theorem stats_at_max : ∀ n : ℕ, Steps.stats_at (F := Ideal) b0 b1 b2 n (ix2 (4 : Fin 8) l)
      = max negBig ((Finset.range (n + 1)).sup fun t => Finset.univ.sup fun x : Fin 8 × Fin 12800 =>
          sel (b1 t (ix2 x.1 x.2)) (b2 t (ix2 x.1 x.2)))
  | 0 => by
    show Steps.stats_upd (F := Ideal) (b0 0) (b1 0) (b2 0) (Steps.stats_init (F := Ideal)) (ix2 (4 : Fin 8) l) = _
    rw [stats_upd_row4, stats_init_row4, Finset.range_one, Finset.sup_singleton]
  | n + 1 => by
    show Steps.stats_upd (F := Ideal) (b0 (n + 1)) (b1 (n + 1)) (b2 (n + 1)) (Steps.stats_at (F := Ideal) b0 b1 b2 n)
      (ix2 (4 : Fin 8) l) = _
    rw [stats_upd_row4, stats_at_max n, Finset.range_add_one (n := n + 1), Finset.sup_insert, max_assoc]
    exact congrArg (max negBig) (max_comm _ _)

theorem stats_row0 :
    Steps.stats_at (F := Ideal) b0 b1 b2 5 (ix2 (0 : Fin 8) l)
      = ∑ t : Fin 6, ∑ p : Fin 8, ∑ k : Fin 12800,
          dlog (b0 t (ix2 p k)) (b1 t (ix2 p k)) * b2 t (ix2 p k) := by
  rw [stats_at_sum b0 b1 b2 l 0 (fun x0 x1 x2 => k0_pay8 (F := Ideal) x0 x1 x2) (stats_init_row 0 (by decide) l)
    (fun x0 x1 x2 prev => stats_upd_row0 x0 x1 x2 prev l) 5, Finset.sum_range]
  exact Finset.sum_congr rfl fun t _ => k0_pay8_eq _ _ _

theorem stats_row1 :
    Steps.stats_at (F := Ideal) b0 b1 b2 5 (ix2 (1 : Fin 8) l)
      = ∑ t : Fin 6, ∑ p : Fin 8, ∑ k : Fin 12800,
          (dlog (b0 t (ix2 p k)) (b1 t (ix2 p k)) * dlog (b0 t (ix2 p k)) (b1 t (ix2 p k))) * b2 t (ix2 p k) := by
  rw [stats_at_sum b0 b1 b2 l 1 (fun x0 x1 x2 => k0_pay9 (F := Ideal) x0 x1 x2) (stats_init_row 1 (by decide) l)
    (fun x0 x1 x2 prev => stats_upd_row1 x0 x1 x2 prev l) 5, Finset.sum_range]
  exact Finset.sum_congr rfl fun t _ => k0_pay9_eq _ _ _

theorem stats_row2 :
    Steps.stats_at (F := Ideal) b0 b1 b2 5 (ix2 (2 : Fin 8) l)
      = ∑ t : Fin 6, ∑ p : Fin 8, ∑ k : Fin 12800,
          ((b0 t (ix2 p k) - b1 t (ix2 p k)) * (b0 t (ix2 p k) - b1 t (ix2 p k))) * b2 t (ix2 p k) := by
  rw [stats_at_sum b0 b1 b2 l 2 (fun x0 x1 x2 => k0_pay10 (F := Ideal) x0 x1 x2) (stats_init_row 2 (by decide) l)
    (fun x0 x1 x2 prev => stats_upd_row2 x0 x1 x2 prev l) 5, Finset.sum_range]
  exact Finset.sum_congr rfl fun t _ => k0_pay10_eq _ _ _

theorem stats_row3 :
    Steps.stats_at (F := Ideal) b0 b1 b2 5 (ix2 (3 : Fin 8) l)
      = ∑ t : Fin 6, ∑ p : Fin 8, ∑ k : Fin 12800, b2 t (ix2 p k) := by
  rw [stats_at_sum b0 b1 b2 l 3 (fun _ _ x2 => k0_pay11 (F := Ideal) x2) (stats_init_row 3 (by decide) l)
    (fun x0 x1 x2 prev => stats_upd_row3 x0 x1 x2 prev l) 5, Finset.sum_range]
  exact Finset.sum_congr rfl fun t _ => k0_pay11_eq _

theorem stats_row4 :
    Steps.stats_at (F := Ideal) b0 b1 b2 5 (ix2 (4 : Fin 8) l)
      = max negBig (Finset.univ.sup fun x : Fin 6 × Fin 8 × Fin 12800 =>
          sel (b1 x.1 (ix2 x.2.1 x.2.2)) (b2 x.1 (ix2 x.2.1 x.2.2))) := by
  rw [stats_at_max b0 b1 b2 l 5, Blocks.sup_range_eq_univ, ← Finset.univ_product_univ (α := Fin 6) (β := Fin 8 × Fin 12800),
    Finset.sup_product_left]

end PerBlock

/-! ## The whole arrays -/

/-- A sum over the entries of the six blocks is the sum over the entries of the whole arrays. -/
theorem sum_flat (H : Fin 8 → Fin 76800 → EReal) :
    ∑ t : Fin 6, ∑ p : Fin 8, ∑ k : Fin 12800, H p ⟨12800 * t.val + k.val, by omega⟩
      = ∑ p : Fin 8, ∑ K : Fin 76800, H p K := by
  rw [Finset.sum_comm]
  exact Finset.sum_congr rfl fun p _ => Blocks.sum_blocks (B := 12800) (n := 6) (N := 76800) (by norm_num) (H p)

/-- A supremum over the entries of the six blocks is the supremum over the entries of the whole arrays. -/
theorem sup_flat (H : Fin 8 → Fin 76800 → EReal) :
    (Finset.univ.sup fun x : Fin 6 × Fin 8 × Fin 12800 => H x.2.1 ⟨12800 * x.1.val + x.2.2.val, by omega⟩)
      = Finset.univ.sup fun y : Fin 8 × Fin 76800 => H y.1 y.2 := by
  have hN : (76800 : ℕ) = 12800 * 6 := by norm_num
  refine (Blocks.sup_prod_univ fun (t : Fin 6) (y : Fin 8 × Fin 12800) => H y.1 (Blocks.blockIdx hN t y.2)).symm.trans ?_
  refine (Finset.sup_congr rfl fun t _ =>
    (Blocks.sup_prod_univ fun (p : Fin 8) (k : Fin 12800) => H p (Blocks.blockIdx hN t k)).symm).trans ?_
  refine (Finset.sup_comm _ _ _).trans ?_
  refine (Finset.sup_congr rfl fun p _ =>
    (Blocks.sup_prod_univ fun (t : Fin 6) (k : Fin 12800) => H p (Blocks.blockIdx hN t k)).trans
      (Blocks.sup_blocks hN (H p))).trans ?_
  exact Blocks.sup_prod_univ fun (p : Fin 8) (K : Fin 76800) => H p K

section Flat

variable (b0 b1 b2 : ℕ → Vec Ideal S8x12800 .f32) (P T M : Fin 8 → Fin 76800 → EReal)
  (hb0 : ∀ (t : Fin 6) (p : Fin 8) (k : Fin 12800), b0 t (ix2 p k) = P p ⟨12800 * t.val + k.val, by omega⟩)
  (hb1 : ∀ (t : Fin 6) (p : Fin 8) (k : Fin 12800), b1 t (ix2 p k) = T p ⟨12800 * t.val + k.val, by omega⟩)
  (hb2 : ∀ (t : Fin 6) (p : Fin 8) (k : Fin 12800), b2 t (ix2 p k) = M p ⟨12800 * t.val + k.val, by omega⟩)
  (l : Fin 128)

include hb0 hb1 hb2 in
theorem stats_row0_flat :
    Steps.stats_at (F := Ideal) b0 b1 b2 5 (ix2 (0 : Fin 8) l)
      = ∑ p : Fin 8, ∑ K : Fin 76800, dlog (P p K) (T p K) * M p K := by
  refine (stats_row0 b0 b1 b2 l).trans ?_
  refine Eq.trans (Finset.sum_congr rfl fun t _ => Finset.sum_congr rfl fun p _ => Finset.sum_congr rfl fun k _ => ?_)
    (sum_flat fun p K => dlog (P p K) (T p K) * M p K)
  show _ = dlog (P p ⟨12800 * t.val + k.val, by omega⟩) (T p ⟨12800 * t.val + k.val, by omega⟩) * M p ⟨12800 * t.val + k.val, by omega⟩
  rw [hb0, hb1, hb2]

include hb0 hb1 hb2 in
theorem stats_row1_flat :
    Steps.stats_at (F := Ideal) b0 b1 b2 5 (ix2 (1 : Fin 8) l)
      = ∑ p : Fin 8, ∑ K : Fin 76800, (dlog (P p K) (T p K) * dlog (P p K) (T p K)) * M p K := by
  refine (stats_row1 b0 b1 b2 l).trans ?_
  refine Eq.trans (Finset.sum_congr rfl fun t _ => Finset.sum_congr rfl fun p _ => Finset.sum_congr rfl fun k _ => ?_)
    (sum_flat fun p K => (dlog (P p K) (T p K) * dlog (P p K) (T p K)) * M p K)
  show _ = (dlog (P p ⟨12800 * t.val + k.val, by omega⟩) (T p ⟨12800 * t.val + k.val, by omega⟩)
      * dlog (P p ⟨12800 * t.val + k.val, by omega⟩) (T p ⟨12800 * t.val + k.val, by omega⟩)) * M p ⟨12800 * t.val + k.val, by omega⟩
  rw [hb0, hb1, hb2]

include hb0 hb1 hb2 in
theorem stats_row2_flat :
    Steps.stats_at (F := Ideal) b0 b1 b2 5 (ix2 (2 : Fin 8) l)
      = ∑ p : Fin 8, ∑ K : Fin 76800, ((P p K - T p K) * (P p K - T p K)) * M p K := by
  refine (stats_row2 b0 b1 b2 l).trans ?_
  refine Eq.trans (Finset.sum_congr rfl fun t _ => Finset.sum_congr rfl fun p _ => Finset.sum_congr rfl fun k _ => ?_)
    (sum_flat fun p K => ((P p K - T p K) * (P p K - T p K)) * M p K)
  show _ = ((P p ⟨12800 * t.val + k.val, by omega⟩ - T p ⟨12800 * t.val + k.val, by omega⟩)
      * (P p ⟨12800 * t.val + k.val, by omega⟩ - T p ⟨12800 * t.val + k.val, by omega⟩)) * M p ⟨12800 * t.val + k.val, by omega⟩
  rw [hb0, hb1, hb2]

include hb2 in
theorem stats_row3_flat :
    Steps.stats_at (F := Ideal) b0 b1 b2 5 (ix2 (3 : Fin 8) l)
      = ∑ p : Fin 8, ∑ K : Fin 76800, M p K := by
  refine (stats_row3 b0 b1 b2 l).trans ?_
  refine Eq.trans (Finset.sum_congr rfl fun t _ => Finset.sum_congr rfl fun p _ => Finset.sum_congr rfl fun k _ => ?_)
    (sum_flat fun p K => M p K)
  exact hb2 t p k

include hb1 hb2 in
theorem stats_row4_flat :
    Steps.stats_at (F := Ideal) b0 b1 b2 5 (ix2 (4 : Fin 8) l)
      = max negBig (Finset.univ.sup fun x : Fin 8 × Fin 76800 => sel (T x.1 x.2) (M x.1 x.2)) := by
  refine (stats_row4 b0 b1 b2 l).trans (congrArg (max negBig) ?_)
  refine Eq.trans (Finset.sup_congr rfl fun x _ => ?_) (sup_flat fun p K => sel (T p K) (M p K))
  show _ = sel (T x.2.1 ⟨12800 * x.1.val + x.2.2.val, by omega⟩) (M x.2.1 ⟨12800 * x.1.val + x.2.2.val, by omega⟩)
  rw [hb1, hb2]

end Flat

end Cert.KernelIdeal.Math

end
-- ==== Proof.MathChamfer.lean ====
import proofs.«120963_j80418967650486_1_alg».proof.Proof.Steps
import proofs.«120963_j80418967650486_1_alg».proof.Proof.MathBlocks
import proofs.«120963_j80418967650486_1_alg».proof.Proof.MathLayout

/-!
  The distance kernel's output, at exact arithmetic.

  For each batch row the kernel stores the sum over bins of the least squared distance from the bin to a target, plus
  the sum over targets of the least squared distance from the target to a bin. The targets arrive in 24 blocks of 3200;
  the first table keeps, per bin, the least squared distance over the blocks seen so far, the second the running sum
  over the targets seen so far of their least squared distance to a bin. First per block, then over the whole row of
  targets, which is the 24 blocks laid side by side.
-/

noncomputable section

open scoped BigOperators

namespace Cert.KernelIdeal.Math

open Idealize.ShloMosaic Idealize.ShloMosaic.ValueIdx Cert.KernelIdeal Cert.KernelIdeal.Gen

/-- The square of an extended real. -/
def sq (z : EReal) : EReal := z * z

/-- The table of squared differences between a bin and a target of the same batch row. -/
theorem k1_pay3_apply (x0 : Vec Ideal S8x82 .f32) (y : Vec Ideal S8x3200 .f32) (p : Fin 8) (j : Fin 82) (k : Fin 3200) :
    k1_pay3 (F := Ideal) x0 y (ix3 p j k) = sq (x0 (ix2 p j) - y (ix2 p k)) := by
  have h1 : broadcastTo S8x82x3200 (shapeCast S8x82x1 (shapeCast S8x82 x0 shapeCasts_S8x82_S8x82) shapeCasts_S8x82_S8x82x1)
      broadcasts_S8x82x1_S8x82x3200 (ix3 p j k) = x0 (ix2 p j) := by
    refine (Cert.LibRank3Axes.broadcastTo_ab1_abc_apply _ _ p j k).trans ?_
    refine (Layout.shapeCast_ab_ab1_apply _ _ p j 0).trans ?_
    rw [shapeCast_self]
  have h2 : broadcastTo S8x82x3200 (shapeCast S8x1x3200 (shapeCast S8x3200 y shapeCasts_S8x3200_S8x3200) shapeCasts_S8x3200_S8x1x3200)
      broadcasts_S8x1x3200_S8x82x3200 (ix3 p j k) = y (ix2 p k) := by
    refine (Cert.LibMiddleAxis.spread_middle_apply _ _ _ p j k).trans ?_
    rw [shapeCast_self]
  show (broadcastTo S8x82x3200 (shapeCast S8x82x1 (shapeCast S8x82 x0 shapeCasts_S8x82_S8x82) shapeCasts_S8x82_S8x82x1)
          broadcasts_S8x82x1_S8x82x3200 (ix3 p j k)
        - broadcastTo S8x82x3200 (shapeCast S8x1x3200 (shapeCast S8x3200 y shapeCasts_S8x3200_S8x3200) shapeCasts_S8x3200_S8x1x3200)
          broadcasts_S8x1x3200_S8x82x3200 (ix3 p j k))
      * (broadcastTo S8x82x3200 (shapeCast S8x82x1 (shapeCast S8x82 x0 shapeCasts_S8x82_S8x82) shapeCasts_S8x82_S8x82x1)
          broadcasts_S8x82x1_S8x82x3200 (ix3 p j k)
        - broadcastTo S8x82x3200 (shapeCast S8x1x3200 (shapeCast S8x3200 y shapeCasts_S8x3200_S8x3200) shapeCasts_S8x3200_S8x1x3200)
          broadcasts_S8x1x3200_S8x82x3200 (ix3 p j k)) = _
  rw [h1, h2]
  rfl

/-- The first table starts at +∞. -/
theorem k1_pay1_apply (p : Fin 8) (j : Fin 82) : k1_pay1 (F := Ideal) (ix2 p j) = (⊤ : EReal) := by
  show shapeCast S8x82 (broadcast S8x82 (Ideal.ofBits .f32 0x7F800000#32)) shapeCasts_S8x82_S8x82 (ix2 p j) = _
  rw [shapeCast_self]
  exact Cert.LibMinReduce.ofBits_inf_f32

/-- The second table starts at zero. -/
theorem k1_pay2_apply (p : Fin 8) : k1_pay2 (F := Ideal) (ix2 p (0 : Fin 1)) = (0 : EReal) := by
  show shapeCast S8x1 (broadcast S8x1 (Ideal.ofBits .f32 0x00000000#32)) shapeCasts_S8x1_S8x1 (ix2 p 0) = _
  rw [shapeCast_self]
  exact Ideal.ofBits_zero_f32

/-- One update of the first table: the minimum of the carried entry and the block's least squared distance. -/
theorem k1_pay4_apply (x0 : Vec Ideal S8x82 .f32) (y : Vec Ideal S8x3200 .f32) (c : Vec Ideal S8x82 .f32) (p : Fin 8) (j : Fin 82) :
    k1_pay4 (F := Ideal) x0 y c (ix2 p j)
      = min (c (ix2 p j)) (Finset.univ.inf fun k : Fin 3200 => sq (x0 (ix2 p j) - y (ix2 p k))) := by
  show shapeCast S8x82 (minimumf c (multiReduction .minimumf [2] S8x82 (k1_pay3 (F := Ideal) x0 y) 0x7F800000#32
      reduces_S8x82x3200_S8x82 (.inl rfl) rfl)) shapeCasts_S8x82_S8x82 (ix2 p j) = _
  rw [shapeCast_self]
  refine congrArg (min (c (ix2 p j))) ?_
  refine (Layout.min_axis2_apply (k1_pay3 (F := Ideal) x0 y) _ _ _ p j).trans ?_
  exact Finset.inf_congr rfl fun k _ => k1_pay3_apply x0 y p j k

/-- One update of the second table: the carried entry plus the block's sum over targets of the least squared distance
    to a bin. -/
theorem k1_pay5_apply (x0 : Vec Ideal S8x82 .f32) (y : Vec Ideal S8x3200 .f32) (c : Vec Ideal S8x1 .f32) (p : Fin 8) :
    k1_pay5 (F := Ideal) x0 y c (ix2 p (0 : Fin 1))
      = c (ix2 p (0 : Fin 1)) + ∑ k : Fin 3200, Finset.univ.inf fun j : Fin 82 => sq (x0 (ix2 p j) - y (ix2 p k)) := by
  show shapeCast S8x1 (addf c (shapeCast S8x1 (multiReduction .add [1] S8 (multiReduction .minimumf [1] S8x3200
      (k1_pay3 (F := Ideal) x0 y) 0x7F800000#32 reduces_S8x82x3200_S8x3200 (.inl rfl) rfl) 0x00000000#32 reduces_S8x3200_S8
      (.inl rfl) rfl) shapeCasts_S8_S8x1)) shapeCasts_S8x1_S8x1 (ix2 p 0) = _
  rw [shapeCast_self]
  refine congrArg (c (ix2 p (0 : Fin 1)) + ·) ?_
  refine (Cert.Lib.Keepdims.shapeCast_a_a1_apply _ _ p 0).trans ?_
  refine (Cert.Lib.Keepdims.rowSum_apply _ _ _ _ p).trans ?_
  refine Finset.sum_congr rfl fun k _ => ?_
  refine (Layout.min_axis1_apply (k1_pay3 (F := Ideal) x0 y) _ _ _ p k).trans ?_
  exact Finset.inf_congr rfl fun j _ => k1_pay3_apply x0 y p j k

/-- The stored value: the sum over bins of the first table, plus the second. -/
theorem k1_pay6_apply (a : Vec Ideal S8x82 .f32) (c : Vec Ideal S8x1 .f32) (p : Fin 8) :
    k1_pay6 (F := Ideal) a c (ix2 p (0 : Fin 1)) = (∑ j : Fin 82, a (ix2 p j)) + c (ix2 p (0 : Fin 1)) := by
  show shapeCast S8x1 (multiReduction (F := Ideal) .add [1] S8 a 0x00000000#32 reduces_S8x82_S8 (.inl rfl) rfl) shapeCasts_S8_S8x1
      (ix2 p 0) + c (ix2 p 0) = _
  refine congrArg (· + c (ix2 p (0 : Fin 1))) ?_
  refine (Cert.Lib.Keepdims.shapeCast_a_a1_apply _ _ p 0).trans ?_
  exact Cert.Lib.Keepdims.rowSum_apply _ _ _ _ p

/-- The first table after the body at point `n`: the least squared distance over the blocks `0 … n`. -/
theorem scr1_fst (x0 : Vec Ideal S8x82 .f32) (blk : ℕ → Vec Ideal S8x3200 .f32) (p : Fin 8) (j : Fin 82) :
    ∀ n : ℕ, (Steps.scr1 (F := Ideal) x0 blk n).1 (ix2 p j)
      = (Finset.range (n + 1)).inf fun t => Finset.univ.inf fun k : Fin 3200 => sq (x0 (ix2 p j) - blk t (ix2 p k))
  | 0 => by
    show k1_pay4 (F := Ideal) x0 (blk 0) (k1_pay1 (F := Ideal)) (ix2 p j) = _
    rw [k1_pay4_apply, k1_pay1_apply, min_top_left, Finset.range_one, Finset.inf_singleton]
  | n + 1 => by
    show k1_pay4 (F := Ideal) x0 (blk (n + 1)) (Steps.scr1 (F := Ideal) x0 blk n).1 (ix2 p j) = _
    rw [k1_pay4_apply, scr1_fst x0 blk p j n, Finset.range_add_one (n := n + 1), Finset.inf_insert]
    exact min_comm _ _

/-- The second table after the body at point `n`: the sum over the targets of blocks `0 … n` of the least squared
    distance to a bin. -/
theorem scr1_snd (x0 : Vec Ideal S8x82 .f32) (blk : ℕ → Vec Ideal S8x3200 .f32) (p : Fin 8) :
    ∀ n : ℕ, (Steps.scr1 (F := Ideal) x0 blk n).2 (ix2 p (0 : Fin 1))
      = ∑ t ∈ Finset.range (n + 1), ∑ k : Fin 3200, Finset.univ.inf fun j : Fin 82 => sq (x0 (ix2 p j) - blk t (ix2 p k))
  | 0 => by
    show k1_pay5 (F := Ideal) x0 (blk 0) (k1_pay2 (F := Ideal)) (ix2 p 0) = _
    rw [k1_pay5_apply, k1_pay2_apply, zero_add, Finset.sum_range_one]
  | n + 1 => by
    show k1_pay5 (F := Ideal) x0 (blk (n + 1)) (Steps.scr1 (F := Ideal) x0 blk n).2 (ix2 p 0) = _
    rw [k1_pay5_apply, scr1_snd x0 blk p n, Finset.sum_range_succ (n := n + 1)]

theorem out1_apply (x0 : Vec Ideal S8x82 .f32) (blk : ℕ → Vec Ideal S8x3200 .f32) (p : Fin 8) :
    Steps.out1 (F := Ideal) x0 blk (ix2 p (0 : Fin 1))
      = (∑ j : Fin 82, Finset.univ.inf fun x : Fin 24 × Fin 3200 => sq (x0 (ix2 p j) - blk x.1 (ix2 p x.2)))
        + ∑ t : Fin 24, ∑ k : Fin 3200, Finset.univ.inf fun j : Fin 82 => sq (x0 (ix2 p j) - blk t (ix2 p k)) := by
  have h1 : ∀ j : Fin 82, (Steps.scr1 (F := Ideal) x0 blk 23).1 (ix2 p j)
      = Finset.univ.inf fun x : Fin 24 × Fin 3200 => sq (x0 (ix2 p j) - blk x.1 (ix2 p x.2)) := fun j =>
    ((scr1_fst x0 blk p j 23).trans (Blocks.inf_range_eq_univ 24 _)).trans
      (Blocks.inf_prod_univ fun (t : Fin 24) (k : Fin 3200) => sq (x0 (ix2 p j) - blk t (ix2 p k)))
  have h2 : (Steps.scr1 (F := Ideal) x0 blk 23).2 (ix2 p (0 : Fin 1))
      = ∑ t : Fin 24, ∑ k : Fin 3200, Finset.univ.inf fun j : Fin 82 => sq (x0 (ix2 p j) - blk t (ix2 p k)) :=
    (scr1_snd x0 blk p 23).trans (Finset.sum_range _)
  unfold Steps.out1
  rw [k1_pay6_apply, h2, Finset.sum_congr rfl fun j _ => h1 j]

theorem out1_flat (x0 : Vec Ideal S8x82 .f32) (blk : ℕ → Vec Ideal S8x3200 .f32)
    (Bn : Fin 8 → Fin 82 → EReal) (Tg : Fin 8 → Fin 76800 → EReal)
    (hx0 : ∀ (p : Fin 8) (j : Fin 82), x0 (ix2 p j) = Bn p j)
    (hblk : ∀ (t : Fin 24) (p : Fin 8) (k : Fin 3200), blk t (ix2 p k) = Tg p ⟨3200 * t.val + k.val, by omega⟩)
    (p : Fin 8) :
    Steps.out1 (F := Ideal) x0 blk (ix2 p (0 : Fin 1))
      = (∑ j : Fin 82, Finset.univ.inf fun K : Fin 76800 => sq (Bn p j - Tg p K))
        + ∑ K : Fin 76800, Finset.univ.inf fun j : Fin 82 => sq (Bn p j - Tg p K) := by
  rw [out1_apply]
  refine congrArg₂ (· + ·) ?_ ?_
  · refine Finset.sum_congr rfl fun j _ => ?_
    refine Eq.trans (Finset.inf_congr rfl fun x _ => ?_)
      (Blocks.inf_blocks (B := 3200) (n := 24) (N := 76800) (by norm_num) (fun K => sq (Bn p j - Tg p K)))
    rw [hx0, hblk]
    rfl
  · refine Eq.trans (Finset.sum_congr rfl fun t _ => Finset.sum_congr rfl fun k _ => ?_)
      (Blocks.sum_blocks (B := 3200) (n := 24) (N := 76800) (by norm_num)
        (fun K => Finset.univ.inf fun j : Fin 82 => sq (Bn p j - Tg p K)))
    refine Finset.inf_congr rfl fun j _ => ?_
    rw [hx0, hblk]
    rfl

end Cert.KernelIdeal.Math

end
-- ==== Proof.KernelTables.lean ====
import proofs.«120963_j80418967650486_1_alg».proof.Proof.Assembly
import proofs.«120963_j80418967650486_1_alg».proof.Proof.KernelBlocks
import proofs.«120963_j80418967650486_1_alg».proof.Proof.MathStats
import proofs.«120963_j80418967650486_1_alg».proof.Proof.MathChamfer

/-!
  What the two kernel regions leave, as closed forms of the arrays they were entered with (extended reals).

  The statistics region leaves an 8×128 table: in column 0, row 0 the sum over all 8·76800 elements of d·w, row 1 of
  d·d·w, row 2 of (p - t)²·w, row 3 of w, and row 4 the maximum of the sentinel and of every masked target, where d is
  the log-difference of the shifted prediction and target and w the 0/1 mask. The distance region leaves a column: per
  batch row, the sum over the 82 padded bins of the least squared distance to a padded target, plus the sum over the
  76800 padded targets of the least squared distance to a padded bin.
-/

set_option maxRecDepth 16384

noncomputable section

namespace Cert.KernelIdeal.Tables

open Idealize.ShloMosaic Idealize.ShloMosaic.TcCoe Idealize.ShloMosaic.ValueIdx Idealize.SL.Sem
open Cert.KernelIdeal Cert.KernelIdeal.Gen Cert.KernelIdeal.Math

variable (V : (c : Dev nD) → (b : Ref sig .tc) → Buf (Elt Ideal) ((c : Thread nD τ).loc b))

/-! ## The statistics table -/

/-- The three input blocks of the statistics kernel at each grid point (anything past the grid). -/
def sb0 (c : Dev nD) : ℕ → Vec Ideal S8x12800 .f32 := fun n => if h : n < cfg0.N then R0.iblk0 V c 0 ⟨n, h⟩ else fun _ => (0 : EReal)
def sb1 (c : Dev nD) : ℕ → Vec Ideal S8x12800 .f32 := fun n => if h : n < cfg0.N then R0.iblk0 V c 1 ⟨n, h⟩ else fun _ => (0 : EReal)
def sb2 (c : Dev nD) : ℕ → Vec Ideal S8x12800 .f32 := fun n => if h : n < cfg0.N then R0.iblk0 V c 2 ⟨n, h⟩ else fun _ => (0 : EReal)

/-- The table after the body at point n is the step recursion over the blocks. -/
theorem outs_eq_stats (c : Dev nD) : ∀ (n : ℕ) (h : n < cfg0.N),
    R0.outsAt0 V c n h = Steps.stats_at (sb0 V c) (sb1 V c) (sb2 V c) n
  | 0, h => by
    rw [R0.outsAt0_zero]
    simp only [Steps.stats_at, sb0, sb1, sb2, dif_pos h]
  | n + 1, h => by
    rw [R0.outsAt0_succ, outs_eq_stats c n (Nat.lt_of_succ_lt h)]
    simp only [Steps.stats_at, sb0, sb1, sb2, dif_pos h]

theorem six : cfg0.N = 6 := N_0

/-- The block entries are entries of the region's arrays. -/
theorem sb0_read (c : Dev nD) (t : Fin 6) (p : Fin 8) (k : Fin 12800) :
    sb0 V c t (ix2 p k) = V c main_v0 (ix2 p (⟨12800 * t.val + k.val, by omega⟩ : Fin 76800)) := by
  have ht : t.val < cfg0.N := by rw [six]; exact t.isLt
  simp only [sb0, dif_pos ht]
  exact Blocks.read0_0 V c ⟨t.val, ht⟩ p k (by have h1 := t.isLt; have h2 := k.isLt; show 12800 * t.val + k.val < 76800; omega)
theorem sb1_read (c : Dev nD) (t : Fin 6) (p : Fin 8) (k : Fin 12800) :
    sb1 V c t (ix2 p k) = V c main_v1 (ix2 p (⟨12800 * t.val + k.val, by omega⟩ : Fin 76800)) := by
  have ht : t.val < cfg0.N := by rw [six]; exact t.isLt
  simp only [sb1, dif_pos ht]
  exact Blocks.read0_1 V c ⟨t.val, ht⟩ p k (by have h1 := t.isLt; have h2 := k.isLt; show 12800 * t.val + k.val < 76800; omega)
theorem sb2_read (c : Dev nD) (t : Fin 6) (p : Fin 8) (k : Fin 12800) :
    sb2 V c t (ix2 p k) = V c main_v3 (ix2 p (⟨12800 * t.val + k.val, by omega⟩ : Fin 76800)) := by
  have ht : t.val < cfg0.N := by rw [six]; exact t.isLt
  simp only [sb2, dif_pos ht]
  exact Blocks.read0_2 V c ⟨t.val, ht⟩ p k (by have h1 := t.isLt; have h2 := k.isLt; show 12800 * t.val + k.val < 76800; omega)

/-- The statistics output array after the region. -/
theorem table_eq (c : Dev nD) : (R0.dat0 V c).arrAt 3 cfg0.N = Steps.stats_at (sb0 V c) (sb1 V c) (sb2 V c) 5 := by
  rw [R0.arrAt0_out, outs_eq_stats]

/-- The region's flattened inputs: prediction, target and 0/1 mask at (batch row, position). -/
def Pv (c : Dev nD) (p : Fin 8) (K : Fin 76800) : EReal := V c main_v0 (ix2 p K)
def Tv (c : Dev nD) (p : Fin 8) (K : Fin 76800) : EReal := V c main_v1 (ix2 p K)
def Wv (c : Dev nD) (p : Fin 8) (K : Fin 76800) : EReal := V c main_v3 (ix2 p K)

theorem table_row0 (c : Dev nD) (l : Fin 128) : (R0.dat0 V c).arrAt 3 cfg0.N (ix2 (0 : Fin 8) l)
    = ∑ p : Fin 8, ∑ K : Fin 76800, dlog (Pv V c p K) (Tv V c p K) * Wv V c p K := by
  rw [table_eq]
  exact stats_row0_flat _ _ _ (Pv V c) (Tv V c) (Wv V c) (sb0_read V c) (sb1_read V c) (sb2_read V c) l
theorem table_row1 (c : Dev nD) (l : Fin 128) : (R0.dat0 V c).arrAt 3 cfg0.N (ix2 (1 : Fin 8) l)
    = ∑ p : Fin 8, ∑ K : Fin 76800, (dlog (Pv V c p K) (Tv V c p K) * dlog (Pv V c p K) (Tv V c p K)) * Wv V c p K := by
  rw [table_eq]
  exact stats_row1_flat _ _ _ (Pv V c) (Tv V c) (Wv V c) (sb0_read V c) (sb1_read V c) (sb2_read V c) l
theorem table_row2 (c : Dev nD) (l : Fin 128) : (R0.dat0 V c).arrAt 3 cfg0.N (ix2 (2 : Fin 8) l)
    = ∑ p : Fin 8, ∑ K : Fin 76800, ((Pv V c p K - Tv V c p K) * (Pv V c p K - Tv V c p K)) * Wv V c p K := by
  rw [table_eq]
  exact stats_row2_flat _ _ _ (Pv V c) (Tv V c) (Wv V c) (sb0_read V c) (sb1_read V c) (sb2_read V c) l
theorem table_row3 (c : Dev nD) (l : Fin 128) : (R0.dat0 V c).arrAt 3 cfg0.N (ix2 (3 : Fin 8) l)
    = ∑ p : Fin 8, ∑ K : Fin 76800, Wv V c p K := by
  rw [table_eq]
  exact stats_row3_flat _ _ _ (Wv V c) (sb2_read V c) l
theorem table_row4 (c : Dev nD) (l : Fin 128) : (R0.dat0 V c).arrAt 3 cfg0.N (ix2 (4 : Fin 8) l)
    = max negBig (Finset.univ.sup fun x : Fin 8 × Fin 76800 => sel (Tv V c x.1 x.2) (Wv V c x.1 x.2)) := by
  rw [table_eq]
  exact stats_row4_flat _ _ _ (Tv V c) (Wv V c) (sb1_read V c) (sb2_read V c) l

/-! ## The distance column -/

theorem tblk_read (c : Dev nD) (t : Fin 24) (p : Fin 8) (k : Fin 3200) :
    R1.tblk V c t (ix2 p k) = V c main_v23 (ix2 p (⟨3200 * t.val + k.val, by omega⟩ : Fin 76800)) := by
  have ht : t.val < cfg1.N := by rw [show cfg1.N = 24 from N_1]; exact t.isLt
  simp only [R1.tblk, dif_pos ht]
  exact Blocks.read1_1 V c ⟨t.val, ht⟩ p k (by have h1 := t.isLt; have h2 := k.isLt; show 3200 * t.val + k.val < 76800; omega)

/-- The region's inputs: the padded bins and the padded targets at (batch row, position). -/
def Bv (c : Dev nD) (p : Fin 8) (j : Fin 82) : EReal := V c main_v22 (ix2 p j)
def Gv (c : Dev nD) (p : Fin 8) (K : Fin 76800) : EReal := V c main_v23 (ix2 p K)

/-- The distance output array after the region, per batch row. -/
theorem column_eq (c : Dev nD) (p : Fin 8) : (R1.dat1 V c).arrAt 2 cfg1.N (ix2 p (0 : Fin 1))
    = (∑ j : Fin 82, Finset.univ.inf fun K : Fin 76800 => sq (Bv V c p j - Gv V c p K))
      + ∑ K : Fin 76800, Finset.univ.inf fun j : Fin 82 => sq (Bv V c p j - Gv V c p K) := by
  rw [R1.arrAt1_out, R1.out_last]
  exact out1_flat _ _ (Bv V c) (Gv V c)
    (fun p j => Blocks.read1_0 V c R1.t1_0 p j) (tblk_read V c) p

end Cert.KernelIdeal.Tables

end
-- ==== Proof.LibHostLines.lean ====
/-
  A straight line of host operations, cut at one of them.

  The contents a line of operations leaves are a fold over the list.  To read ONE buffer after a long line without
  unfolding all of it: a buffer that no operation from position `k` on writes holds what the first `k` operations
  left (`after_eq_take`); the first `k + 1` operations are the first `k` followed by operation `k`
  (`after_take_succ`), whose own result lemma then applies; and two stretches run one after the other compose
  (`after_append`).  With these a buffer written once, by an operation whose operands are written earlier or
  never, is read in a few steps whatever the line's length and whatever the other operations are.
-/
import Idealize.ShloMosaic.Lib.StableHlo.Run

noncomputable section

namespace Cert.Lib.HostLines

open Idealize.ShloMosaic Idealize.ShloMosaic.StableHlo

section Lines
variable {τ : Topo} {sig : RefSig} {Val : EltTy → Type}

/-- Two stretches run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer written by no operation from position `k` on holds what the first `k` operations left. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- The first `k + 1` operations are the first `k`, then operation `k`. -/
theorem after_take_succ (ops : List (HloOp τ sig Val)) (V : Valuation τ sig Val) (k : Nat) (hk : k < ops.length) :
    after (ops.take (k + 1)) V = (ops[k]).result (after (ops.take k) V) := by
  rw [List.take_succ_eq_append_getElem hk, after_append]; rfl

end Lines

end Cert.Lib.HostLines

end
-- ==== Proof.LibSingleAssignment.lean ====
/-
  A straight line of host operations in single-assignment form, read one operation at a time.

  When every operation of a line writes ONE buffer and the written buffers are listed in order
  (`ys`), a buffer that is not among `ys` from position `k` on is written by no operation from
  position `k` on.  So, after the WHOLE line, the buffer operation `k` writes holds what operation
  `k` computes from the contents the first `k` operations left (`after_at`), and an operand
  written before position `k` — or never — still holds after the whole line what it held then
  (`after_kept`).  With these two facts each buffer of a long line is read from its operands'
  final contents in a few steps, with nothing unfolded and every intermediate shared.
-/
import Idealize.ShloMosaic.Lib.StableHlo.Run
import proofs.«120963_j80418967650486_1_alg».proof.Proof.LibHostLines

noncomputable section

namespace Cert.Lib.SingleAssignment

open Idealize.ShloMosaic Idealize.ShloMosaic.StableHlo Cert.Lib.HostLines

variable {τ : Topo} {sig : RefSig} {Val : EltTy → Type}

/-- The line writes the buffers `ys`, one per operation, in order. -/
def Writes (ops : List (HloOp τ sig Val)) (ys : List (Ref sig .tc)) : Prop :=
  ops.map HloOp.writes = ys.map fun y => ({Proc.devRef (τ := τ) .tc y} : Finset (DevRef τ sig))

/-- A buffer not among the results from position `k` on is written by no operation from position `k` on. -/
theorem not_written_from {ops : List (HloOp τ sig Val)} {ys : List (Ref sig .tc)} (hw : Writes ops ys)
    (r : Ref sig .tc) (k : Nat) (hr : r ∉ ys.drop k) :
    ∀ op ∈ ops.drop k, Proc.devRef (τ := τ) .tc r ∉ op.writes := by
  intro op hop hmem
  have h1 : op.writes ∈ (ops.drop k).map HloOp.writes := List.mem_map_of_mem hop
  rw [List.map_drop, hw, ← List.map_drop] at h1
  obtain ⟨y, hy, hyw⟩ := List.mem_map.mp h1
  rw [← hyw, Finset.mem_singleton] at hmem
  exact hr (Proc.devRef_injective _ hmem ▸ hy)

/-- A buffer not written from position `k` on holds after the whole line what the first `k` operations left. -/
theorem after_kept {ops : List (HloOp τ sig Val)} {ys : List (Ref sig .tc)} (hw : Writes ops ys)
    (V : Valuation τ sig Val) (r : Ref sig .tc) (k : Nat) (hr : r ∉ ys.drop k) :
    after ops V (Proc.devRef .tc r) = after (ops.take k) V (Proc.devRef .tc r) := by
  exact after_eq_take ops V k _ (not_written_from hw r k hr)

/-- The buffer operation `k` writes, if no later operation writes it, holds after the whole line operation `k`'s
    result from the contents the first `k` operations left. -/
theorem after_at {ops : List (HloOp τ sig Val)} {ys : List (Ref sig .tc)} (hw : Writes ops ys)
    (V : Valuation τ sig Val) (r : Ref sig .tc) (k : Nat) (hk : k < ops.length) (hr : r ∉ ys.drop (k + 1)) :
    after ops V (Proc.devRef .tc r) = (ops[k]).result (after (ops.take k) V) (Proc.devRef .tc r) := by
  rw [after_kept hw V r (k + 1) hr, after_take_succ ops V k hk]

/-- A buffer the line never writes keeps its contents. -/
theorem after_never {ops : List (HloOp τ sig Val)} {ys : List (Ref sig .tc)} (hw : Writes ops ys)
    (V : Valuation τ sig Val) (r : Ref sig .tc) (hr : r ∉ ys) :
    after ops V (Proc.devRef .tc r) = V (Proc.devRef .tc r) :=
  after_of_forall_not_mem ops V (by simpa using not_written_from hw r 0 (by simpa using hr))

end Cert.Lib.SingleAssignment

end
-- ==== Proof.LibReadOperation.lean ====
/-
  One operation of a single-assignment line, read after the whole line.

  In a line whose operations each write one buffer, none written twice, the buffer operation `k` writes holds, after
  the WHOLE line, operation `k`'s function of what its operand buffers hold after the WHOLE line: the operands were
  written before position `k` or never, so they are not touched again.  One such equation per operation turns the
  line into a system of equations over the final contents, each proved in one step whatever the line's length, and a
  result buffer is then read by rewriting along them.
-/
import Idealize.ShloMosaic.Lib.StableHlo.Run
import proofs.«120963_j80418967650486_1_alg».proof.Proof.LibSingleAssignment

noncomputable section

namespace Cert.Lib.ReadOperation

open Idealize.ShloMosaic Idealize.ShloMosaic.StableHlo Cert.Lib.SingleAssignment

variable {τ : Topo} {sig : RefSig} {Val : EltTy → Type}
variable {ops : List (HloOp τ sig Val)} {ys : List (Ref sig .tc)}

/-- The buffer operation `k` writes holds, after the whole line, that operation's result from what the first `k`
    operations left. -/
theorem at_position (hw : Writes ops ys) (V : Valuation τ sig Val) (k : Nat) (y : Ref sig .tc) {op : HloOp τ sig Val}
    (hop : ops[k]? = some op) (hy' : y ∉ ys.drop (k + 1)) :
    after ops V (Proc.devRef .tc y) = op.result (after (ops.take k) V) (Proc.devRef .tc y) := by
  obtain ⟨hk, he⟩ := List.getElem?_eq_some_iff.mp hop
  rw [after_at hw V y k hk hy', he]

/-- Operation `k` is a constant: its buffer holds the constant after the whole line. -/
theorem nullary_at (hw : Writes ops ys) (V : Valuation τ sig Val) (k : Nat)
    (y : Ref sig .tc) {v : y.ty.Contents Val} {hy}
    (hop : ops[k]? = some (nullary y v hy)) (hy' : y ∉ ys.drop (k + 1)) :
    after ops V (Proc.devRef .tc y) = v := by
  rw [at_position hw V k y hop hy']
  exact nullary_result y v hy _

/-- Operation `k` has one operand. -/
theorem unary_at (hw : Writes ops ys) (V : Valuation τ sig Val) (k : Nat)
    (x y : Ref sig .tc) {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [at_position hw V k y hop hy', after_kept hw V x k hx']
  exact unary_result x y f hx hy _

/-- Operation `k` has two operands. -/
theorem binary_at (hw : Writes ops ys) (V : Valuation τ sig Val) (k : Nat)
    (a b y : Ref sig .tc) {f : a.ty.Contents Val → b.ty.Contents Val → y.ty.Contents Val} {ha hb hy}
    (hop : ops[k]? = some (binary a b y f ha hb hy)) (hy' : y ∉ ys.drop (k + 1))
    (ha' : a ∉ ys.drop k) (hb' : b ∉ ys.drop k) :
    after ops V (Proc.devRef .tc y) = f (after ops V (Proc.devRef .tc a)) (after ops V (Proc.devRef .tc b)) := by
  rw [at_position hw V k y hop hy', after_kept hw V a k ha', after_kept hw V b k hb']
  exact binary_result a b y f ha hb hy _

/-- Operation `k` has three operands. -/
theorem ternary_at (hw : Writes ops ys) (V : Valuation τ sig Val) (k : Nat)
    (c a b y : Ref sig .tc) {f : c.ty.Contents Val → a.ty.Contents Val → b.ty.Contents Val → y.ty.Contents Val}
    {hc ha hb hy}
    (hop : ops[k]? = some (ternary c a b y f hc ha hb hy)) (hy' : y ∉ ys.drop (k + 1))
    (hc' : c ∉ ys.drop k) (ha' : a ∉ ys.drop k) (hb' : b ∉ ys.drop k) :
    after ops V (Proc.devRef .tc y)
      = f (after ops V (Proc.devRef .tc c)) (after ops V (Proc.devRef .tc a)) (after ops V (Proc.devRef .tc b)) := by
  rw [at_position hw V k y hop hy', after_kept hw V c k hc', after_kept hw V a k ha', after_kept hw V b k hb']
  exact ternary_result c a b y f hc ha hb hy _

end Cert.Lib.ReadOperation

end
-- ==== Proof.LibTypedRef.lean ====
/-
  A typed reference's two transports cancel.

  A tensor value's buffer is named by a reference together with the fact that the buffer's type is the value's; contents
  at the value's type are carried to contents of the buffer along that fact, and back. Carrying there and back (or back
  and there) is the identity, whatever the reference: so in a line of operations on typed references every
  intermediate buffer's pair of transports disappears, and only the ends remain.
-/
import Idealize.ShloMosaic.Lib.StableHlo

namespace Cert.Lib.TypedRef

open Idealize.ShloMosaic

variable {sig : RefSig} {Val : EltTy → Type} {T : BufTy}

/-- To the buffer's type and back. -/
theorem ofBuf_toBuf (x : StableHlo.TRef sig T) (v : T.Contents Val) : x.ofBuf (x.toBuf v) = v := by
  obtain ⟨ref, ty_eq, od, us⟩ := x
  subst ty_eq
  rfl

/-- Back and to the buffer's type. -/
theorem toBuf_ofBuf (x : StableHlo.TRef sig T) (v : x.ref.ty.Contents Val) : x.toBuf (x.ofBuf v) = v := by
  obtain ⟨ref, ty_eq, od, us⟩ := x
  subst ty_eq
  rfl

end Cert.Lib.TypedRef
-- ==== Proof.HostRead.lean ====
import proofs.«120963_j80418967650486_1_alg».proof.Proof.Gen.KernelIdeal.Launch
import proofs.«120963_j80418967650486_1_alg».proof.Proof.Gen.KernelIdeal.Regions
import proofs.«120963_j80418967650486_1_alg».proof.Proof.LibReadOperation
import proofs.«120963_j80418967650486_1_alg».proof.Proof.LibTypedRef
import proofs.«120963_j80418967650486_1_alg».proof.Proof.LibMaxReduce
import Idealize.ShloMosaic.PureOps.Ideal.Laws
import Idealize.ShloMosaic.Lib.ValueIdx
import Idealize.ShloMosaic.Lib.Pipeline.Value

/-!
  The program's four straight stretches of host operations, each read as a function of the contents `W` every
  buffer holds when the stretch starts.

  * The first stretch flattens the three [8,1,240,320] arguments to [8,76800] and converts the mask to a float.
  * The second reads five entries of the statistics table (rows 0–4 of column 0), takes the maximum of the
    bins over both axes, forms from it and the fifth entry the padding value
    `max + (max − min) + 1`, and appends that value as an 82nd column to the bins.
  * The third replaces, where the mask is off, the target by the padding value.
  * The last sums the eight per-image distances, divides by eight, and adds the two scalar losses formed from
    the first four statistics.

  Every stretch is in single-assignment form: each operation writes one buffer, no buffer twice. So after a whole
  stretch the buffer an operation writes holds that operation's function of what its operands hold after the whole
  stretch, and a buffer the stretch never writes holds what it held before. Each result is read along these
  equations, one operation at a time.
-/

set_option maxRecDepth 16384

noncomputable section

namespace Cert.KernelIdeal.Host

open Idealize.ShloMosaic Idealize.ShloMosaic.TcCoe
open Idealize.ShloMosaic.ValueIdx
open Cert.KernelIdeal Cert.KernelIdeal.Gen
open Cert.Lib.SingleAssignment Cert.Lib.ReadOperation

section ReadReshape
open Idealize.ShloMosaic.StableHlo
variable {τ' : Topo} {sig' : RefSig} {Val : EltTy → Type}
variable {ops : List (HloOp τ' sig' Val)} {ys : List (Ref sig' .tc)}

/-- Operation `k` of a single-assignment line is a reshape: after the whole line its buffer holds the operand's final
    contents at the new shape. -/
theorem reshape_at (hw : Writes ops ys) (V : Valuation τ' sig' Val) (k : Nat)
    (x y : Ref sig' .tc) {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y)
      = fun i => he ▸ shapeCast y.ty.shape (after ops V (Proc.devRef .tc x)) hn i := by
  rw [at_position hw V k y hop hy', after_kept hw V x k hx']
  exact reshape_result x y he hn hx hy _

end ReadReshape

/-- A supremum over a rank-2 index set is the supremum over the pairs of coordinates. -/
theorem sup_idx2 {α : Type*} [SemilatticeSup α] [OrderBot α] {n0 n1 : Nat} (f : (⟨2, ![n0, n1]⟩ : Shape).Idx → α) :
    Finset.univ.sup f = Finset.univ.sup fun x : Fin n0 × Fin n1 => f (ix2 x.1 x.2) := by
  apply le_antisymm
  · refine Finset.sup_le fun i _ => ?_
    rw [eq_ix2 i]
    exact Finset.le_sup (f := fun x : Fin n0 × Fin n1 => f (ix2 x.1 x.2)) (Finset.mem_univ (i 0, i 1))
  · exact Finset.sup_le fun x _ => Finset.le_sup (Finset.mem_univ _)

variable (W : Valuation τ sig (Elt Ideal))

/-- The padding value from the fifth statistic `mt` and the bins' maximum `mc`: above both by their spread, plus one. -/
def padOf (mt mc : EReal) : EReal :=
  (max mt mc + (max mt mc - min mt mc)) + Ideal.ofBits .f32 0x3F800000#32

/-- The program's result from the first four statistics and the sum of the per-image distances. -/
def tailOf (s0 s1 s2 s3 dsum : EReal) : EReal :=
  (Ideal.sqrt (Ideal.div s2 s3)
      + Ideal.ofBits .f32 0x41200000#32
        * Ideal.sqrt (Ideal.div s1 s3 - (Ideal.ofBits .f32 0x3F59999A#32 * Ideal.div s0 s3) * Ideal.div s0 s3))
    + Ideal.div dsum (Ideal.ofBits .f32 0x41000000#32)

/-! ## Buffers a stretch does not write -/

theorem kept0 (r : Ref sig .tc) (h : r ∉ hostOps0_W) :
    StableHlo.after hostOps0 W (Proc.devRef .tc r) = W (Proc.devRef .tc r) :=
  StableHlo.after_of_writes_sub hostOps0 _ hostOps0_writes h
theorem kept1 (r : Ref sig .tc) (h : r ∉ hostOps1_W) :
    StableHlo.after hostOps1 W (Proc.devRef .tc r) = W (Proc.devRef .tc r) :=
  StableHlo.after_of_writes_sub hostOps1 _ hostOps1_writes h
theorem kept1_1 (r : Ref sig .tc) (h : r ∉ hostOps1_1_W) :
    StableHlo.after hostOps1_1 W (Proc.devRef .tc r) = W (Proc.devRef .tc r) :=
  StableHlo.after_of_writes_sub hostOps1_1 _ hostOps1_1_writes h
theorem kept2 (r : Ref sig .tc) (h : r ∉ hostOps2_W) :
    StableHlo.after hostOps2 W (Proc.devRef .tc r) = W (Proc.devRef .tc r) :=
  StableHlo.after_of_writes_sub hostOps2 _ hostOps2_writes h

/-! ## The first stretch -/

theorem hw0 : Writes (hostOps0 (F := Ideal)) hostOps0_W := rfl

theorem ops0_v0 (p : Fin 8) (K : Fin 76800) :
    StableHlo.after hostOps0 W (Proc.devRef .tc main_v0) (ix2 p K)
      = shapeCast S8x76800 (W (Proc.devRef .tc main_arg0)) shapeCasts_S8x1x240x320_S8x76800 (ix2 p K) := by
  have e := reshape_at hw0 W 0 main_arg0 main_v0 rfl (by decide) (by decide)
  have k := after_never hw0 W main_arg0 (by decide)
  rw [e, k]
  rfl
theorem ops0_v1 (p : Fin 8) (K : Fin 76800) :
    StableHlo.after hostOps0 W (Proc.devRef .tc main_v1) (ix2 p K)
      = shapeCast S8x76800 (W (Proc.devRef .tc main_arg1)) shapeCasts_S8x1x240x320_S8x76800 (ix2 p K) := by
  have e := reshape_at hw0 W 1 main_arg1 main_v1 rfl (by decide) (by decide)
  have k := after_never hw0 W main_arg1 (by decide)
  rw [e, k]
  rfl
theorem ops0_v2 (p : Fin 8) (K : Fin 76800) :
    StableHlo.after hostOps0 W (Proc.devRef .tc main_v2) (ix2 p K)
      = shapeCast S8x76800 (W (Proc.devRef .tc main_arg3)) shapeCasts_S8x1x240x320_S8x76800 (ix2 p K) := by
  have e := reshape_at hw0 W 2 main_arg3 main_v2 rfl (by decide) (by decide)
  have k := after_never hw0 W main_arg3 (by decide)
  rw [e, k]
  rfl
theorem ops0_v3 (p : Fin 8) (K : Fin 76800) :
    StableHlo.after hostOps0 W (Proc.devRef .tc main_v3) (ix2 p K)
      = FloatOps.uitofp (F := Ideal) .f32
          (shapeCast S8x76800 (W (Proc.devRef .tc main_arg3)) shapeCasts_S8x1x240x320_S8x76800 (ix2 p K)) := by
  have e3 := unary_at hw0 W 3 main_v2 main_v3 rfl (by decide) (by decide)
  have e := reshape_at hw0 W 2 main_arg3 main_v2 rfl (by decide) (by decide)
  have k := after_never hw0 W main_arg3 (by decide)
  rw [e3, e, k]
  rfl

/-! ## The second stretch -/

theorem hw1 : Writes (hostOps1 (F := Ideal)) hostOps1_W := rfl

theorem ops1_v6 : StableHlo.after hostOps1 W (Proc.devRef .tc main_v6) ix0
    = W (Proc.devRef .tc main_v4) (ix2 (0 : Fin 8) (0 : Fin 128)) := by
  have e6 := reshape_at hw1 W 1 main_v5 main_v6 rfl (by decide) (by decide)
  have e5 := unary_at hw1 W 0 main_v4 main_v5 rfl (by decide) (by decide)
  have k4 := after_never hw1 W main_v4 (by decide)
  rw [e6, e5, k4]
  show shapeCast S_ (extractStridedSlice S1x1 ![0, 0] (W (Proc.devRef .tc main_v4)) slices_S8x128_S1x1_0_0) shapeCasts_S1x1_S_ ix0 = _
  rw [shapeCast_apply _ _ ix0 (ix2 (0 : Fin 1) (0 : Fin 1)) (by decide)]
  exact extractStridedSlice_apply _ _ _ _ _ (fun a => match a with | ⟨0, _⟩ => rfl | ⟨1, _⟩ => rfl)

theorem ops1_v8 : StableHlo.after hostOps1 W (Proc.devRef .tc main_v8) ix0
    = W (Proc.devRef .tc main_v4) (ix2 (1 : Fin 8) (0 : Fin 128)) := by
  have e6 := reshape_at hw1 W 3 main_v7 main_v8 rfl (by decide) (by decide)
  have e5 := unary_at hw1 W 2 main_v4 main_v7 rfl (by decide) (by decide)
  have k4 := after_never hw1 W main_v4 (by decide)
  rw [e6, e5, k4]
  show shapeCast S_ (extractStridedSlice S1x1 ![1, 0] (W (Proc.devRef .tc main_v4)) slices_S8x128_S1x1_1_0) shapeCasts_S1x1_S_ ix0 = _
  rw [shapeCast_apply _ _ ix0 (ix2 (0 : Fin 1) (0 : Fin 1)) (by decide)]
  exact extractStridedSlice_apply _ _ _ _ _ (fun a => match a with | ⟨0, _⟩ => rfl | ⟨1, _⟩ => rfl)

theorem ops1_v10 : StableHlo.after hostOps1 W (Proc.devRef .tc main_v10) ix0
    = W (Proc.devRef .tc main_v4) (ix2 (2 : Fin 8) (0 : Fin 128)) := by
  have e6 := reshape_at hw1 W 5 main_v9 main_v10 rfl (by decide) (by decide)
  have e5 := unary_at hw1 W 4 main_v4 main_v9 rfl (by decide) (by decide)
  have k4 := after_never hw1 W main_v4 (by decide)
  rw [e6, e5, k4]
  show shapeCast S_ (extractStridedSlice S1x1 ![2, 0] (W (Proc.devRef .tc main_v4)) slices_S8x128_S1x1_2_0) shapeCasts_S1x1_S_ ix0 = _
  rw [shapeCast_apply _ _ ix0 (ix2 (0 : Fin 1) (0 : Fin 1)) (by decide)]
  exact extractStridedSlice_apply _ _ _ _ _ (fun a => match a with | ⟨0, _⟩ => rfl | ⟨1, _⟩ => rfl)

theorem ops1_v12 : StableHlo.after hostOps1 W (Proc.devRef .tc main_v12) ix0
    = W (Proc.devRef .tc main_v4) (ix2 (3 : Fin 8) (0 : Fin 128)) := by
  have e6 := reshape_at hw1 W 7 main_v11 main_v12 rfl (by decide) (by decide)
  have e5 := unary_at hw1 W 6 main_v4 main_v11 rfl (by decide) (by decide)
  have k4 := after_never hw1 W main_v4 (by decide)
  rw [e6, e5, k4]
  show shapeCast S_ (extractStridedSlice S1x1 ![3, 0] (W (Proc.devRef .tc main_v4)) slices_S8x128_S1x1_3_0) shapeCasts_S1x1_S_ ix0 = _
  rw [shapeCast_apply _ _ ix0 (ix2 (0 : Fin 1) (0 : Fin 1)) (by decide)]
  exact extractStridedSlice_apply _ _ _ _ _ (fun a => match a with | ⟨0, _⟩ => rfl | ⟨1, _⟩ => rfl)

theorem ops1_v14 : StableHlo.after hostOps1 W (Proc.devRef .tc main_v14) ix0
    = W (Proc.devRef .tc main_v4) (ix2 (4 : Fin 8) (0 : Fin 128)) := by
  have e6 := reshape_at hw1 W 9 main_v13 main_v14 rfl (by decide) (by decide)
  have e5 := unary_at hw1 W 8 main_v4 main_v13 rfl (by decide) (by decide)
  have k4 := after_never hw1 W main_v4 (by decide)
  rw [e6, e5, k4]
  show shapeCast S_ (extractStridedSlice S1x1 ![4, 0] (W (Proc.devRef .tc main_v4)) slices_S8x128_S1x1_4_0) shapeCasts_S1x1_S_ ix0 = _
  rw [shapeCast_apply _ _ ix0 (ix2 (0 : Fin 1) (0 : Fin 1)) (by decide)]
  exact extractStridedSlice_apply _ _ _ _ _ (fun a => match a with | ⟨0, _⟩ => rfl | ⟨1, _⟩ => rfl)

/-- The bins' maximum: a reduction by `max` over both axes that starts from `-∞` is the supremum over all entries. -/
theorem ops1_v15 : StableHlo.after hostOps1 W (Proc.devRef .tc main_v15) ix0
    = (Finset.univ.sup (fun x : Fin 8 × Fin 81 => W (Proc.devRef .tc main_arg2) (ix2 x.1 x.2)) : EReal) := by
  have e15 := binary_at hw1 W 11 main_arg2 main_cst main_v15 rfl (by decide) (by decide) (by decide)
  have ec := nullary_at hw1 W 10 main_cst rfl (by decide)
  have ka := after_never hw1 W main_arg2 (by decide)
  rw [e15, ec, ka]
  beta_reduce
  rw [Host.reduce_eq_fold, Finset.filter_true_of_mem (fun i _ => Subsingleton.elim _ _)]
  refine Eq.trans ?_ (sup_idx2 (α := EReal) (n0 := 8) (n1 := 81) (W (Proc.devRef .tc main_arg2)))
  refine Eq.trans ?_ (Cert.LibMaxReduce.fold_maximumf_bot_eq_sup (φ := .f32) Finset.univ (W (Proc.devRef .tc main_arg2)))
  exact congrArg (fun b => Finset.univ.fold (FloatOps.maximumf (F := Ideal) (φ := .f32)) b (W (Proc.devRef .tc main_arg2)))
    Cert.LibMaxReduce.ofBits_neg_inf_f32

theorem ops1_v20 : StableHlo.after hostOps1 W (Proc.devRef .tc main_v20) ix0
    = padOf (W (Proc.devRef .tc main_v4) (ix2 (4 : Fin 8) (0 : Fin 128)))
        (Finset.univ.sup fun x : Fin 8 × Fin 81 => W (Proc.devRef .tc main_arg2) (ix2 x.1 x.2)) := by
  have e20 := binary_at hw1 W 17 main_v19 main_cst_0 main_v20 rfl (by decide) (by decide) (by decide)
  have ec0 := nullary_at hw1 W 16 main_cst_0 rfl (by decide)
  have e19 := binary_at hw1 W 15 main_v16 main_v18 main_v19 rfl (by decide) (by decide) (by decide)
  have e18 := binary_at hw1 W 14 main_v16 main_v17 main_v18 rfl (by decide) (by decide) (by decide)
  have e17 := binary_at hw1 W 13 main_v14 main_v15 main_v17 rfl (by decide) (by decide) (by decide)
  have e16 := binary_at hw1 W 12 main_v14 main_v15 main_v16 rfl (by decide) (by decide) (by decide)
  rw [e20, ec0, e19, e18, e17, e16]
  unfold padOf
  rw [← ops1_v14 W, ← ops1_v15 W]
  rfl

theorem ops1_v22 (p : Fin 8) (j : Fin 82) :
    StableHlo.after hostOps1 W (Proc.devRef .tc main_v22) (ix2 p j)
      = if h : j.val < 81 then W (Proc.devRef .tc main_arg2) (ix2 p ⟨j.val, h⟩)
        else padOf (W (Proc.devRef .tc main_v4) (ix2 (4 : Fin 8) (0 : Fin 128)))
          (Finset.univ.sup fun x : Fin 8 × Fin 81 => W (Proc.devRef .tc main_arg2) (ix2 x.1 x.2)) := by
  have e22 := binary_at hw1 W 19 main_arg2 main_v21 main_v22 rfl (by decide) (by decide) (by decide)
  have e21 := unary_at hw1 W 18 main_v20 main_v21 rfl (by decide) (by decide)
  have ka := after_never hw1 W main_arg2 (by decide)
  rw [e22, e21, ka]
  show concatenate S8x82 1 [⟨S8x81, W (Proc.devRef .tc main_arg2)⟩,
      ⟨S8x1, broadcastInDim S8x1 ![] bcast_S_S8x1 (StableHlo.after hostOps1 W (Proc.devRef .tc main_v20))⟩]
      concatenates_S8x81_S8x1_S8x82_d1 (ix2 p j) = _
  by_cases h : j.val < 81
  · rw [dif_pos h]
    exact concatenate_pair_apply_left (s₁ := S8x81) (s₂ := S8x1) 1 _ _ _ (ix2 p j) rfl (ix2 p ⟨j.val, h⟩)
      (fun b => match b with | ⟨0, _⟩ => rfl | ⟨1, _⟩ => rfl)
  · rw [dif_neg h, ← ops1_v20 W]
    have hj : j.val = 81 := by omega
    rw [concatenate_pair_apply_right (s₁ := S8x81) (s₂ := S8x1) 1 _ _ _ (ix2 p j) rfl rfl (ix2 p (0 : Fin 1)) ?_ ?_]
    · exact broadcastInDim_apply _ _ _ _ ix0 (fun a => a.elim0)
    · intro b hb
      match b with
      | ⟨0, _⟩ => rfl
      | ⟨1, _⟩ => exact absurd rfl hb
    · show 0 + 81 = j.val
      omega

/-! ## The third stretch -/

theorem hw1_1 : Writes (hostOps1_1 (F := Ideal)) hostOps1_1_W := rfl

theorem ops1_1_v23 (p : Fin 8) (K : Fin 76800) :
    StableHlo.after hostOps1_1 W (Proc.devRef .tc main_v23) (ix2 p K)
      = if W (Proc.devRef .tc main_v2) (ix2 p K) = 1#1 then W (Proc.devRef .tc main_v1) (ix2 p K)
        else W (Proc.devRef .tc main_v20) ix0 := by
  have e23 := ternary_at hw1_1 W 1 main_v2 main_v1 main_call0_v0 main_v23 rfl (by decide) (by decide) (by decide) (by decide)
  have e0 := unary_at hw1_1 W 0 main_v20 main_call0_v0 rfl (by decide) (by decide)
  have k2 := after_never hw1_1 W main_v2 (by decide)
  have k1 := after_never hw1_1 W main_v1 (by decide)
  have k20 := after_never hw1_1 W main_v20 (by decide)
  rw [e23, e0, k2, k1, k20]
  show Scalar.select (W (Proc.devRef .tc main_v2) (ix2 p K)) (W (Proc.devRef .tc main_v1) (ix2 p K))
      (broadcastInDim S8x76800 ![] bcast_S_S8x76800 (W (Proc.devRef .tc main_v20)) (ix2 p K)) = _
  rw [broadcastInDim_apply _ _ _ (ix2 p K) ix0 (fun a => a.elim0)]
  rfl

/-! ## The last stretch -/

/-- Each of the last stretch's operations writes one buffer, none twice. -/
theorem hw2 : Writes (hostOps2 (F := Ideal)) hostOps2_W := rfl

/-- The program's result: the two scalar losses from the first four statistics, plus an eighth of the sum of the eight
    per-image distances. Each operation is read once, from its operands' final contents; the one reduction is the sum
    over the column's eight entries, started from the word `0`. -/
theorem ops2_v37 : StableHlo.after hostOps2 W (Proc.devRef .tc main_v37) ix0
    = tailOf (W (Proc.devRef .tc main_v6) ix0) (W (Proc.devRef .tc main_v8) ix0)
        (W (Proc.devRef .tc main_v10) ix0) (W (Proc.devRef .tc main_v12) ix0)
        (∑ p : Fin 8, W (Proc.devRef .tc main_v24) (ix2 p (0 : Fin 1))) := by
  have e37 := binary_at hw2 W 16 main_v36 main_v26 main_v37 rfl (by decide) (by decide) (by decide)
  have e36 := binary_at hw2 W 15 main_v35 main_v33 main_v36 rfl (by decide) (by decide) (by decide)
  have e35 := unary_at hw2 W 14 main_v34 main_v35 rfl (by decide) (by decide)
  have e34 := binary_at hw2 W 13 main_v10 main_v12 main_v34 rfl (by decide) (by decide) (by decide)
  have e33 := binary_at hw2 W 12 main_cst_4 main_v32 main_v33 rfl (by decide) (by decide) (by decide)
  have ec4 := nullary_at hw2 W 11 main_cst_4 rfl (by decide)
  have e32 := unary_at hw2 W 10 main_v31 main_v32 rfl (by decide) (by decide)
  have e31 := binary_at hw2 W 9 main_v28 main_v30 main_v31 rfl (by decide) (by decide) (by decide)
  have e30 := binary_at hw2 W 8 main_v29 main_v27 main_v30 rfl (by decide) (by decide) (by decide)
  have e29 := binary_at hw2 W 7 main_cst_3 main_v27 main_v29 rfl (by decide) (by decide) (by decide)
  have ec3 := nullary_at hw2 W 6 main_cst_3 rfl (by decide)
  have e28 := binary_at hw2 W 5 main_v8 main_v12 main_v28 rfl (by decide) (by decide) (by decide)
  have e27 := binary_at hw2 W 4 main_v6 main_v12 main_v27 rfl (by decide) (by decide) (by decide)
  have e26 := binary_at hw2 W 3 main_v25 main_cst_2 main_v26 rfl (by decide) (by decide) (by decide)
  have ec2 := nullary_at hw2 W 2 main_cst_2 rfl (by decide)
  have e25 := binary_at hw2 W 1 main_v24 main_cst_1 main_v25 rfl (by decide) (by decide) (by decide)
  have ec1 := nullary_at hw2 W 0 main_cst_1 rfl (by decide)
  have k6 := after_never hw2 W main_v6 (by decide)
  have k8 := after_never hw2 W main_v8 (by decide)
  have k10 := after_never hw2 W main_v10 (by decide)
  have k12 := after_never hw2 W main_v12 (by decide)
  have k24 := after_never hw2 W main_v24 (by decide)
  have h25 : StableHlo.after hostOps2 W (Proc.devRef .tc main_v25) ix0
      = (∑ p : Fin 8, W (Proc.devRef .tc main_v24) (ix2 p (0 : Fin 1)) : EReal) := by
    rw [e25, ec1, k24]
    show Ideal.hostReduceAdd reducesTo_S8x1_S_d0_1 (W (Proc.devRef .tc main_v24)) (Ideal.ofBits .f32 0x00000000#32) ix0 = _
    rw [Ideal.hostReduceAdd_total _ (fun b => b.elim0), Ideal.ofBits_zero_f32, zero_add, sum_idx2]
    exact Finset.sum_congr rfl fun p _ => Fin.sum_univ_one _
  rw [e37, e36, e35, e34, e33, ec4, e32, e31, e30, e29, ec3, e28, e27, e26, ec2, k6, k8, k10, k12]
  rw [← h25]
  rfl

end Cert.KernelIdeal.Host

end
-- ==== Proof.KernelValue.lean ====
import proofs.«120963_j80418967650486_1_alg».proof.Proof.Assembly
import proofs.«120963_j80418967650486_1_alg».proof.Proof.KernelTables
import proofs.«120963_j80418967650486_1_alg».proof.Proof.HostRead

/-!
  The kernel program's result as one function of its four arguments (extended reals).

  Reading the result buffer back through the program: the last host stretch computes it from four entries of the
  statistics table and the distance column; the distance region computes the column from the padded bins and padded
  targets; the middle host stretches compute those from the arguments, the table's row 4 and the bins' maximum; the
  statistics region computes the table from the reshaped prediction, target and mask; the first stretch reshapes.
-/

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.Math Cert.KernelIdeal.Asm Cert.KernelIdeal.Host

variable (m : (ℓ : Loc nD τ sig) → Buf (Elt Ideal) ℓ) (c : Dev nD)

/-! ## The arguments, flattened -/

/-- The prediction at (batch row, position): the [8, 76800] row-major reshape of the argument. -/
def P (p : Fin 8) (K : Fin 76800) : EReal :=
  shapeCast S8x76800 (Bd0 m c (Proc.devRef .tc main_arg0)) shapeCasts_S8x1x240x320_S8x76800 (ix2 p K)
/-- The target, likewise. -/
def T (p : Fin 8) (K : Fin 76800) : EReal :=
  shapeCast S8x76800 (Bd0 m c (Proc.devRef .tc main_arg1)) shapeCasts_S8x1x240x320_S8x76800 (ix2 p K)
/-- The mask bit, likewise. -/
def Mk (p : Fin 8) (K : Fin 76800) : BitVec 1 :=
  shapeCast S8x76800 (Bd0 m c (Proc.devRef .tc main_arg3)) shapeCasts_S8x1x240x320_S8x76800 (ix2 p K)
/-- The mask as a float: 1 where masked in, 0 elsewhere. -/
def Wt (p : Fin 8) (K : Fin 76800) : EReal := FloatOps.uitofp (F := Ideal) .f32 (Mk m c p K)
/-- The bin edges. -/
def B (p : Fin 8) (j : Fin 81) : EReal := Bd0 m c (Proc.devRef .tc main_arg2) (ix2 p j)

/-! ## The closed form -/

def S0 : EReal := ∑ p : Fin 8, ∑ K : Fin 76800, dlog (P m c p K) (T m c p K) * Wt m c p K
def S1 : EReal := ∑ p : Fin 8, ∑ K : Fin 76800, (dlog (P m c p K) (T m c p K) * dlog (P m c p K) (T m c p K)) * Wt m c p K
def S2 : EReal := ∑ p : Fin 8, ∑ K : Fin 76800, ((P m c p K - T m c p K) * (P m c p K - T m c p K)) * Wt m c p K
def S3 : EReal := ∑ p : Fin 8, ∑ K : Fin 76800, Wt m c p K
/-- The kernel's running maximum of the masked targets: it starts at the sentinel. -/
def maxT : EReal := max negBig (Finset.univ.sup fun x : Fin 8 × Fin 76800 => sel (T m c x.1 x.2) (Wt m c x.1 x.2))
def maxB : EReal := Finset.univ.sup fun x : Fin 8 × Fin 81 => B m c x.1 x.2
def pad : EReal := padOf (maxT m c) (maxB m c)
/-- The bins with the padding value appended. -/
def Bn (p : Fin 8) (j : Fin 82) : EReal := if h : j.val < 81 then B m c p ⟨j.val, h⟩ else pad m c
/-- The targets with the padding value where masked out. -/
def Tg (p : Fin 8) (K : Fin 76800) : EReal := if Mk m c p K = 1#1 then T m c p K else pad m c
/-- The two-way distance of one batch row. -/
def Dp (p : Fin 8) : EReal :=
  (∑ j : Fin 82, Finset.univ.inf fun K : Fin 76800 => sq (Bn m c p j - Tg m c p K))
    + ∑ K : Fin 76800, Finset.univ.inf fun j : Fin 82 => sq (Bn m c p j - Tg m c p K)
/-- THE KERNEL PROGRAM'S RESULT. -/
def result : EReal := tailOf (S0 m c) (S1 m c) (S2 m c) (S3 m c) (∑ p : Fin 8, Dp m c p)

/-! ## The statistics region's entry and exit -/

theorem en1_v0 (p : Fin 8) (K : Fin 76800) : Tables.Pv (En1 m) c p K = P m c p K := ops0_v0 (Bd0 m c) p K
theorem en1_v1 (p : Fin 8) (K : Fin 76800) : Tables.Tv (En1 m) c p K = T m c p K := ops0_v1 (Bd0 m c) p K
theorem en1_v3 (p : Fin 8) (K : Fin 76800) : Tables.Wv (En1 m) c p K = Wt m c p K := ops0_v3 (Bd0 m c) p K

/-- The table after the statistics region is the region's output array. -/
theorem bd2_v4 (r : Fin 8) (l : Fin 128) :
    Bd2 m c (Proc.devRef .tc main_v4) (ix2 r l) = (R0.dat0 (En1 m) c).arrAt 3 cfg0.N (ix2 r l) :=
  congrFun (Bd2_arr m c 3) (ix2 r l)

theorem tab0 : Bd2 m c (Proc.devRef .tc main_v4) (ix2 (0 : Fin 8) (0 : Fin 128)) = S0 m c := by
  rw [bd2_v4, Tables.table_row0]; simp only [en1_v0, en1_v1, en1_v3]; rfl
theorem tab1 : Bd2 m c (Proc.devRef .tc main_v4) (ix2 (1 : Fin 8) (0 : Fin 128)) = S1 m c := by
  rw [bd2_v4, Tables.table_row1]; simp only [en1_v0, en1_v1, en1_v3]; rfl
theorem tab2 : Bd2 m c (Proc.devRef .tc main_v4) (ix2 (2 : Fin 8) (0 : Fin 128)) = S2 m c := by
  rw [bd2_v4, Tables.table_row2]; simp only [en1_v0, en1_v1, en1_v3]; rfl
theorem tab3 : Bd2 m c (Proc.devRef .tc main_v4) (ix2 (3 : Fin 8) (0 : Fin 128)) = S3 m c := by
  rw [bd2_v4, Tables.table_row3]; simp only [en1_v3]; rfl
theorem tab4 : Bd2 m c (Proc.devRef .tc main_v4) (ix2 (4 : Fin 8) (0 : Fin 128)) = maxT m c := by
  rw [bd2_v4, Tables.table_row4]; simp only [en1_v1, en1_v3]; rfl

/-- The bin edges are untouched up to the statistics region's exit. -/
theorem bd2_arg2 : Bd2 m c (Proc.devRef .tc main_arg2) = Bd0 m c (Proc.devRef .tc main_arg2) :=
  (Bd2_of_ne m c main_arg2 (by decide)).trans (kept0 (Bd0 m c) main_arg2 (by decide))
/-- The reshaped mask bits likewise (no window stages them). -/
theorem bd2_v2 (p : Fin 8) (K : Fin 76800) : Bd2 m c (Proc.devRef .tc main_v2) (ix2 p K) = Mk m c p K :=
  (congrFun (Bd2_of_ne m c main_v2 (by decide)) (ix2 p K)).trans (ops0_v2 (Bd0 m c) p K)
/-- The reshaped target is an input window's array: the region leaves it as entered. -/
theorem bd2_v1 (p : Fin 8) (K : Fin 76800) : Bd2 m c (Proc.devRef .tc main_v1) (ix2 p K) = T m c p K :=
  (congrFun ((Bd2_arr m c 1).trans (((R0.dat0 (En1 m) c).arrAt_in 1 rfl _).trans (R0.A_eq0 (En1 m) c 1))) (ix2 p K)).trans
    (ops0_v1 (Bd0 m c) p K)

/-! ## The middle host stretches -/

theorem bd3_v6 : Bd3 m c (Proc.devRef .tc main_v6) ix0 = S0 m c := (ops1_v6 (Bd2 m c)).trans (tab0 m c)
theorem bd3_v8 : Bd3 m c (Proc.devRef .tc main_v8) ix0 = S1 m c := (ops1_v8 (Bd2 m c)).trans (tab1 m c)
theorem bd3_v10 : Bd3 m c (Proc.devRef .tc main_v10) ix0 = S2 m c := (ops1_v10 (Bd2 m c)).trans (tab2 m c)
theorem bd3_v12 : Bd3 m c (Proc.devRef .tc main_v12) ix0 = S3 m c := (ops1_v12 (Bd2 m c)).trans (tab3 m c)

theorem bd3_v20 : Bd3 m c (Proc.devRef .tc main_v20) ix0 = pad m c := by
  rw [show Bd3 m c (Proc.devRef .tc main_v20) ix0 = _ from ops1_v20 (Bd2 m c), tab4, bd2_arg2]; rfl

theorem bd3_v22 (p : Fin 8) (j : Fin 82) : Bd3 m c (Proc.devRef .tc main_v22) (ix2 p j) = Bn m c p j := by
  rw [show Bd3 m c (Proc.devRef .tc main_v22) (ix2 p j) = _ from ops1_v22 (Bd2 m c) p j, tab4, bd2_arg2]; rfl

theorem bd4_v23 (p : Fin 8) (K : Fin 76800) : Bd4 m c (Proc.devRef .tc main_v23) (ix2 p K) = Tg m c p K := by
  rw [show Bd4 m c (Proc.devRef .tc main_v23) (ix2 p K) = _ from ops1_1_v23 (Bd3 m c) p K,
    show Bd3 m c (Proc.devRef .tc main_v2) = Bd2 m c (Proc.devRef .tc main_v2) from kept1 (Bd2 m c) main_v2 (by decide),
    show Bd3 m c (Proc.devRef .tc main_v1) = Bd2 m c (Proc.devRef .tc main_v1) from kept1 (Bd2 m c) main_v1 (by decide),
    bd2_v2, bd2_v1, bd3_v20]; rfl

theorem bd4_v22 (p : Fin 8) (j : Fin 82) : Bd4 m c (Proc.devRef .tc main_v22) (ix2 p j) = Bn m c p j :=
  (congrFun (kept1_1 (Bd3 m c) main_v22 (by decide)) (ix2 p j)).trans (bd3_v22 m c p j)

/-! ## The distance region's exit, and the four statistics carried past it -/

theorem bd5_v24 (p : Fin 8) : Bd5 m c (Proc.devRef .tc main_v24) (ix2 p (0 : Fin 1)) = Dp m c p := by
  rw [show Bd5 m c (Proc.devRef .tc main_v24) (ix2 p (0 : Fin 1)) = (R1.dat1 (En4 m) c).arrAt 2 cfg1.N (ix2 p (0 : Fin 1)) from
    congrFun (Bd5_arr m c 2) (ix2 p (0 : Fin 1)), Tables.column_eq]
  have hB : ∀ j, Tables.Bv (En4 m) c p j = Bn m c p j := fun j => bd4_v22 m c p j
  have hG : ∀ K, Tables.Gv (En4 m) c p K = Tg m c p K := fun K => bd4_v23 m c p K
  unfold Dp
  refine congrArg₂ (· + ·) (Finset.sum_congr rfl fun j _ => ?_) (Finset.sum_congr rfl fun K _ => ?_)
  · refine congrArg (Finset.inf Finset.univ) (funext fun K => ?_)
    rw [hB j, hG K]
  · refine congrArg (Finset.inf Finset.univ) (funext fun j => ?_)
    rw [hB j, hG K]

theorem bd5_kept (r : Ref sig .tc) (h11 : r ∉ hostOps1_1_W) (ha : ∀ w, Pipeline.arrRef spec1 w ≠ r) :
    Bd5 m c (Proc.devRef .tc r) = Bd3 m c (Proc.devRef .tc r) :=
  (Bd5_of_ne m c r ha).trans (kept1_1 (Bd3 m c) r h11)

/-! ## The result -/

theorem result_eq : Bd6 m c (Proc.devRef .tc main_v37) ix0 = result m c := by
  rw [show Bd6 m c (Proc.devRef .tc main_v37) ix0 = _ from ops2_v37 (Bd5 m c),
    bd5_kept m c main_v6 (by decide) (by decide), bd5_kept m c main_v8 (by decide) (by decide),
    bd5_kept m c main_v10 (by decide) (by decide), bd5_kept m c main_v12 (by decide) (by decide),
    bd3_v6, bd3_v8, bd3_v10, bd3_v12]
  unfold result
  refine congrArg (tailOf (S0 m c) (S1 m c) (S2 m c) (S3 m c)) ?_
  exact Finset.sum_congr rfl fun p _ => bd5_v24 m c p

end Cert.KernelIdeal.KVal

end
-- ==== Proof.Consts.lean ====
import Idealize.ShloMosaic.PureOps.Ideal

/-!
  The float constants the two programs spell, as the extended reals their bit patterns denote.

  Each pattern is unfolded here once. What the comparison of the two programs uses of them is little: 1 is 1, the
  divisors 8 and 10 and the factor 0.85 are positive reals, the small shift ε under the logarithms is a positive real,
  and the sentinel is a negative real so large that adding ε leaves it negative.
-/

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

/-- The factor the programs write 0.85: the dyadic 14260634 / 2²⁴. -/
theorem ofBits_c085 : Ideal.ofBits .f32 0x3F59999A#32 = (((14260634 : ℝ) / 16777216 : ℝ) : EReal) := by
  simp [Ideal.ofBits, Ideal.ieee, -EReal.coe_mul]; norm_num

/-- The shift the programs write 1e-10: the dyadic 14411519 / 2⁵⁷. -/
theorem ofBits_eps : Ideal.ofBits .f32 0x2EDBE6FF#32 = (((14411519 : ℝ) / 144115188075855872 : ℝ) : EReal) := by
  simp [Ideal.ofBits, Ideal.ieee, -EReal.coe_mul]; norm_num

/-- The sentinel the programs write -1e30: the integer -13234890 · 2⁷⁶. -/
theorem ofBits_negBig : Ideal.ofBits .f32 0xF149F2CA#32 = (((-13234890 : ℝ) * 75557863725914323419136 : ℝ) : EReal) := by
  simp [Ideal.ofBits, Ideal.ieee, -EReal.coe_mul]; norm_num

end Cert.Consts

end
-- ==== Proof.KernelFacts.lean ====
import proofs.«120963_j80418967650486_1_alg».proof.Proof.KernelValue
import proofs.«120963_j80418967650486_1_alg».proof.Proof.Consts

/-!
  Elementary facts about the quantities the kernel's closed form is built from, under finite inputs.

  A flattened entry of a finite array is a real. The mask's float is 1 where the bit is set and 0 elsewhere, so a
  product with it keeps the factor or gives 0, and the masked selection against it is the selection against the bit.
  The maximum of finitely many reals is a real, so the padding value — built from two maxima by max, min, +, - and
  adding 1 — is a real, and so are the padded bins and targets.
-/

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.Math Cert.KernelIdeal.Asm Cert.KernelIdeal.Host

variable (m : (ℓ : Loc nD τ sig) → Buf (Elt Ideal) ℓ) (c : Dev nD)

/-- The three float arguments hold reals everywhere. -/
structure FiniteArgs : Prop where
  h0 : ∀ i, ∃ r : ℝ, (Bd0 m c (Proc.devRef .tc main_arg0) : Vec Ideal S8x1x240x320 .f32) i = (r : EReal)
  h1 : ∀ i, ∃ r : ℝ, (Bd0 m c (Proc.devRef .tc main_arg1) : Vec Ideal S8x1x240x320 .f32) i = (r : EReal)
  h2 : ∀ i, ∃ r : ℝ, (Bd0 m c (Proc.devRef .tc main_arg2) : Vec Ideal S8x81 .f32) i = (r : EReal)

variable {m c}

theorem P_real (h : FiniteArgs m c) (p : Fin 8) (K : Fin 76800) : ∃ r : ℝ, P m c p K = (r : EReal) := by
  unfold P shapeCast; exact h.h0 _
theorem T_real (h : FiniteArgs m c) (p : Fin 8) (K : Fin 76800) : ∃ r : ℝ, T m c p K = (r : EReal) := by
  unfold T shapeCast; exact h.h1 _
theorem B_real (h : FiniteArgs m c) (p : Fin 8) (j : Fin 81) : ∃ r : ℝ, B m c p j = (r : EReal) := h.h2 _

theorem bit_cases : ∀ b : BitVec 1, b = 0#1 ∨ b = 1#1 := by decide

variable (m c)

/-- The mask's float: 1 where the bit is set, 0 elsewhere. -/
theorem Wt_eq (p : Fin 8) (K : Fin 76800) : Wt m c p K = if Mk m c p K = 1#1 then 1 else 0 := by
  unfold Wt
  show ((((Mk m c p K).toNat : ℝ)) : EReal) = _
  rcases bit_cases (Mk m c p K) with e | e <;> rw [e] <;> simp

/-- A product with the mask's float keeps the factor where masked in and is 0 elsewhere. -/
theorem mul_Wt (x : EReal) (p : Fin 8) (K : Fin 76800) : x * Wt m c p K = if Mk m c p K = 1#1 then x else 0 := by
  rw [Wt_eq]; split <;> simp

/-- Selecting against the mask's float is selecting against the bit. -/
theorem sel_Wt (p : Fin 8) (K : Fin 76800) :
    sel (T m c p K) (Wt m c p K) = if Mk m c p K = 1#1 then T m c p K else negBig := by
  rw [Wt_eq]; unfold sel
  split <;> simp

/-- The count of masked-in elements is a real that is not negative. -/
theorem S3_real : ∃ n : ℝ, 0 ≤ n ∧ S3 m c = (n : EReal) := by
  unfold S3
  have hK : ∀ p : Fin 8, ∃ n : ℝ, 0 ≤ n ∧ (∑ K : Fin 76800, Wt m c p K) = (n : EReal) := by
    intro p
    refine Finset.sum_induction (fun K => Wt m c p K) (fun x : EReal => ∃ n : ℝ, 0 ≤ n ∧ x = (n : EReal)) ?_ ⟨0, le_refl _, by simp⟩ ?_
    · rintro _ _ ⟨a, ha, rfl⟩ ⟨b, hb, rfl⟩; exact ⟨a + b, add_nonneg ha hb, (EReal.coe_add a b).symm⟩
    · intro K _; rw [Wt_eq]; split
      · exact ⟨1, zero_le_one, by simp⟩
      · exact ⟨0, le_refl _, by simp⟩
  refine Finset.sum_induction (fun p => ∑ K : Fin 76800, Wt m c p K) (fun x : EReal => ∃ n : ℝ, 0 ≤ n ∧ x = (n : EReal)) ?_ ⟨0, le_refl _, by simp⟩ ?_
  · rintro _ _ ⟨a, ha, rfl⟩ ⟨b, hb, rfl⟩; exact ⟨a + b, add_nonneg ha hb, (EReal.coe_add a b).symm⟩
  · intro p _; exact hK p

/-- The maximum of a nonempty finite family of reals is a real. -/
theorem sup_real {ι : Type*} [Fintype ι] [Nonempty ι] (f : ι → EReal) (hf : ∀ i, ∃ r : ℝ, f i = (r : EReal)) :
    ∃ r : ℝ, Finset.univ.sup f = (r : EReal) := by
  obtain ⟨i, -, hi⟩ := Finset.exists_mem_eq_sup Finset.univ Finset.univ_nonempty f
  rw [hi]; exact hf i

theorem negBig_real : ∃ r : ℝ, negBig = (r : EReal) := ⟨_, Consts.ofBits_negBig⟩

variable {m c}

theorem maxT_real (h : FiniteArgs m c) : ∃ r : ℝ, maxT m c = (r : EReal) := by
  unfold maxT
  obtain ⟨a, ha⟩ := negBig_real
  obtain ⟨b, hb⟩ := sup_real (fun x : Fin 8 × Fin 76800 => sel (T m c x.1 x.2) (Wt m c x.1 x.2)) (fun x => by
    rw [sel_Wt]; split
    · exact T_real h _ _
    · exact negBig_real)
  rw [ha, hb]; exact ⟨max a b, (EReal.coe_strictMono.monotone.map_max).symm⟩

theorem maxB_real (h : FiniteArgs m c) : ∃ r : ℝ, maxB m c = (r : EReal) :=
  sup_real (fun x : Fin 8 × Fin 81 => B m c x.1 x.2) (fun x => B_real h _ _)

/-- The padding value built from two reals is a real. -/
theorem padOf_real (a b : ℝ) : ∃ r : ℝ, padOf (a : EReal) (b : EReal) = (r : EReal) := by
  refine ⟨(max a b + (max a b - min a b)) + 1, ?_⟩
  unfold padOf
  rw [Consts.ofBits_one, ← EReal.coe_strictMono.monotone.map_max, ← EReal.coe_strictMono.monotone.map_min]
  norm_cast

theorem pad_real (h : FiniteArgs m c) : ∃ r : ℝ, pad m c = (r : EReal) := by
  unfold pad
  obtain ⟨a, ha⟩ := maxT_real h
  obtain ⟨b, hb⟩ := maxB_real h
  rw [ha, hb]; exact padOf_real a b

theorem Bn_real (h : FiniteArgs m c) (p : Fin 8) (j : Fin 82) : ∃ r : ℝ, Bn m c p j = (r : EReal) := by
  unfold Bn; split
  · exact B_real h _ _
  · exact pad_real h
theorem Tg_real (h : FiniteArgs m c) (p : Fin 8) (K : Fin 76800) : ∃ r : ℝ, Tg m c p K = (r : EReal) := by
  unfold Tg; split
  · exact T_real h _ _
  · exact pad_real h

/-- On reals a squared difference does not see the order of its operands. -/
theorem sq_sub_comm_real (a b : ℝ) : Math.sq ((a : EReal) - (b : EReal)) = Math.sq ((b : EReal) - (a : EReal)) := by
  unfold Math.sq
  rw [← EReal.coe_sub, ← EReal.coe_sub, ← EReal.coe_mul, ← EReal.coe_mul]
  congr 1; ring

end Cert.KernelIdeal.KVal

end
-- ==== Proof.Collapse.lean ====
import Idealize.ShloMosaic.PureOps.Ideal
import proofs.«120963_j80418967650486_1_alg».proof.Proof.Consts

/-!
  Where the two programs' running maxima differ, both results are the junk value ⊥.

  The kernel's running maximum of the masked targets starts at the sentinel, the reference's at -∞; they differ
  exactly when every element is masked in and every target lies below the sentinel. Then every target, shifted by ε, is
  still negative, so each logarithm of a shifted target is ⊥; each log-difference d is then log(p + ε) - ⊥, an
  infinity; each d·d is +∞, so the sum of squares is +∞ and the sum of the d is an infinity; the variance-like term
  +∞/n - 0.85·(±∞/n)·(±∞/n) is +∞ - +∞ = ⊥; its square root is ⊥, ten times it is ⊥, and adding ⊥ to anything is ⊥.
  The differing maxima only enter the distance term, which is added last: x + ⊥ = ⊥ whatever x is.
-/

noncomputable section

namespace Cert.Collapse

open Idealize.ShloMosaic

/-- The logarithm of a real that is not positive is ⊥. -/
theorem log_of_nonpos {r : ℝ} (h : r ≤ 0) : Ideal.log (r : EReal) = ⊥ := by
  show (if r ≤ 0 then (⊥ : EReal) else (Real.log r : EReal)) = ⊥
  rw [if_pos h]

/-- A value below the sentinel, shifted by ε, has logarithm ⊥. -/
theorem log_shift_below {t : EReal} (ht : t < Ideal.ofBits .f32 0xF149F2CA#32) :
    Ideal.log (t + Ideal.ofBits .f32 0x2EDBE6FF#32) = ⊥ := by
  rw [Consts.ofBits_negBig] at ht
  rw [Consts.ofBits_eps]
  induction t using EReal.rec with
  | bot => rw [EReal.bot_add]; rfl
  | top => exact absurd ht (not_lt_of_ge le_top)
  | coe r =>
    rw [← EReal.coe_add]
    have hr : r < (-13234890 : ℝ) * 75557863725914323419136 := by exact_mod_cast ht
    refine log_of_nonpos ?_
    have h1 : ((14411519 : ℝ) / 144115188075855872) < 1 := by norm_num
    have h2 : ((-13234890 : ℝ) * 75557863725914323419136) < -1 := by norm_num
    linarith

/-- Taking ⊥ away from anything leaves an infinity. -/
theorem sub_bot_inf (a : EReal) : a - ⊥ = ⊤ ∨ a - ⊥ = ⊥ := by
  rw [sub_eq_add_neg, EReal.neg_bot]
  induction a using EReal.rec with
  | bot => right; exact EReal.bot_add _
  | top => left; exact EReal.top_add_top
  | coe r => left; exact EReal.coe_add_top r

/-- An infinity times itself is +∞. -/
theorem inf_mul_self {z : EReal} (hz : z = ⊤ ∨ z = ⊥) : z * z = ⊤ := by
  rcases hz with rfl | rfl
  · exact EReal.top_mul_top
  · exact EReal.bot_mul_bot

/-- A nonempty sum of +∞ is +∞. -/
theorem sum_top {ι : Type*} (s : Finset ι) (hs : s.Nonempty) (f : ι → EReal) (h : ∀ i ∈ s, f i = ⊤) :
    ∑ i ∈ s, f i = ⊤ := by
  induction hs using Finset.Nonempty.cons_induction with
  | singleton a => rw [Finset.sum_singleton]; exact h a (Finset.mem_singleton_self a)
  | cons a s ha hs ih =>
    rw [Finset.sum_cons, h a (Finset.mem_cons_self a s), ih fun i hi => h i (Finset.mem_cons_of_mem hi)]
    exact EReal.top_add_top

/-- A nonempty sum of infinities is an infinity. -/
theorem sum_inf {ι : Type*} (s : Finset ι) (hs : s.Nonempty) (f : ι → EReal) (h : ∀ i ∈ s, f i = ⊤ ∨ f i = ⊥) :
    ∑ i ∈ s, f i = ⊤ ∨ ∑ i ∈ s, f i = ⊥ := by
  induction hs using Finset.Nonempty.cons_induction with
  | singleton a => rw [Finset.sum_singleton]; exact h a (Finset.mem_singleton_self a)
  | cons a s ha hs ih =>
    rw [Finset.sum_cons]
    rcases h a (Finset.mem_cons_self a s) with e | e <;> rw [e]
    · rcases ih fun i hi => h i (Finset.mem_cons_of_mem hi) with e' | e' <;> rw [e']
      · left; exact EReal.top_add_top
      · right; exact EReal.add_bot _
    · right; exact EReal.bot_add _

/-- An infinity over a positive real is that infinity. -/
theorem div_pos_inf {z : EReal} (hz : z = ⊤ ∨ z = ⊥) {n : ℝ} (hn : 0 < n) :
    (Ideal.div z (n : EReal) = ⊤ ∧ z = ⊤) ∨ (Ideal.div z (n : EReal) = ⊥ ∧ z = ⊥) := by
  rw [Ideal.div_coe (ne_of_gt hn)]
  have hp : (0 : EReal) < (((1 / n : ℝ)) : EReal) := by exact_mod_cast (one_div_pos.mpr hn)
  rcases hz with rfl | rfl
  · left; exact ⟨EReal.top_mul_of_pos hp, rfl⟩
  · right; exact ⟨EReal.bot_mul_of_pos hp, rfl⟩

/-- THE COLLAPSE of the scale-invariant term: with the sum of squares at +∞, the plain sum at an infinity and a
    positive count, ten times the root of (mean square - 0.85 · mean · mean) is ⊥. -/
theorem silog_bot {s0 : EReal} (hs0 : s0 = ⊤ ∨ s0 = ⊥) {n : ℝ} (hn : 0 < n) :
    Ideal.ofBits .f32 0x41200000#32 *
      Ideal.sqrt (Ideal.div ⊤ (n : EReal)
        - (Ideal.ofBits .f32 0x3F59999A#32 * Ideal.div s0 (n : EReal)) * Ideal.div s0 (n : EReal)) = ⊥ := by
  rw [Consts.ofBits_ten, Consts.ofBits_c085]
  have hc : (0 : EReal) < (((14260634 : ℝ) / 16777216 : ℝ) : EReal) := by exact_mod_cast (by norm_num : (0 : ℝ) < 14260634 / 16777216)
  have ht : (0 : EReal) < ((10 : ℝ) : EReal) := by exact_mod_cast (by norm_num : (0 : ℝ) < 10)
  have hT : Ideal.div ⊤ (n : EReal) = ⊤ := by
    rcases div_pos_inf (Or.inl rfl) hn with ⟨e, -⟩ | ⟨-, e⟩
    · exact e
    · exact absurd e (by simp)
  have hprod : (((14260634 : ℝ) / 16777216 : ℝ) : EReal) * Ideal.div s0 (n : EReal) * Ideal.div s0 (n : EReal) = ⊤ := by
    rcases div_pos_inf hs0 hn with ⟨e, -⟩ | ⟨e, -⟩ <;> rw [e]
    · rw [EReal.mul_top_of_pos hc]; exact EReal.top_mul_top
    · rw [EReal.mul_bot_of_pos hc]; exact EReal.bot_mul_bot
  rw [hT, hprod]
  have : (⊤ : EReal) - ⊤ = ⊥ := by rw [sub_eq_add_neg, EReal.neg_top]; exact EReal.add_bot _
  rw [this]
  show ((10 : ℝ) : EReal) * (⊥ : EReal) = ⊥
  exact EReal.mul_bot_of_pos ht

/-- Adding ⊥ on the right, then anything, is ⊥. -/
theorem add_bot_add (x y : EReal) : x + ⊥ + y = ⊥ := by
  rw [EReal.add_bot, EReal.bot_add]

end Cert.Collapse

end
-- ==== Proof.RefSpec.lean ====
/-
  The reference's value as ONE function of the four argument arrays.

  The reference takes a prediction and a target image batch [8, 1, 240, 320], bin edges [8, 81] and a mask
  [8, 1, 240, 320], and returns one number: 1·l2 + 1·silog + 1·chamfer.  Every image array enters only through its
  row-major reshape to [8, 76800] (row p, flat position K).  The pieces, in the reference's own operation order:

    maxTarget   the largest target over the masked-in positions, the word of -1e30 standing at the others;
    maxCenter   the largest bin edge;
    padValue    hi + (hi - lo) + 1, with hi / lo the larger / smaller of the two maxima;
    padBin      row p's 81 bin edges followed by padValue (82 entries);
    padTarget   the target where the mask is set, padValue elsewhere;
    distBins    for row p, the sum over the 82 padded bins of the least squared difference (bin - target) to a padded target;
    distTargets for row p, the sum over the 76800 padded targets of the least squared difference (target - bin) to a padded bin;
    chamfer     the sum over the 8 rows of distBins + distTargets, divided by 8;
    count       the number of masked-in positions, as a float;
    m1, m2      the masked means of d and d·d, d = log (prediction + eps) - log (target + eps);
    silog       10 · sqrt (m2 - (0.85 · m1) · m1);
    l2          sqrt of the masked mean of (prediction - target)².

  Float literals stay the words the program prints; the zero word is written 0.
-/
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx

/-- The image arrays' shape, its row-major flattening, and the bin edges' shape. -/
abbrev SImg : Shape := ⟨4, ![8, 1, 240, 320]⟩
abbrev SFlat : Shape := ⟨2, ![8, 76800]⟩
abbrev SBins : Shape := ⟨2, ![8, 81]⟩

theorem casts_img_flat : SImg.ShapeCasts SFlat := by decide

/-- An image array read through its row-major reshape to [8, 76800], at row `p`, flat position `K`. -/
def flat {α : Type} (a : SImg.Idx → α) (p : Fin 8) (K : Fin 76800) : α :=
  shapeCast SFlat a casts_img_flat (ix2 p K)

theorem flat_eq {α : Type} (a : SImg.Idx → α) (p : Fin 8) (K : Fin 76800) :
    flat a p K = shapeCast SFlat a casts_img_flat (ix2 p K) := rfl

/-- The word of -1e30 that stands for a masked-out target under the maximum. -/
def negBig : EReal := Ideal.ofBits .f32 0xF149F2CA#32

/-- The word of 1e-10 added under the logarithms. -/
def eps : EReal := Ideal.ofBits .f32 0x2EDBE6FF#32

/-- The word of 1.0: the padding margin, and each of the three weights. -/
def one : EReal := Ideal.ofBits .f32 0x3F800000#32

section Pieces

variable (a0 a1 : Vec Ideal SImg .f32) (a2 : Vec Ideal SBins .f32) (a3 : IVec SImg 1)

/-- The largest target over the masked-in positions (the word of -1e30 at the others). -/
def maxTarget : EReal :=
  Finset.univ.sup fun q : Fin 8 × Fin 76800 => if flat a3 q.1 q.2 = 1 then flat a1 q.1 q.2 else negBig

/-- The largest bin edge. -/
def maxCenter : EReal := Finset.univ.sup fun q : Fin 8 × Fin 81 => a2 (ix2 q.1 q.2)

/-- The larger and the smaller of the two maxima. -/
def hi : EReal := max (maxTarget a1 a3) (maxCenter a2)
def lo : EReal := min (maxTarget a1 a3) (maxCenter a2)

/-- The padding value: beyond the larger maximum by the two maxima's distance and one more. -/
def padValue : EReal := hi a1 a2 a3 + (hi a1 a2 a3 - lo a1 a2 a3) + one

/-- Row `p`'s padded bins: its 81 edges, then the padding value. -/
def padBin (p : Fin 8) (j : Fin 82) : EReal :=
  if h : j.val < 81 then a2 (ix2 p ⟨j.val, h⟩) else padValue a1 a2 a3

/-- The padded targets: the target where the mask is set, the padding value elsewhere. -/
def padTarget (p : Fin 8) (K : Fin 76800) : EReal :=
  if flat a3 p K = 1 then flat a1 p K else padValue a1 a2 a3

/-- Row `p`: over the padded bins, the least squared difference to a padded target, summed. -/
def distBins (p : Fin 8) : EReal :=
  ∑ j : Fin 82, Finset.univ.inf fun K : Fin 76800 =>
    (padBin a1 a2 a3 p j - padTarget a1 a2 a3 p K) * (padBin a1 a2 a3 p j - padTarget a1 a2 a3 p K)

/-- Row `p`: over the padded targets, the least squared difference to a padded bin, summed. -/
def distTargets (p : Fin 8) : EReal :=
  ∑ K : Fin 76800, Finset.univ.inf fun j : Fin 82 =>
    (padTarget a1 a2 a3 p K - padBin a1 a2 a3 p j) * (padTarget a1 a2 a3 p K - padBin a1 a2 a3 p j)

/-- The two one-directional distances, summed over the rows and divided by the word of 8.0. -/
def chamfer : EReal :=
  Ideal.div (∑ p : Fin 8, (distBins a1 a2 a3 p + distTargets a1 a2 a3 p)) (Ideal.ofBits .f32 0x41000000#32)

/-- The number of masked-in positions, as a float. -/
def count : EReal := ∑ p : Fin 8, ∑ K : Fin 76800, (((flat a3 p K).toNat : ℝ) : EReal)

/-- The difference of the logarithms at one position. -/
def logDiff (p : Fin 8) (K : Fin 76800) : EReal :=
  Ideal.log (flat a0 p K + eps) - Ideal.log (flat a1 p K + eps)

/-- The masked mean of the logarithms' difference. -/
def m1 : EReal :=
  Ideal.div (∑ p : Fin 8, ∑ K : Fin 76800, if flat a3 p K = 1 then logDiff a0 a1 p K else 0) (count a3)

/-- The masked mean of its square. -/
def m2 : EReal :=
  Ideal.div (∑ p : Fin 8, ∑ K : Fin 76800, if flat a3 p K = 1 then logDiff a0 a1 p K * logDiff a0 a1 p K else 0) (count a3)

/-- 10 · sqrt (m2 - (0.85 · m1) · m1). -/
def silog : EReal :=
  Ideal.ofBits .f32 0x41200000#32
    * Ideal.sqrt (m2 a0 a1 a3 - Ideal.ofBits .f32 0x3F59999A#32 * m1 a0 a1 a3 * m1 a0 a1 a3)

/-- The square root of the masked mean of the squared difference of prediction and target. -/
def l2 : EReal :=
  Ideal.sqrt (Ideal.div
    (∑ p : Fin 8, ∑ K : Fin 76800,
      if flat a3 p K = 1 then (flat a0 p K - flat a1 p K) * (flat a0 p K - flat a1 p K) else 0)
    (count a3))

/-- The reference's value: 1 · l2 + 1 · silog + 1 · chamfer, in that order of additions. -/
def G : EReal := one * l2 a0 a1 a3 + one * silog a0 a1 a3 + one * chamfer a1 a2 a3

end Pieces

end Cert.ReferenceIdeal.RefValue

end
-- ==== Proof.Bridge.lean ====
import proofs.«120963_j80418967650486_1_alg».proof.Proof.KernelFacts
import proofs.«120963_j80418967650486_1_alg».proof.Proof.Collapse
import proofs.«120963_j80418967650486_1_alg».proof.Proof.RefSpec

/-!
  The kernel program's result and the reference's are one extended real, for finite inputs.

  Both are (root of the masked mean squared difference) + 10·root(m2 - 0.85·m1·m1) + (two-way distance)/8, over the
  same masked sums: a product with the 0/1 mask is the selection against the mask bit, and multiplying by the word of
  1.0 changes nothing. The distance terms are taken over bins and targets padded with a value built from the largest bin
  and the largest masked target — and there the programs differ: the kernel's running maximum starts at the sentinel,
  so it is max(sentinel, M) where the reference has M. If the sentinel is at most M the two padding values agree, the
  padded tables agree, and the second distance — whose difference the reference takes in the other order — agrees
  because a square of a difference of reals does not see the order. Otherwise M is below the sentinel: every element is
  masked in and every target lies below the sentinel, the scale-invariant term is the junk value ⊥ (Collapse.lean) in
  both programs, and ⊥ added to anything is ⊥.
-/

noncomputable section

namespace Cert.Bridge

open Idealize.ShloMosaic Idealize.ShloMosaic.TcCoe Idealize.ShloMosaic.ValueIdx Idealize.SL.Sem
open Cert.KernelIdeal Cert.KernelIdeal.Gen Cert.KernelIdeal.Math Cert.KernelIdeal.Asm Cert.KernelIdeal.Host Cert.KernelIdeal.KVal

variable (m : (ℓ : Loc nD τ sig) → Buf (Elt Ideal) ℓ) (c : Dev nD)

/-- The kernel's four arguments, as the arrays the reference's function takes. -/
abbrev A0 : Vec Ideal Cert.ReferenceIdeal.RefValue.SImg .f32 := Bd0 m c (Proc.devRef .tc main_arg0)
abbrev A1 : Vec Ideal Cert.ReferenceIdeal.RefValue.SImg .f32 := Bd0 m c (Proc.devRef .tc main_arg1)
abbrev A2 : Vec Ideal Cert.ReferenceIdeal.RefValue.SBins .f32 := Bd0 m c (Proc.devRef .tc main_arg2)
abbrev A3 : IVec Cert.ReferenceIdeal.RefValue.SImg 1 := Bd0 m c (Proc.devRef .tc main_arg3)

/-! ## The two sides name the same entries -/

theorem flat0 (p : Fin 8) (K : Fin 76800) : Cert.ReferenceIdeal.RefValue.flat (A0 m c) p K = P m c p K := rfl
theorem flat1 (p : Fin 8) (K : Fin 76800) : Cert.ReferenceIdeal.RefValue.flat (A1 m c) p K = T m c p K := rfl
theorem flat3 (p : Fin 8) (K : Fin 76800) : Cert.ReferenceIdeal.RefValue.flat (A3 m c) p K = Mk m c p K := rfl

theorem logDiff_eq (p : Fin 8) (K : Fin 76800) :
    Cert.ReferenceIdeal.RefValue.logDiff (A0 m c) (A1 m c) p K = dlog (P m c p K) (T m c p K) := rfl

theorem count_eq : Cert.ReferenceIdeal.RefValue.count (A3 m c) = KVal.S3 m c := rfl

/-- A masked sum: selecting against the bit is multiplying by the mask's float. -/
theorem masked_sum (f : Fin 8 → Fin 76800 → EReal) :
    (∑ p : Fin 8, ∑ K : Fin 76800, if Cert.ReferenceIdeal.RefValue.flat (A3 m c) p K = 1 then f p K else 0)
      = ∑ p : Fin 8, ∑ K : Fin 76800, f p K * Wt m c p K := by
  refine Finset.sum_congr rfl fun p _ => Finset.sum_congr rfl fun K _ => ?_
  rw [mul_Wt]; rfl

theorem maxT_eq : maxT m c = max negBig (Cert.ReferenceIdeal.RefValue.maxTarget (A1 m c) (A3 m c)) := by
  unfold maxT Cert.ReferenceIdeal.RefValue.maxTarget
  refine congrArg (max negBig) (Finset.sup_congr rfl fun q _ => ?_)
  rw [sel_Wt]; rfl

theorem maxB_eq : maxB m c = Cert.ReferenceIdeal.RefValue.maxCenter (A2 m c) := rfl

/-! ## The tails -/

/-- The reference's last lines, as a function of the same five numbers as the kernel's. -/
theorem refTail (s0 s1 s2 s3 ds : EReal) :
    Cert.ReferenceIdeal.RefValue.one * Ideal.sqrt (Ideal.div s2 s3)
      + Cert.ReferenceIdeal.RefValue.one * (Ideal.ofBits .f32 0x41200000#32
          * Ideal.sqrt (Ideal.div s1 s3 - Ideal.ofBits .f32 0x3F59999A#32 * Ideal.div s0 s3 * Ideal.div s0 s3))
      + Cert.ReferenceIdeal.RefValue.one * Ideal.div ds (Ideal.ofBits .f32 0x41000000#32)
    = tailOf s0 s1 s2 s3 ds := by
  unfold tailOf Cert.ReferenceIdeal.RefValue.one
  rw [Consts.ofBits_one, one_mul, one_mul, one_mul]

/-- With the sum of squares at +∞, the plain sum at an infinity and a positive count, the tail is ⊥. -/
theorem tail_bot {s0 : EReal} (hs0 : s0 = ⊤ ∨ s0 = ⊥) (s2 ds : EReal) {n : ℝ} (hn : 0 < n) :
    tailOf s0 ⊤ s2 (n : EReal) ds = ⊥ := by
  unfold tailOf
  rw [Collapse.silog_bot hs0 hn]
  exact Collapse.add_bot_add _ _

/-! ## The reference's value over the kernel's arguments, in the kernel's sums -/

/-- The reference's value is the common tail of the kernel's four sums and the reference's own distance. -/
theorem G_eq_tail : Cert.ReferenceIdeal.RefValue.G (A0 m c) (A1 m c) (A2 m c) (A3 m c)
    = tailOf (KVal.S0 m c) (KVal.S1 m c) (KVal.S2 m c) (KVal.S3 m c)
        (∑ p : Fin 8, (Cert.ReferenceIdeal.RefValue.distBins (A1 m c) (A2 m c) (A3 m c) p
          + Cert.ReferenceIdeal.RefValue.distTargets (A1 m c) (A2 m c) (A3 m c) p)) := by
  rw [← refTail]
  unfold Cert.ReferenceIdeal.RefValue.G Cert.ReferenceIdeal.RefValue.l2 Cert.ReferenceIdeal.RefValue.silog
    Cert.ReferenceIdeal.RefValue.m1 Cert.ReferenceIdeal.RefValue.m2 Cert.ReferenceIdeal.RefValue.chamfer
  rw [count_eq]
  rw [show (∑ p : Fin 8, ∑ K : Fin 76800, if Cert.ReferenceIdeal.RefValue.flat (A3 m c) p K = 1
        then Cert.ReferenceIdeal.RefValue.logDiff (A0 m c) (A1 m c) p K else 0) = KVal.S0 m c from
      masked_sum m c (fun p K => dlog (P m c p K) (T m c p K)),
    show (∑ p : Fin 8, ∑ K : Fin 76800, if Cert.ReferenceIdeal.RefValue.flat (A3 m c) p K = 1
        then Cert.ReferenceIdeal.RefValue.logDiff (A0 m c) (A1 m c) p K * Cert.ReferenceIdeal.RefValue.logDiff (A0 m c) (A1 m c) p K else 0) = KVal.S1 m c from
      masked_sum m c (fun p K => dlog (P m c p K) (T m c p K) * dlog (P m c p K) (T m c p K)),
    show (∑ p : Fin 8, ∑ K : Fin 76800, if Cert.ReferenceIdeal.RefValue.flat (A3 m c) p K = 1
        then (Cert.ReferenceIdeal.RefValue.flat (A0 m c) p K - Cert.ReferenceIdeal.RefValue.flat (A1 m c) p K)
          * (Cert.ReferenceIdeal.RefValue.flat (A0 m c) p K - Cert.ReferenceIdeal.RefValue.flat (A1 m c) p K) else 0) = KVal.S2 m c from
      masked_sum m c (fun p K => (P m c p K - T m c p K) * (P m c p K - T m c p K))]

/-! ## Case 1: the sentinel is at most the reference's maximum -/

section Same

variable {m c}
variable (hle : negBig ≤ Cert.ReferenceIdeal.RefValue.maxTarget (A1 m c) (A3 m c))
include hle

theorem pad_eq : pad m c = Cert.ReferenceIdeal.RefValue.padValue (A1 m c) (A2 m c) (A3 m c) := by
  unfold KVal.pad padOf Cert.ReferenceIdeal.RefValue.padValue Cert.ReferenceIdeal.RefValue.hi Cert.ReferenceIdeal.RefValue.lo
  rw [maxT_eq, max_eq_right hle, maxB_eq]; rfl

theorem Bn_eq (p : Fin 8) (j : Fin 82) : Bn m c p j = Cert.ReferenceIdeal.RefValue.padBin (A1 m c) (A2 m c) (A3 m c) p j := by
  unfold Bn Cert.ReferenceIdeal.RefValue.padBin
  rw [pad_eq hle]; rfl

theorem Tg_eq (p : Fin 8) (K : Fin 76800) : Tg m c p K = Cert.ReferenceIdeal.RefValue.padTarget (A1 m c) (A2 m c) (A3 m c) p K := by
  unfold Tg Cert.ReferenceIdeal.RefValue.padTarget
  rw [pad_eq hle]; rfl

theorem Dp_eq (h : FiniteArgs m c) (p : Fin 8) :
    Dp m c p = Cert.ReferenceIdeal.RefValue.distBins (A1 m c) (A2 m c) (A3 m c) p
      + Cert.ReferenceIdeal.RefValue.distTargets (A1 m c) (A2 m c) (A3 m c) p := by
  unfold Dp Cert.ReferenceIdeal.RefValue.distBins Cert.ReferenceIdeal.RefValue.distTargets
  refine congrArg₂ (· + ·) (Finset.sum_congr rfl fun j _ => ?_) (Finset.sum_congr rfl fun K _ => ?_)
  · refine congrArg (Finset.inf Finset.univ) (funext fun K => ?_)
    rw [← Bn_eq hle, ← Tg_eq hle]; rfl
  · refine congrArg (Finset.inf Finset.univ) (funext fun j => ?_)
    rw [← Bn_eq hle, ← Tg_eq hle]
    obtain ⟨a, ha⟩ := Bn_real h p j
    obtain ⟨b, hb⟩ := Tg_real h p K
    rw [ha, hb]
    exact sq_sub_comm_real a b

theorem same_case (h : FiniteArgs m c) :
    Cert.ReferenceIdeal.RefValue.G (A0 m c) (A1 m c) (A2 m c) (A3 m c) = result m c := by
  rw [G_eq_tail]
  unfold result
  refine congrArg (tailOf (KVal.S0 m c) (KVal.S1 m c) (KVal.S2 m c) (KVal.S3 m c)) ?_
  exact Finset.sum_congr rfl fun p _ => (Dp_eq hle h p).symm

end Same

/-! ## Case 2: the reference's maximum is below the sentinel -/

/-- A nonempty sum of positive reals is a positive real. -/
theorem sum_pos_real {ι : Type*} (s : Finset ι) (hs : s.Nonempty) (f : ι → EReal)
    (h : ∀ i ∈ s, ∃ r : ℝ, 0 < r ∧ f i = (r : EReal)) : ∃ r : ℝ, 0 < r ∧ ∑ i ∈ s, f i = (r : EReal) := by
  induction hs using Finset.Nonempty.cons_induction with
  | singleton a => rw [Finset.sum_singleton]; exact h a (Finset.mem_singleton_self a)
  | cons a s ha hs ih =>
    obtain ⟨x, hx, ex⟩ := h a (Finset.mem_cons_self a s)
    obtain ⟨y, hy, ey⟩ := ih fun i hi => h i (Finset.mem_cons_of_mem hi)
    rw [Finset.sum_cons, ex, ey]
    exact ⟨x + y, add_pos hx hy, (EReal.coe_add x y).symm⟩

section Below

variable {m c}
variable (hlt : Cert.ReferenceIdeal.RefValue.maxTarget (A1 m c) (A3 m c) < negBig)
include hlt

/-- Every element is masked in and every target lies below the sentinel. -/
theorem all_below (p : Fin 8) (K : Fin 76800) : Mk m c p K = 1#1 ∧ T m c p K < negBig := by
  have hb : (⊥ : EReal) < negBig := by
    obtain ⟨r, hr⟩ := negBig_real; rw [hr]; exact EReal.bot_lt_coe r
  have hall := (Finset.sup_lt_iff hb).mp hlt (p, K) (Finset.mem_univ _)
  by_cases hk : Mk m c p K = 1#1
  · refine ⟨hk, ?_⟩
    have : (if Cert.ReferenceIdeal.RefValue.flat (A3 m c) p K = 1 then Cert.ReferenceIdeal.RefValue.flat (A1 m c) p K
        else Cert.ReferenceIdeal.RefValue.negBig) = T m c p K := by
      rw [flat3, flat1]; exact if_pos hk
    rw [← this]; exact hall
  · exfalso
    have : (if Cert.ReferenceIdeal.RefValue.flat (A3 m c) p K = 1 then Cert.ReferenceIdeal.RefValue.flat (A1 m c) p K
        else Cert.ReferenceIdeal.RefValue.negBig) = negBig := by
      rw [flat3]; exact if_neg hk
    rw [this] at hall; exact lt_irrefl _ hall

theorem Wt_one (p : Fin 8) (K : Fin 76800) : Wt m c p K = 1 := by
  rw [Wt_eq, if_pos (all_below hlt p K).1]

theorem dlog_inf (p : Fin 8) (K : Fin 76800) : dlog (P m c p K) (T m c p K) = ⊤ ∨ dlog (P m c p K) (T m c p K) = ⊥ := by
  unfold dlog eps
  rw [Collapse.log_shift_below (all_below hlt p K).2]
  exact Collapse.sub_bot_inf _

theorem S1_top : KVal.S1 m c = ⊤ := by
  unfold KVal.S1
  refine Collapse.sum_top _ Finset.univ_nonempty _ fun p _ => Collapse.sum_top _ Finset.univ_nonempty _ fun K _ => ?_
  rw [Wt_one hlt, mul_one]; exact Collapse.inf_mul_self (dlog_inf hlt p K)

theorem S0_inf : KVal.S0 m c = ⊤ ∨ KVal.S0 m c = ⊥ := by
  unfold KVal.S0
  refine Collapse.sum_inf _ Finset.univ_nonempty _ fun p _ => Collapse.sum_inf _ Finset.univ_nonempty _ fun K _ => ?_
  rw [Wt_one hlt, mul_one]; exact dlog_inf hlt p K

/-- The count of masked-in elements is a positive real: every element is masked in. -/
theorem S3_pos : ∃ n : ℝ, 0 < n ∧ KVal.S3 m c = (n : EReal) := by
  unfold KVal.S3
  refine sum_pos_real _ Finset.univ_nonempty _ fun p _ => sum_pos_real _ Finset.univ_nonempty _ fun K _ => ?_
  exact ⟨1, one_pos, by rw [Wt_one hlt]; simp⟩

theorem below_case : Cert.ReferenceIdeal.RefValue.G (A0 m c) (A1 m c) (A2 m c) (A3 m c) = result m c := by
  obtain ⟨n, hn, hS3⟩ := S3_pos hlt
  rw [G_eq_tail]
  unfold result
  rw [S1_top hlt, hS3, tail_bot (S0_inf hlt) _ _ hn, tail_bot (S0_inf hlt) _ _ hn]

end Below

/-! ## The bridge -/

/-- For finite inputs the reference's function of the kernel's arguments is the kernel program's result. -/
theorem bridge (h : FiniteArgs m c) :
    Cert.ReferenceIdeal.RefValue.G (A0 m c) (A1 m c) (A2 m c) (A3 m c) = result m c := by
  by_cases hle : negBig ≤ Cert.ReferenceIdeal.RefValue.maxTarget (A1 m c) (A3 m c)
  · exact same_case hle h
  · exact below_case (not_le.mp hle)

end Cert.Bridge

end
-- ==== Proof.RefLineBase.lean ====
/-
  The reference's line of 102 host operations is in single-assignment form.

  Every operation of the line writes one buffer and no buffer is written twice: the written buffers, in order, are the
  list below, and the line's operations write exactly these.  On such a line the buffer operation k writes holds, after
  the whole line, that operation's function of its operands' final contents; a reshape is read in the same way; and an
  argument buffer, which no operation writes, holds what it held at launch.
-/
import proofs.«120963_j80418967650486_1_alg».proof.Proof.RefRun
import proofs.«120963_j80418967650486_1_alg».proof.Proof.RefRead
import proofs.«120963_j80418967650486_1_alg».proof.Proof.LibReadOperation

noncomputable section

namespace Cert.ReferenceIdeal.RefLine

open Cert.ReferenceIdeal Cert.ReferenceIdeal.Gen Cert.ReferenceIdeal.ValueP Idealize.ShloMosaic Idealize.ShloMosaic.TcCoe
  Idealize.SL.Sem Idealize.ShloMosaic.StableHlo Cert.Lib.SingleAssignment Cert.Lib.ReadOperation

variable {F : FTy → Type} [FloatOps F]

/-- The buffers the line writes, in order. -/
abbrev ys : List (Ref sig .tc) :=
  [
    main_cst, main_call0_v0, main_call0_v1, main_v0, main_cst_0, main_v1, main_cst_1, main_v2,
    main_v3, main_v4, main_v5, main_v6, main_cst_2, main_v7, main_v8, main_v9,
    main_call1_v0, main_v10, main_v11, main_v12, main_v13, main_v14, main_v15, main_v16,
    main_v17, main_cst_3, main_v18, main_cst_4, main_v19, main_v20, main_v21, main_v22,
    main_v23, main_v24, main_v25, main_cst_5, main_v26, main_cst_6, main_v27, main_v28,
    main_cst_7, main_v29, main_cst_8, main_v30, main_cst_9, main_v31, main_v32, main_v33,
    main_cst_10, main_v34, main_v35, main_v36, main_v37, main_v38, main_cst_11, main_v39,
    main_cst_12, main_call2_v0, main_call2_v1, main_v40, main_cst_13, main_v41, main_v42, main_v43,
    main_v44, main_cst_14, main_v45, main_cst_15, main_call3_v0, main_call3_v1, main_v46, main_cst_16,
    main_v47, main_v48, main_cst_17, main_v49, main_v50, main_v51, main_v52, main_cst_18,
    main_v53, main_v54, main_v55, main_v56, main_cst_19, main_v57, main_cst_20, main_call4_v0,
    main_call4_v1, main_v58, main_cst_21, main_v59, main_v60, main_v61, main_cst_22, main_v62,
    main_cst_23, main_v63, main_v64, main_cst_24, main_v65, main_v66]

set_option maxRecDepth 8192 in
/-- The line writes exactly these buffers, one per operation, in this order. -/
theorem hw : Writes (τ := τ) (ops (F := F)) ys := rfl

/-- A reshape at position `k`: its buffer holds the operand's final contents under the other shape. -/
theorem reshape_at {ops : List (HloOp τ sig (Elt F))} {ys : List (Ref sig .tc)} (hw : Writes ops ys)
    (V : Valuation τ sig (Elt F)) (k : Nat) (x y : Ref sig .tc) {he hn hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [at_position hw V k y hop hy', after_kept hw V x k hx']
  exact reshape_result x y he hn hx hy _

section Arguments
variable (V : Valuation τ sig (Elt F))

/-- The four arguments are written by no operation. -/
theorem eq_main_arg0 : after (ops (F := F)) V (Proc.devRef .tc main_arg0) = V (Proc.devRef .tc main_arg0) :=
  after_never hw V main_arg0 (by decide)
theorem eq_main_arg1 : after (ops (F := F)) V (Proc.devRef .tc main_arg1) = V (Proc.devRef .tc main_arg1) :=
  after_never hw V main_arg1 (by decide)
theorem eq_main_arg2 : after (ops (F := F)) V (Proc.devRef .tc main_arg2) = V (Proc.devRef .tc main_arg2) :=
  after_never hw V main_arg2 (by decide)
theorem eq_main_arg3 : after (ops (F := F)) V (Proc.devRef .tc main_arg3) = V (Proc.devRef .tc main_arg3) :=
  after_never hw V main_arg3 (by decide)

end Arguments

end Cert.ReferenceIdeal.RefLine

end
-- ==== Proof.RefLineTable.lean ====
/-
  The reference's line of host operations as a table: for each of its 102 operations, in order, the buffer it
  writes holds after the whole line that operation's stage function of the arguments' launch contents.  Each row is
  the same three steps: the operation at its position (a constant, or an operation of one, two or three operands, or a
  reshape) gives the buffer as the operation applied to its operands' final contents; the operands' rows, which come
  earlier, give those; and the stage function is by definition the operation applied to the operands' stage functions.
-/
import proofs.«120963_j80418967650486_1_alg».proof.Proof.RefLineBase

noncomputable section

namespace Cert.ReferenceIdeal.RefLine

open Cert.ReferenceIdeal Cert.ReferenceIdeal.Gen Cert.ReferenceIdeal.ValueP Idealize.ShloMosaic Idealize.ShloMosaic.TcCoe
  Idealize.SL.Sem Idealize.ShloMosaic.StableHlo Cert.Lib.SingleAssignment Cert.Lib.ReadOperation

variable {F : FTy → Type} [FloatOps F] (V : Valuation τ sig (Elt F))

theorem eq_main_cst : after (ops (F := F)) V (Proc.devRef .tc main_cst) = ReadP.val_main_cst (F := F) := by
  rw [nullary_at hw V 0 main_cst rfl (by decide)]; rfl
theorem eq_main_call0_v0 : after (ops (F := F)) V (Proc.devRef .tc main_call0_v0) = ReadP.val_main_call0_v0 (F := F) := by
  rw [unary_at hw V 1 main_cst main_call0_v0 rfl (by decide) (by decide), eq_main_cst V]; rfl
theorem eq_main_call0_v1 : after (ops (F := F)) V (Proc.devRef .tc main_call0_v1) = ReadP.val_main_call0_v1 (F := F) := by
  rw [unary_at hw V 2 main_call0_v0 main_call0_v1 rfl (by decide) (by decide), eq_main_call0_v0 V]; rfl
theorem eq_main_v0 : after (ops (F := F)) V (Proc.devRef .tc main_v0) = ReadP.val_main_v0 (F := F) (V (Proc.devRef .tc main_arg1)) (V (Proc.devRef .tc main_arg3)) := by
  rw [ternary_at hw V 3 main_arg3 main_arg1 main_call0_v1 main_v0 rfl (by decide) (by decide) (by decide) (by decide), eq_main_arg3 V, eq_main_arg1 V, eq_main_call0_v1 V]; rfl
theorem eq_main_cst_0 : after (ops (F := F)) V (Proc.devRef .tc main_cst_0) = ReadP.val_main_cst_0 (F := F) := by
  rw [nullary_at hw V 4 main_cst_0 rfl (by decide)]; rfl
theorem eq_main_v1 : after (ops (F := F)) V (Proc.devRef .tc main_v1) = ReadP.val_main_v1 (F := F) (V (Proc.devRef .tc main_arg1)) (V (Proc.devRef .tc main_arg3)) := by
  rw [binary_at hw V 5 main_v0 main_cst_0 main_v1 rfl (by decide) (by decide) (by decide), eq_main_v0 V, eq_main_cst_0 V]; rfl
theorem eq_main_cst_1 : after (ops (F := F)) V (Proc.devRef .tc main_cst_1) = ReadP.val_main_cst_1 (F := F) := by
  rw [nullary_at hw V 6 main_cst_1 rfl (by decide)]; rfl
theorem eq_main_v2 : after (ops (F := F)) V (Proc.devRef .tc main_v2) = ReadP.val_main_v2 (F := F) (V (Proc.devRef .tc main_arg2)) := by
  rw [binary_at hw V 7 main_arg2 main_cst_1 main_v2 rfl (by decide) (by decide) (by decide), eq_main_arg2 V, eq_main_cst_1 V]; rfl
theorem eq_main_v3 : after (ops (F := F)) V (Proc.devRef .tc main_v3) = ReadP.val_main_v3 (F := F) (V (Proc.devRef .tc main_arg1)) (V (Proc.devRef .tc main_arg2)) (V (Proc.devRef .tc main_arg3)) := by
  rw [binary_at hw V 8 main_v1 main_v2 main_v3 rfl (by decide) (by decide) (by decide), eq_main_v1 V, eq_main_v2 V]; rfl
theorem eq_main_v4 : after (ops (F := F)) V (Proc.devRef .tc main_v4) = ReadP.val_main_v4 (F := F) (V (Proc.devRef .tc main_arg1)) (V (Proc.devRef .tc main_arg2)) (V (Proc.devRef .tc main_arg3)) := by
  rw [binary_at hw V 9 main_v1 main_v2 main_v4 rfl (by decide) (by decide) (by decide), eq_main_v1 V, eq_main_v2 V]; rfl
theorem eq_main_v5 : after (ops (F := F)) V (Proc.devRef .tc main_v5) = ReadP.val_main_v5 (F := F) (V (Proc.devRef .tc main_arg1)) (V (Proc.devRef .tc main_arg2)) (V (Proc.devRef .tc main_arg3)) := by
  rw [binary_at hw V 10 main_v3 main_v4 main_v5 rfl (by decide) (by decide) (by decide), eq_main_v3 V, eq_main_v4 V]; rfl
theorem eq_main_v6 : after (ops (F := F)) V (Proc.devRef .tc main_v6) = ReadP.val_main_v6 (F := F) (V (Proc.devRef .tc main_arg1)) (V (Proc.devRef .tc main_arg2)) (V (Proc.devRef .tc main_arg3)) := by
  rw [binary_at hw V 11 main_v3 main_v5 main_v6 rfl (by decide) (by decide) (by decide), eq_main_v3 V, eq_main_v5 V]; rfl
theorem eq_main_cst_2 : after (ops (F := F)) V (Proc.devRef .tc main_cst_2) = ReadP.val_main_cst_2 (F := F) := by
  rw [nullary_at hw V 12 main_cst_2 rfl (by decide)]; rfl
theorem eq_main_v7 : after (ops (F := F)) V (Proc.devRef .tc main_v7) = ReadP.val_main_v7 (F := F) (V (Proc.devRef .tc main_arg1)) (V (Proc.devRef .tc main_arg2)) (V (Proc.devRef .tc main_arg3)) := by
  rw [binary_at hw V 13 main_v6 main_cst_2 main_v7 rfl (by decide) (by decide) (by decide), eq_main_v6 V, eq_main_cst_2 V]; rfl
theorem eq_main_v8 : after (ops (F := F)) V (Proc.devRef .tc main_v8) = ReadP.val_main_v8 (F := F) (V (Proc.devRef .tc main_arg1)) (V (Proc.devRef .tc main_arg2)) (V (Proc.devRef .tc main_arg3)) := by
  rw [unary_at hw V 14 main_v7 main_v8 rfl (by decide) (by decide), eq_main_v7 V]; rfl
theorem eq_main_v9 : after (ops (F := F)) V (Proc.devRef .tc main_v9) = ReadP.val_main_v9 (F := F) (V (Proc.devRef .tc main_arg1)) (V (Proc.devRef .tc main_arg2)) (V (Proc.devRef .tc main_arg3)) := by
  rw [binary_at hw V 15 main_arg2 main_v8 main_v9 rfl (by decide) (by decide) (by decide), eq_main_arg2 V, eq_main_v8 V]; rfl
theorem eq_main_call1_v0 : after (ops (F := F)) V (Proc.devRef .tc main_call1_v0) = ReadP.val_main_call1_v0 (F := F) (V (Proc.devRef .tc main_arg1)) (V (Proc.devRef .tc main_arg2)) (V (Proc.devRef .tc main_arg3)) := by
  rw [unary_at hw V 16 main_v7 main_call1_v0 rfl (by decide) (by decide), eq_main_v7 V]; rfl
theorem eq_main_v10 : after (ops (F := F)) V (Proc.devRef .tc main_v10) = ReadP.val_main_v10 (F := F) (V (Proc.devRef .tc main_arg1)) (V (Proc.devRef .tc main_arg2)) (V (Proc.devRef .tc main_arg3)) := by
  rw [ternary_at hw V 17 main_arg3 main_arg1 main_call1_v0 main_v10 rfl (by decide) (by decide) (by decide) (by decide), eq_main_arg3 V, eq_main_arg1 V, eq_main_call1_v0 V]; rfl
theorem eq_main_v11 : after (ops (F := F)) V (Proc.devRef .tc main_v11) = ReadP.val_main_v11 (F := F) (V (Proc.devRef .tc main_arg1)) (V (Proc.devRef .tc main_arg2)) (V (Proc.devRef .tc main_arg3)) := by
  rw [reshape_at hw V 18 main_v10 main_v11 rfl (by decide) (by decide), eq_main_v10 V]; rfl
theorem eq_main_v12 : after (ops (F := F)) V (Proc.devRef .tc main_v12) = ReadP.val_main_v12 (F := F) (V (Proc.devRef .tc main_arg1)) (V (Proc.devRef .tc main_arg2)) (V (Proc.devRef .tc main_arg3)) := by
  rw [unary_at hw V 19 main_v9 main_v12 rfl (by decide) (by decide), eq_main_v9 V]; rfl
theorem eq_main_v13 : after (ops (F := F)) V (Proc.devRef .tc main_v13) = ReadP.val_main_v13 (F := F) (V (Proc.devRef .tc main_arg1)) (V (Proc.devRef .tc main_arg2)) (V (Proc.devRef .tc main_arg3)) := by
  rw [unary_at hw V 20 main_v11 main_v13 rfl (by decide) (by decide), eq_main_v11 V]; rfl
theorem eq_main_v14 : after (ops (F := F)) V (Proc.devRef .tc main_v14) = ReadP.val_main_v14 (F := F) (V (Proc.devRef .tc main_arg1)) (V (Proc.devRef .tc main_arg2)) (V (Proc.devRef .tc main_arg3)) := by
  rw [unary_at hw V 21 main_v12 main_v14 rfl (by decide) (by decide), eq_main_v12 V]; rfl
theorem eq_main_v15 : after (ops (F := F)) V (Proc.devRef .tc main_v15) = ReadP.val_main_v15 (F := F) (V (Proc.devRef .tc main_arg1)) (V (Proc.devRef .tc main_arg2)) (V (Proc.devRef .tc main_arg3)) := by
  rw [unary_at hw V 22 main_v13 main_v15 rfl (by decide) (by decide), eq_main_v13 V]; rfl
theorem eq_main_v16 : after (ops (F := F)) V (Proc.devRef .tc main_v16) = ReadP.val_main_v16 (F := F) (V (Proc.devRef .tc main_arg1)) (V (Proc.devRef .tc main_arg2)) (V (Proc.devRef .tc main_arg3)) := by
  rw [binary_at hw V 23 main_v14 main_v15 main_v16 rfl (by decide) (by decide) (by decide), eq_main_v14 V, eq_main_v15 V]; rfl
theorem eq_main_v17 : after (ops (F := F)) V (Proc.devRef .tc main_v17) = ReadP.val_main_v17 (F := F) (V (Proc.devRef .tc main_arg1)) (V (Proc.devRef .tc main_arg2)) (V (Proc.devRef .tc main_arg3)) := by
  rw [binary_at hw V 24 main_v16 main_v16 main_v17 rfl (by decide) (by decide) (by decide), eq_main_v16 V]; rfl
theorem eq_main_cst_3 : after (ops (F := F)) V (Proc.devRef .tc main_cst_3) = ReadP.val_main_cst_3 (F := F) := by
  rw [nullary_at hw V 25 main_cst_3 rfl (by decide)]; rfl
theorem eq_main_v18 : after (ops (F := F)) V (Proc.devRef .tc main_v18) = ReadP.val_main_v18 (F := F) (V (Proc.devRef .tc main_arg1)) (V (Proc.devRef .tc main_arg2)) (V (Proc.devRef .tc main_arg3)) := by
  rw [binary_at hw V 26 main_v17 main_cst_3 main_v18 rfl (by decide) (by decide) (by decide), eq_main_v17 V, eq_main_cst_3 V]; rfl
theorem eq_main_cst_4 : after (ops (F := F)) V (Proc.devRef .tc main_cst_4) = ReadP.val_main_cst_4 (F := F) := by
  rw [nullary_at hw V 27 main_cst_4 rfl (by decide)]; rfl
theorem eq_main_v19 : after (ops (F := F)) V (Proc.devRef .tc main_v19) = ReadP.val_main_v19 (F := F) (V (Proc.devRef .tc main_arg1)) (V (Proc.devRef .tc main_arg2)) (V (Proc.devRef .tc main_arg3)) := by
  rw [binary_at hw V 28 main_v18 main_cst_4 main_v19 rfl (by decide) (by decide) (by decide), eq_main_v18 V, eq_main_cst_4 V]; rfl
theorem eq_main_v20 : after (ops (F := F)) V (Proc.devRef .tc main_v20) = ReadP.val_main_v20 (F := F) (V (Proc.devRef .tc main_arg1)) (V (Proc.devRef .tc main_arg2)) (V (Proc.devRef .tc main_arg3)) := by
  rw [unary_at hw V 29 main_v11 main_v20 rfl (by decide) (by decide), eq_main_v11 V]; rfl
theorem eq_main_v21 : after (ops (F := F)) V (Proc.devRef .tc main_v21) = ReadP.val_main_v21 (F := F) (V (Proc.devRef .tc main_arg1)) (V (Proc.devRef .tc main_arg2)) (V (Proc.devRef .tc main_arg3)) := by
  rw [unary_at hw V 30 main_v9 main_v21 rfl (by decide) (by decide), eq_main_v9 V]; rfl
theorem eq_main_v22 : after (ops (F := F)) V (Proc.devRef .tc main_v22) = ReadP.val_main_v22 (F := F) (V (Proc.devRef .tc main_arg1)) (V (Proc.devRef .tc main_arg2)) (V (Proc.devRef .tc main_arg3)) := by
  rw [unary_at hw V 31 main_v20 main_v22 rfl (by decide) (by decide), eq_main_v20 V]; rfl
theorem eq_main_v23 : after (ops (F := F)) V (Proc.devRef .tc main_v23) = ReadP.val_main_v23 (F := F) (V (Proc.devRef .tc main_arg1)) (V (Proc.devRef .tc main_arg2)) (V (Proc.devRef .tc main_arg3)) := by
  rw [unary_at hw V 32 main_v21 main_v23 rfl (by decide) (by decide), eq_main_v21 V]; rfl
theorem eq_main_v24 : after (ops (F := F)) V (Proc.devRef .tc main_v24) = ReadP.val_main_v24 (F := F) (V (Proc.devRef .tc main_arg1)) (V (Proc.devRef .tc main_arg2)) (V (Proc.devRef .tc main_arg3)) := by
  rw [binary_at hw V 33 main_v22 main_v23 main_v24 rfl (by decide) (by decide) (by decide), eq_main_v22 V, eq_main_v23 V]; rfl
theorem eq_main_v25 : after (ops (F := F)) V (Proc.devRef .tc main_v25) = ReadP.val_main_v25 (F := F) (V (Proc.devRef .tc main_arg1)) (V (Proc.devRef .tc main_arg2)) (V (Proc.devRef .tc main_arg3)) := by
  rw [binary_at hw V 34 main_v24 main_v24 main_v25 rfl (by decide) (by decide) (by decide), eq_main_v24 V]; rfl
theorem eq_main_cst_5 : after (ops (F := F)) V (Proc.devRef .tc main_cst_5) = ReadP.val_main_cst_5 (F := F) := by
  rw [nullary_at hw V 35 main_cst_5 rfl (by decide)]; rfl
theorem eq_main_v26 : after (ops (F := F)) V (Proc.devRef .tc main_v26) = ReadP.val_main_v26 (F := F) (V (Proc.devRef .tc main_arg1)) (V (Proc.devRef .tc main_arg2)) (V (Proc.devRef .tc main_arg3)) := by
  rw [binary_at hw V 36 main_v25 main_cst_5 main_v26 rfl (by decide) (by decide) (by decide), eq_main_v25 V, eq_main_cst_5 V]; rfl
theorem eq_main_cst_6 : after (ops (F := F)) V (Proc.devRef .tc main_cst_6) = ReadP.val_main_cst_6 (F := F) := by
  rw [nullary_at hw V 37 main_cst_6 rfl (by decide)]; rfl
theorem eq_main_v27 : after (ops (F := F)) V (Proc.devRef .tc main_v27) = ReadP.val_main_v27 (F := F) (V (Proc.devRef .tc main_arg1)) (V (Proc.devRef .tc main_arg2)) (V (Proc.devRef .tc main_arg3)) := by
  rw [binary_at hw V 38 main_v26 main_cst_6 main_v27 rfl (by decide) (by decide) (by decide), eq_main_v26 V, eq_main_cst_6 V]; rfl
theorem eq_main_v28 : after (ops (F := F)) V (Proc.devRef .tc main_v28) = ReadP.val_main_v28 (F := F) (V (Proc.devRef .tc main_arg1)) (V (Proc.devRef .tc main_arg2)) (V (Proc.devRef .tc main_arg3)) := by
  rw [binary_at hw V 39 main_v19 main_v27 main_v28 rfl (by decide) (by decide) (by decide), eq_main_v19 V, eq_main_v27 V]; rfl
theorem eq_main_cst_7 : after (ops (F := F)) V (Proc.devRef .tc main_cst_7) = ReadP.val_main_cst_7 (F := F) := by
  rw [nullary_at hw V 40 main_cst_7 rfl (by decide)]; rfl
theorem eq_main_v29 : after (ops (F := F)) V (Proc.devRef .tc main_v29) = ReadP.val_main_v29 (F := F) (V (Proc.devRef .tc main_arg1)) (V (Proc.devRef .tc main_arg2)) (V (Proc.devRef .tc main_arg3)) := by
  rw [binary_at hw V 41 main_v28 main_cst_7 main_v29 rfl (by decide) (by decide) (by decide), eq_main_v28 V, eq_main_cst_7 V]; rfl
theorem eq_main_cst_8 : after (ops (F := F)) V (Proc.devRef .tc main_cst_8) = ReadP.val_main_cst_8 (F := F) := by
  rw [nullary_at hw V 42 main_cst_8 rfl (by decide)]; rfl
theorem eq_main_v30 : after (ops (F := F)) V (Proc.devRef .tc main_v30) = ReadP.val_main_v30 (F := F) (V (Proc.devRef .tc main_arg1)) (V (Proc.devRef .tc main_arg2)) (V (Proc.devRef .tc main_arg3)) := by
  rw [binary_at hw V 43 main_v29 main_cst_8 main_v30 rfl (by decide) (by decide) (by decide), eq_main_v29 V, eq_main_cst_8 V]; rfl
theorem eq_main_cst_9 : after (ops (F := F)) V (Proc.devRef .tc main_cst_9) = ReadP.val_main_cst_9 (F := F) := by
  rw [nullary_at hw V 44 main_cst_9 rfl (by decide)]; rfl
theorem eq_main_v31 : after (ops (F := F)) V (Proc.devRef .tc main_v31) = ReadP.val_main_v31 (F := F) := by
  rw [unary_at hw V 45 main_cst_9 main_v31 rfl (by decide) (by decide), eq_main_cst_9 V]; rfl
theorem eq_main_v32 : after (ops (F := F)) V (Proc.devRef .tc main_v32) = ReadP.val_main_v32 (F := F) (V (Proc.devRef .tc main_arg0)) := by
  rw [binary_at hw V 46 main_arg0 main_v31 main_v32 rfl (by decide) (by decide) (by decide), eq_main_arg0 V, eq_main_v31 V]; rfl
theorem eq_main_v33 : after (ops (F := F)) V (Proc.devRef .tc main_v33) = ReadP.val_main_v33 (F := F) (V (Proc.devRef .tc main_arg0)) := by
  rw [unary_at hw V 47 main_v32 main_v33 rfl (by decide) (by decide), eq_main_v32 V]; rfl
theorem eq_main_cst_10 : after (ops (F := F)) V (Proc.devRef .tc main_cst_10) = ReadP.val_main_cst_10 (F := F) := by
  rw [nullary_at hw V 48 main_cst_10 rfl (by decide)]; rfl
theorem eq_main_v34 : after (ops (F := F)) V (Proc.devRef .tc main_v34) = ReadP.val_main_v34 (F := F) := by
  rw [unary_at hw V 49 main_cst_10 main_v34 rfl (by decide) (by decide), eq_main_cst_10 V]; rfl
theorem eq_main_v35 : after (ops (F := F)) V (Proc.devRef .tc main_v35) = ReadP.val_main_v35 (F := F) (V (Proc.devRef .tc main_arg1)) := by
  rw [binary_at hw V 50 main_arg1 main_v34 main_v35 rfl (by decide) (by decide) (by decide), eq_main_arg1 V, eq_main_v34 V]; rfl
theorem eq_main_v36 : after (ops (F := F)) V (Proc.devRef .tc main_v36) = ReadP.val_main_v36 (F := F) (V (Proc.devRef .tc main_arg1)) := by
  rw [unary_at hw V 51 main_v35 main_v36 rfl (by decide) (by decide), eq_main_v35 V]; rfl
theorem eq_main_v37 : after (ops (F := F)) V (Proc.devRef .tc main_v37) = ReadP.val_main_v37 (F := F) (V (Proc.devRef .tc main_arg0)) (V (Proc.devRef .tc main_arg1)) := by
  rw [binary_at hw V 52 main_v33 main_v36 main_v37 rfl (by decide) (by decide) (by decide), eq_main_v33 V, eq_main_v36 V]; rfl
theorem eq_main_v38 : after (ops (F := F)) V (Proc.devRef .tc main_v38) = ReadP.val_main_v38 (F := F) (V (Proc.devRef .tc main_arg3)) := by
  rw [unary_at hw V 53 main_arg3 main_v38 rfl (by decide) (by decide), eq_main_arg3 V]; rfl
theorem eq_main_cst_11 : after (ops (F := F)) V (Proc.devRef .tc main_cst_11) = ReadP.val_main_cst_11 (F := F) := by
  rw [nullary_at hw V 54 main_cst_11 rfl (by decide)]; rfl
theorem eq_main_v39 : after (ops (F := F)) V (Proc.devRef .tc main_v39) = ReadP.val_main_v39 (F := F) (V (Proc.devRef .tc main_arg3)) := by
  rw [binary_at hw V 55 main_v38 main_cst_11 main_v39 rfl (by decide) (by decide) (by decide), eq_main_v38 V, eq_main_cst_11 V]; rfl
theorem eq_main_cst_12 : after (ops (F := F)) V (Proc.devRef .tc main_cst_12) = ReadP.val_main_cst_12 (F := F) := by
  rw [nullary_at hw V 56 main_cst_12 rfl (by decide)]; rfl
theorem eq_main_call2_v0 : after (ops (F := F)) V (Proc.devRef .tc main_call2_v0) = ReadP.val_main_call2_v0 (F := F) := by
  rw [unary_at hw V 57 main_cst_12 main_call2_v0 rfl (by decide) (by decide), eq_main_cst_12 V]; rfl
theorem eq_main_call2_v1 : after (ops (F := F)) V (Proc.devRef .tc main_call2_v1) = ReadP.val_main_call2_v1 (F := F) := by
  rw [unary_at hw V 58 main_call2_v0 main_call2_v1 rfl (by decide) (by decide), eq_main_call2_v0 V]; rfl
theorem eq_main_v40 : after (ops (F := F)) V (Proc.devRef .tc main_v40) = ReadP.val_main_v40 (F := F) (V (Proc.devRef .tc main_arg0)) (V (Proc.devRef .tc main_arg1)) (V (Proc.devRef .tc main_arg3)) := by
  rw [ternary_at hw V 59 main_arg3 main_v37 main_call2_v1 main_v40 rfl (by decide) (by decide) (by decide) (by decide), eq_main_arg3 V, eq_main_v37 V, eq_main_call2_v1 V]; rfl
theorem eq_main_cst_13 : after (ops (F := F)) V (Proc.devRef .tc main_cst_13) = ReadP.val_main_cst_13 (F := F) := by
  rw [nullary_at hw V 60 main_cst_13 rfl (by decide)]; rfl
theorem eq_main_v41 : after (ops (F := F)) V (Proc.devRef .tc main_v41) = ReadP.val_main_v41 (F := F) (V (Proc.devRef .tc main_arg0)) (V (Proc.devRef .tc main_arg1)) (V (Proc.devRef .tc main_arg3)) := by
  rw [binary_at hw V 61 main_v40 main_cst_13 main_v41 rfl (by decide) (by decide) (by decide), eq_main_v40 V, eq_main_cst_13 V]; rfl
theorem eq_main_v42 : after (ops (F := F)) V (Proc.devRef .tc main_v42) = ReadP.val_main_v42 (F := F) (V (Proc.devRef .tc main_arg0)) (V (Proc.devRef .tc main_arg1)) (V (Proc.devRef .tc main_arg3)) := by
  rw [binary_at hw V 62 main_v41 main_v39 main_v42 rfl (by decide) (by decide) (by decide), eq_main_v41 V, eq_main_v39 V]; rfl
theorem eq_main_v43 : after (ops (F := F)) V (Proc.devRef .tc main_v43) = ReadP.val_main_v43 (F := F) (V (Proc.devRef .tc main_arg0)) (V (Proc.devRef .tc main_arg1)) := by
  rw [binary_at hw V 63 main_v37 main_v37 main_v43 rfl (by decide) (by decide) (by decide), eq_main_v37 V]; rfl
theorem eq_main_v44 : after (ops (F := F)) V (Proc.devRef .tc main_v44) = ReadP.val_main_v44 (F := F) (V (Proc.devRef .tc main_arg3)) := by
  rw [unary_at hw V 64 main_arg3 main_v44 rfl (by decide) (by decide), eq_main_arg3 V]; rfl
theorem eq_main_cst_14 : after (ops (F := F)) V (Proc.devRef .tc main_cst_14) = ReadP.val_main_cst_14 (F := F) := by
  rw [nullary_at hw V 65 main_cst_14 rfl (by decide)]; rfl
theorem eq_main_v45 : after (ops (F := F)) V (Proc.devRef .tc main_v45) = ReadP.val_main_v45 (F := F) (V (Proc.devRef .tc main_arg3)) := by
  rw [binary_at hw V 66 main_v44 main_cst_14 main_v45 rfl (by decide) (by decide) (by decide), eq_main_v44 V, eq_main_cst_14 V]; rfl
theorem eq_main_cst_15 : after (ops (F := F)) V (Proc.devRef .tc main_cst_15) = ReadP.val_main_cst_15 (F := F) := by
  rw [nullary_at hw V 67 main_cst_15 rfl (by decide)]; rfl
theorem eq_main_call3_v0 : after (ops (F := F)) V (Proc.devRef .tc main_call3_v0) = ReadP.val_main_call3_v0 (F := F) := by
  rw [unary_at hw V 68 main_cst_15 main_call3_v0 rfl (by decide) (by decide), eq_main_cst_15 V]; rfl
theorem eq_main_call3_v1 : after (ops (F := F)) V (Proc.devRef .tc main_call3_v1) = ReadP.val_main_call3_v1 (F := F) := by
  rw [unary_at hw V 69 main_call3_v0 main_call3_v1 rfl (by decide) (by decide), eq_main_call3_v0 V]; rfl
theorem eq_main_v46 : after (ops (F := F)) V (Proc.devRef .tc main_v46) = ReadP.val_main_v46 (F := F) (V (Proc.devRef .tc main_arg0)) (V (Proc.devRef .tc main_arg1)) (V (Proc.devRef .tc main_arg3)) := by
  rw [ternary_at hw V 70 main_arg3 main_v43 main_call3_v1 main_v46 rfl (by decide) (by decide) (by decide) (by decide), eq_main_arg3 V, eq_main_v43 V, eq_main_call3_v1 V]; rfl
theorem eq_main_cst_16 : after (ops (F := F)) V (Proc.devRef .tc main_cst_16) = ReadP.val_main_cst_16 (F := F) := by
  rw [nullary_at hw V 71 main_cst_16 rfl (by decide)]; rfl
theorem eq_main_v47 : after (ops (F := F)) V (Proc.devRef .tc main_v47) = ReadP.val_main_v47 (F := F) (V (Proc.devRef .tc main_arg0)) (V (Proc.devRef .tc main_arg1)) (V (Proc.devRef .tc main_arg3)) := by
  rw [binary_at hw V 72 main_v46 main_cst_16 main_v47 rfl (by decide) (by decide) (by decide), eq_main_v46 V, eq_main_cst_16 V]; rfl
theorem eq_main_v48 : after (ops (F := F)) V (Proc.devRef .tc main_v48) = ReadP.val_main_v48 (F := F) (V (Proc.devRef .tc main_arg0)) (V (Proc.devRef .tc main_arg1)) (V (Proc.devRef .tc main_arg3)) := by
  rw [binary_at hw V 73 main_v47 main_v45 main_v48 rfl (by decide) (by decide) (by decide), eq_main_v47 V, eq_main_v45 V]; rfl
theorem eq_main_cst_17 : after (ops (F := F)) V (Proc.devRef .tc main_cst_17) = ReadP.val_main_cst_17 (F := F) := by
  rw [nullary_at hw V 74 main_cst_17 rfl (by decide)]; rfl
theorem eq_main_v49 : after (ops (F := F)) V (Proc.devRef .tc main_v49) = ReadP.val_main_v49 (F := F) (V (Proc.devRef .tc main_arg0)) (V (Proc.devRef .tc main_arg1)) (V (Proc.devRef .tc main_arg3)) := by
  rw [binary_at hw V 75 main_cst_17 main_v42 main_v49 rfl (by decide) (by decide) (by decide), eq_main_cst_17 V, eq_main_v42 V]; rfl
theorem eq_main_v50 : after (ops (F := F)) V (Proc.devRef .tc main_v50) = ReadP.val_main_v50 (F := F) (V (Proc.devRef .tc main_arg0)) (V (Proc.devRef .tc main_arg1)) (V (Proc.devRef .tc main_arg3)) := by
  rw [binary_at hw V 76 main_v49 main_v42 main_v50 rfl (by decide) (by decide) (by decide), eq_main_v49 V, eq_main_v42 V]; rfl
theorem eq_main_v51 : after (ops (F := F)) V (Proc.devRef .tc main_v51) = ReadP.val_main_v51 (F := F) (V (Proc.devRef .tc main_arg0)) (V (Proc.devRef .tc main_arg1)) (V (Proc.devRef .tc main_arg3)) := by
  rw [binary_at hw V 77 main_v48 main_v50 main_v51 rfl (by decide) (by decide) (by decide), eq_main_v48 V, eq_main_v50 V]; rfl
theorem eq_main_v52 : after (ops (F := F)) V (Proc.devRef .tc main_v52) = ReadP.val_main_v52 (F := F) (V (Proc.devRef .tc main_arg0)) (V (Proc.devRef .tc main_arg1)) (V (Proc.devRef .tc main_arg3)) := by
  rw [unary_at hw V 78 main_v51 main_v52 rfl (by decide) (by decide), eq_main_v51 V]; rfl
theorem eq_main_cst_18 : after (ops (F := F)) V (Proc.devRef .tc main_cst_18) = ReadP.val_main_cst_18 (F := F) := by
  rw [nullary_at hw V 79 main_cst_18 rfl (by decide)]; rfl
theorem eq_main_v53 : after (ops (F := F)) V (Proc.devRef .tc main_v53) = ReadP.val_main_v53 (F := F) (V (Proc.devRef .tc main_arg0)) (V (Proc.devRef .tc main_arg1)) (V (Proc.devRef .tc main_arg3)) := by
  rw [binary_at hw V 80 main_cst_18 main_v52 main_v53 rfl (by decide) (by decide) (by decide), eq_main_cst_18 V, eq_main_v52 V]; rfl
theorem eq_main_v54 : after (ops (F := F)) V (Proc.devRef .tc main_v54) = ReadP.val_main_v54 (F := F) (V (Proc.devRef .tc main_arg0)) (V (Proc.devRef .tc main_arg1)) := by
  rw [binary_at hw V 81 main_arg0 main_arg1 main_v54 rfl (by decide) (by decide) (by decide), eq_main_arg0 V, eq_main_arg1 V]; rfl
theorem eq_main_v55 : after (ops (F := F)) V (Proc.devRef .tc main_v55) = ReadP.val_main_v55 (F := F) (V (Proc.devRef .tc main_arg0)) (V (Proc.devRef .tc main_arg1)) := by
  rw [binary_at hw V 82 main_v54 main_v54 main_v55 rfl (by decide) (by decide) (by decide), eq_main_v54 V]; rfl
theorem eq_main_v56 : after (ops (F := F)) V (Proc.devRef .tc main_v56) = ReadP.val_main_v56 (F := F) (V (Proc.devRef .tc main_arg3)) := by
  rw [unary_at hw V 83 main_arg3 main_v56 rfl (by decide) (by decide), eq_main_arg3 V]; rfl
theorem eq_main_cst_19 : after (ops (F := F)) V (Proc.devRef .tc main_cst_19) = ReadP.val_main_cst_19 (F := F) := by
  rw [nullary_at hw V 84 main_cst_19 rfl (by decide)]; rfl
theorem eq_main_v57 : after (ops (F := F)) V (Proc.devRef .tc main_v57) = ReadP.val_main_v57 (F := F) (V (Proc.devRef .tc main_arg3)) := by
  rw [binary_at hw V 85 main_v56 main_cst_19 main_v57 rfl (by decide) (by decide) (by decide), eq_main_v56 V, eq_main_cst_19 V]; rfl
theorem eq_main_cst_20 : after (ops (F := F)) V (Proc.devRef .tc main_cst_20) = ReadP.val_main_cst_20 (F := F) := by
  rw [nullary_at hw V 86 main_cst_20 rfl (by decide)]; rfl
theorem eq_main_call4_v0 : after (ops (F := F)) V (Proc.devRef .tc main_call4_v0) = ReadP.val_main_call4_v0 (F := F) := by
  rw [unary_at hw V 87 main_cst_20 main_call4_v0 rfl (by decide) (by decide), eq_main_cst_20 V]; rfl
theorem eq_main_call4_v1 : after (ops (F := F)) V (Proc.devRef .tc main_call4_v1) = ReadP.val_main_call4_v1 (F := F) := by
  rw [unary_at hw V 88 main_call4_v0 main_call4_v1 rfl (by decide) (by decide), eq_main_call4_v0 V]; rfl
theorem eq_main_v58 : after (ops (F := F)) V (Proc.devRef .tc main_v58) = ReadP.val_main_v58 (F := F) (V (Proc.devRef .tc main_arg0)) (V (Proc.devRef .tc main_arg1)) (V (Proc.devRef .tc main_arg3)) := by
  rw [ternary_at hw V 89 main_arg3 main_v55 main_call4_v1 main_v58 rfl (by decide) (by decide) (by decide) (by decide), eq_main_arg3 V, eq_main_v55 V, eq_main_call4_v1 V]; rfl
theorem eq_main_cst_21 : after (ops (F := F)) V (Proc.devRef .tc main_cst_21) = ReadP.val_main_cst_21 (F := F) := by
  rw [nullary_at hw V 90 main_cst_21 rfl (by decide)]; rfl
theorem eq_main_v59 : after (ops (F := F)) V (Proc.devRef .tc main_v59) = ReadP.val_main_v59 (F := F) (V (Proc.devRef .tc main_arg0)) (V (Proc.devRef .tc main_arg1)) (V (Proc.devRef .tc main_arg3)) := by
  rw [binary_at hw V 91 main_v58 main_cst_21 main_v59 rfl (by decide) (by decide) (by decide), eq_main_v58 V, eq_main_cst_21 V]; rfl
theorem eq_main_v60 : after (ops (F := F)) V (Proc.devRef .tc main_v60) = ReadP.val_main_v60 (F := F) (V (Proc.devRef .tc main_arg0)) (V (Proc.devRef .tc main_arg1)) (V (Proc.devRef .tc main_arg3)) := by
  rw [binary_at hw V 92 main_v59 main_v57 main_v60 rfl (by decide) (by decide) (by decide), eq_main_v59 V, eq_main_v57 V]; rfl
theorem eq_main_v61 : after (ops (F := F)) V (Proc.devRef .tc main_v61) = ReadP.val_main_v61 (F := F) (V (Proc.devRef .tc main_arg0)) (V (Proc.devRef .tc main_arg1)) (V (Proc.devRef .tc main_arg3)) := by
  rw [unary_at hw V 93 main_v60 main_v61 rfl (by decide) (by decide), eq_main_v60 V]; rfl
theorem eq_main_cst_22 : after (ops (F := F)) V (Proc.devRef .tc main_cst_22) = ReadP.val_main_cst_22 (F := F) := by
  rw [nullary_at hw V 94 main_cst_22 rfl (by decide)]; rfl
theorem eq_main_v62 : after (ops (F := F)) V (Proc.devRef .tc main_v62) = ReadP.val_main_v62 (F := F) (V (Proc.devRef .tc main_arg0)) (V (Proc.devRef .tc main_arg1)) (V (Proc.devRef .tc main_arg3)) := by
  rw [binary_at hw V 95 main_cst_22 main_v61 main_v62 rfl (by decide) (by decide) (by decide), eq_main_cst_22 V, eq_main_v61 V]; rfl
theorem eq_main_cst_23 : after (ops (F := F)) V (Proc.devRef .tc main_cst_23) = ReadP.val_main_cst_23 (F := F) := by
  rw [nullary_at hw V 96 main_cst_23 rfl (by decide)]; rfl
theorem eq_main_v63 : after (ops (F := F)) V (Proc.devRef .tc main_v63) = ReadP.val_main_v63 (F := F) (V (Proc.devRef .tc main_arg0)) (V (Proc.devRef .tc main_arg1)) (V (Proc.devRef .tc main_arg3)) := by
  rw [binary_at hw V 97 main_cst_23 main_v53 main_v63 rfl (by decide) (by decide) (by decide), eq_main_cst_23 V, eq_main_v53 V]; rfl
theorem eq_main_v64 : after (ops (F := F)) V (Proc.devRef .tc main_v64) = ReadP.val_main_v64 (F := F) (V (Proc.devRef .tc main_arg0)) (V (Proc.devRef .tc main_arg1)) (V (Proc.devRef .tc main_arg3)) := by
  rw [binary_at hw V 98 main_v62 main_v63 main_v64 rfl (by decide) (by decide) (by decide), eq_main_v62 V, eq_main_v63 V]; rfl
theorem eq_main_cst_24 : after (ops (F := F)) V (Proc.devRef .tc main_cst_24) = ReadP.val_main_cst_24 (F := F) := by
  rw [nullary_at hw V 99 main_cst_24 rfl (by decide)]; rfl
theorem eq_main_v65 : after (ops (F := F)) V (Proc.devRef .tc main_v65) = ReadP.val_main_v65 (F := F) (V (Proc.devRef .tc main_arg1)) (V (Proc.devRef .tc main_arg2)) (V (Proc.devRef .tc main_arg3)) := by
  rw [binary_at hw V 100 main_cst_24 main_v30 main_v65 rfl (by decide) (by decide) (by decide), eq_main_cst_24 V, eq_main_v30 V]; rfl
theorem eq_main_v66 : after (ops (F := F)) V (Proc.devRef .tc main_v66) = ReadP.val_main_v66 (F := F) (V (Proc.devRef .tc main_arg0)) (V (Proc.devRef .tc main_arg1)) (V (Proc.devRef .tc main_arg2)) (V (Proc.devRef .tc main_arg3)) := by
  rw [binary_at hw V 101 main_v64 main_v65 main_v66 rfl (by decide) (by decide) (by decide), eq_main_v64 V, eq_main_v65 V]; rfl

end Cert.ReferenceIdeal.RefLine

end
-- ==== Proof.RefLine.lean ====
/-
  The reference's run ends at its last stage function.

  The result buffer is the one the line's last operation writes; its row of the table says that after the whole
  line it holds the last stage function of the four arguments' launch contents, and the run's result is by definition
  the result buffer's contents after the line.
-/
import proofs.«120963_j80418967650486_1_alg».proof.Proof.RefLineTable

noncomputable section

namespace Cert.ReferenceIdeal.RefLine

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

/-- The run's result is the last stage function of the four arguments' launch contents. -/
theorem res_is_val (m : (ℓ : Loc nD τ sig) → Buf (Elt F) ℓ) (c : Dev nD) :
    ValueP.res_out0 (F := F) m c
      = ReadP.val_main_v66 (F := F) (m ((c.tc : Thread nD τ).loc main_arg0)) (m ((c.tc : Thread nD τ).loc main_arg1))
          (m ((c.tc : Thread nD τ).loc main_arg2)) (m ((c.tc : Thread nD τ).loc main_arg3)) := by
  show after (ops (F := F)) (launchContents m c) (Proc.devRef .tc main_v66) = _
  rw [eq_main_v66]

end Cert.ReferenceIdeal.RefLine

end
-- ==== Proof.RefMeans.lean ====
/-
  The reference's masked means, read at the extended reals.

  A sum over the index set of an image array [8, 1, 240, 320] is the double sum, over the row and the flat position,
  of the array read through its row-major reshape to [8, 76800]: the reshape is a bijection of the two index sets and
  an index of [8, 76800] is the pair of its coordinates.  The same holds for a supremum.  With that, the count of
  masked-in positions, the three masked sums (of the logarithms' difference, of its square, of the squared
  difference of prediction and target) and the two terms built from them are the pieces of the specification.
-/
import proofs.«120963_j80418967650486_1_alg».proof.Proof.RefRead
import proofs.«120963_j80418967650486_1_alg».proof.Proof.RefSpec

noncomputable section

open scoped BigOperators

namespace Cert.ReferenceIdeal.RefValue

open Cert.ReferenceIdeal Cert.ReferenceIdeal.Gen Cert.ReferenceIdeal.ReadP Idealize.ShloMosaic Idealize.ShloMosaic.ValueIdx

/-- A sum over an image array's index set is the double sum over (row, flat position) of its reshape. -/
theorem sum_img {M : Type} [AddCommMonoid M] (f : SImg.Idx → M) :
    ∑ j, f j = ∑ p : Fin 8, ∑ K : Fin 76800, flat f p K :=
  (Equiv.sum_comp (Shape.reshapeEquiv casts_img_flat) f).symm.trans (sum_idx2 _)

/-- A supremum over an image array's index set is the supremum over (row, flat position) of its reshape. -/
theorem sup_img (f : SImg.Idx → EReal) :
    Finset.univ.sup f = Finset.univ.sup fun q : Fin 8 × Fin 76800 => flat f q.1 q.2 := by
  let e : Fin 8 × Fin 76800 ≃ SImg.Idx := (idxEquiv2 (n0 := 8) (n1 := 76800)).symm.trans (Shape.reshapeEquiv casts_img_flat)
  calc Finset.univ.sup f = ((Finset.univ : Finset (Fin 8 × Fin 76800)).map e.toEmbedding).sup f := by
        rw [Finset.map_univ_equiv]
    _ = Finset.univ.sup (f ∘ e) := Finset.sup_map _ _ _
    _ = _ := rfl

/-- The zero word is zero. -/
theorem zero_word : (FloatOps.ofBits .f32 0x00000000#32 : Ideal .f32) = (0 : EReal) := Ideal.ofBits_zero_f32

section
variable (x0 x1 : Vec Ideal SImg .f32) (x3 : IVec SImg 1)

/-- The count of masked-in positions. -/
theorem count_eq (y : (⟨S8x1x240x320, .f32⟩ : BufTy).Contents (Elt Ideal))
    (hy : ∀ j, y j = FloatOps.uitofp (F := Ideal) .f32 (x3 j)) :
    (FloatOps.ofBits .f32 0x00000000#32 : Ideal .f32) + ∑ j : S8x1x240x320.Idx, y j = count x3 := by
  rw [zero_word, zero_add, sum_img]
  refine Finset.sum_congr rfl fun p _ => Finset.sum_congr rfl fun K _ => ?_
  exact hy _

theorem v39_eq (i : S_.Idx) : val_main_v39 (F := Ideal) x3 i = count x3 := by
  rw [val_main_v39_apply, val_main_cst_11_apply]; exact count_eq x3 _ fun j => val_main_v38_apply x3 j
theorem v45_eq (i : S_.Idx) : val_main_v45 (F := Ideal) x3 i = count x3 := by
  rw [val_main_v45_apply, val_main_cst_14_apply]; exact count_eq x3 _ fun j => val_main_v44_apply x3 j
theorem v57_eq (i : S_.Idx) : val_main_v57 (F := Ideal) x3 i = count x3 := by
  rw [val_main_v57_apply, val_main_cst_19_apply]; exact count_eq x3 _ fun j => val_main_v56_apply x3 j

/-- A masked sum: the selected entries where the mask is set, the zero word elsewhere. -/
theorem masked_sum (h z y : (⟨S8x1x240x320, .f32⟩ : BufTy).Contents (Elt Ideal)) (hz : ∀ j, z j = (0 : EReal))
    (hy : ∀ j, y j = Scalar.select (x3 j) (h j) (z j)) :
    (FloatOps.ofBits .f32 0x00000000#32 : Ideal .f32) + ∑ j : S8x1x240x320.Idx, y j
      = ∑ p : Fin 8, ∑ K : Fin 76800, if flat x3 p K = 1 then flat h p K else 0 := by
  rw [zero_word, zero_add, sum_img]
  refine Finset.sum_congr rfl fun p _ => Finset.sum_congr rfl fun K _ => ?_
  show y _ = _
  rw [hy, hz]; rfl

theorem call2_v1_zero (j : S8x1x240x320.Idx) : val_main_call2_v1 (F := Ideal) j = (0 : EReal) := by
  rw [val_main_call2_v1_apply, val_main_call2_v0_apply, val_main_cst_12_apply]; exact zero_word
theorem call3_v1_zero (j : S8x1x240x320.Idx) : val_main_call3_v1 (F := Ideal) j = (0 : EReal) := by
  rw [val_main_call3_v1_apply, val_main_call3_v0_apply, val_main_cst_15_apply]; exact zero_word
theorem call4_v1_zero (j : S8x1x240x320.Idx) : val_main_call4_v1 (F := Ideal) j = (0 : EReal) := by
  rw [val_main_call4_v1_apply, val_main_call4_v0_apply, val_main_cst_20_apply]; exact zero_word

/-- The difference of the logarithms at an index of the image. -/
theorem v37_eq (j : S8x1x240x320.Idx) :
    val_main_v37 (F := Ideal) x0 x1 j = Ideal.log (x0 j + eps) - Ideal.log (x1 j + eps) := by
  rw [val_main_v37_apply, val_main_v33_apply, val_main_v36_apply, val_main_v32_apply, val_main_v35_apply,
    val_main_v31_apply, val_main_v34_apply, val_main_cst_9_apply, val_main_cst_10_apply]
  rfl

theorem v41_eq (i : S_.Idx) : val_main_v41 (F := Ideal) x0 x1 x3 i
    = ∑ p : Fin 8, ∑ K : Fin 76800, if flat x3 p K = 1 then logDiff x0 x1 p K else 0 := by
  rw [val_main_v41_apply, val_main_cst_13_apply,
    masked_sum x3 (val_main_v37 (F := Ideal) x0 x1) _ _ call2_v1_zero (val_main_v40_apply x0 x1 x3)]
  refine Finset.sum_congr rfl fun p _ => Finset.sum_congr rfl fun K _ => ?_
  show (if _ then val_main_v37 (F := Ideal) x0 x1 _ else _) = _
  rw [v37_eq]; rfl

theorem v47_eq (i : S_.Idx) : val_main_v47 (F := Ideal) x0 x1 x3 i
    = ∑ p : Fin 8, ∑ K : Fin 76800, if flat x3 p K = 1 then logDiff x0 x1 p K * logDiff x0 x1 p K else 0 := by
  rw [val_main_v47_apply, val_main_cst_16_apply,
    masked_sum x3 (val_main_v43 (F := Ideal) x0 x1) _ _ call3_v1_zero (val_main_v46_apply x0 x1 x3)]
  refine Finset.sum_congr rfl fun p _ => Finset.sum_congr rfl fun K _ => ?_
  show (if _ then val_main_v43 (F := Ideal) x0 x1 _ else _) = _
  rw [val_main_v43_apply, v37_eq]; rfl

theorem v59_eq (i : S_.Idx) : val_main_v59 (F := Ideal) x0 x1 x3 i
    = ∑ p : Fin 8, ∑ K : Fin 76800,
        if flat x3 p K = 1 then (flat x0 p K - flat x1 p K) * (flat x0 p K - flat x1 p K) else 0 := by
  rw [val_main_v59_apply, val_main_cst_21_apply,
    masked_sum x3 (val_main_v55 (F := Ideal) x0 x1) _ _ call4_v1_zero (val_main_v58_apply x0 x1 x3)]
  refine Finset.sum_congr rfl fun p _ => Finset.sum_congr rfl fun K _ => ?_
  show (if _ then val_main_v55 (F := Ideal) x0 x1 _ else _) = _
  rw [val_main_v55_apply, val_main_v54_apply]; rfl

/-- The term 1 · l2. -/
theorem v62_eq (i : S_.Idx) : val_main_v62 (F := Ideal) x0 x1 x3 i = one * l2 x0 x1 x3 := by
  rw [val_main_v62_apply, val_main_cst_22_apply, val_main_v61_apply, val_main_v60_apply, v59_eq, v57_eq]
  simp only [Ideal.mulf_def, Ideal.hostUnary_sqrt_def, Ideal.hostDivf_def, Ideal.ofBits_def, l2, one]

/-- The term 1 · silog. -/
theorem v63_eq (i : S_.Idx) : val_main_v63 (F := Ideal) x0 x1 x3 i = one * silog x0 x1 x3 := by
  rw [val_main_v63_apply, val_main_cst_23_apply, val_main_v53_apply, val_main_cst_18_apply, val_main_v52_apply,
    val_main_v51_apply, val_main_v48_apply, val_main_v50_apply, val_main_v49_apply, val_main_cst_17_apply,
    val_main_v42_apply, v47_eq, v45_eq, v41_eq, v39_eq]
  simp only [Ideal.mulf_def, Ideal.subf_def, Ideal.hostUnary_sqrt_def, Ideal.hostDivf_def, Ideal.ofBits_def, silog, m1, m2, one]

/-- The two terms' sum. -/
theorem v64_eq (i : S_.Idx) :
    val_main_v64 (F := Ideal) x0 x1 x3 i = one * l2 x0 x1 x3 + one * silog x0 x1 x3 := by
  rw [val_main_v64_apply, v62_eq, v63_eq]; rfl

end

end Cert.ReferenceIdeal.RefValue

end
-- ==== Proof.RefChamfer.lean ====
/-
  The reference's chamfer term, read at the extended reals.

  A reduction by max over every axis, started at the word of -infinity, is the supremum of the operand; a reduction by
  min over the last axis of a rank-3 array, started at the word of +infinity, is at (p, j) the infimum over the last
  coordinate.  With those, the two maxima, the padding value, the padded bins (a two-piece concatenation read on each
  side of position 81), the padded targets (the reshape of the masked selection), the two families of squared
  differences and their least values, the rows' sums and the mean over the eight rows are the specification's pieces.
-/
import proofs.«120963_j80418967650486_1_alg».proof.Proof.RefMeans
import proofs.«120963_j80418967650486_1_alg».proof.Proof.LibMaxReduce
import proofs.«120963_j80418967650486_1_alg».proof.Proof.LibMinReduce

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ### General readings -/

/-- A host reduction by `maximumf` over every axis, started at `⊥`, is the supremum of the operand's entries. -/
theorem hostReduce_maximumf_total {s t u : Shape} {axes : List (Fin s.rank)} {φ : FTy} (x : FVec Ideal s φ)
    (init : FVec Ideal u φ) (h : s.ReducesTo axes t) (ht : ∀ b, t.size b = 1) (hu : 0 < u.numel)
    (hinit : init (Shape.Idx.first hu) = ⊥) (j : t.Idx) :
    Host.reduce FloatOps.maximumf x init h hu j = Finset.univ.sup x := by
  rw [Host.reduce_eq_fold FloatOps.maximumf x init h hu j, hinit,
    Finset.filter_true_of_mem fun i _ => funext fun b => Fin.ext (by
      have := (h.drop i b).isLt; have := (j b).isLt; have := ht b; omega),
    Cert.LibMaxReduce.fold_maximumf_bot_eq_sup]

/-- A host reduction by `minimumf` over ONE axis, started at `⊤`, is at each result index the infimum over that
    axis's coordinates. -/
theorem hostReduce_minimumf_single {s t u : Shape} {a : Fin s.rank} (x : FVec Ideal s .f32)
    (init : FVec Ideal u .f32) (h' : s.ReducesTo [a] t) (h : s.Reduces [a] t) (hu : 0 < u.numel)
    (hinit : init (Shape.Idx.first hu) = (⊤ : EReal)) (j : t.Idx) :
    Host.reduce FloatOps.minimumf x init h' hu j
      = (Finset.univ : Finset (Fin (s.size a))).inf fun k => x (h.lift j k) := by
  rw [Host.reduce_eq_fold_single FloatOps.minimumf x init h' h hu j, hinit]
  exact Cert.LibMinReduce.fold_min_top _ _

/-- A supremum over a rank-2 index set is the supremum over the pairs of coordinates. -/
theorem sup_pairs {n0 n1 : Nat} (f : (⟨2, ![n0, n1]⟩ : Shape).Idx → EReal) :
    Finset.univ.sup f = Finset.univ.sup fun q : Fin n0 × Fin n1 => f (ix2 q.1 q.2) := by
  let e : Fin n0 × Fin n1 ≃ (⟨2, ![n0, n1]⟩ : Shape).Idx := (idxEquiv2 (n0 := n0) (n1 := n1)).symm
  calc Finset.univ.sup f = ((Finset.univ : Finset (Fin n0 × Fin n1)).map e.toEmbedding).sup f := by
        rw [Finset.map_univ_equiv]
    _ = Finset.univ.sup (f ∘ e) := Finset.sup_map _ _ _
    _ = _ := rfl

/-- A sum over a rank-1 index set is the sum over its coordinate. -/
theorem sum_idx1 {M : Type} [AddCommMonoid M] {n : Nat} (f : (⟨1, ![n]⟩ : Shape).Idx → M) :
    ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- The index a reduction over the last axis of a rank-3 array puts back over (p, j), at coordinate k, is (p, j, k). -/
theorem lift_lastAxis3 {a b c : ℕ} (h : (⟨3, ![a, b, c]⟩ : Shape).Reduces [2] (⟨2, ![a, b]⟩ : Shape)) (p : Fin a)
    (j : Fin b) (k : Fin ((⟨3, ![a, b, c]⟩ : Shape).size 2)) :
    h.lift (ix2 p j) k = ix3 p j (⟨k.val, k.isLt⟩ : Fin c) := by
  funext d; apply Fin.ext
  fin_cases d <;> rfl

/-! ### The stages -/

section
variable (x1 : Vec Ideal SImg .f32) (x2 : Vec Ideal SBins .f32) (x3 : IVec SImg 1)

theorem v1_eq (i : S_.Idx) : val_main_v1 (F := Ideal) x1 x3 i = maxTarget x1 x3 := by
  unfold val_main_v1
  rw [hostReduce_maximumf_total (val_main_v0 (F := Ideal) x1 x3) (val_main_cst_0 (F := Ideal))
      reducesTo_S8x1x240x320_S_d0_1_2_3 (fun b => b.elim0) h_S_
      (by rw [val_main_cst_0_apply]; exact Cert.LibMaxReduce.ofBits_neg_inf_f32) i, sup_img]
  unfold maxTarget
  refine Finset.sup_congr rfl fun q _ => ?_
  show val_main_v0 (F := Ideal) x1 x3 _ = _
  rw [val_main_v0_apply, val_main_call0_v1_apply, val_main_call0_v0_apply, val_main_cst_apply]; rfl

theorem v2_eq (i : S_.Idx) : val_main_v2 (F := Ideal) x2 i = maxCenter x2 := by
  unfold val_main_v2
  rw [hostReduce_maximumf_total x2 (val_main_cst_1 (F := Ideal)) reducesTo_S8x81_S_d0_1 (fun b => b.elim0) h_S_
      (by rw [val_main_cst_1_apply]; exact Cert.LibMaxReduce.ofBits_neg_inf_f32) i, sup_pairs]
  rfl

theorem v7_eq (i : S_.Idx) : val_main_v7 (F := Ideal) x1 x2 x3 i = padValue x1 x2 x3 := by
  rw [val_main_v7_apply, val_main_v6_apply, val_main_v5_apply, val_main_v3_apply, val_main_v4_apply,
    val_main_cst_2_apply, v1_eq, v2_eq]
  simp only [Ideal.addf_def, Ideal.subf_def, Ideal.maximumf_def, Ideal.minimumf_def, Ideal.ofBits_def, padValue, hi, lo, one]

theorem v9_eq (p : Fin 8) (j : Fin 82) : val_main_v9 (F := Ideal) x1 x2 x3 (ix2 p j) = padBin x1 x2 x3 p j := by
  unfold val_main_v9 padBin
  split
  · next h =>
    exact concatenate_pair_apply_left (1 : Fin 2) x2 (val_main_v8 (F := Ideal) x1 x2 x3)
      concatenates_S8x81_S8x1_S8x82_d1 (ix2 p j) rfl (ix2 p ⟨j.val, h⟩)
      (fun b => by match b with | ⟨0, _⟩ => rfl | ⟨1, _⟩ => rfl)
  · next h =>
    rw [concatenate_pair_apply_right (1 : Fin 2) x2 (val_main_v8 (F := Ideal) x1 x2 x3)
      concatenates_S8x81_S8x1_S8x82_d1 (ix2 p j) rfl rfl (ix2 p (0 : Fin 1))
      (fun b hb => by match b with | ⟨0, _⟩ => rfl | ⟨1, _⟩ => exact absurd rfl hb)
      (by show (0 : Nat) + 81 = j.val; have := j.isLt; omega),
      val_main_v8_apply, v7_eq]

theorem v11_eq (p : Fin 8) (K : Fin 76800) :
    val_main_v11 (F := Ideal) x1 x2 x3 (ix2 p K) = padTarget x1 x2 x3 p K := by
  show val_main_v10 (F := Ideal) x1 x2 x3 (Shape.reshapeEquiv casts_img_flat (ix2 p K)) = _
  rw [val_main_v10_apply, val_main_call1_v0_apply, v7_eq]; rfl

/-- The squared difference of a padded bin and a padded target, bins first. -/
theorem v17_eq (p : Fin 8) (j : Fin 82) (K : Fin 76800) :
    val_main_v17 (F := Ideal) x1 x2 x3 (ix3 p j K)
      = (padBin x1 x2 x3 p j - padTarget x1 x2 x3 p K) * (padBin x1 x2 x3 p j - padTarget x1 x2 x3 p K) := by
  have e1 : idx_main_v12 (idx_main_v14 (ix3 p j K)) = ix2 p j :=
    funext fun a => Fin.ext (by match a with | ⟨0, _⟩ => rfl | ⟨1, _⟩ => rfl)
  have e2 : idx_main_v13 (idx_main_v15 (ix3 p j K)) = ix2 p K :=
    funext fun a => Fin.ext (by match a with | ⟨0, _⟩ => rfl | ⟨1, _⟩ => rfl)
  rw [val_main_v17_apply, val_main_v16_apply, val_main_v14_apply, val_main_v15_apply, val_main_v12_apply,
    val_main_v13_apply, e1, e2, v9_eq, v11_eq]
  rfl

/-- The squared difference of a padded target and a padded bin, targets first. -/
theorem v25_eq (p : Fin 8) (K : Fin 76800) (j : Fin 82) :
    val_main_v25 (F := Ideal) x1 x2 x3 (ix3 p K j)
      = (padTarget x1 x2 x3 p K - padBin x1 x2 x3 p j) * (padTarget x1 x2 x3 p K - padBin x1 x2 x3 p j) := by
  have e1 : idx_main_v20 (idx_main_v22 (ix3 p K j)) = ix2 p K :=
    funext fun a => Fin.ext (by match a with | ⟨0, _⟩ => rfl | ⟨1, _⟩ => rfl)
  have e2 : idx_main_v21 (idx_main_v23 (ix3 p K j)) = ix2 p j :=
    funext fun a => Fin.ext (by match a with | ⟨0, _⟩ => rfl | ⟨1, _⟩ => rfl)
  rw [val_main_v25_apply, val_main_v24_apply, val_main_v22_apply, val_main_v23_apply, val_main_v20_apply,
    val_main_v21_apply, e1, e2, v9_eq, v11_eq]
  rfl

theorem v18_eq (p : Fin 8) (j : Fin 82) :
    val_main_v18 (F := Ideal) x1 x2 x3 (ix2 p j)
      = Finset.univ.inf fun K : Fin 76800 =>
          (padBin x1 x2 x3 p j - padTarget x1 x2 x3 p K) * (padBin x1 x2 x3 p j - padTarget x1 x2 x3 p K) := by
  unfold val_main_v18
  rw [hostReduce_minimumf_single (val_main_v17 (F := Ideal) x1 x2 x3) (val_main_cst_3 (F := Ideal))
      reducesTo_S8x82x76800_S8x82_d2 (by decide) h_S_
      (by rw [val_main_cst_3_apply]; exact Cert.LibMinReduce.ofBits_inf_f32) (ix2 p j)]
  refine Finset.inf_congr rfl fun k _ => ?_
  rw [lift_lastAxis3, v17_eq]
  rfl

theorem v26_eq (p : Fin 8) (K : Fin 76800) :
    val_main_v26 (F := Ideal) x1 x2 x3 (ix2 p K)
      = Finset.univ.inf fun j : Fin 82 =>
          (padTarget x1 x2 x3 p K - padBin x1 x2 x3 p j) * (padTarget x1 x2 x3 p K - padBin x1 x2 x3 p j) := by
  unfold val_main_v26
  rw [hostReduce_minimumf_single (val_main_v25 (F := Ideal) x1 x2 x3) (val_main_cst_5 (F := Ideal))
      reducesTo_S8x76800x82_S8x76800_d2 (by decide) h_S_
      (by rw [val_main_cst_5_apply]; exact Cert.LibMinReduce.ofBits_inf_f32) (ix2 p K)]
  refine Finset.inf_congr rfl fun k _ => ?_
  rw [lift_lastAxis3, v25_eq]
  rfl

theorem v19_eq (p : Fin 8) : val_main_v19 (F := Ideal) x1 x2 x3 (ix1 p) = distBins x1 x2 x3 p := by
  rw [val_main_v19_apply, val_main_cst_4_apply, zero_word, zero_add]
  unfold distBins
  refine Finset.sum_congr rfl fun k _ => ?_
  have e : idx_main_v19 (ix1 p) k = ix2 p k :=
    funext fun a => Fin.ext (by match a with | ⟨0, _⟩ => rfl | ⟨1, _⟩ => rfl)
  rw [e, v18_eq]

theorem v27_eq (p : Fin 8) : val_main_v27 (F := Ideal) x1 x2 x3 (ix1 p) = distTargets x1 x2 x3 p := by
  rw [val_main_v27_apply, val_main_cst_6_apply, zero_word, zero_add]
  unfold distTargets
  refine Finset.sum_congr rfl fun k _ => ?_
  have e : idx_main_v27 (ix1 p) k = ix2 p k :=
    funext fun a => Fin.ext (by match a with | ⟨0, _⟩ => rfl | ⟨1, _⟩ => rfl)
  rw [e, v26_eq]

/-- The term 1 · chamfer. -/
theorem v65_eq (i : S_.Idx) : val_main_v65 (F := Ideal) x1 x2 x3 i = one * chamfer x1 x2 x3 := by
  rw [val_main_v65_apply, val_main_cst_24_apply, val_main_v30_apply, val_main_cst_8_apply, val_main_v29_apply,
    val_main_cst_7_apply, zero_word, zero_add, sum_idx1]
  have e : ∀ p : Fin 8, val_main_v28 (F := Ideal) x1 x2 x3 (ix1 p) = distBins x1 x2 x3 p + distTargets x1 x2 x3 p := by
    intro p; rw [val_main_v28_apply, v19_eq, v27_eq]; rfl
  simp only [e, Ideal.mulf_def, Ideal.hostDivf_def, Ideal.ofBits_def, chamfer, one]

end

end Cert.ReferenceIdeal.RefValue

end
-- ==== Proof.RefSide.lean ====
/-
  The reference's run ends at G.

  The run's result is the last stage function of the four arguments (module RefLine).  That stage is the sum of the
  two stages read in the modules RefMeans (1 · l2 + 1 · silog) and RefChamfer (1 · chamfer), which is the function G
  of the module RefSpec: so the result buffer holds G of the arguments' launch contents at its one index.
-/
import proofs.«120963_j80418967650486_1_alg».proof.Proof.RefLine
import proofs.«120963_j80418967650486_1_alg».proof.Proof.RefChamfer

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The last stage function, at its one index, is G. -/
theorem val_main_v66_is_G (x0 x1 : Vec Ideal SImg .f32) (x2 : Vec Ideal SBins .f32) (x3 : IVec SImg 1) (i : S_.Idx) :
    val_main_v66 (F := Ideal) x0 x1 x2 x3 i = G x0 x1 x2 x3 := by
  rw [val_main_v66_apply, v64_eq, v65_eq]
  rfl

/-- The reference's result buffer, after its run, holds G of the four arguments' launch contents at its one index. -/
theorem ref_is_G (m : (ℓ : Loc nD τ sig) → Buf (Elt Ideal) ℓ) (c : Dev nD) :
    ValueP.res_out0 (F := Ideal) m c
      = fun _ => G (m ((c.tc : Thread nD τ).loc main_arg0)) (m ((c.tc : Thread nD τ).loc main_arg1))
          (m ((c.tc : Thread nD τ).loc main_arg2)) (m ((c.tc : Thread nD τ).loc main_arg3)) := by
  refine (RefLine.res_is_val m c).trans ?_
  funext i
  exact val_main_v66_is_G _ _ _ _ i

end Cert.ReferenceIdeal.RefValue

end
-- ==== Proof.Finite.lean ====
/-
  Finiteness of the inputs, from the stated precondition.

  The precondition is the conjunction of three "all entries have absolute value below +infinity" tests, one per float
  argument.  On the extended reals |x| = max x (-x) is below +infinity exactly when x is neither infinity, that is,
  when x is a real number.  So the precondition holding gives a real witness for every entry of the three arrays.
-/
import proofs.«120963_j80418967650486_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Hand

open Idealize.ShloMosaic Cert.Pre_finite_inputs Cert.Pre_finite_inputs.Gen

/-- The scalar shape has one index. -/
instance : Subsingleton S_.Idx := ⟨fun a b => funext fun d => d.elim0⟩

/-- An extended real whose absolute value max x (-x) is below +infinity is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by
    simp [Ideal.ofBits, Ideal.ieee]
  rw [htop] at h
  induction x using EReal.rec with
  | bot => simp [Ideal.cmp] at h
  | coe r => exact ⟨r, rfl⟩
  | top => simp [Ideal.cmp] at h

theorem finite_of_pre (a0 a1 : Vec Ideal S8x1x240x320 .f32) (a2 : Vec Ideal S8x81 .f32) (a3 : IVec S8x1x240x320 1)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1'⟩ := IntOp.andi_eq_one.1 h01
  refine ⟨fun i => ?_, fun i => ?_, fun i => ?_⟩
  · exact real_of_abs_lt_top _ (Host.reduce_andi_all _ _ _ _ _ h0' i)
  · exact real_of_abs_lt_top _ (Host.reduce_andi_all _ _ _ _ _ h1' i)
  · exact real_of_abs_lt_top _ (Host.reduce_andi_all _ _ _ _ _ h2 i)

end Cert.Pre_finite_inputs.Hand

end
-- ==== Proof.lean ====
/-
  The certificate's five claims for the combined depth loss: a statistics kernel (masked sums of the log-difference,
  its square, the squared difference, the count, and the masked maximum of the target, accumulated over six blocks of
  columns) and a two-way nearest-distance kernel (bins against targets, a running minimum and a running sum carried over
  twenty-four blocks), joined by host operations, against the plain reference.

  FRAMES. Each kernel program is run as six segments — four stretches of host operations and the two kernel regions —
  with the contents of every unstaged buffer named at each boundary (Assembly.lean, for any float instance; its
  word-level twin under Word/). Each region's body is run once per control case at a symbolic grid point (Region0*.lean,
  Region1*.lean): the statistics kernel resets its table at the first point and updates five rows at every point; the
  distance kernel resets its two carried tables at the first point, updates them at every point, and stores its output
  at the last. No segment writes an argument, so the arguments end as launched. The reference has no kernel: its frame is
  its run with the result dropped.

  PRESERVES. The idealizing pass rewrote nothing, so there is nothing to state.

  ALGEBRAIC. On the extended reals the kernel program's result is an explicit function of its arguments
  (KernelValue.lean: the table and the column the regions leave are closed sums, maxima and minima of the flattened
  arguments — KernelTables.lean over MathStats.lean and MathChamfer.lean — and the host stretches between them are read
  one operation at a time, HostRead.lean); the reference's result is its own function G (RefSide.lean); and for finite
  inputs the two are equal (Bridge.lean). The one place the programs differ is the running maximum of the masked
  targets, which the kernel starts at the sentinel -1e30 and the reference at -∞: where that matters every target is
  below the sentinel, each logarithm of a shifted target is the junk value ⊥, the scale-invariant term is ⊥ in both
  programs, and ⊥ plus anything is ⊥ (Collapse.lean).
-/
import proofs.«120963_j80418967650486_1_alg».proof.Defs
import proofs.«120963_j80418967650486_1_alg».proof.Proof.Gen.Kernel
import proofs.«120963_j80418967650486_1_alg».proof.Proof.Gen.KernelIdeal
import proofs.«120963_j80418967650486_1_alg».proof.Proof.Gen.ReferenceIdeal
import proofs.«120963_j80418967650486_1_alg».proof.Proof.Gen.Pre_finite_inputs
import proofs.«120963_j80418967650486_1_alg».proof.Proof.Word.Assembly
import proofs.«120963_j80418967650486_1_alg».proof.Proof.Assembly
import proofs.«120963_j80418967650486_1_alg».proof.Proof.KernelValue
import proofs.«120963_j80418967650486_1_alg».proof.Proof.Bridge
import proofs.«120963_j80418967650486_1_alg».proof.Proof.RefRun
import proofs.«120963_j80418967650486_1_alg».proof.Proof.RefSide
import proofs.«120963_j80418967650486_1_alg».proof.Proof.Finite
import Idealize.ShloMosaic.Adequacy
import Idealize.ShloMosaic.Init

noncomputable section

namespace Cert.Proof

open Idealize.ShloMosaic Idealize.ShloMosaic.ValueIdx Idealize.SL.Sem

/-- Under the precondition the kernel program's three float arguments hold reals everywhere, on every core. -/
theorem finiteArgs_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KernelIdeal.KVal.FiniteArgs m c := by
  obtain ⟨h0, h1, h2⟩ := Cert.Pre_finite_inputs.Hand.finite_of_pre _ _ _ _ (hpre c)
  exact ⟨h0, h1, h2⟩

/-- The two idealized programs, run from memories agreeing on the arguments, both end with the result at the kernel
    program's closed form. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.KernelIdeal.KVal.result m c, ?_, ?_⟩
  · refine (θ_run Cert.KernelIdeal.defs _ _).mono (fun _ h c => ⟨?_, (h c).2⟩) (Cert.KernelIdeal.Asm.run_result m ρ)
    rw [(h c).1]
    funext i
    rw [eq_ix0 i]
    exact Cert.KernelIdeal.KVal.result_eq m c
  · refine (θ_run Cert.ReferenceIdeal.defs _ _).mono (fun _ h c => ⟨?_, (h c).2⟩)
      (Cert.ReferenceIdeal.ValueP.run (F := Ideal) m' ρ')
    rw [(h c).1]
    refine (Cert.ReferenceIdeal.RefValue.ref_is_G m' c).trans ?_
    funext i
    rw [(hagree c).1, (hagree c).2.1, (hagree c).2.2.1, (hagree c).2.2.2]
    exact Cert.Bridge.bridge m c (finiteArgs_of_pre m hpre c)

theorem claim : Cert.Claim := ⟨Cert.Kernel.Gen.facts, Cert.KernelIdeal.Gen.facts, Cert.ReferenceIdeal.Gen.facts, Cert.Pre_finite_inputs.Gen.facts,
  fun m ρ _ => Cert.Kernel.Asm.frame m ρ,
  fun m ρ _ => Cert.KernelIdeal.Asm.frame m ρ,
  fun m ρ _ => (θ_run Cert.ReferenceIdeal.defs _ _).mono (fun _ h c => (h c).2)
    (Cert.ReferenceIdeal.ValueP.run (F := Ideal) m ρ),
  trivial,
  algebraic⟩

end Cert.Proof

end
